-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S4096x50 : Shape := ⟨2, ![4096, 50]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn {F : FTy → Type} [FloatOps F] (main_arg0 : FVec F S100000x128 .f32) (main_arg1 : IVec S4096x50 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S4096x50 32 := broadcastInDim S4096x50 ![] bcast_S_S4096x50 main_c_0
  let main_v5 : IVec S4096x50 1 := cmpi .sge main_arg1 main_v4
  let main_c_1 : IVec S_ 32 := constantI S_ 32 99999#32
  let main_v6 : IVec S4096x50 32 := broadcastInDim S4096x50 ![] bcast_S_S4096x50 main_c_1
  let main_v7 : IVec S4096x50 1 := cmpi .sle main_arg1 main_v6
  let main_v8 : IVec S4096x50 1 := andi main_v5 main_v7
  let main_c_2 : IVec S_ 1 := constantI S_ 1 1#1
  let main_v9 : IVec S_ 1 := (fun x v => Host.reduce IntOp.andi x v reducesTo_S4096x50_S_d0_1 h_S_) main_v8 main_c_2
  let main_v10 : IVec S_ 1 := andi main_v3 main_v9
  main_v10
-- ==== Kernel.lean ====
abbrev S100000x128 : Shape := ⟨2, ![100000, 128]⟩
abbrev S4096x50 : Shape := ⟨2, ![4096, 50]⟩
abbrev S50x4096 : Shape := ⟨2, ![50, 4096]⟩
abbrev S32x50x128 : Shape := ⟨3, ![32, 50, 128]⟩
abbrev S204800x128 : Shape := ⟨2, ![204800, 128]⟩
abbrev S50x128 : Shape := ⟨2, ![50, 128]⟩
abbrev S128x128 : Shape := ⟨2, ![128, 128]⟩
abbrev S_ : Shape := ⟨0, ![]⟩
abbrev S1x50x128 : Shape := ⟨3, ![1, 50, 128]⟩
abbrev S1x128 : Shape := ⟨2, ![1, 128]⟩
abbrev S128 : Shape := ⟨1, ![128]⟩
abbrev S50x4096x128 : Shape := ⟨3, ![50, 4096, 128]⟩
abbrev S4096x50x128 : Shape := ⟨3, ![4096, 50, 128]⟩

abbrev nBuf : Table → Nat
  | .hbm => 7
  | .local .scVector .vmem => 8
  | _ => 0

abbrev bufTy : (tb : Table) → Fin (nBuf tb) → BufTy
  | .hbm, ⟨0, _⟩ => ⟨S100000x128, .f32⟩
  | .hbm, ⟨1, _⟩ => ⟨S4096x50, .i32⟩
  | .hbm, ⟨2, _⟩ => ⟨S50x4096, .i32⟩
  | .hbm, ⟨3, _⟩ => ⟨S32x50x128, .i32⟩
  | .hbm, ⟨4, _⟩ => ⟨S204800x128, .f32⟩
  | .hbm, ⟨5, _⟩ => ⟨S50x4096x128, .f32⟩
  | .hbm, ⟨6, _⟩ => ⟨S4096x50x128, .f32⟩
  | .local .scVector .vmem, ⟨0, _⟩ => ⟨S50x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | .local .scVector .vmem, ⟨7, _⟩ => ⟨S128x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_40_r0 : BitVec 32 := 0#32
  let c0_i32_41_r0 : BitVec 32 := 0#32
  ![v1.toNat, 0, 0]
@[reducible] def k0_t1_loop : Scf.Loop 32 :=
  let c0_i32_23 : BitVec 32 := 0#32
  let c8_i32 : BitVec 32 := 8#32
  let v24 : BitVec 32 := Scalar.addi c0_i32_23 c8_i32
  let c1_i32_24 : BitVec 32 := 1#32
  ⟨c0_i32_23, v24, c1_i32_24⟩
def k0_cond1 (k0_t1 : Fin k0_t1_loop.trips) : BitVec 1 :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c0_i32_40 : BitVec 32 := 0#32
  let v41 : BitVec 32 := Scalar.addi v40 c0_i32_40
  let c50_i32 : BitVec 32 := 50#32
  let v42 : BitVec 1 := Scalar.cmpi .slt v41 c50_i32
  let v43 : BitVec 32 := Scalar.extui v42
  let c0_i32_41 : BitVec 32 := 0#32
  let v44 : BitVec 1 := Scalar.cmpi .ne v43 c0_i32_41
  v44

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c0_i32_93 : BitVec 32 := 0#32
  let v107 : BitVec 32 := Scalar.addi v40 c0_i32_93
  let c128_i32 : BitVec 32 := 128#32
  let v108 : BitVec 32 := Scalar.muli v107 c128_i32
  let v109 : BitVec 32 := Scalar.addi v2 v108
  let c0_i32_94 : BitVec 32 := 0#32
  ![v109.toNat, 0]
def k0_cond2 (k0_t1 : Fin k0_t1_loop.trips) : BitVec 1 :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c1_i32_42 : BitVec 32 := 1#32
  let v45 : BitVec 32 := Scalar.addi v40 c1_i32_42
  let c50_i32_43 : BitVec 32 := 50#32
  let v46 : BitVec 1 := Scalar.cmpi .slt v45 c50_i32_43
  let v47 : BitVec 32 := Scalar.extui v46
  let c0_i32_44 : BitVec 32 := 0#32
  let v48 : BitVec 1 := Scalar.cmpi .ne v47 c0_i32_44
  v48

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c1_i32_93 : BitVec 32 := 1#32
  let v107 : BitVec 32 := Scalar.addi v40 c1_i32_93
  let c128_i32 : BitVec 32 := 128#32
  let v108 : BitVec 32 := Scalar.muli v107 c128_i32
  let v109 : BitVec 32 := Scalar.addi v2 v108
  let c0_i32_94 : BitVec 32 := 0#32
  ![v109.toNat, 0]
def k0_cond3 (k0_t1 : Fin k0_t1_loop.trips) : BitVec 1 :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c2_i32_45 : BitVec 32 := 2#32
  let v49 : BitVec 32 := Scalar.addi v40 c2_i32_45
  let c50_i32_46 : BitVec 32 := 50#32
  let v50 : BitVec 1 := Scalar.cmpi .slt v49 c50_i32_46
  let v51 : BitVec 32 := Scalar.extui v50
  let c0_i32_47 : BitVec 32 := 0#32
  let v52 : BitVec 1 := Scalar.cmpi .ne v51 c0_i32_47
  v52

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c2_i32_93 : BitVec 32 := 2#32
  let v107 : BitVec 32 := Scalar.addi v40 c2_i32_93
  let c128_i32 : BitVec 32 := 128#32
  let v108 : BitVec 32 := Scalar.muli v107 c128_i32
  let v109 : BitVec 32 := Scalar.addi v2 v108
  let c0_i32_94 : BitVec 32 := 0#32
  ![v109.toNat, 0]
def k0_cond4 (k0_t1 : Fin k0_t1_loop.trips) : BitVec 1 :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c3_i32_48 : BitVec 32 := 3#32
  let v53 : BitVec 32 := Scalar.addi v40 c3_i32_48
  let c50_i32_49 : BitVec 32 := 50#32
  let v54 : BitVec 1 := Scalar.cmpi .slt v53 c50_i32_49
  let v55 : BitVec 32 := Scalar.extui v54
  let c0_i32_50 : BitVec 32 := 0#32
  let v56 : BitVec 1 := Scalar.cmpi .ne v55 c0_i32_50
  v56

def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c3_i32_93 : BitVec 32 := 3#32
  let v107 : BitVec 32 := Scalar.addi v40 c3_i32_93
  let c128_i32 : BitVec 32 := 128#32
  let v108 : BitVec 32 := Scalar.muli v107 c128_i32
  let v109 : BitVec 32 := Scalar.addi v2 v108
  let c0_i32_94 : BitVec 32 := 0#32
  ![v109.toNat, 0]
def k0_cond5 (k0_t1 : Fin k0_t1_loop.trips) : BitVec 1 :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c4_i32_51 : BitVec 32 := 4#32
  let v57 : BitVec 32 := Scalar.addi v40 c4_i32_51
  let c50_i32_52 : BitVec 32 := 50#32
  let v58 : BitVec 1 := Scalar.cmpi .slt v57 c50_i32_52
  let v59 : BitVec 32 := Scalar.extui v58
  let c0_i32_53 : BitVec 32 := 0#32
  let v60 : BitVec 1 := Scalar.cmpi .ne v59 c0_i32_53
  v60

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c4_i32_93 : BitVec 32 := 4#32
  let v107 : BitVec 32 := Scalar.addi v40 c4_i32_93
  let c128_i32 : BitVec 32 := 128#32
  let v108 : BitVec 32 := Scalar.muli v107 c128_i32
  let v109 : BitVec 32 := Scalar.addi v2 v108
  let c0_i32_94 : BitVec 32 := 0#32
  ![v109.toNat, 0]
def k0_cond6 (k0_t1 : Fin k0_t1_loop.trips) : BitVec 1 :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c5_i32_54 : BitVec 32 := 5#32
  let v61 : BitVec 32 := Scalar.addi v40 c5_i32_54
  let c50_i32_55 : BitVec 32 := 50#32
  let v62 : BitVec 1 := Scalar.cmpi .slt v61 c50_i32_55
  let v63 : BitVec 32 := Scalar.extui v62
  let c0_i32_56 : BitVec 32 := 0#32
  let v64 : BitVec 1 := Scalar.cmpi .ne v63 c0_i32_56
  v64

def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c5_i32_93 : BitVec 32 := 5#32
  let v107 : BitVec 32 := Scalar.addi v40 c5_i32_93
  let c128_i32 : BitVec 32 := 128#32
  let v108 : BitVec 32 := Scalar.muli v107 c128_i32
  let v109 : BitVec 32 := Scalar.addi v2 v108
  let c0_i32_94 : BitVec 32 := 0#32
  ![v109.toNat, 0]
def k0_cond7 (k0_t1 : Fin k0_t1_loop.trips) : BitVec 1 :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c6_i32_57 : BitVec 32 := 6#32
  let v65 : BitVec 32 := Scalar.addi v40 c6_i32_57
  let c50_i32_58 : BitVec 32 := 50#32
  let v66 : BitVec 1 := Scalar.cmpi .slt v65 c50_i32_58
  let v67 : BitVec 32 := Scalar.extui v66
  let c0_i32_59 : BitVec 32 := 0#32
  let v68 : BitVec 1 := Scalar.cmpi .ne v67 c0_i32_59
  v68

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c6_i32_93 : BitVec 32 := 6#32
  let v107 : BitVec 32 := Scalar.addi v40 c6_i32_93
  let c128_i32 : BitVec 32 := 128#32
  let v108 : BitVec 32 := Scalar.muli v107 c128_i32
  let v109 : BitVec 32 := Scalar.addi v2 v108
  let c0_i32_94 : BitVec 32 := 0#32
  ![v109.toNat, 0]
def k0_cond8 (k0_t1 : Fin k0_t1_loop.trips) : BitVec 1 :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c7_i32_60 : BitVec 32 := 7#32
  let v69 : BitVec 32 := Scalar.addi v40 c7_i32_60
  let c0_i32_61 : BitVec 32 := 0#32
  let v70 : BitVec 32 := Scalar.addi v69 c0_i32_61
  let c50_i32_62 : BitVec 32 := 50#32
  let v71 : BitVec 1 := Scalar.cmpi .slt v70 c50_i32_62
  let v72 : BitVec 32 := Scalar.extui v71
  let c0_i32_63 : BitVec 32 := 0#32
  let v73 : BitVec 1 := Scalar.cmpi .ne v72 c0_i32_63
  v73

def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_89 : BitVec 32 := 0#32
  ![v2.toNat, 0]
def k0_off10 (k0_t1 : Fin k0_t1_loop.trips) : Fin 2 → Nat :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c7_i32_91 : BitVec 32 := 7#32
  let v106 : BitVec 32 := Scalar.addi v40 c7_i32_91
  let c0_i32_92 : BitVec 32 := 0#32
  let v107 : BitVec 32 := Scalar.addi v106 c0_i32_92
  let c0_i32_93 : BitVec 32 := 0#32
  ![v107.toNat, 0]
def k0_cond9 (k0_t1 : Fin k0_t1_loop.trips) : BitVec 1 :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c7_i32_64 : BitVec 32 := 7#32
  let v74 : BitVec 32 := Scalar.addi v40 c7_i32_64
  let c1_i32_65 : BitVec 32 := 1#32
  let v75 : BitVec 32 := Scalar.addi v74 c1_i32_65
  let c50_i32_66 : BitVec 32 := 50#32
  let v76 : BitVec 1 := Scalar.cmpi .slt v75 c50_i32_66
  let v77 : BitVec 32 := Scalar.extui v76
  let c0_i32_67 : BitVec 32 := 0#32
  let v78 : BitVec 1 := Scalar.cmpi .ne v77 c0_i32_67
  v78

def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_89 : BitVec 32 := 0#32
  ![v2.toNat, 0]
def k0_off12 (k0_t1 : Fin k0_t1_loop.trips) : Fin 2 → Nat :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c7_i32_91 : BitVec 32 := 7#32
  let v106 : BitVec 32 := Scalar.addi v40 c7_i32_91
  let c1_i32_92 : BitVec 32 := 1#32
  let v107 : BitVec 32 := Scalar.addi v106 c1_i32_92
  let c0_i32_93 : BitVec 32 := 0#32
  ![v107.toNat, 0]
def k0_cond10 (k0_t1 : Fin k0_t1_loop.trips) : BitVec 1 :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c7_i32_68 : BitVec 32 := 7#32
  let v79 : BitVec 32 := Scalar.addi v40 c7_i32_68
  let c2_i32_69 : BitVec 32 := 2#32
  let v80 : BitVec 32 := Scalar.addi v79 c2_i32_69
  let c50_i32_70 : BitVec 32 := 50#32
  let v81 : BitVec 1 := Scalar.cmpi .slt v80 c50_i32_70
  let v82 : BitVec 32 := Scalar.extui v81
  let c0_i32_71 : BitVec 32 := 0#32
  let v83 : BitVec 1 := Scalar.cmpi .ne v82 c0_i32_71
  v83

def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_89 : BitVec 32 := 0#32
  ![v2.toNat, 0]
def k0_off14 (k0_t1 : Fin k0_t1_loop.trips) : Fin 2 → Nat :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c7_i32_91 : BitVec 32 := 7#32
  let v106 : BitVec 32 := Scalar.addi v40 c7_i32_91
  let c2_i32_92 : BitVec 32 := 2#32
  let v107 : BitVec 32 := Scalar.addi v106 c2_i32_92
  let c0_i32_93 : BitVec 32 := 0#32
  ![v107.toNat, 0]
def k0_cond11 (k0_t1 : Fin k0_t1_loop.trips) : BitVec 1 :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c7_i32_72 : BitVec 32 := 7#32
  let v84 : BitVec 32 := Scalar.addi v40 c7_i32_72
  let c3_i32_73 : BitVec 32 := 3#32
  let v85 : BitVec 32 := Scalar.addi v84 c3_i32_73
  let c50_i32_74 : BitVec 32 := 50#32
  let v86 : BitVec 1 := Scalar.cmpi .slt v85 c50_i32_74
  let v87 : BitVec 32 := Scalar.extui v86
  let c0_i32_75 : BitVec 32 := 0#32
  let v88 : BitVec 1 := Scalar.cmpi .ne v87 c0_i32_75
  v88

def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_89 : BitVec 32 := 0#32
  ![v2.toNat, 0]
def k0_off16 (k0_t1 : Fin k0_t1_loop.trips) : Fin 2 → Nat :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c7_i32_91 : BitVec 32 := 7#32
  let v106 : BitVec 32 := Scalar.addi v40 c7_i32_91
  let c3_i32_92 : BitVec 32 := 3#32
  let v107 : BitVec 32 := Scalar.addi v106 c3_i32_92
  let c0_i32_93 : BitVec 32 := 0#32
  ![v107.toNat, 0]
def k0_cond12 (k0_t1 : Fin k0_t1_loop.trips) : BitVec 1 :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c7_i32_76 : BitVec 32 := 7#32
  let v89 : BitVec 32 := Scalar.addi v40 c7_i32_76
  let c4_i32_77 : BitVec 32 := 4#32
  let v90 : BitVec 32 := Scalar.addi v89 c4_i32_77
  let c50_i32_78 : BitVec 32 := 50#32
  let v91 : BitVec 1 := Scalar.cmpi .slt v90 c50_i32_78
  let v92 : BitVec 32 := Scalar.extui v91
  let c0_i32_79 : BitVec 32 := 0#32
  let v93 : BitVec 1 := Scalar.cmpi .ne v92 c0_i32_79
  v93

def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_89 : BitVec 32 := 0#32
  ![v2.toNat, 0]
def k0_off18 (k0_t1 : Fin k0_t1_loop.trips) : Fin 2 → Nat :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c7_i32_91 : BitVec 32 := 7#32
  let v106 : BitVec 32 := Scalar.addi v40 c7_i32_91
  let c4_i32_92 : BitVec 32 := 4#32
  let v107 : BitVec 32 := Scalar.addi v106 c4_i32_92
  let c0_i32_93 : BitVec 32 := 0#32
  ![v107.toNat, 0]
def k0_cond13 (k0_t1 : Fin k0_t1_loop.trips) : BitVec 1 :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c7_i32_80 : BitVec 32 := 7#32
  let v94 : BitVec 32 := Scalar.addi v40 c7_i32_80
  let c5_i32_81 : BitVec 32 := 5#32
  let v95 : BitVec 32 := Scalar.addi v94 c5_i32_81
  let c50_i32_82 : BitVec 32 := 50#32
  let v96 : BitVec 1 := Scalar.cmpi .slt v95 c50_i32_82
  let v97 : BitVec 32 := Scalar.extui v96
  let c0_i32_83 : BitVec 32 := 0#32
  let v98 : BitVec 1 := Scalar.cmpi .ne v97 c0_i32_83
  v98

def k0_off19 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_89 : BitVec 32 := 0#32
  ![v2.toNat, 0]
def k0_off20 (k0_t1 : Fin k0_t1_loop.trips) : Fin 2 → Nat :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c7_i32_91 : BitVec 32 := 7#32
  let v106 : BitVec 32 := Scalar.addi v40 c7_i32_91
  let c5_i32_92 : BitVec 32 := 5#32
  let v107 : BitVec 32 := Scalar.addi v106 c5_i32_92
  let c0_i32_93 : BitVec 32 := 0#32
  ![v107.toNat, 0]
def k0_cond14 (k0_t1 : Fin k0_t1_loop.trips) : BitVec 1 :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c7_i32_84 : BitVec 32 := 7#32
  let v99 : BitVec 32 := Scalar.addi v40 c7_i32_84
  let c6_i32_85 : BitVec 32 := 6#32
  let v100 : BitVec 32 := Scalar.addi v99 c6_i32_85
  let c50_i32_86 : BitVec 32 := 50#32
  let v101 : BitVec 1 := Scalar.cmpi .slt v100 c50_i32_86
  let v102 : BitVec 32 := Scalar.extui v101
  let c0_i32_87 : BitVec 32 := 0#32
  let v103 : BitVec 1 := Scalar.cmpi .ne v102 c0_i32_87
  v103

def k0_off21 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_89 : BitVec 32 := 0#32
  ![v2.toNat, 0]
def k0_off22 (k0_t1 : Fin k0_t1_loop.trips) : Fin 2 → Nat :=
  let c7_i32 : BitVec 32 := 7#32
  let c0_i32_23 : BitVec 32 := 0#32
  let c1_i32_24 : BitVec 32 := 1#32
  let arg27 : BitVec 32 := Scf.iv c0_i32_23 c1_i32_24 k0_t1
  let v40 : BitVec 32 := Scalar.muli c7_i32 arg27
  let c7_i32_91 : BitVec 32 := 7#32
  let v106 : BitVec 32 := Scalar.addi v40 c7_i32_91
  let c6_i32_92 : BitVec 32 := 6#32
  let v107 : BitVec 32 := Scalar.addi v106 c6_i32_92
  let c0_i32_93 : BitVec 32 := 0#32
  ![v107.toNat, 0]
def k0_off23 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_26 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x50_S50x4096_1_0 : S4096x50.Transposes [1, 0] S50x4096
  shapeCasts_S50x4096_S32x50x128 : S50x4096.ShapeCasts S32x50x128
  squeezes_S1x50x128_S50x128 : S1x50x128.Squeezes S50x128
  inb_S50x128_S1x128_0_0 : ∀ a, (![0, 0] : Fin 2 → Nat) a + S1x128.size a ≤ S50x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S50x128_S1x128_1_0 : ∀ a, (![1, 0] : Fin 2 → Nat) a + S1x128.size a ≤ S50x128.size a
  inb_S50x128_S1x128_2_0 : ∀ a, (![2, 0] : Fin 2 → Nat) a + S1x128.size a ≤ S50x128.size a
  inb_S50x128_S1x128_3_0 : ∀ a, (![3, 0] : Fin 2 → Nat) a + S1x128.size a ≤ S50x128.size a
  inb_S50x128_S1x128_4_0 : ∀ a, (![4, 0] : Fin 2 → Nat) a + S1x128.size a ≤ S50x128.size a
  inb_S50x128_S1x128_5_0 : ∀ a, (![5, 0] : Fin 2 → Nat) a + S1x128.size a ≤ S50x128.size a
  inb_S50x128_S1x128_6_0 : ∀ a, (![6, 0] : Fin 2 → Nat) a + S1x128.size a ≤ S50x128.size a
  shapeCasts_S204800x128_S50x4096x128 : S204800x128.ShapeCasts S50x4096x128
  transposes_S50x4096x128_S4096x50x128_1_0_2 : S50x4096x128.Transposes [1, 0, 2] S4096x50x128
  hcc0_scratch8 : 0 + S_.numel ≤ 15
  hcc0_scratch9 : 1 + S_.numel ≤ 15
  hcc0_scratch10 : 2 + S_.numel ≤ 15
  hcc0_scratch11 : 3 + S_.numel ≤ 15
  hcc0_scratch12 : 4 + S_.numel ≤ 15
  hcc0_scratch13 : 5 + S_.numel ≤ 15
  hcc0_scratch14 : 6 + S_.numel ≤ 15
  hcc0_scratch15 : 7 + S_.numel ≤ 15
  hcc0_scratch16 : 8 + S_.numel ≤ 15
  hcc0_scratch17 : 9 + S_.numel ≤ 15
  hcc0_scratch18 : 10 + S_.numel ≤ 15
  hcc0_scratch19 : 11 + S_.numel ≤ 15
  hcc0_scratch20 : 12 + S_.numel ≤ 15
  hcc0_scratch21 : 13 + S_.numel ≤ 15
  hcc0_scoped0 : 14 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x50x128.size a ≤ S32x50x128.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S128x128.size a ≤ S204800x128.size a
  k0_off3_inb : ∀ (i : grid0.Coords) (k0_t1 : Fin k0_t1_loop.trips), ∀ (k0_h2 : k0_cond2 k0_t1 = 1#1), ∀ a, (k0_off3 i k0_t1) a + S128x128.size a ≤ S204800x128.size a
  k0_off4_inb : ∀ (i : grid0.Coords) (k0_t1 : Fin k0_t1_loop.trips), ∀ (k0_h3 : k0_cond3 k0_t1 = 1#1), ∀ a, (k0_off4 i k0_t1) a + S128x128.size a ≤ S204800x128.size a
  k0_off5_inb : ∀ (i : grid0.Coords) (k0_t1 : Fin k0_t1_loop.trips), ∀ (k0_h4 : k0_cond4 k0_t1 = 1#1), ∀ a, (k0_off5 i k0_t1) a + S128x128.size a ≤ S204800x128.size a
  k0_off6_inb : ∀ (i : grid0.Coords) (k0_t1 : Fin k0_t1_loop.trips), ∀ (k0_h5 : k0_cond5 k0_t1 = 1#1), ∀ a, (k0_off6 i k0_t1) a + S128x128.size a ≤ S204800x128.size a
  k0_off7_inb : ∀ (i : grid0.Coords) (k0_t1 : Fin k0_t1_loop.trips), ∀ (k0_h6 : k0_cond6 k0_t1 = 1#1), ∀ a, (k0_off7 i k0_t1) a + S128x128.size a ≤ S204800x128.size a
  k0_off8_inb : ∀ (i : grid0.Coords) (k0_t1 : Fin k0_t1_loop.trips), ∀ (k0_h7 : k0_cond7 k0_t1 = 1#1), ∀ a, (k0_off8 i k0_t1) a + S128x128.size a ≤ S204800x128.size a
  k0_off9_inb : ∀ (i : grid0.Coords) (k0_t1 : Fin k0_t1_loop.trips), ∀ (k0_h8 : k0_cond8 k0_t1 = 1#1), ∀ a, (k0_off9 i) a + S128x128.size a ≤ S204800x128.size a
  k0_off10_inb : ∀ k0_t1 : Fin k0_t1_loop.trips, ∀ (k0_h8 : k0_cond8 k0_t1 = 1#1), ∀ a, (k0_off10 k0_t1) a + S1x128.size a ≤ S50x128.size a
  k0_off11_inb : ∀ (i : grid0.Coords) (k0_t1 : Fin k0_t1_loop.trips), ∀ (k0_h9 : k0_cond9 k0_t1 = 1#1), ∀ a, (k0_off11 i) a + S128x128.size a ≤ S204800x128.size a
  k0_off12_inb : ∀ k0_t1 : Fin k0_t1_loop.trips, ∀ (k0_h9 : k0_cond9 k0_t1 = 1#1), ∀ a, (k0_off12 k0_t1) a + S1x128.size a ≤ S50x128.size a
  k0_off13_inb : ∀ (i : grid0.Coords) (k0_t1 : Fin k0_t1_loop.trips), ∀ (k0_h10 : k0_cond10 k0_t1 = 1#1), ∀ a, (k0_off13 i) a + S128x128.size a ≤ S204800x128.size a
  k0_off14_inb : ∀ k0_t1 : Fin k0_t1_loop.trips, ∀ (k0_h10 : k0_cond10 k0_t1 = 1#1), ∀ a, (k0_off14 k0_t1) a + S1x128.size a ≤ S50x128.size a
  k0_off15_inb : ∀ (i : grid0.Coords) (k0_t1 : Fin k0_t1_loop.trips), ∀ (k0_h11 : k0_cond11 k0_t1 = 1#1), ∀ a, (k0_off15 i) a + S128x128.size a ≤ S204800x128.size a
  k0_off16_inb : ∀ k0_t1 : Fin k0_t1_loop.trips, ∀ (k0_h11 : k0_cond11 k0_t1 = 1#1), ∀ a, (k0_off16 k0_t1) a + S1x128.size a ≤ S50x128.size a
  k0_off17_inb : ∀ (i : grid0.Coords) (k0_t1 : Fin k0_t1_loop.trips), ∀ (k0_h12 : k0_cond12 k0_t1 = 1#1), ∀ a, (k0_off17 i) a + S128x128.size a ≤ S204800x128.size a
  k0_off18_inb : ∀ k0_t1 : Fin k0_t1_loop.trips, ∀ (k0_h12 : k0_cond12 k0_t1 = 1#1), ∀ a, (k0_off18 k0_t1) a + S1x128.size a ≤ S50x128.size a
  k0_off19_inb : ∀ (i : grid0.Coords) (k0_t1 : Fin k0_t1_loop.trips), ∀ (k0_h13 : k0_cond13 k0_t1 = 1#1), ∀ a, (k0_off19 i) a + S128x128.size a ≤ S204800x128.size a
  k0_off20_inb : ∀ k0_t1 : Fin k0_t1_loop.trips, ∀ (k0_h13 : k0_cond13 k0_t1 = 1#1), ∀ a, (k0_off20 k0_t1) a + S1x128.size a ≤ S50x128.size a
  k0_off21_inb : ∀ (i : grid0.Coords) (k0_t1 : Fin k0_t1_loop.trips), ∀ (k0_h14 : k0_cond14 k0_t1 = 1#1), ∀ a, (k0_off21 i) a + S128x128.size a ≤ S204800x128.size a
  k0_off22_inb : ∀ k0_t1 : Fin k0_t1_loop.trips, ∀ (k0_h14 : k0_cond14 k0_t1 = 1#1), ∀ a, (k0_off22 k0_t1) a + S1x128.size a ≤ S50x128.size a
  k0_off23_inb : ∀ i : grid0.Coords, ∀ a, (k0_off23 i) a + S128x128.size a ≤ S204800x128.size a

variable [Facts₀]

abbrev cc0_scratch8 : DmaSems sig S_ := SemArray.consecutive 0 S_ hcc0_scratch8
abbrev cc0_scratch9 : DmaSems sig S_ := SemArray.consecutive 1 S_ hcc0_scratch9
abbrev cc0_scratch10 : DmaSems sig S_ := SemArray.consecutive 2 S_ hcc0_scratch10
abbrev cc0_scratch11 : DmaSems sig S_ := SemArray.consecutive 3 S_ hcc0_scratch11
abbrev cc0_scratch12 : DmaSems sig S_ := SemArray.consecutive 4 S_ hcc0_scratch12
abbrev cc0_scratch13 : DmaSems sig S_ := SemArray.consecutive 5 S_ hcc0_scratch13
abbrev cc0_scratch14 : DmaSems sig S_ := SemArray.consecutive 6 S_ hcc0_scratch14
abbrev cc0_scratch15 : DmaSems sig S_ := SemArray.consecutive 7 S_ hcc0_scratch15
abbrev cc0_scratch16 : DmaSems sig S_ := SemArray.consecutive 8 S_ hcc0_scratch16
abbrev cc0_scratch17 : DmaSems sig S_ := SemArray.consecutive 9 S_ hcc0_scratch17
abbrev cc0_scratch18 : DmaSems sig S_ := SemArray.consecutive 10 S_ hcc0_scratch18
abbrev cc0_scratch19 : DmaSems sig S_ := SemArray.consecutive 11 S_ hcc0_scratch19
abbrev cc0_scratch20 : DmaSems sig S_ := SemArray.consecutive 12 S_ hcc0_scratch20
abbrev cc0_scratch21 : DmaSems sig S_ := SemArray.consecutive 13 S_ hcc0_scratch21
abbrev cc0_scoped0 : DmaSems sig S_ := SemArray.consecutive 14 S_ hcc0_scoped0

class Facts : Prop extends Facts₀ where

variable [Facts]
-- ==== ReferenceIdeal.lean ====
abbrev S100000x128 : Shape := ⟨2, ![100000, 128]⟩
abbrev S4096x50 : Shape := ⟨2, ![4096, 50]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S4096x50, .i32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x128, .f32⟩
  | .hbm, ⟨21, _⟩ => ⟨S4096x50x128, .i1⟩
  | .hbm, ⟨22, _⟩ => ⟨S_, .f32⟩
  | .hbm, ⟨23, _⟩ => ⟨S4096x50x128, .f32⟩
  | .hbm, ⟨24, _⟩ => ⟨S4096x50x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  gather_S100000x128_S4096x50x1_S4096x50x128_2_0_n_n_0_2_1128_wf : GatherDims.WF S100000x128 S4096x50x1 S4096x50x128 [2] [0] [] [0] [] 2 ![1, 128]

variable [Facts₀]

def gather_S100000x128_S4096x50x1_S4096x50x128_2_0_n_n_0_2_1128 : GatherDims S100000x128 S4096x50x1 S4096x50x128 where
  offsetDims := [2]
  collapsedSliceDims := [0]
  operandBatchingDims := []
  startIndicesBatchingDims := []
  startIndexMap := [0]
  indexVectorDim := 2
  sliceSizes := ![1, 128]
  wf := gather_S100000x128_S4096x50x1_S4096x50x128_2_0_n_n_0_2_1128_wf

class Facts : Prop extends Facts₀ where

variable [Facts]
-- ==== Proof.Spec.lean ====
/-
  The function both programs compute, stated once over literal shapes and no program: a table of 100000 rows of
  128 entries, a 4096 × 50 array of row numbers, and the 4096 × 50 × 128 array whose entry (b, h, l) is entry l of
  the table's row numbered by entry (b, h) of the array of row numbers. A row number is read off its 32-bit word as
  the word's value modulo the number of rows, which is the value itself for every word in range; so the function
  is total and needs no side condition in its statement.
  Also the flat form the kernel writes: 204800 rows of 128, row n holding the table row numbered by word n of the
  row numbers laid out as 32 lists of 50 chunks of 128.
-/
import Idealize.ShloMosaic.PureOps.Ideal
import Idealize.ShloMosaic.Lib.ValueIdx

namespace Cert.Spec

open Idealize.ShloMosaic Idealize.ShloMosaic.ValueIdx

abbrev STab : Shape := ⟨2, ![100000, 128]⟩
abbrev SIdx : Shape := ⟨2, ![4096, 50]⟩
abbrev SRes : Shape := ⟨3, ![4096, 50, 128]⟩
abbrev SLists : Shape := ⟨3, ![32, 50, 128]⟩
abbrev SFlat : Shape := ⟨2, ![204800, 128]⟩

/-- The row a word names: its value modulo the number of rows (the value itself when it is below 100000). -/
def rowOf (w : BitVec 32) : Fin 100000 := ⟨w.toNat % 100000, Nat.mod_lt _ (by norm_num)⟩

theorem rowOf_of_lt {w : BitVec 32} (h : w.toNat < 100000) : rowOf w = ⟨w.toNat, h⟩ :=
  Fin.ext (Nat.mod_eq_of_lt h)

/-- The lookup: entry (b, h, l) is entry l of the table's row named by word (b, h). -/
def G {α : Type} (T : STab.Idx → α) (X : SIdx.Idx → BitVec 32) : SRes.Idx → α :=
  fun j => T (ix2 (rowOf (X (ix2 (j 0) (j 1)))) (j 2))

/-- Word n of the 32 × 50 × 128 lists read flat, row-major: list n / 6400, chunk (n % 6400) / 128, lane n % 128. -/
def flatWord (I : SLists.Idx → BitVec 32) (n : Fin 204800) : BitVec 32 :=
  I (ix3 ⟨n.val / 6400, by omega⟩ ⟨n.val % 6400 / 128, by omega⟩ ⟨n.val % 128, by omega⟩)

/-- The flat lookup the kernel writes: row n is the table's row named by word n of the lists. -/
def OUT {α : Type} (T : STab.Idx → α) (I : SLists.Idx → BitVec 32) : SFlat.Idx → α :=
  fun n => T (ix2 (rowOf (flatWord I (n 0))) (n 1))

end Cert.Spec
-- ==== Proof.KISetup.lean ====
/-
  The SparseCore call of the lookup kernel as its launch sees it, and what its handshakes carry.

  One call runs on both SparseCores, sixteen vector subcores each: thirty-two tasks. Task number w = 2·s + c
  (subcore s of SparseCore c) owns list w of the 32 × 50 × 128 row numbers and rows 6400·w … 6400·w + 6399 of the
  204800 × 128 result; every task reads the whole table, so the table goes out as thirty-two read shares.
  A SparseCore's operands are stated directly as the sixteen tasks' operands side by side, so that dealing them to
  the tasks and collecting them again moves nothing. A task hands its part of the result back holding, on its rows,
  the one whole-array function: row n is the table's row named by word n of the lists.
  Everything is parametric in the memory at the launch `m` (the table is read from it) and in the contents `I` of
  the lists at the call (computed by the host operations before it).
-/
import proofs.«206296_g7516192768393_cont_9to1c4b_737_14_alg».proof.Defs
import proofs.«206296_g7516192768393_cont_9to1c4b_737_14_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206296_g7516192768393_cont_9to1c4b_737_14_alg».proof.Proof.Gen.KernelIdeal
import proofs.«206296_g7516192768393_cont_9to1c4b_737_14_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The table, the lists of row numbers as the call finds them, and the flat result, on device `d`. -/
abbrev tLoc (d : Dev nD) : Loc nD τ sig := (SparseCore.T d).loc main_arg0
abbrev lLoc (d : Dev nD) : Loc nD τ sig := (SparseCore.T d).loc main_v1
abbrev oLoc (d : Dev nD) : Loc nD τ sig := (SparseCore.T d).loc main_v2

variable (m : (ℓ : Loc nD τ sig) → Buf (Elt F) ℓ) (I : (d : Dev nD) → Buf (Elt F) (lLoc d))

/-- Every word of the lists names a row of the table. -/
def ListsOK : Prop := ∀ (d : Dev nD) (i : S32x50x128.Idx), (I d i).toNat < 100000

/-- The flat result: row n is the table's row named by word n of the lists. -/
def OUTbuf (d : Dev nD) : Buf (Elt F) (oLoc d) := Cert.Spec.OUT (m (tLoc d)) (I d)

/-! ## Thirty-two tasks: their lists, their rows of the result, their shares of the table -/

/-- The task of subcore `s` of SparseCore `c`. -/
def wid (c : Fin 2) (s : Fin 16) : Fin 32 := ⟨2 * s.val + c.val, by omega⟩

theorem ldiv : 32 ∣ S32x50x128.size 0 := ⟨1, rfl⟩
theorem odiv : 32 ∣ S204800x128.size 0 := ⟨6400, rfl⟩
abbrev lrow (w : Fin 32) : Rect S32x50x128 := Rect.part (s := S32x50x128) (a₀ := 0) ldiv w
abbrev orow (w : Fin 32) : Rect S204800x128 := Rect.part (s := S204800x128) (a₀ := 0) odiv w
abbrev lRowSet (w : Fin 32) : Finset S32x50x128.Idx := ((Memref.whole main_v1_scv : Memref sig .scVector .hbm S32x50x128 .i32).view.slice (lrow w)).set
abbrev oRowSet (w : Fin 32) : Finset S204800x128.Idx := ((Memref.whole main_v2_scv : Memref sig .scVector .hbm S204800x128 .f32).view.slice (orow w)).set

/-- Task `w`'s read share of the table. -/
abbrev tq (w : Fin 32) : PosShare TreeShare := pieceOf fullShare 32 (by norm_num) w

variable [FloatOps F]

abbrev lRowPts (d : Dev nD) (w : Fin 32) : sProp 𝕄 := lLoc d ↦[lRowSet w]{fullShare} I d
abbrev tShPts (d : Dev nD) (w : Fin 32) : sProp 𝕄 := tLoc d ↦{tq w} m (tLoc d)
abbrev oRowPts (d : Dev nD) (w : Fin 32) (f : Buf (Elt F) (oLoc d)) : sProp 𝕄 := oLoc d ↦[oRowSet w]{fullShare} f

/-- What a task is handed: its list, its share of the table, its rows of the result at whatever they hold. -/
abbrev taskGo (d : Dev nD) (w : Fin 32) : sProp 𝕄 := iprop(lRowPts I d w ∗ tShPts m d w ∗ ∃ f, oRowPts d w f)
/-- What it hands back: the same, its rows of the result at the lookup. -/
abbrev taskTd (d : Dev nD) (w : Fin 32) : sProp 𝕄 := iprop(lRowPts I d w ∗ tShPts m d w ∗ oRowPts d w (OUTbuf m I d))

/-- The one call: a SparseCore's operands are its sixteen tasks' side by side. -/
def P : (K (F := F)).Pay (nD := nD) (Val := Elt F) (Name := ℕ) (U := UU) where
  st := fun q d c => match q with
    | 0 => bigSep Finset.univ fun s : Fin 16 => taskGo m I d (wid (Fin.cast nCore_zero c) s)
  dn := fun q d c => match q with
    | 0 => bigSep Finset.univ fun s : Fin 16 => taskTd m I d (wid (Fin.cast nCore_zero c) s)
  go := fun q d c i => match q with
    | 0 => taskGo m I d (wid (Fin.cast nCore_zero c) (Fin.cast nSub_zero i))
  td := fun q d c i => match q with
    | 0 => taskTd m I d (wid (Fin.cast nCore_zero c) (Fin.cast nSub_zero i))
  x := fun _ _ => iprop(emp)

instance P_storable : (P (F := F) m I).IsStorable where
  st q d c := match q with
    | 0 => (inferInstance : BI.Storable (upEmb : UEmb _ 𝕄) (bigSep Finset.univ fun s : Fin 16 => taskGo m I d (wid (Fin.cast nCore_zero c) s)))
  dn q d c := match q with
    | 0 => (inferInstance : BI.Storable (upEmb : UEmb _ 𝕄) (bigSep Finset.univ fun s : Fin 16 => taskTd m I d (wid (Fin.cast nCore_zero c) s)))
  go q d c i := match q with
    | 0 => (inferInstance : BI.Storable (upEmb : UEmb _ 𝕄) (taskGo m I d (wid (Fin.cast nCore_zero c) (Fin.cast nSub_zero i))))
  td q d c i := match q with
    | 0 => (inferInstance : BI.Storable (upEmb : UEmb _ 𝕄) (taskTd m I d (wid (Fin.cast nCore_zero c) (Fin.cast nSub_zero i))))

end Cert.KernelIdeal.Sc

end
-- ==== Proof.KIHostValue.lean ====
/-
  The host side of the kernel's entry function, as pure terms. Before the SparseCore call the 4096 × 50 array of row
  numbers is transposed to 50 × 4096 and regrouped, row-major, as 32 lists of 50 chunks of 128 words; after it the
  204800 × 128 result is regrouped as 50 × 4096 × 128 and its first two axes swapped. Flat row n = h * 4096 + b of the
  result is row (h, b) of the regrouped array, which the final transpose puts at (b, h); word n of the lists, read flat, is
  entry (h, b) of the transposed row numbers, which is entry (b, h) of the original. So the flat lookup of the lists,
  carried through the last two host operations, is the lookup itself.
-/
import proofs.«206296_g7516192768393_cont_9to1c4b_737_14_alg».proof.KernelIdeal
import proofs.«206296_g7516192768393_cont_9to1c4b_737_14_alg».proof.Proof.Spec
import Idealize.ShloMosaic.Lib.ValueIdx
import Idealize.ShloMosaic.Lib.Pipeline.Value
import Idealize.ShloMosaic.Lib.ValueLayout

noncomputable section

namespace Cert.KernelIdeal.HostValue

open Idealize.ShloMosaic Idealize.ShloMosaic.ValueIdx
open Cert.KernelIdeal Cert.KernelIdeal.Facts₀

variable [Cert.KernelIdeal.Facts]

/-- The lists the SparseCore call reads: the row numbers transposed, then regrouped as 32 × 50 × 128. -/
def lists (X : IVec S4096x50 32) : IVec S32x50x128 32 :=
  shapeCast S32x50x128 (transpose S50x4096 [1, 0] X transposes_S4096x50_S50x4096_1_0) shapeCasts_S50x4096_S32x50x128

/-- The entry function's result from the SparseCore call's: regrouped as 50 × 4096 × 128, first two axes swapped. -/
def result {F : FTy → Type} [FloatOps F] (O : FVec F S204800x128 .f32) : FVec F S4096x50x128 .f32 :=
  transpose S4096x50x128 [1, 0, 2] (shapeCast S50x4096x128 O shapeCasts_S204800x128_S50x4096x128)
    transposes_S50x4096x128_S4096x50x128_1_0_2

/-- Word (a, c, e) of the lists is entry (b, h) of the row numbers when the two flat positions agree. -/
theorem lists_apply (X : IVec S4096x50 32) (a : Fin 32) (c : Fin 50) (e : Fin 128) (b : Fin 4096) (h : Fin 50)
    (hn : (a.val * 50 + c.val) * 128 + e.val = h.val * 4096 + b.val) :
    lists X (ix3 a c e) = X (ix2 b h) := by
  unfold lists
  rw [shapeCast_apply _ _ (ix3 a c e) (ix2 h b) (by
    rw [Shape.rowMajor_val_two, Shape.rowMajor_val_three]
    show h.val * 4096 + b.val = (a.val * 50 + c.val) * 128 + e.val
    omega)]
  exact transpose_ix2_apply X _ h b

/-- Word h * 4096 + b of the lists read flat is entry (b, h) of the row numbers. -/
theorem flatWord_lists (X : IVec S4096x50 32) (b : Fin 4096) (h : Fin 50) (hn : h.val * 4096 + b.val < 204800) :
    Cert.Spec.flatWord (lists X) ⟨h.val * 4096 + b.val, hn⟩ = X (ix2 b h) := by
  unfold Cert.Spec.flatWord
  refine lists_apply X _ _ _ b h ?_
  show ((h.val * 4096 + b.val) / 6400 * 50 + (h.val * 4096 + b.val) % 6400 / 128) * 128 + (h.val * 4096 + b.val) % 128
    = h.val * 4096 + b.val
  omega

/-- Entry (b, h, l) of the entry function's result is entry l of flat row h * 4096 + b of the call's result. -/
theorem result_apply {F : FTy → Type} [FloatOps F] (O : FVec F S204800x128 .f32) (b : Fin 4096) (h : Fin 50) (l : Fin 128)
    (hn : h.val * 4096 + b.val < 204800) :
    result O (ix3 b h l) = O (ix2 ⟨h.val * 4096 + b.val, hn⟩ l) := by
  unfold result
  rw [transpose_apply _ _ _ (ix3 b h l) (ix3 h b l)
    (fun c => match c with | ⟨0, _⟩ => rfl | ⟨1, _⟩ => rfl | ⟨2, _⟩ => rfl)]
  refine shapeCast_apply _ _ _ _ ?_
  rw [Shape.rowMajor_val_two, Shape.rowMajor_val_three]
  rfl

/-- The flat lookup of the lists, carried through the last two host operations, is the lookup. -/
theorem result_OUT {F : FTy → Type} [FloatOps F] (T : FVec F S100000x128 .f32) (X : IVec S4096x50 32) :
    result (Cert.Spec.OUT T (lists X)) = Cert.Spec.G T X := by
  funext j
  obtain ⟨b, h, l, rfl⟩ : ∃ (b : Fin 4096) (h : Fin 50) (l : Fin 128), j = ix3 b h l := ⟨_, _, _, eq_ix3 j⟩
  have hn : h.val * 4096 + b.val < 204800 := by omega
  rw [result_apply _ b h l hn]
  show T (ix2 (Cert.Spec.rowOf (Cert.Spec.flatWord (lists X) ⟨h.val * 4096 + b.val, hn⟩)) l)
    = T (ix2 (Cert.Spec.rowOf (X (ix2 b h))) l)
  rw [flatWord_lists]

/-- Every word of the lists is a word of the row numbers. -/
theorem lists_lt (X : IVec S4096x50 32) (hX : ∀ j, (X j).toNat < 100000) : ∀ i, (lists X i).toNat < 100000 :=
  fun i => hX _

end Cert.KernelIdeal.HostValue

end
-- ==== Proof.KILaunch.lean ====
/-
  The launch of the lookup kernel's program: from "every task's body is proved" to the run of the whole program,
  with the result named.

  The entry function transposes and regroups the row numbers on the host, runs one call on both SparseCores, and
  regroups and transposes the call's flat result. The call takes the table, the lists and the flat result whole and
  deals them to the thirty-two tasks: the lists and the result by rows (thirty-two blocks of rows, disjoint, covering),
  the table by read shares (the full share cut into thirty-two pieces). Task w = 2·s + c is subcore s of SparseCore c,
  so the thirty-two blocks are regrouped as two families of sixteen through the bijection (c, s) ↦ 2·s + c. Every task
  hands its rows of the result back at the one whole-array function, so the blocks join to the whole result at that
  function by an equation. The host operations before and after the call are then computations on the contents.
-/
import proofs.«206296_g7516192768393_cont_9to1c4b_737_14_alg».proof.Proof.KISetup
import proofs.«206296_g7516192768393_cont_9to1c4b_737_14_alg».proof.Proof.KIHostValue

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_hlo_within)

variable {F : FTy → Type}

local notation "𝕄" => MT nD τ sig (HIx 1) (Elt F) ℕ UU ℕ

variable (m : (ℓ : Loc nD τ sig) → Buf (Elt F) ℓ) (ρ : Dev nD → PrngReg) (I : (d : Dev nD) → Buf (Elt F) (lLoc d))

/-- The row numbers as the entry function receives them, and its result, on device d. -/
abbrev xLoc (d : Dev nD) : Loc nD τ sig := (SparseCore.T d).loc main_arg1
abbrev rLoc (d : Dev nD) : Loc nD τ sig := (SparseCore.T d).loc main_v4

/-! ## Thirty-two tasks as two SparseCores of sixteen subcores -/

/-- (c, s) ↦ 2·s + c is a bijection of pairs onto task numbers. -/
def widEquiv : Fin 2 × Fin 16 ≃ Fin 32 where
  toFun p := wid p.1 p.2
  invFun w := (⟨w.val % 2, Nat.mod_lt _ (by norm_num)⟩, ⟨w.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

omit m ρ I in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit m ρ I in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit m ρ I in
/-- A family over the thirty-two tasks, dealt to the two SparseCores' sixteen subcores. -/
theorem bigSep_deal (Φ : Fin 32 → sProp 𝕄) :
    (bigSep Finset.univ fun c : Fin ((K (F := F)).nCore 0) => bigSep Finset.univ fun s : Fin 16 => Φ (wid (Fin.cast nCore_zero c) s))
      = bigSep Finset.univ Φ := by
  rw [bigSep_cores (F := F) (fun c => bigSep Finset.univ fun s : Fin 16 => Φ (wid c s)),
    bigSep_univ_equiv widEquiv Φ, bigSep_univ_prod]
  rfl

/-! ## The rows split and join; the shares of the table -/

omit m ρ I in
theorem lRowSet_eq (w : Fin 32) : lRowSet w = (lrow w).set := by
  show ((View.whole (main_v1_scv : Ref sig .scVector)).slice (lrow w)).set = _
  rw [View.set_slice]; exact Finset.map_refl
omit m ρ I in
theorem oRowSet_part (w : Fin 32) : oRowSet w = (orow w).set := by
  show ((View.whole (main_v2_scv : Ref sig .scVector)).slice (orow w)).set = _
  rw [View.set_slice]; exact Finset.map_refl
omit m ρ I in
theorem lrows_disjoint : ∀ i ∈ (Finset.univ : Finset (Fin 32)), ∀ j ∈ (Finset.univ : Finset (Fin 32)), i ≠ j → Disjoint (lRowSet i) (lRowSet j) :=
  fun i _ j _ h => by rw [lRowSet_eq, lRowSet_eq]; exact Rect.part_disjoint ldiv h
omit m ρ I in
theorem orows_disjoint : ∀ i ∈ (Finset.univ : Finset (Fin 32)), ∀ j ∈ (Finset.univ : Finset (Fin 32)), i ≠ j → Disjoint (oRowSet i) (oRowSet j) :=
  fun i _ j _ h => by rw [oRowSet_part, oRowSet_part]; exact Rect.part_disjoint odiv h
omit m ρ I in
theorem lrows_cover : (Finset.univ : Finset (Fin 32)).biUnion lRowSet = Finset.univ :=
  (Finset.biUnion_congr rfl fun i _ => lRowSet_eq i).trans (Rect.biUnion_part ldiv)
omit m ρ I in
theorem orows_cover : (Finset.univ : Finset (Fin 32)).biUnion oRowSet = Finset.univ :=
  (Finset.biUnion_congr rfl fun i _ => oRowSet_part i).trans (Rect.biUnion_part odiv)

omit m ρ I in
/-- The lists whole are the thirty-two tasks' lists. -/
theorem lPts_rows (d : Dev nD) (f : Buf (Elt F) (lLoc d)) :
    (lLoc d ↦{fullShare} f : sProp 𝕄) = bigSep Finset.univ fun w : Fin 32 => lLoc d ↦[lRowSet w]{fullShare} f := by
  rw [← pointsTo_biUnion Finset.univ (ℓ := lLoc d) lRowSet lrows_disjoint, lrows_cover]; try rfl
omit m ρ I in
/-- The flat result whole is the thirty-two tasks' blocks of rows. -/
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
omit m ρ I in
/-- The table whole is its thirty-two read shares. -/
theorem tPts_shares (d : Dev nD) (f : Buf (Elt F) (tLoc d)) :
    (tLoc d ↦{fullShare} f : sProp 𝕄) = bigSep Finset.univ fun w : Fin 32 => tLoc d ↦{tq w} f :=
  pointsTo_piecesOf Finset.univ f (by norm_num) fullShare

variable [FloatOps F]

/-! ## A SparseCore's operands are its sixteen tasks' -/

theorem vecSplit : (K (F := F)).VecSplit' (P m I) 0 := by
  intro d c
  show (bigSep Finset.univ fun s : Fin 16 => taskGo m I d (wid (Fin.cast nCore_zero c) s))
    ⊢ |={Set.univ}=> iprop(
      (bigSep Finset.univ fun i : Fin ((K (F := F)).nSub 0) => taskGo m I d (wid (Fin.cast nCore_zero c) (Fin.cast nSub_zero i)))
      ∗ ((bigSep Finset.univ fun i : Fin ((K (F := F)).nSub 0) => taskTd m I d (wid (Fin.cast nCore_zero c) (Fin.cast nSub_zero i)))
          -∗ bigSep Finset.univ fun s : Fin 16 => taskTd m I d (wid (Fin.cast nCore_zero c) s)))
  rw [bigSep_tasks (F := F) (fun s => taskGo m I d (wid (Fin.cast nCore_zero c) s)),
    bigSep_tasks (F := F) (fun s => taskTd m I d (wid (Fin.cast nCore_zero c) s))]
  iintro H; imodintro
  isplitl [H]; · iexact H
  iintro H; iexact H

/-! ## The launch element of the ghost state -/

def u₀ : UU := (initOf (K (F := F)).hsCells (K (F := F)).hsToks, 1)

omit [FloatOps F] m ρ I in
theorem bigSep_emp' {ι : Type} (s : Finset ι) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m I).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m I).x q thr) = bigSep Finset.univ fun _ => iprop(emp) from
    bigSep_congr fun _ _ => bigSep_univ_of_subsingleton (0 : Fin 1), bigSep_emp']
  iempintro

/-! ## The call's operands: three whole arrays, dealt to the thirty-two tasks and joined again -/

/-- The lists as the call finds them: the host operations' value of the row numbers at the launch. -/
abbrev Il (d : Dev nD) : Buf (Elt F) (lLoc d) := HostValue.lists (m (xLoc d))

theorem st_all (d : Dev nD) :
    (bigSep Finset.univ fun c : Fin ((K (F := F)).nCore 0) => (P m I).st 0 d c) = bigSep Finset.univ fun w : Fin 32 => taskGo m I d w :=
  bigSep_deal (F := F) (fun w => taskGo m I d w)
theorem dn_all (d : Dev nD) :
    (bigSep Finset.univ fun c : Fin ((K (F := F)).nCore 0) => (P m I).dn 0 d c) = bigSep Finset.univ fun w : Fin 32 => taskTd m I d w :=
  bigSep_deal (F := F) (fun w => taskTd m I d w)

omit [FloatOps F] m ρ I in
theorem oRows_some (d : Dev nD) (f : Buf (Elt F) (oLoc d)) :
    (oLoc d ↦{fullShare} f : sProp 𝕄) ⊢ bigSep Finset.univ fun w : Fin 32 => iprop(∃ g, oRowPts d w g) := by
  rw [oPts_rows]
  refine bigSep_mono fun w _ => ?_
  show (oLoc d ↦[oRowSet w]{fullShare} f : sProp 𝕄) ⊢ iprop(∃ g, oLoc d ↦[oRowSet w]{fullShare} g)
  iintro H; iexists f; iexact H

/-- The three arrays whole are what the two SparseCores are handed. -/
theorem st0_intro (d : Dev nD) (f : Buf (Elt F) (oLoc d)) :
    iprop((lLoc d ↦{fullShare} I d) ∗ (tLoc d ↦{fullShare} m (tLoc d)) ∗ (oLoc d ↦{fullShare} f))
      ⊢ (bigSep Finset.univ fun c : Fin ((K (F := F)).nCore 0) => (P m I).st 0 d c : sProp 𝕄) := by
  rw [st_all, bigSep_sep', bigSep_sep', lPts_rows, tPts_shares]
  iintro ⟨Hl, Ht, Ho⟩
  isplitl [Hl]; · iexact Hl
  isplitl [Ht]; · iexact Ht
  iapply (oRows_some d f); iexact Ho

/-- What they hand back is the three arrays whole, the result at the flat lookup. -/
theorem dn0_eq (d : Dev nD) :
    (bigSep Finset.univ fun c : Fin ((K (F := F)).nCore 0) => (P m I).dn 0 d c : sProp 𝕄)
      = iprop((lLoc d ↦{fullShare} I d) ∗ (tLoc d ↦{fullShare} m (tLoc d)) ∗ (oLoc d ↦{fullShare} OUTbuf m I d)) := by
  rw [dn_all, bigSep_sep', bigSep_sep', lPts_rows, tPts_shares, oPts_rows]

/-! ## The host operations of the entry function, as computations on the contents -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The transpose and the regrouping before the call, the regrouping and the transpose after it. -/
abbrev opT1 : HloOp τ sig (Elt F) :=
  StableHlo.unary main_arg1 main_v0 ((transpose S50x4096 [1, 0] · transposes_S4096x50_S50x4096_1_0) : (⟨S4096x50, .i32⟩ : BufTy).Contents (Elt F) → (⟨S50x4096, .i32⟩ : BufTy).Contents (Elt F))
abbrev opR1 : HloOp τ sig (Elt F) := StableHlo.reshape main_v0 main_v1 rfl shapeCasts_S50x4096_S32x50x128
abbrev opR2 : HloOp τ sig (Elt F) := StableHlo.reshape main_v2 main_v3 rfl shapeCasts_S204800x128_S50x4096x128
abbrev opT2 : HloOp τ sig (Elt F) :=
  StableHlo.unary main_v3 main_v4 ((transpose S4096x50x128 [1, 0, 2] · transposes_S50x4096x128_S4096x50x128_1_0_2) : (⟨S50x4096x128, .f32⟩ : BufTy).Contents (Elt F) → (⟨S4096x50x128, .f32⟩ : BufTy).Contents (Elt F))

/-- The entry function's seven arrays, none scoped. -/
abbrev S7 : Finset (DevRef τ sig) := {a0', a1', v0', v1', v2', v3', v4'}

abbrev v0Loc (d : Dev nD) : Loc nD τ sig := (SparseCore.T d).loc main_v0
abbrev v3Loc (d : Dev nD) : Loc nD τ sig := (SparseCore.T d).loc main_v3

omit [FloatOps F] m ρ I in
theorem held_S7 (d : Dev nD) (W : Valuation τ sig (Elt F)) :
    (held (T d) S7 W : sProp 𝕄)
      = iprop((tLoc d ↦{fullShare} W a0') ∗ (xLoc d ↦{fullShare} W a1') ∗ (v0Loc d ↦{fullShare} W v0') ∗ (lLoc d ↦{fullShare} W v1')
          ∗ (oLoc d ↦{fullShare} W v2') ∗ (v3Loc d ↦{fullShare} W v3') ∗ rLoc d ↦{fullShare} W v4') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] m ρ I in
theorem unscopedBufs_eq (d : Dev nD) (W : (b : Ref sig .tc) → Buf (Elt F) ((d.tc : Thread nD τ).loc b)) :
    (unscopedBufs d W : sProp 𝕄)
      = iprop((tLoc d ↦{fullShare} W main_arg0) ∗ (xLoc d ↦{fullShare} W main_arg1) ∗ (v0Loc d ↦{fullShare} W main_v0) ∗ (lLoc d ↦{fullShare} W main_v1)
          ∗ (oLoc d ↦{fullShare} W main_v2) ∗ (v3Loc d ↦{fullShare} W main_v3) ∗ rLoc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The contents at the launch; before the call; after it (the flat result at the flat lookup); at the end. -/
def V0 (d : Dev nD) : Valuation τ sig (Elt F) := fun b => m (d, b)
def V2 (d : Dev nD) : Valuation τ sig (Elt F) := (opR1 (F := F)).result ((opT1 (F := F)).result (V0 m d))
def V3 (d : Dev nD) : Valuation τ sig (Elt F) := Function.update (V2 m d) v2' (OUTbuf m (Il m) d)
def V5 (d : Dev nD) : Valuation τ sig (Elt F) := (opT2 (F := F)).result ((opR2 (F := F)).result (V3 m d))

omit [FloatOps F] ρ I in
theorem unscoped_held (d : Dev nD) : (unscopedBufs d (fun b => m ((SparseCore.T d).loc b)) : sProp 𝕄) = held (T d) S7 (V0 m d) := by
  rw [unscopedBufs_eq, held_S7]; rfl

omit ρ I in
theorem V2_a0 (d : Dev nD) : V2 m d a0' = m (tLoc d) := by
  unfold V2
  rw [(opR1 (F := F)).result_of_not_mem _ (show a0' ∉ ({v1'} : Finset (DevRef τ sig)) by decide),
    (opT1 (F := F)).result_of_not_mem _ (show a0' ∉ ({v0'} : Finset (DevRef τ sig)) by decide)]
  rfl
omit ρ I in
theorem V2_a1 (d : Dev nD) : V2 m d a1' = m (xLoc d) := by
  unfold V2
  rw [(opR1 (F := F)).result_of_not_mem _ (show a1' ∉ ({v1'} : Finset (DevRef τ sig)) by decide),
    (opT1 (F := F)).result_of_not_mem _ (show a1' ∉ ({v0'} : Finset (DevRef τ sig)) by decide)]
  rfl
omit ρ I in
theorem V2_v1 (d : Dev nD) : V2 m d v1' = Il m d := by
  unfold V2
  rw [StableHlo.reshape_result, StableHlo.unary_result]
  rfl

omit ρ I in
theorem V3_v2 (d : Dev nD) : V3 m d v2' = OUTbuf m (Il m) d := Function.update_self _ _ _
omit ρ I in
theorem V3_a0 (d : Dev nD) : V3 m d a0' = m (tLoc d) := (Function.update_of_ne (show a0' ≠ v2' by decide) _ _).trans (V2_a0 m d)
omit ρ I in
theorem V3_a1 (d : Dev nD) : V3 m d a1' = m (xLoc d) := (Function.update_of_ne (show a1' ≠ v2' by decide) _ _).trans (V2_a1 m d)
omit ρ I in
theorem V3_v0 (d : Dev nD) : V3 m d v0' = V2 m d v0' := Function.update_of_ne (show v0' ≠ v2' by decide) _ _
omit ρ I in
theorem V3_v1 (d : Dev nD) : V3 m d v1' = Il m d := (Function.update_of_ne (show v1' ≠ v2' by decide) _ _).trans (V2_v1 m d)
omit ρ I in
theorem V3_v3 (d : Dev nD) : V3 m d v3' = V2 m d v3' := Function.update_of_ne (show v3' ≠ v2' by decide) _ _
omit ρ I in
theorem V3_v4 (d : Dev nD) : V3 m d v4' = V2 m d v4' := Function.update_of_ne (show v4' ≠ v2' by decide) _ _

omit ρ I in
theorem V5_a0 (d : Dev nD) : V5 m d a0' = m (tLoc d) := by
  unfold V5
  rw [(opT2 (F := F)).result_of_not_mem _ (show a0' ∉ ({v4'} : Finset (DevRef τ sig)) by decide),
    (opR2 (F := F)).result_of_not_mem _ (show a0' ∉ ({v3'} : Finset (DevRef τ sig)) by decide), V3_a0]
omit ρ I in
theorem V5_a1 (d : Dev nD) : V5 m d a1' = m (xLoc d) := by
  unfold V5
  rw [(opT2 (F := F)).result_of_not_mem _ (show a1' ∉ ({v4'} : Finset (DevRef τ sig)) by decide),
    (opR2 (F := F)).result_of_not_mem _ (show a1' ∉ ({v3'} : Finset (DevRef τ sig)) by decide), V3_a1]
omit ρ I in
/-- At the end the entry function's result holds the call's flat lookup carried through the last two host operations. -/
theorem V5_v4 (d : Dev nD) : V5 m d v4' = HostValue.result (Cert.Spec.OUT (m (tLoc d)) (HostValue.lists (m (xLoc d)))) := by
  unfold V5
  rw [StableHlo.unary_result, StableHlo.reshape_result, V3_v2]
  rfl

/-- The seven arrays before the call, after it, and at the end. -/
theorem held_V2 (d : Dev nD) :
    (held (T d) S7 ((opR1 (F := F)).result ((opT1 (F := F)).result (V0 m d))) : sProp 𝕄)
      = iprop((tLoc d ↦{fullShare} m (tLoc d)) ∗ (xLoc d ↦{fullShare} m (xLoc d)) ∗ (v0Loc d ↦{fullShare} V2 m d v0') ∗ (lLoc d ↦{fullShare} Il m d)
          ∗ (oLoc d ↦{fullShare} V2 m d v2') ∗ (v3Loc d ↦{fullShare} V2 m d v3') ∗ rLoc d ↦{fullShare} V2 m d v4') := by
  show held (SparseCore.T d) S7 (V2 m d) = _
  rw [held_S7, V2_a0, V2_a1, V2_v1]
theorem held_V3 (d : Dev nD) :
    (held (T d) S7 (V3 m d) : sProp 𝕄)
      = iprop((tLoc d ↦{fullShare} m (tLoc d)) ∗ (xLoc d ↦{fullShare} m (xLoc d)) ∗ (v0Loc d ↦{fullShare} V2 m d v0') ∗ (lLoc d ↦{fullShare} Il m d)
          ∗ (oLoc d ↦{fullShare} OUTbuf m (Il m) d) ∗ (v3Loc d ↦{fullShare} V2 m d v3') ∗ rLoc d ↦{fullShare} V2 m d v4') := by
  rw [held_S7, V3_a0, V3_a1, V3_v0, V3_v1, V3_v2, V3_v3, V3_v4]
theorem held_V5 (d : Dev nD) :
    (held (T d) S7 ((opT2 (F := F)).result ((opR2 (F := F)).result (V3 m d))) : sProp 𝕄)
      = iprop((tLoc d ↦{fullShare} m (tLoc d)) ∗ (xLoc d ↦{fullShare} m (xLoc d)) ∗ (v0Loc d ↦{fullShare} V5 m d v0') ∗ (lLoc d ↦{fullShare} V5 m d v1')
          ∗ (oLoc d ↦{fullShare} V5 m d v2') ∗ (v3Loc d ↦{fullShare} V5 m d v3')
          ∗ rLoc d ↦{fullShare} HostValue.result (Cert.Spec.OUT (m (tLoc d)) (HostValue.lists (m (xLoc d))))) := by
  show held (SparseCore.T d) S7 (V5 m d) = _
  rw [held_S7, V5_a0, V5_a1, V5_v4]

omit [FloatOps F] m ρ I in
theorem hT1 : (opT1 (F := F)).bufs ⊆ S7 := show ({a1', v0'} : Finset (DevRef τ sig)) ⊆ S7 by decide
omit [FloatOps F] m ρ I in
theorem hR1 : (opR1 (F := F)).bufs ⊆ S7 := show ({v0', v1'} : Finset (DevRef τ sig)) ⊆ S7 by decide
omit [FloatOps F] m ρ I in
theorem hR2 : (opR2 (F := F)).bufs ⊆ S7 := show ({v2', v3'} : Finset (DevRef τ sig)) ⊆ S7 by decide
omit [FloatOps F] m ρ I in
theorem hT2 : (opT2 (F := F)).bufs ⊆ S7 := show ({v3', v4'} : Finset (DevRef τ sig)) ⊆ S7 by decide

/-! ## The entry function on the TensorCore -/

/-- What the entry function leaves the claim: the table and the row numbers at their launch contents, the result at
    the flat lookup of the lists carried through the last two host operations. -/
abbrev FIN (d : Dev nD) : sProp 𝕄 :=
  iprop((tLoc d ↦{fullShare} m (tLoc d)) ∗ (xLoc d ↦{fullShare} m (xLoc d))
    ∗ rLoc d ↦{fullShare} HostValue.result (Cert.Spec.OUT (m (tLoc d)) (HostValue.lists (m (xLoc d)))))

/-- The entry function on device d's TensorCore: the transpose and the regrouping (over the seven arrays held
    whole), the call (the three arrays to both SparseCores and back), the regrouping and the transpose. -/
theorem hmain (κ : GSem nD τ sig → ℕ) (d : Dev nD) :
    iprop((K (F := F)).ctx EH (P m (Il m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transpose, the regrouping
  iapply (wp_hlo_within 𝒱 (SparseCore.T d) none Set.univ (op := opT1) (S := S7) hT1 (V := V0 m d)) $$ [Hb Hheld]
  · isplitl [Hb] <;> iassumption
  iintro ⟨Hb, Hheld⟩
  rw [wp_ret]; imodintro
  iapply (wp_hlo_within 𝒱 (SparseCore.T d) none Set.univ (op := opR1) (S := S7) hR1 (V := (opT1 (F := F)).result (V0 m d))) $$ [Hb Hheld]
  · isplitl [Hb] <;> iassumption
  iintro ⟨Hb, Hheld⟩
  rw [wp_ret]; imodintro
  -- the call: the table, the lists and the flat result to both SparseCores and back
  ihave Hh := (Entails.of_eq (held_V2 (F := F) m d)) $$ Hheld
  icases Hh with ⟨Ht, Hx, Hv0, Hl, Ho, Hv3, Hr⟩
  iapply ((K (F := F)).wp_run (D (F := F)) 𝒱 (EH := EH) (P := P m (Il m)) κ d 0) $$ [Hst Ht Hl Ho Hb Hx Hv0 Hv3 Hr]
  isplitr; · iexact Hctx
  isplitl [Hst]; · iexact Hst
  isplitl [Ht Hl Ho]
  · iapply (st0_intro m (Il m) d (V2 m d v2'))
    isplitl [Hl]; · iexact Hl
    isplitl [Ht]; · iexact Ht
    iexact Ho
  iintro ⟨Hst, Hdn⟩
  ihave Hdn' := (Entails.of_eq (dn0_eq m (Il m) d)) $$ Hdn
  icases Hdn' with ⟨Hl, Ht, Ho⟩
  -- the regrouping, the transpose
  iapply (wp_hlo_within 𝒱 (SparseCore.T d) none Set.univ (op := opR2) (S := S7) hR2 (V := V3 m d)) $$ [Hb Ht Hx Hv0 Hl Ho Hv3 Hr]
  · isplitl [Hb]; · iexact Hb
    rw [held_V3]
    isplitl [Ht]; · iexact Ht
    isplitl [Hx]; · iexact Hx
    isplitl [Hv0]; · iexact Hv0
    isplitl [Hl]; · iexact Hl
    isplitl [Ho]; · iexact Ho
    isplitl [Hv3]; · iexact Hv3
    iexact Hr
  iintro ⟨Hb, Hheld⟩
  rw [wp_ret]; imodintro
  iapply (wp_hlo_within 𝒱 (SparseCore.T d) none Set.univ (op := opT2) (S := S7) hT2 (V := (opR2 (F := F)).result (V3 m d))) $$ [Hb Hheld]
  · isplitl [Hb] <;> iassumption
  iintro ⟨Hb, Hheld⟩
  ihave Hh := (Entails.of_eq (held_V5 (F := F) m d)) $$ Hheld
  icases Hh with ⟨Ht, Hx, -, -, -, -, Hr⟩
  rw [wp_ret]; imodintro; imodintro
  isplitl [Hst]; · iexact Hst
  isplitl [Ht]; · iexact Ht
  isplitl [Hx]; · iexact Hx
  iexact Hr

/-! ## The final memory reads the claim -/

def fq (d : Dev nD) (s' : Phys nD τ sig (Elt F)) : Prop :=
  s'.mem.mem (rLoc d) = HostValue.result (Cert.Spec.OUT (m (tLoc d)) (HostValue.lists (m (xLoc d))))
    ∧ s'.mem.mem (tLoc d) = m (tLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Ht, Hx, Hr⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare)
      (f := HostValue.result (Cert.Spec.OUT (m (tLoc d)) (HostValue.lists (m (xLoc d)))))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- On every device: the result is the flat lookup of the host's lists carried through the last two host
    operations; the table and the row numbers are unchanged. -/
def QC : PUnit × MemSt nD τ sig (Elt F) → Prop := fun r => ∀ c : Dev nD,
  r.2.mem (rLoc c) = HostValue.result (Cert.Spec.OUT (m (tLoc c)) (HostValue.lists (m (xLoc c))))
    ∧ r.2.mem (tLoc c) = m (tLoc c) ∧ r.2.mem (xLoc c) = m (xLoc c)

/-- The whole program runs to completion from the launch memory, given the proof of one task's body. -/
theorem run_main [∀ e, Nonempty (Elt F e)]
    (htile : (K (F := F)).TileObl (D (F := F)) 𝒱 (P m (fun d => HostValue.lists (m (xLoc d)))) v₀ 0) :
    θ_run (Cert.KernelIdeal.defs (F := F)) (Cert.KernelIdeal.threads (F := F)) ⟨m, fun _ => 0, ρ⟩
      (fun r => ∀ c : Dev nD,
        r.2.mem (rLoc c) = HostValue.result (Cert.Spec.OUT (m (tLoc c)) (HostValue.lists (m (xLoc c))))
          ∧ r.2.mem (tLoc c) = m (tLoc c) ∧ r.2.mem (xLoc c) = m (xLoc c)) :=
  SparseCore.Cfg.θ_run_sc (K := K (F := F)) (D := D (F := F)) (𝒱 := 𝒱) (EH := EH) (P := P m (Il m)) facts v₀
    (fun q hq => match q with | 0 => nomatch hq)
    (fun q _ => match q with | 0 => htile)
    (fun q _ => match q with | 0 => SparseCore.Cfg.VecSplit.of_plain (vecSplit m (Il m)))
    m ρ main (fun _ => iprop(emp)) (FIN m) (u₀ (F := F)) (sep_elim_left.trans (hu₀ m (Il m))) (hmain m ρ) (fq m) (hfin m) (QC m) (fun _ h => h)

end Cert.KernelIdeal.Sc

end
-- ==== Proof.KSetup.lean ====
/-
  The SparseCore call of the lookup kernel as its launch sees it, and what its handshakes carry.

  One call runs on both SparseCores, sixteen vector subcores each: thirty-two tasks. Task number w = 2·s + c
  (subcore s of SparseCore c) owns list w of the 32 × 50 × 128 row numbers and rows 6400·w … 6400·w + 6399 of the
  204800 × 128 result; every task reads the whole table, so the table goes out as thirty-two read shares.
  A SparseCore's operands are stated directly as the sixteen tasks' operands side by side, so that dealing them to
  the tasks and collecting them again moves nothing. A task hands its part of the result back holding, on its rows,
  the one whole-array function: row n is the table's row named by word n of the lists.
  Everything is parametric in the memory at the launch `m` (the table is read from it) and in the contents `I` of
  the lists at the call (computed by the host operations before it).
-/
import proofs.«206296_g7516192768393_cont_9to1c4b_737_14_alg».proof.Defs
import proofs.«206296_g7516192768393_cont_9to1c4b_737_14_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206296_g7516192768393_cont_9to1c4b_737_14_alg».proof.Proof.Gen.Kernel
import proofs.«206296_g7516192768393_cont_9to1c4b_737_14_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The table, the lists of row numbers as the call finds them, and the flat result, on device `d`. -/
abbrev tLoc (d : Dev nD) : Loc nD τ sig := (SparseCore.T d).loc main_arg0
abbrev lLoc (d : Dev nD) : Loc nD τ sig := (SparseCore.T d).loc main_v1
abbrev oLoc (d : Dev nD) : Loc nD τ sig := (SparseCore.T d).loc main_v2

variable (m : (ℓ : Loc nD τ sig) → Buf (Elt F) ℓ) (I : (d : Dev nD) → Buf (Elt F) (lLoc d))

/-- Every word of the lists names a row of the table. -/
def ListsOK : Prop := ∀ (d : Dev nD) (i : S32x50x128.Idx), (I d i).toNat < 100000

/-- The flat result: row n is the table's row named by word n of the lists. -/
def OUTbuf (d : Dev nD) : Buf (Elt F) (oLoc d) := Cert.Spec.OUT (m (tLoc d)) (I d)

/-! ## Thirty-two tasks: their lists, their rows of the result, their shares of the table -/

/-- The task of subcore `s` of SparseCore `c`. -/
def wid (c : Fin 2) (s : Fin 16) : Fin 32 := ⟨2 * s.val + c.val, by omega⟩

theorem ldiv : 32 ∣ S32x50x128.size 0 := ⟨1, rfl⟩
theorem odiv : 32 ∣ S204800x128.size 0 := ⟨6400, rfl⟩
abbrev lrow (w : Fin 32) : Rect S32x50x128 := Rect.part (s := S32x50x128) (a₀ := 0) ldiv w
abbrev orow (w : Fin 32) : Rect S204800x128 := Rect.part (s := S204800x128) (a₀ := 0) odiv w
abbrev lRowSet (w : Fin 32) : Finset S32x50x128.Idx := ((Memref.whole main_v1_scv : Memref sig .scVector .hbm S32x50x128 .i32).view.slice (lrow w)).set
abbrev oRowSet (w : Fin 32) : Finset S204800x128.Idx := ((Memref.whole main_v2_scv : Memref sig .scVector .hbm S204800x128 .f32).view.slice (orow w)).set

/-- Task `w`'s read share of the table. -/
abbrev tq (w : Fin 32) : PosShare TreeShare := pieceOf fullShare 32 (by norm_num) w

variable [FloatOps F]

abbrev lRowPts (d : Dev nD) (w : Fin 32) : sProp 𝕄 := lLoc d ↦[lRowSet w]{fullShare} I d
abbrev tShPts (d : Dev nD) (w : Fin 32) : sProp 𝕄 := tLoc d ↦{tq w} m (tLoc d)
abbrev oRowPts (d : Dev nD) (w : Fin 32) (f : Buf (Elt F) (oLoc d)) : sProp 𝕄 := oLoc d ↦[oRowSet w]{fullShare} f

/-- What a task is handed: its list, its share of the table, its rows of the result at whatever they hold. -/
abbrev taskGo (d : Dev nD) (w : Fin 32) : sProp 𝕄 := iprop(lRowPts I d w ∗ tShPts m d w ∗ ∃ f, oRowPts d w f)
/-- What it hands back: the same, its rows of the result at the lookup. -/
abbrev taskTd (d : Dev nD) (w : Fin 32) : sProp 𝕄 := iprop(lRowPts I d w ∗ tShPts m d w ∗ oRowPts d w (OUTbuf m I d))

/-- The one call: a SparseCore's operands are its sixteen tasks' side by side. -/
def P : (K (F := F)).Pay (nD := nD) (Val := Elt F) (Name := ℕ) (U := UU) where
  st := fun q d c => match q with
    | 0 => bigSep Finset.univ fun s : Fin 16 => taskGo m I d (wid (Fin.cast nCore_zero c) s)
  dn := fun q d c => match q with
    | 0 => bigSep Finset.univ fun s : Fin 16 => taskTd m I d (wid (Fin.cast nCore_zero c) s)
  go := fun q d c i => match q with
    | 0 => taskGo m I d (wid (Fin.cast nCore_zero c) (Fin.cast nSub_zero i))
  td := fun q d c i => match q with
    | 0 => taskTd m I d (wid (Fin.cast nCore_zero c) (Fin.cast nSub_zero i))
  x := fun _ _ => iprop(emp)

instance P_storable : (P (F := F) m I).IsStorable where
  st q d c := match q with
    | 0 => (inferInstance : BI.Storable (upEmb : UEmb _ 𝕄) (bigSep Finset.univ fun s : Fin 16 => taskGo m I d (wid (Fin.cast nCore_zero c) s)))
  dn q d c := match q with
    | 0 => (inferInstance : BI.Storable (upEmb : UEmb _ 𝕄) (bigSep Finset.univ fun s : Fin 16 => taskTd m I d (wid (Fin.cast nCore_zero c) s)))
  go q d c i := match q with
    | 0 => (inferInstance : BI.Storable (upEmb : UEmb _ 𝕄) (taskGo m I d (wid (Fin.cast nCore_zero c) (Fin.cast nSub_zero i))))
  td q d c i := match q with
    | 0 => (inferInstance : BI.Storable (upEmb : UEmb _ 𝕄) (taskTd m I d (wid (Fin.cast nCore_zero c) (Fin.cast nSub_zero i))))

end Cert.Kernel.Sc

end
-- ==== Proof.KHostValue.lean ====
/-
  The host side of the kernel's entry function, as pure terms. Before the SparseCore call the 4096 × 50 array of row
  numbers is transposed to 50 × 4096 and regrouped, row-major, as 32 lists of 50 chunks of 128 words; after it the
  204800 × 128 result is regrouped as 50 × 4096 × 128 and its first two axes swapped. Flat row n = h * 4096 + b of the
  result is row (h, b) of the regrouped array, which the final transpose puts at (b, h); word n of the lists, read flat, is
  entry (h, b) of the transposed row numbers, which is entry (b, h) of the original. So the flat lookup of the lists,
  carried through the last two host operations, is the lookup itself.
-/
import proofs.«206296_g7516192768393_cont_9to1c4b_737_14_alg».proof.Kernel
import proofs.«206296_g7516192768393_cont_9to1c4b_737_14_alg».proof.Proof.Spec
import Idealize.ShloMosaic.Lib.ValueIdx
import Idealize.ShloMosaic.Lib.Pipeline.Value
import Idealize.ShloMosaic.Lib.ValueLayout

noncomputable section

namespace Cert.Kernel.HostValue

open Idealize.ShloMosaic Idealize.ShloMosaic.ValueIdx
open Cert.Kernel Cert.Kernel.Facts₀

variable [Cert.Kernel.Facts]

/-- The lists the SparseCore call reads: the row numbers transposed, then regrouped as 32 × 50 × 128. -/
def lists (X : IVec S4096x50 32) : IVec S32x50x128 32 :=
  shapeCast S32x50x128 (transpose S50x4096 [1, 0] X transposes_S4096x50_S50x4096_1_0) shapeCasts_S50x4096_S32x50x128

/-- The entry function's result from the SparseCore call's: regrouped as 50 × 4096 × 128, first two axes swapped. -/
def result {F : FTy → Type} [FloatOps F] (O : FVec F S204800x128 .f32) : FVec F S4096x50x128 .f32 :=
  transpose S4096x50x128 [1, 0, 2] (shapeCast S50x4096x128 O shapeCasts_S204800x128_S50x4096x128)
    transposes_S50x4096x128_S4096x50x128_1_0_2

/-- Word (a, c, e) of the lists is entry (b, h) of the row numbers when the two flat positions agree. -/
theorem lists_apply (X : IVec S4096x50 32) (a : Fin 32) (c : Fin 50) (e : Fin 128) (b : Fin 4096) (h : Fin 50)
    (hn : (a.val * 50 + c.val) * 128 + e.val = h.val * 4096 + b.val) :
    lists X (ix3 a c e) = X (ix2 b h) := by
  unfold lists
  rw [shapeCast_apply _ _ (ix3 a c e) (ix2 h b) (by
    rw [Shape.rowMajor_val_two, Shape.rowMajor_val_three]
    show h.val * 4096 + b.val = (a.val * 50 + c.val) * 128 + e.val
    omega)]
  exact transpose_ix2_apply X _ h b

/-- Word h * 4096 + b of the lists read flat is entry (b, h) of the row numbers. -/
theorem flatWord_lists (X : IVec S4096x50 32) (b : Fin 4096) (h : Fin 50) (hn : h.val * 4096 + b.val < 204800) :
    Cert.Spec.flatWord (lists X) ⟨h.val * 4096 + b.val, hn⟩ = X (ix2 b h) := by
  unfold Cert.Spec.flatWord
  refine lists_apply X _ _ _ b h ?_
  show ((h.val * 4096 + b.val) / 6400 * 50 + (h.val * 4096 + b.val) % 6400 / 128) * 128 + (h.val * 4096 + b.val) % 128
    = h.val * 4096 + b.val
  omega

/-- Entry (b, h, l) of the entry function's result is entry l of flat row h * 4096 + b of the call's result. -/
theorem result_apply {F : FTy → Type} [FloatOps F] (O : FVec F S204800x128 .f32) (b : Fin 4096) (h : Fin 50) (l : Fin 128)
    (hn : h.val * 4096 + b.val < 204800) :
    result O (ix3 b h l) = O (ix2 ⟨h.val * 4096 + b.val, hn⟩ l) := by
  unfold result
  rw [transpose_apply _ _ _ (ix3 b h l) (ix3 h b l)
    (fun c => match c with | ⟨0, _⟩ => rfl | ⟨1, _⟩ => rfl | ⟨2, _⟩ => rfl)]
  refine shapeCast_apply _ _ _ _ ?_
  rw [Shape.rowMajor_val_two, Shape.rowMajor_val_three]
  rfl

/-- The flat lookup of the lists, carried through the last two host operations, is the lookup. -/
theorem result_OUT {F : FTy → Type} [FloatOps F] (T : FVec F S100000x128 .f32) (X : IVec S4096x50 32) :
    result (Cert.Spec.OUT T (lists X)) = Cert.Spec.G T X := by
  funext j
  obtain ⟨b, h, l, rfl⟩ : ∃ (b : Fin 4096) (h : Fin 50) (l : Fin 128), j = ix3 b h l := ⟨_, _, _, eq_ix3 j⟩
  have hn : h.val * 4096 + b.val < 204800 := by omega
  rw [result_apply _ b h l hn]
  show T (ix2 (Cert.Spec.rowOf (Cert.Spec.flatWord (lists X) ⟨h.val * 4096 + b.val, hn⟩)) l)
    = T (ix2 (Cert.Spec.rowOf (X (ix2 b h))) l)
  rw [flatWord_lists]

/-- Every word of the lists is a word of the row numbers. -/
theorem lists_lt (X : IVec S4096x50 32) (hX : ∀ j, (X j).toNat < 100000) : ∀ i, (lists X i).toNat < 100000 :=
  fun i => hX _

end Cert.Kernel.HostValue

end
-- ==== Proof.KLaunch.lean ====
/-
  The launch of the lookup kernel's program: from "every task's body is proved" to the run of the whole program,
  with the result named.

  The entry function transposes and regroups the row numbers on the host, runs one call on both SparseCores, and
  regroups and transposes the call's flat result. The call takes the table, the lists and the flat result whole and
  deals them to the thirty-two tasks: the lists and the result by rows (thirty-two blocks of rows, disjoint, covering),
  the table by read shares (the full share cut into thirty-two pieces). Task w = 2·s + c is subcore s of SparseCore c,
  so the thirty-two blocks are regrouped as two families of sixteen through the bijection (c, s) ↦ 2·s + c. Every task
  hands its rows of the result back at the one whole-array function, so the blocks join to the whole result at that
  function by an equation. The host operations before and after the call are then computations on the contents.
-/
import proofs.«206296_g7516192768393_cont_9to1c4b_737_14_alg».proof.Proof.KSetup
import proofs.«206296_g7516192768393_cont_9to1c4b_737_14_alg».proof.Proof.KHostValue

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_hlo_within)

variable {F : FTy → Type}

local notation "𝕄" => MT nD τ sig (HIx 1) (Elt F) ℕ UU ℕ

variable (m : (ℓ : Loc nD τ sig) → Buf (Elt F) ℓ) (ρ : Dev nD → PrngReg) (I : (d : Dev nD) → Buf (Elt F) (lLoc d))

/-- The row numbers as the entry function receives them, and its result, on device d. -/
abbrev xLoc (d : Dev nD) : Loc nD τ sig := (SparseCore.T d).loc main_arg1
abbrev rLoc (d : Dev nD) : Loc nD τ sig := (SparseCore.T d).loc main_v4

/-! ## Thirty-two tasks as two SparseCores of sixteen subcores -/

/-- (c, s) ↦ 2·s + c is a bijection of pairs onto task numbers. -/
def widEquiv : Fin 2 × Fin 16 ≃ Fin 32 where
  toFun p := wid p.1 p.2
  invFun w := (⟨w.val % 2, Nat.mod_lt _ (by norm_num)⟩, ⟨w.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

omit m ρ I in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit m ρ I in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit m ρ I in
/-- A family over the thirty-two tasks, dealt to the two SparseCores' sixteen subcores. -/
theorem bigSep_deal (Φ : Fin 32 → sProp 𝕄) :
    (bigSep Finset.univ fun c : Fin ((K (F := F)).nCore 0) => bigSep Finset.univ fun s : Fin 16 => Φ (wid (Fin.cast nCore_zero c) s))
      = bigSep Finset.univ Φ := by
  rw [bigSep_cores (F := F) (fun c => bigSep Finset.univ fun s : Fin 16 => Φ (wid c s)),
    bigSep_univ_equiv widEquiv Φ, bigSep_univ_prod]
  rfl

/-! ## The rows split and join; the shares of the table -/

omit m ρ I in
theorem lRowSet_eq (w : Fin 32) : lRowSet w = (lrow w).set := by
  show ((View.whole (main_v1_scv : Ref sig .scVector)).slice (lrow w)).set = _
  rw [View.set_slice]; exact Finset.map_refl
omit m ρ I in
theorem oRowSet_part (w : Fin 32) : oRowSet w = (orow w).set := by
  show ((View.whole (main_v2_scv : Ref sig .scVector)).slice (orow w)).set = _
  rw [View.set_slice]; exact Finset.map_refl
omit m ρ I in
theorem lrows_disjoint : ∀ i ∈ (Finset.univ : Finset (Fin 32)), ∀ j ∈ (Finset.univ : Finset (Fin 32)), i ≠ j → Disjoint (lRowSet i) (lRowSet j) :=
  fun i _ j _ h => by rw [lRowSet_eq, lRowSet_eq]; exact Rect.part_disjoint ldiv h
omit m ρ I in
theorem orows_disjoint : ∀ i ∈ (Finset.univ : Finset (Fin 32)), ∀ j ∈ (Finset.univ : Finset (Fin 32)), i ≠ j → Disjoint (oRowSet i) (oRowSet j) :=
  fun i _ j _ h => by rw [oRowSet_part, oRowSet_part]; exact Rect.part_disjoint odiv h
omit m ρ I in
theorem lrows_cover : (Finset.univ : Finset (Fin 32)).biUnion lRowSet = Finset.univ :=
  (Finset.biUnion_congr rfl fun i _ => lRowSet_eq i).trans (Rect.biUnion_part ldiv)
omit m ρ I in
theorem orows_cover : (Finset.univ : Finset (Fin 32)).biUnion oRowSet = Finset.univ :=
  (Finset.biUnion_congr rfl fun i _ => oRowSet_part i).trans (Rect.biUnion_part odiv)

omit m ρ I in
/-- The lists whole are the thirty-two tasks' lists. -/
theorem lPts_rows (d : Dev nD) (f : Buf (Elt F) (lLoc d)) :
    (lLoc d ↦{fullShare} f : sProp 𝕄) = bigSep Finset.univ fun w : Fin 32 => lLoc d ↦[lRowSet w]{fullShare} f := by
  rw [← pointsTo_biUnion Finset.univ (ℓ := lLoc d) lRowSet lrows_disjoint, lrows_cover]; try rfl
omit m ρ I in
/-- The flat result whole is the thirty-two tasks' blocks of rows. -/
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
omit m ρ I in
/-- The table whole is its thirty-two read shares. -/
theorem tPts_shares (d : Dev nD) (f : Buf (Elt F) (tLoc d)) :
    (tLoc d ↦{fullShare} f : sProp 𝕄) = bigSep Finset.univ fun w : Fin 32 => tLoc d ↦{tq w} f :=
  pointsTo_piecesOf Finset.univ f (by norm_num) fullShare

variable [FloatOps F]

/-! ## A SparseCore's operands are its sixteen tasks' -/

theorem vecSplit : (K (F := F)).VecSplit' (P m I) 0 := by
  intro d c
  show (bigSep Finset.univ fun s : Fin 16 => taskGo m I d (wid (Fin.cast nCore_zero c) s))
    ⊢ |={Set.univ}=> iprop(
      (bigSep Finset.univ fun i : Fin ((K (F := F)).nSub 0) => taskGo m I d (wid (Fin.cast nCore_zero c) (Fin.cast nSub_zero i)))
      ∗ ((bigSep Finset.univ fun i : Fin ((K (F := F)).nSub 0) => taskTd m I d (wid (Fin.cast nCore_zero c) (Fin.cast nSub_zero i)))
          -∗ bigSep Finset.univ fun s : Fin 16 => taskTd m I d (wid (Fin.cast nCore_zero c) s)))
  rw [bigSep_tasks (F := F) (fun s => taskGo m I d (wid (Fin.cast nCore_zero c) s)),
    bigSep_tasks (F := F) (fun s => taskTd m I d (wid (Fin.cast nCore_zero c) s))]
  iintro H; imodintro
  isplitl [H]; · iexact H
  iintro H; iexact H

/-! ## The launch element of the ghost state -/

def u₀ : UU := (initOf (K (F := F)).hsCells (K (F := F)).hsToks, 1)

omit [FloatOps F] m ρ I in
theorem bigSep_emp' {ι : Type} (s : Finset ι) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m I).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m I).x q thr) = bigSep Finset.univ fun _ => iprop(emp) from
    bigSep_congr fun _ _ => bigSep_univ_of_subsingleton (0 : Fin 1), bigSep_emp']
  iempintro

/-! ## The call's operands: three whole arrays, dealt to the thirty-two tasks and joined again -/

/-- The lists as the call finds them: the host operations' value of the row numbers at the launch. -/
abbrev Il (d : Dev nD) : Buf (Elt F) (lLoc d) := HostValue.lists (m (xLoc d))

theorem st_all (d : Dev nD) :
    (bigSep Finset.univ fun c : Fin ((K (F := F)).nCore 0) => (P m I).st 0 d c) = bigSep Finset.univ fun w : Fin 32 => taskGo m I d w :=
  bigSep_deal (F := F) (fun w => taskGo m I d w)
theorem dn_all (d : Dev nD) :
    (bigSep Finset.univ fun c : Fin ((K (F := F)).nCore 0) => (P m I).dn 0 d c) = bigSep Finset.univ fun w : Fin 32 => taskTd m I d w :=
  bigSep_deal (F := F) (fun w => taskTd m I d w)

omit [FloatOps F] m ρ I in
theorem oRows_some (d : Dev nD) (f : Buf (Elt F) (oLoc d)) :
    (oLoc d ↦{fullShare} f : sProp 𝕄) ⊢ bigSep Finset.univ fun w : Fin 32 => iprop(∃ g, oRowPts d w g) := by
  rw [oPts_rows]
  refine bigSep_mono fun w _ => ?_
  show (oLoc d ↦[oRowSet w]{fullShare} f : sProp 𝕄) ⊢ iprop(∃ g, oLoc d ↦[oRowSet w]{fullShare} g)
  iintro H; iexists f; iexact H

/-- The three arrays whole are what the two SparseCores are handed. -/
theorem st0_intro (d : Dev nD) (f : Buf (Elt F) (oLoc d)) :
    iprop((lLoc d ↦{fullShare} I d) ∗ (tLoc d ↦{fullShare} m (tLoc d)) ∗ (oLoc d ↦{fullShare} f))
      ⊢ (bigSep Finset.univ fun c : Fin ((K (F := F)).nCore 0) => (P m I).st 0 d c : sProp 𝕄) := by
  rw [st_all, bigSep_sep', bigSep_sep', lPts_rows, tPts_shares]
  iintro ⟨Hl, Ht, Ho⟩
  isplitl [Hl]; · iexact Hl
  isplitl [Ht]; · iexact Ht
  iapply (oRows_some d f); iexact Ho

/-- What they hand back is the three arrays whole, the result at the flat lookup. -/
theorem dn0_eq (d : Dev nD) :
    (bigSep Finset.univ fun c : Fin ((K (F := F)).nCore 0) => (P m I).dn 0 d c : sProp 𝕄)
      = iprop((lLoc d ↦{fullShare} I d) ∗ (tLoc d ↦{fullShare} m (tLoc d)) ∗ (oLoc d ↦{fullShare} OUTbuf m I d)) := by
  rw [dn_all, bigSep_sep', bigSep_sep', lPts_rows, tPts_shares, oPts_rows]

/-! ## The host operations of the entry function, as computations on the contents -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The transpose and the regrouping before the call, the regrouping and the transpose after it. -/
abbrev opT1 : HloOp τ sig (Elt F) :=
  StableHlo.unary main_arg1 main_v0 ((transpose S50x4096 [1, 0] · transposes_S4096x50_S50x4096_1_0) : (⟨S4096x50, .i32⟩ : BufTy).Contents (Elt F) → (⟨S50x4096, .i32⟩ : BufTy).Contents (Elt F))
abbrev opR1 : HloOp τ sig (Elt F) := StableHlo.reshape main_v0 main_v1 rfl shapeCasts_S50x4096_S32x50x128
abbrev opR2 : HloOp τ sig (Elt F) := StableHlo.reshape main_v2 main_v3 rfl shapeCasts_S204800x128_S50x4096x128
abbrev opT2 : HloOp τ sig (Elt F) :=
  StableHlo.unary main_v3 main_v4 ((transpose S4096x50x128 [1, 0, 2] · transposes_S50x4096x128_S4096x50x128_1_0_2) : (⟨S50x4096x128, .f32⟩ : BufTy).Contents (Elt F) → (⟨S4096x50x128, .f32⟩ : BufTy).Contents (Elt F))

/-- The entry function's seven arrays, none scoped. -/
abbrev S7 : Finset (DevRef τ sig) := {a0', a1', v0', v1', v2', v3', v4'}

abbrev v0Loc (d : Dev nD) : Loc nD τ sig := (SparseCore.T d).loc main_v0
abbrev v3Loc (d : Dev nD) : Loc nD τ sig := (SparseCore.T d).loc main_v3

omit [FloatOps F] m ρ I in
theorem held_S7 (d : Dev nD) (W : Valuation τ sig (Elt F)) :
    (held (T d) S7 W : sProp 𝕄)
      = iprop((tLoc d ↦{fullShare} W a0') ∗ (xLoc d ↦{fullShare} W a1') ∗ (v0Loc d ↦{fullShare} W v0') ∗ (lLoc d ↦{fullShare} W v1')
          ∗ (oLoc d ↦{fullShare} W v2') ∗ (v3Loc d ↦{fullShare} W v3') ∗ rLoc d ↦{fullShare} W v4') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] m ρ I in
theorem unscopedBufs_eq (d : Dev nD) (W : (b : Ref sig .tc) → Buf (Elt F) ((d.tc : Thread nD τ).loc b)) :
    (unscopedBufs d W : sProp 𝕄)
      = iprop((tLoc d ↦{fullShare} W main_arg0) ∗ (xLoc d ↦{fullShare} W main_arg1) ∗ (v0Loc d ↦{fullShare} W main_v0) ∗ (lLoc d ↦{fullShare} W main_v1)
          ∗ (oLoc d ↦{fullShare} W main_v2) ∗ (v3Loc d ↦{fullShare} W main_v3) ∗ rLoc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The contents at the launch; before the call; after it (the flat result at the flat lookup); at the end. -/
def V0 (d : Dev nD) : Valuation τ sig (Elt F) := fun b => m (d, b)
def V2 (d : Dev nD) : Valuation τ sig (Elt F) := (opR1 (F := F)).result ((opT1 (F := F)).result (V0 m d))
def V3 (d : Dev nD) : Valuation τ sig (Elt F) := Function.update (V2 m d) v2' (OUTbuf m (Il m) d)
def V5 (d : Dev nD) : Valuation τ sig (Elt F) := (opT2 (F := F)).result ((opR2 (F := F)).result (V3 m d))

omit [FloatOps F] ρ I in
theorem unscoped_held (d : Dev nD) : (unscopedBufs d (fun b => m ((SparseCore.T d).loc b)) : sProp 𝕄) = held (T d) S7 (V0 m d) := by
  rw [unscopedBufs_eq, held_S7]; rfl

omit ρ I in
theorem V2_a0 (d : Dev nD) : V2 m d a0' = m (tLoc d) := by
  unfold V2
  rw [(opR1 (F := F)).result_of_not_mem _ (show a0' ∉ ({v1'} : Finset (DevRef τ sig)) by decide),
    (opT1 (F := F)).result_of_not_mem _ (show a0' ∉ ({v0'} : Finset (DevRef τ sig)) by decide)]
  rfl
omit ρ I in
theorem V2_a1 (d : Dev nD) : V2 m d a1' = m (xLoc d) := by
  unfold V2
  rw [(opR1 (F := F)).result_of_not_mem _ (show a1' ∉ ({v1'} : Finset (DevRef τ sig)) by decide),
    (opT1 (F := F)).result_of_not_mem _ (show a1' ∉ ({v0'} : Finset (DevRef τ sig)) by decide)]
  rfl
omit ρ I in
theorem V2_v1 (d : Dev nD) : V2 m d v1' = Il m d := by
  unfold V2
  rw [StableHlo.reshape_result, StableHlo.unary_result]
  rfl

omit ρ I in
theorem V3_v2 (d : Dev nD) : V3 m d v2' = OUTbuf m (Il m) d := Function.update_self _ _ _
omit ρ I in
theorem V3_a0 (d : Dev nD) : V3 m d a0' = m (tLoc d) := (Function.update_of_ne (show a0' ≠ v2' by decide) _ _).trans (V2_a0 m d)
omit ρ I in
theorem V3_a1 (d : Dev nD) : V3 m d a1' = m (xLoc d) := (Function.update_of_ne (show a1' ≠ v2' by decide) _ _).trans (V2_a1 m d)
omit ρ I in
theorem V3_v0 (d : Dev nD) : V3 m d v0' = V2 m d v0' := Function.update_of_ne (show v0' ≠ v2' by decide) _ _
omit ρ I in
theorem V3_v1 (d : Dev nD) : V3 m d v1' = Il m d := (Function.update_of_ne (show v1' ≠ v2' by decide) _ _).trans (V2_v1 m d)
omit ρ I in
theorem V3_v3 (d : Dev nD) : V3 m d v3' = V2 m d v3' := Function.update_of_ne (show v3' ≠ v2' by decide) _ _
omit ρ I in
theorem V3_v4 (d : Dev nD) : V3 m d v4' = V2 m d v4' := Function.update_of_ne (show v4' ≠ v2' by decide) _ _

omit ρ I in
theorem V5_a0 (d : Dev nD) : V5 m d a0' = m (tLoc d) := by
  unfold V5
  rw [(opT2 (F := F)).result_of_not_mem _ (show a0' ∉ ({v4'} : Finset (DevRef τ sig)) by decide),
    (opR2 (F := F)).result_of_not_mem _ (show a0' ∉ ({v3'} : Finset (DevRef τ sig)) by decide), V3_a0]
omit ρ I in
theorem V5_a1 (d : Dev nD) : V5 m d a1' = m (xLoc d) := by
  unfold V5
  rw [(opT2 (F := F)).result_of_not_mem _ (show a1' ∉ ({v4'} : Finset (DevRef τ sig)) by decide),
    (opR2 (F := F)).result_of_not_mem _ (show a1' ∉ ({v3'} : Finset (DevRef τ sig)) by decide), V3_a1]
omit ρ I in
/-- At the end the entry function's result holds the call's flat lookup carried through the last two host operations. -/
theorem V5_v4 (d : Dev nD) : V5 m d v4' = HostValue.result (Cert.Spec.OUT (m (tLoc d)) (HostValue.lists (m (xLoc d)))) := by
  unfold V5
  rw [StableHlo.unary_result, StableHlo.reshape_result, V3_v2]
  rfl

/-- The seven arrays before the call, after it, and at the end. -/
theorem held_V2 (d : Dev nD) :
    (held (T d) S7 ((opR1 (F := F)).result ((opT1 (F := F)).result (V0 m d))) : sProp 𝕄)
      = iprop((tLoc d ↦{fullShare} m (tLoc d)) ∗ (xLoc d ↦{fullShare} m (xLoc d)) ∗ (v0Loc d ↦{fullShare} V2 m d v0') ∗ (lLoc d ↦{fullShare} Il m d)
          ∗ (oLoc d ↦{fullShare} V2 m d v2') ∗ (v3Loc d ↦{fullShare} V2 m d v3') ∗ rLoc d ↦{fullShare} V2 m d v4') := by
  show held (SparseCore.T d) S7 (V2 m d) = _
  rw [held_S7, V2_a0, V2_a1, V2_v1]
theorem held_V3 (d : Dev nD) :
    (held (T d) S7 (V3 m d) : sProp 𝕄)
      = iprop((tLoc d ↦{fullShare} m (tLoc d)) ∗ (xLoc d ↦{fullShare} m (xLoc d)) ∗ (v0Loc d ↦{fullShare} V2 m d v0') ∗ (lLoc d ↦{fullShare} Il m d)
          ∗ (oLoc d ↦{fullShare} OUTbuf m (Il m) d) ∗ (v3Loc d ↦{fullShare} V2 m d v3') ∗ rLoc d ↦{fullShare} V2 m d v4') := by
  rw [held_S7, V3_a0, V3_a1, V3_v0, V3_v1, V3_v2, V3_v3, V3_v4]
theorem held_V5 (d : Dev nD) :
    (held (T d) S7 ((opT2 (F := F)).result ((opR2 (F := F)).result (V3 m d))) : sProp 𝕄)
      = iprop((tLoc d ↦{fullShare} m (tLoc d)) ∗ (xLoc d ↦{fullShare} m (xLoc d)) ∗ (v0Loc d ↦{fullShare} V5 m d v0') ∗ (lLoc d ↦{fullShare} V5 m d v1')
          ∗ (oLoc d ↦{fullShare} V5 m d v2') ∗ (v3Loc d ↦{fullShare} V5 m d v3')
          ∗ rLoc d ↦{fullShare} HostValue.result (Cert.Spec.OUT (m (tLoc d)) (HostValue.lists (m (xLoc d))))) := by
  show held (SparseCore.T d) S7 (V5 m d) = _
  rw [held_S7, V5_a0, V5_a1, V5_v4]

omit [FloatOps F] m ρ I in
theorem hT1 : (opT1 (F := F)).bufs ⊆ S7 := show ({a1', v0'} : Finset (DevRef τ sig)) ⊆ S7 by decide
omit [FloatOps F] m ρ I in
theorem hR1 : (opR1 (F := F)).bufs ⊆ S7 := show ({v0', v1'} : Finset (DevRef τ sig)) ⊆ S7 by decide
omit [FloatOps F] m ρ I in
theorem hR2 : (opR2 (F := F)).bufs ⊆ S7 := show ({v2', v3'} : Finset (DevRef τ sig)) ⊆ S7 by decide
omit [FloatOps F] m ρ I in
theorem hT2 : (opT2 (F := F)).bufs ⊆ S7 := show ({v3', v4'} : Finset (DevRef τ sig)) ⊆ S7 by decide

/-! ## The entry function on the TensorCore -/

/-- What the entry function leaves the claim: the table and the row numbers at their launch contents, the result at
    the flat lookup of the lists carried through the last two host operations. -/
abbrev FIN (d : Dev nD) : sProp 𝕄 :=
  iprop((tLoc d ↦{fullShare} m (tLoc d)) ∗ (xLoc d ↦{fullShare} m (xLoc d))
    ∗ rLoc d ↦{fullShare} HostValue.result (Cert.Spec.OUT (m (tLoc d)) (HostValue.lists (m (xLoc d)))))

/-- The entry function on device d's TensorCore: the transpose and the regrouping (over the seven arrays held
    whole), the call (the three arrays to both SparseCores and back), the regrouping and the transpose. -/
theorem hmain (κ : GSem nD τ sig → ℕ) (d : Dev nD) :
    iprop((K (F := F)).ctx EH (P m (Il m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transpose, the regrouping
  iapply (wp_hlo_within 𝒱 (SparseCore.T d) none Set.univ (op := opT1) (S := S7) hT1 (V := V0 m d)) $$ [Hb Hheld]
  · isplitl [Hb] <;> iassumption
  iintro ⟨Hb, Hheld⟩
  rw [wp_ret]; imodintro
  iapply (wp_hlo_within 𝒱 (SparseCore.T d) none Set.univ (op := opR1) (S := S7) hR1 (V := (opT1 (F := F)).result (V0 m d))) $$ [Hb Hheld]
  · isplitl [Hb] <;> iassumption
  iintro ⟨Hb, Hheld⟩
  rw [wp_ret]; imodintro
  -- the call: the table, the lists and the flat result to both SparseCores and back
  ihave Hh := (Entails.of_eq (held_V2 (F := F) m d)) $$ Hheld
  icases Hh with ⟨Ht, Hx, Hv0, Hl, Ho, Hv3, Hr⟩
  iapply ((K (F := F)).wp_run (D (F := F)) 𝒱 (EH := EH) (P := P m (Il m)) κ d 0) $$ [Hst Ht Hl Ho Hb Hx Hv0 Hv3 Hr]
  isplitr; · iexact Hctx
  isplitl [Hst]; · iexact Hst
  isplitl [Ht Hl Ho]
  · iapply (st0_intro m (Il m) d (V2 m d v2'))
    isplitl [Hl]; · iexact Hl
    isplitl [Ht]; · iexact Ht
    iexact Ho
  iintro ⟨Hst, Hdn⟩
  ihave Hdn' := (Entails.of_eq (dn0_eq m (Il m) d)) $$ Hdn
  icases Hdn' with ⟨Hl, Ht, Ho⟩
  -- the regrouping, the transpose
  iapply (wp_hlo_within 𝒱 (SparseCore.T d) none Set.univ (op := opR2) (S := S7) hR2 (V := V3 m d)) $$ [Hb Ht Hx Hv0 Hl Ho Hv3 Hr]
  · isplitl [Hb]; · iexact Hb
    rw [held_V3]
    isplitl [Ht]; · iexact Ht
    isplitl [Hx]; · iexact Hx
    isplitl [Hv0]; · iexact Hv0
    isplitl [Hl]; · iexact Hl
    isplitl [Ho]; · iexact Ho
    isplitl [Hv3]; · iexact Hv3
    iexact Hr
  iintro ⟨Hb, Hheld⟩
  rw [wp_ret]; imodintro
  iapply (wp_hlo_within 𝒱 (SparseCore.T d) none Set.univ (op := opT2) (S := S7) hT2 (V := (opR2 (F := F)).result (V3 m d))) $$ [Hb Hheld]
  · isplitl [Hb] <;> iassumption
  iintro ⟨Hb, Hheld⟩
  ihave Hh := (Entails.of_eq (held_V5 (F := F) m d)) $$ Hheld
  icases Hh with ⟨Ht, Hx, -, -, -, -, Hr⟩
  rw [wp_ret]; imodintro; imodintro
  isplitl [Hst]; · iexact Hst
  isplitl [Ht]; · iexact Ht
  isplitl [Hx]; · iexact Hx
  iexact Hr

/-! ## The final memory reads the claim -/

def fq (d : Dev nD) (s' : Phys nD τ sig (Elt F)) : Prop :=
  s'.mem.mem (rLoc d) = HostValue.result (Cert.Spec.OUT (m (tLoc d)) (HostValue.lists (m (xLoc d))))
    ∧ s'.mem.mem (tLoc d) = m (tLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Ht, Hx, Hr⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare)
      (f := HostValue.result (Cert.Spec.OUT (m (tLoc d)) (HostValue.lists (m (xLoc d)))))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- On every device: the result is the flat lookup of the host's lists carried through the last two host
    operations; the table and the row numbers are unchanged. -/
def QC : PUnit × MemSt nD τ sig (Elt F) → Prop := fun r => ∀ c : Dev nD,
  r.2.mem (rLoc c) = HostValue.result (Cert.Spec.OUT (m (tLoc c)) (HostValue.lists (m (xLoc c))))
    ∧ r.2.mem (tLoc c) = m (tLoc c) ∧ r.2.mem (xLoc c) = m (xLoc c)

/-- The whole program runs to completion from the launch memory, given the proof of one task's body. -/
theorem run_main [∀ e, Nonempty (Elt F e)]
    (htile : (K (F := F)).TileObl (D (F := F)) 𝒱 (P m (fun d => HostValue.lists (m (xLoc d)))) v₀ 0) :
    θ_run (Cert.Kernel.defs (F := F)) (Cert.Kernel.threads (F := F)) ⟨m, fun _ => 0, ρ⟩
      (fun r => ∀ c : Dev nD,
        r.2.mem (rLoc c) = HostValue.result (Cert.Spec.OUT (m (tLoc c)) (HostValue.lists (m (xLoc c))))
          ∧ r.2.mem (tLoc c) = m (tLoc c) ∧ r.2.mem (xLoc c) = m (xLoc c)) :=
  SparseCore.Cfg.θ_run_sc (K := K (F := F)) (D := D (F := F)) (𝒱 := 𝒱) (EH := EH) (P := P m (Il m)) facts v₀
    (fun q hq => match q with | 0 => nomatch hq)
    (fun q _ => match q with | 0 => htile)
    (fun q _ => match q with | 0 => SparseCore.Cfg.VecSplit.of_plain (vecSplit m (Il m)))
    m ρ main (fun _ => iprop(emp)) (FIN m) (u₀ (F := F)) (sep_elim_left.trans (hu₀ m (Il m))) (hmain m ρ) (fq m) (hfin m) (QC m) (fun _ h => h)

end Cert.Kernel.Sc

end
-- ==== Proof.KIPre.lean ====
/-
  The precondition read back. The printed precondition is the conjunction of two reductions by "and": every entry of
  the table finite, and every word of the array of row numbers between 0 and 99999 as a signed 32-bit word. Only the
  second is needed here: a word that is nonnegative signed and at most 99999 signed has an unsigned value below 100000.
-/
import proofs.«206296_g7516192768393_cont_9to1c4b_737_14_alg».proof.Defs
import proofs.«206296_g7516192768393_cont_9to1c4b_737_14_alg».proof.Proof.Gen.Pre_input_domain
import Idealize.ShloMosaic.Lib.ReduceAll

noncomputable section

namespace Cert.KernelIdeal.PreDecode

open Idealize.ShloMosaic Idealize.SL.Sem

/-- The scalar shape has one index. -/
instance : Subsingleton Cert.Pre_input_domain.S_.Idx := ⟨fun a b => funext fun d => d.elim0⟩

/-- A 32-bit word that is at least 0 and at most 99999, both read signed, is below 100000 read unsigned. -/
theorem toNat_lt_of_cmp (v : BitVec 32) (h0 : IntOp.cmpi .sge v 0#32 = 1#1) (h1 : IntOp.cmpi .sle v 99999#32 = 1#1) :
    v.toNat < 100000 := by
  rw [IntOp.cmpi_sge] at h0
  rw [IntOp.cmpi_sle] at h1
  have e0 : (0#32 : BitVec 32).toInt = 0 := by decide
  have e1 : (99999#32 : BitVec 32).toInt = 99999 := by decide
  rw [e0] at h0
  rw [e1] at h1
  rw [BitVec.toInt_eq_toNat_cond] at h0 h1
  have := v.isLt
  split at h1 <;> omega

/-- The precondition all ones gives every word of the row numbers below 100000. -/
theorem words_lt {F : FTy → Type} [FloatOps F] [Cert.Pre_input_domain.Facts]
    (T : FVec F Cert.Pre_input_domain.S100000x128 .f32) (X : IVec Cert.Pre_input_domain.S4096x50 32)
    (h : Cert.Pre_input_domain.fn (F := F) T X = fun _ => 1#1) : ∀ j, (X j).toNat < 100000 := by
  intro j
  have e := congrFun h (fun a => a.elim0)
  dsimp only [Cert.Pre_input_domain.fn] at e
  obtain ⟨-, e9⟩ := IntOp.andi_eq_one.1 e
  have e8 := Host.reduce_andi_all _ _ _ _ _ e9 j
  obtain ⟨e5, e7⟩ := IntOp.andi_eq_one.1 e8
  exact toNat_lt_of_cmp (X j) e5 e7

/-- The launch memory's row numbers, on every device, are below 100000. -/
theorem ok_of_pre (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) :
    ∀ (c : Dev Cert.KernelIdeal.nD) (j : Cert.KernelIdeal.S4096x50.Idx),
      (m ((c.tc : Thread Cert.KernelIdeal.nD Cert.KernelIdeal.τ).loc Cert.KernelIdeal.main_arg1) j).toNat < 100000 :=
  fun c j => @words_lt Ideal _ Cert.Pre_input_domain.Gen.facts _ _ (h c) j

end Cert.KernelIdeal.PreDecode

end
-- ==== Proof.KPre.lean ====
/-
  The precondition read back. The printed precondition is the conjunction of two reductions by "and": every entry of
  the table finite, and every word of the array of row numbers between 0 and 99999 as a signed 32-bit word. Only the
  second is needed here: a word that is nonnegative signed and at most 99999 signed has an unsigned value below 100000.
-/
import proofs.«206296_g7516192768393_cont_9to1c4b_737_14_alg».proof.Defs
import proofs.«206296_g7516192768393_cont_9to1c4b_737_14_alg».proof.Proof.Gen.Pre_input_domain
import Idealize.ShloMosaic.Lib.ReduceAll

noncomputable section

namespace Cert.Kernel.PreDecode

open Idealize.ShloMosaic Idealize.SL.Sem

/-- The scalar shape has one index. -/
instance : Subsingleton Cert.Pre_input_domain.S_.Idx := ⟨fun a b => funext fun d => d.elim0⟩

/-- A 32-bit word that is at least 0 and at most 99999, both read signed, is below 100000 read unsigned. -/
theorem toNat_lt_of_cmp (v : BitVec 32) (h0 : IntOp.cmpi .sge v 0#32 = 1#1) (h1 : IntOp.cmpi .sle v 99999#32 = 1#1) :
    v.toNat < 100000 := by
  rw [IntOp.cmpi_sge] at h0
  rw [IntOp.cmpi_sle] at h1
  have e0 : (0#32 : BitVec 32).toInt = 0 := by decide
  have e1 : (99999#32 : BitVec 32).toInt = 99999 := by decide
  rw [e0] at h0
  rw [e1] at h1
  rw [BitVec.toInt_eq_toNat_cond] at h0 h1
  have := v.isLt
  split at h1 <;> omega

/-- The precondition all ones gives every word of the row numbers below 100000. -/
theorem words_lt {F : FTy → Type} [FloatOps F] [Cert.Pre_input_domain.Facts]
    (T : FVec F Cert.Pre_input_domain.S100000x128 .f32) (X : IVec Cert.Pre_input_domain.S4096x50 32)
    (h : Cert.Pre_input_domain.fn (F := F) T X = fun _ => 1#1) : ∀ j, (X j).toNat < 100000 := by
  intro j
  have e := congrFun h (fun a => a.elim0)
  dsimp only [Cert.Pre_input_domain.fn] at e
  obtain ⟨-, e9⟩ := IntOp.andi_eq_one.1 e
  have e8 := Host.reduce_andi_all _ _ _ _ _ e9 j
  obtain ⟨e5, e7⟩ := IntOp.andi_eq_one.1 e8
  exact toNat_lt_of_cmp (X j) e5 e7

/-- The launch memory's row numbers, on every device, are below 100000. -/
theorem ok_of_pre (m : (ℓ : Loc Cert.Kernel.nD Cert.Kernel.τ Cert.Kernel.sig) → Buf (Elt Bits) ℓ)
    (h : Cert.Pre_Kernel (hPre_input_domain := Cert.Pre_input_domain.Gen.facts) m) :
    ∀ (c : Dev Cert.Kernel.nD) (j : Cert.Kernel.S4096x50.Idx),
      (m ((c.tc : Thread Cert.Kernel.nD Cert.Kernel.τ).loc Cert.Kernel.main_arg1) j).toNat < 100000 :=
  fun c j => @words_lt Bits _ Cert.Pre_input_domain.Gen.facts _ _ (h c) j

end Cert.Kernel.PreDecode

end
-- ==== Proof.KITileInv.lean ====
/-
  One task of the lookup kernel: the views as the task addresses them, the sets of rows it holds, the values
  that travel, and the invariant of its loop of eight trips.

  The task keeps seven slots. Slot b has a row buffer, a semaphore for gathers into it and a semaphore for
  writes out of it, and a seventh of the task's read share of the table. Chunk g of the task (g < 50) is rows
  6400·w + 128·g … + 127 of the result and row g of the index scratch; it is served by slot g mod 7.
  A slot is either gathering chunk g (the gather's flight delivers the buffer at the chunk's rows of the
  lookup, the slot's share of the table, and row g of the index scratch) or writing chunk g (the write's flight
  delivers the chunk's rows of the result at the lookup, and the buffer).
  The rows of the result are held in two intervals: those finished, at the lookup, and those not begun, at
  whatever they hold; likewise the rows of the index scratch that have come back and those not yet lent.
-/
import proofs.«206296_g7516192768393_cont_9to1c4b_737_14_alg».proof.Proof.KISetup

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg0_scv : Memref Cert.KernelIdeal.sig Kind.scVector Space.hbm Cert.KernelIdeal.S100000x128 EltTy.f32)
local notation "lV" => (Memref.whole Cert.KernelIdeal.main_v1_scv : Memref Cert.KernelIdeal.sig Kind.scVector Space.hbm Cert.KernelIdeal.S32x50x128 EltTy.i32)
local notation "oV" => (Memref.whole Cert.KernelIdeal.main_v2_scv : Memref Cert.KernelIdeal.sig Kind.scVector Space.hbm Cert.KernelIdeal.S204800x128 EltTy.f32)
local notation "iS" => (Memref.whole Cert.KernelIdeal.cc0_scratch0 : Memref Cert.KernelIdeal.sig Kind.scVector Space.vmem Cert.KernelIdeal.S50x128 EltTy.i32)
local notation "B1" => (Memref.whole Cert.KernelIdeal.cc0_scratch1 : Memref Cert.KernelIdeal.sig Kind.scVector Space.vmem Cert.KernelIdeal.S128x128 EltTy.f32)
local notation "B2" => (Memref.whole Cert.KernelIdeal.cc0_scratch2 : Memref Cert.KernelIdeal.sig Kind.scVector Space.vmem Cert.KernelIdeal.S128x128 EltTy.f32)
local notation "B3" => (Memref.whole Cert.KernelIdeal.cc0_scratch3 : Memref Cert.KernelIdeal.sig Kind.scVector Space.vmem Cert.KernelIdeal.S128x128 EltTy.f32)
local notation "B4" => (Memref.whole Cert.KernelIdeal.cc0_scratch4 : Memref Cert.KernelIdeal.sig Kind.scVector Space.vmem Cert.KernelIdeal.S128x128 EltTy.f32)
local notation "B5" => (Memref.whole Cert.KernelIdeal.cc0_scratch5 : Memref Cert.KernelIdeal.sig Kind.scVector Space.vmem Cert.KernelIdeal.S128x128 EltTy.f32)
local notation "B6" => (Memref.whole Cert.KernelIdeal.cc0_scratch6 : Memref Cert.KernelIdeal.sig Kind.scVector Space.vmem Cert.KernelIdeal.S128x128 EltTy.f32)
local notation "B7" => (Memref.whole Cert.KernelIdeal.cc0_scratch7 : Memref Cert.KernelIdeal.sig Kind.scVector Space.vmem Cert.KernelIdeal.S128x128 EltTy.f32)

/-! ## The place -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem bound_zero : grid0.bound 0 = 2 := rfl
theorem bound_one : grid0.bound 1 = 16 := rfl

/-- The task of the subcore at grid point L: twice its subcore number plus its SparseCore's. -/
def wL (L : grid0.Coords) : Fin 32 :=
  ⟨2 * (L 1).val + (L 0).val, by have h0 : (L 0).val < 2 := (L 0).isLt; have h1 : (L 1).val < 16 := (L 1).isLt; omega⟩

/-! ## The views as the task addresses them -/

/-- The task's list: row w of the lists, squeezed. -/
abbrev lRowK (L : grid0.Coords) : Memref sig .scVector .hbm S50x128 .i32 :=
  ((lV).slice (Rect.unit (s := S32x50x128) (k0_off1 L) S1x50x128.size (k0_off1_inb L)) (fun _ => rfl)).squeeze S50x128 squeezes_S1x50x128_S50x128

/-- The whole table, as every gather slices it. -/
abbrev tAllK : Memref sig .scVector .hbm S100000x128 .f32 :=
  (tV).slice (Rect.unit (s := S100000x128) ![0, 0] S100000x128.size inb_S100000x128_S100000x128_0_0) (fun _ => rfl)

theorem iRow_inb (g : Fin 50) : ∀ a, (![g.val, 0] : Fin 2 → Nat) a + S1x128.size a ≤ S50x128.size a := by
  intro a; have := g.isLt
  match a with
  | 0 => show g.val + 1 ≤ 50; omega
  | 1 => show 0 + 128 ≤ 128; omega

/-- Row g of the index scratch, squeezed: the offsets of the gather of chunk g. -/
abbrev iRowK (g : Fin 50) : Memref sig .scVector .vmem S128 .i32 :=
  ((iS).slice (Rect.unit (s := S50x128) ![g.val, 0] S1x128.size (iRow_inb g)) (fun _ => rfl)).squeeze S128 squeezes_S1x128_S128

theorem oChunk_inb (w : Fin 32) (g : Fin 50) : ∀ a, (![6400 * w.val + 128 * g.val, 0] : Fin 2 → Nat) a + S128x128.size a ≤ S204800x128.size a := by
  intro a; have := g.isLt; have := w.isLt
  match a with
  | 0 => show 6400 * w.val + 128 * g.val + 128 ≤ 204800; omega
  | 1 => show 0 + 128 ≤ 128; omega

/-- Chunk g of task w: rows 6400·w + 128·g … + 127 of the result. -/
abbrev oChunkK (w : Fin 32) (g : Fin 50) : Memref sig .scVector .hbm S128x128 .f32 :=
  (oV).slice (Rect.unit (s := S204800x128) ![6400 * w.val + 128 * g.val, 0] S128x128.size (oChunk_inb w g)) (fun _ => rfl)

/-! ## Intervals of rows -/

/-- Rows lo ≤ r < hi of the result. -/
def oRange (lo hi : ℕ) : Finset S204800x128.Idx := Finset.univ.filter fun i => lo ≤ (i 0).val ∧ (i 0).val < hi
/-- Rows lo ≤ r < hi of the index scratch. -/
def iRange (lo hi : ℕ) : Finset S50x128.Idx := Finset.univ.filter fun i => lo ≤ (i 0).val ∧ (i 0).val < hi

variable (m : (ℓ : Loc nD τ sig) → Buf (Elt F) ℓ) (I : (d : Dev nD) → Buf (Elt F) (lLoc d))
variable [FloatOps F]
variable (d : Dev nD) (L : grid0.Coords)

/-! ## The values that travel -/

/-- What the index scratch holds once the task's list has landed: the task's list. -/
def Widx : S50x128.Idx → Elt F .i32 := (lRowK L).view.read (Elt F) (I d)

/-- What a buffer holds once chunk g has been gathered into it: the chunk's rows of the lookup. -/
def gVal (g : Fin 50) : S128x128.Idx → Elt F .f32 := (oChunkK (wL L) g).view.read (Elt F) (OUTbuf m I d)

/-- Slot b's share of the table: a seventh of the task's. -/
abbrev qt (b : Fin 7) : PosShare TreeShare := pieceOf (tq (wL L)) 7 (by norm_num) b

/-! ## The slots -/

set_option quotPrecheck false in
/-- What the gather of chunk g into buffer B delivers: the buffer at the chunk's values and row g of the index
    scratch, and the share of the table. -/
local notation "GDEL(" B ", " b ", " g ")" =>
  iprop((((B).view.loc (thr d L) ↦[(B).view.set]{fullShare} gVal m I d L g)
      ∗ ((iS).view.loc (thr d L) ↦[(iRowK g).view.set]{fullShare} Widx I d L))
    ∗ ((tV).view.loc (thr d L) ↦[(tAllK).view.set]{qt L b} m (tLoc d)))

set_option quotPrecheck false in
/-- What the write of chunk g out of buffer B delivers: the chunk's rows of the result at the lookup, the buffer. -/
local notation "WDEL(" B ", " g ")" =>
  iprop(((oV).view.loc (thr d L) ↦[(oChunkK (wL L) g).view.set]{fullShare} OUTbuf m I d)
    ∗ ((B).view.loc (thr d L) ↦[(B).view.set]{fullShare} gVal m I d L g))

def gDel1 (g : Fin 50) : sProp 𝕄 := GDEL(B1, 0, g)
def gDel2 (g : Fin 50) : sProp 𝕄 := GDEL(B2, 1, g)
def gDel3 (g : Fin 50) : sProp 𝕄 := GDEL(B3, 2, g)
def gDel4 (g : Fin 50) : sProp 𝕄 := GDEL(B4, 3, g)
def gDel5 (g : Fin 50) : sProp 𝕄 := GDEL(B5, 4, g)
def gDel6 (g : Fin 50) : sProp 𝕄 := GDEL(B6, 5, g)
def gDel7 (g : Fin 50) : sProp 𝕄 := GDEL(B7, 6, g)
def wDel1 (g : Fin 50) : sProp 𝕄 := WDEL(B1, g)
def wDel2 (g : Fin 50) : sProp 𝕄 := WDEL(B2, g)
def wDel3 (g : Fin 50) : sProp 𝕄 := WDEL(B3, g)
def wDel4 (g : Fin 50) : sProp 𝕄 := WDEL(B4, g)
def wDel5 (g : Fin 50) : sProp 𝕄 := WDEL(B5, g)
def wDel6 (g : Fin 50) : sProp 𝕄 := WDEL(B6, g)
def wDel7 (g : Fin 50) : sProp 𝕄 := WDEL(B7, g)

/-! ## The rows of the result and of the index scratch, in intervals -/

/-- The first n chunks of the task's rows of the result, at the lookup. -/
def oDone (n : ℕ) : sProp 𝕄 :=
  (oV).view.loc (thr d L) ↦[oRange (6400 * (wL L).val) (6400 * (wL L).val + 128 * n)]{fullShare} OUTbuf m I d
/-- The task's rows of the result from chunk n on, at whatever they hold. -/
def oTodo (n : ℕ) : sProp 𝕄 :=
  iprop(∃ f, (oV).view.loc (thr d L) ↦[oRange (6400 * (wL L).val + 128 * n) (6400 * (wL L).val + 6400)]{fullShare} f)
/-- The first n rows of the index scratch, at the task's list. -/
def iDone (n : ℕ) : sProp 𝕄 := (iS).view.loc (thr d L) ↦[iRange 0 n]{fullShare} Widx I d L
/-- The rows of the index scratch from row n on, at the task's list. -/
def iTodo (n : ℕ) : sProp 𝕄 := (iS).view.loc (thr d L) ↦[iRange n 50]{fullShare} Widx I d L

/-! ## A slot gathering, a slot writing -/

set_option quotPrecheck false in
local notation "SLOTG(" gs ", " ws ", " D ")" =>
  iprop(Transfers.Flight countersEmb (thr d L) (SemLoc.dma (gs).sem) (default : HIx 1) 524288 D
    ∗ semVal (thr d L, SemLoc.dma (ws).sem) 0)
set_option quotPrecheck false in
local notation "SLOTW(" gs ", " ws ", " b ", " D ")" =>
  iprop(Transfers.Flight countersEmb (thr d L) (SemLoc.dma (ws).sem) (default : HIx 1) 524288 D
    ∗ semVal (thr d L, SemLoc.dma (gs).sem) 0
    ∗ ((tV).view.loc (thr d L) ↦[(tAllK).view.set]{qt L b} m (tLoc d)))

def slotG1 (g : Fin 50) : sProp 𝕄 := SLOTG(cc0_scratch8, cc0_scratch15, gDel1 m I d L g)
def slotG2 (g : Fin 50) : sProp 𝕄 := SLOTG(cc0_scratch9, cc0_scratch16, gDel2 m I d L g)
def slotG3 (g : Fin 50) : sProp 𝕄 := SLOTG(cc0_scratch10, cc0_scratch17, gDel3 m I d L g)
def slotG4 (g : Fin 50) : sProp 𝕄 := SLOTG(cc0_scratch11, cc0_scratch18, gDel4 m I d L g)
def slotG5 (g : Fin 50) : sProp 𝕄 := SLOTG(cc0_scratch12, cc0_scratch19, gDel5 m I d L g)
def slotG6 (g : Fin 50) : sProp 𝕄 := SLOTG(cc0_scratch13, cc0_scratch20, gDel6 m I d L g)
def slotG7 (g : Fin 50) : sProp 𝕄 := SLOTG(cc0_scratch14, cc0_scratch21, gDel7 m I d L g)
def slotW1 (g : Fin 50) : sProp 𝕄 := SLOTW(cc0_scratch8, cc0_scratch15, 0, wDel1 m I d L g)
def slotW2 (g : Fin 50) : sProp 𝕄 := SLOTW(cc0_scratch9, cc0_scratch16, 1, wDel2 m I d L g)
def slotW3 (g : Fin 50) : sProp 𝕄 := SLOTW(cc0_scratch10, cc0_scratch17, 2, wDel3 m I d L g)
def slotW4 (g : Fin 50) : sProp 𝕄 := SLOTW(cc0_scratch11, cc0_scratch18, 3, wDel4 m I d L g)
def slotW5 (g : Fin 50) : sProp 𝕄 := SLOTW(cc0_scratch12, cc0_scratch19, 4, wDel5 m I d L g)
def slotW6 (g : Fin 50) : sProp 𝕄 := SLOTW(cc0_scratch13, cc0_scratch20, 5, wDel6 m I d L g)
def slotW7 (g : Fin 50) : sProp 𝕄 := SLOTW(cc0_scratch14, cc0_scratch21, 6, wDel7 m I d L g)

/-! ## The invariant -/

variable (O : CellTallies nD τ sig (HIx 1)) (W : Waits sig (HIx 1))

/-- The task's debt with the waits recorded so far, and the evidence that it may wait. -/
def owesPart : sProp 𝕄 :=
  iprop(Transfers.MayWaits (thr d L) (default : HIx 1) O ∗ ∃ W', ⌜∀ p ∈ W', p ∈ W ∨ p.2 = none⌝ ∗ owes (thr d L) O W')

/-- Before trip t ≤ 6: every slot gathers its chunk of group t; the groups before are written, the groups from t on
    are not begun; the rows of the index scratch of the groups before have come back, those of the groups after
    t have not been lent. -/
def InvA (t : ℕ) (ht : t ≤ 6) : sProp 𝕄 :=
  iprop(slotG1 m I d L ⟨7 * t, by omega⟩ ∗ slotG2 m I d L ⟨7 * t + 1, by omega⟩ ∗ slotG3 m I d L ⟨7 * t + 2, by omega⟩
    ∗ slotG4 m I d L ⟨7 * t + 3, by omega⟩ ∗ slotG5 m I d L ⟨7 * t + 4, by omega⟩ ∗ slotG6 m I d L ⟨7 * t + 5, by omega⟩
    ∗ slotG7 m I d L ⟨7 * t + 6, by omega⟩
    ∗ oDone m I d L (7 * t) ∗ oTodo d L (7 * t) ∗ iDone I d L (7 * t) ∗ iTodo I d L (7 * t + 7) ∗ owesPart d L O W)

/-- Before the last trip: slot 0 gathers the last chunk, the others write chunks 43 … 48. -/
def Inv7 : sProp 𝕄 :=
  iprop(slotG1 m I d L ⟨49, by omega⟩ ∗ slotW2 m I d L ⟨43, by omega⟩ ∗ slotW3 m I d L ⟨44, by omega⟩
    ∗ slotW4 m I d L ⟨45, by omega⟩ ∗ slotW5 m I d L ⟨46, by omega⟩ ∗ slotW6 m I d L ⟨47, by omega⟩
    ∗ slotW7 m I d L ⟨48, by omega⟩
    ∗ oDone m I d L 43 ∗ oTodo d L 49 ∗ iDone I d L 49 ∗ iTodo I d L 50 ∗ owesPart d L O W)

/-- After the loop: every slot writes. -/
def Inv8 : sProp 𝕄 :=
  iprop(slotW1 m I d L ⟨49, by omega⟩ ∗ slotW2 m I d L ⟨43, by omega⟩ ∗ slotW3 m I d L ⟨44, by omega⟩
    ∗ slotW4 m I d L ⟨45, by omega⟩ ∗ slotW5 m I d L ⟨46, by omega⟩ ∗ slotW6 m I d L ⟨47, by omega⟩
    ∗ slotW7 m I d L ⟨48, by omega⟩
    ∗ oDone m I d L 43 ∗ oTodo d L 50 ∗ iDone I d L 50 ∗ iTodo I d L 50 ∗ owesPart d L O W)

/-- The loop's invariant before trip t (the loop carries a word nobody reads). -/
def Inv (t : ℕ) (_ : BitVec 32) : sProp 𝕄 :=
  if ht : t ≤ 6 then InvA m I d L O W t ht else if t = 7 then Inv7 m I d L O W else Inv8 m I d L O W

theorem Inv_le {t : ℕ} (ht : t ≤ 6) (a : BitVec 32) : Inv m I d L O W t a = InvA m I d L O W t ht := dif_pos ht
theorem Inv_seven (a : BitVec 32) : Inv m I d L O W 7 a = Inv7 m I d L O W := by unfold Inv; rw [dif_neg (by omega), if_pos rfl]
theorem Inv_eight (a : BitVec 32) : Inv m I d L O W 8 a = Inv8 m I d L O W := by unfold Inv; rw [dif_neg (by omega), if_neg (by omega)]

end Cert.KernelIdeal.Sc

end
-- ==== Proof.KITileWrap.lean ====
/-
  One task of the lookup kernel, as the launch asks for it.

  The launch hands a vector subcore its task's operands, ALL of the subcore's own scratch buffers at some contents
  and ALL of its own semaphores at zero, and asks them back. The task's run is stated over exactly what the body
  names: the eight scratch buffers and the fifteen semaphores, one conjunct each. Here the subcore's own are shown to
  be those named ones (the semaphores exactly; the buffers and a remainder the body never touches, carried around the
  run), the evidence that the task may wait is drawn from the levels, and the run at a grid point is made the
  obligation at the launch's own spelling of thread and program.
-/
import proofs.«206296_g7516192768393_cont_9to1c4b_737_14_alg».proof.Proof.KISetup
import proofs.«206296_g7516192768393_cont_9to1c4b_737_14_alg».proof.Proof.KITileInv

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg0_scv : Memref Cert.KernelIdeal.sig Kind.scVector Space.hbm Cert.KernelIdeal.S100000x128 EltTy.f32)
local notation "lV" => (Memref.whole Cert.KernelIdeal.main_v1_scv : Memref Cert.KernelIdeal.sig Kind.scVector Space.hbm Cert.KernelIdeal.S32x50x128 EltTy.i32)
local notation "oV" => (Memref.whole Cert.KernelIdeal.main_v2_scv : Memref Cert.KernelIdeal.sig Kind.scVector Space.hbm Cert.KernelIdeal.S204800x128 EltTy.f32)
local notation "iS" => (Memref.whole Cert.KernelIdeal.cc0_scratch0 : Memref Cert.KernelIdeal.sig Kind.scVector Space.vmem Cert.KernelIdeal.S50x128 EltTy.i32)
local notation "B1" => (Memref.whole Cert.KernelIdeal.cc0_scratch1 : Memref Cert.KernelIdeal.sig Kind.scVector Space.vmem Cert.KernelIdeal.S128x128 EltTy.f32)
local notation "B2" => (Memref.whole Cert.KernelIdeal.cc0_scratch2 : Memref Cert.KernelIdeal.sig Kind.scVector Space.vmem Cert.KernelIdeal.S128x128 EltTy.f32)
local notation "B3" => (Memref.whole Cert.KernelIdeal.cc0_scratch3 : Memref Cert.KernelIdeal.sig Kind.scVector Space.vmem Cert.KernelIdeal.S128x128 EltTy.f32)
local notation "B4" => (Memref.whole Cert.KernelIdeal.cc0_scratch4 : Memref Cert.KernelIdeal.sig Kind.scVector Space.vmem Cert.KernelIdeal.S128x128 EltTy.f32)
local notation "B5" => (Memref.whole Cert.KernelIdeal.cc0_scratch5 : Memref Cert.KernelIdeal.sig Kind.scVector Space.vmem Cert.KernelIdeal.S128x128 EltTy.f32)
local notation "B6" => (Memref.whole Cert.KernelIdeal.cc0_scratch6 : Memref Cert.KernelIdeal.sig Kind.scVector Space.vmem Cert.KernelIdeal.S128x128 EltTy.f32)
local notation "B7" => (Memref.whole Cert.KernelIdeal.cc0_scratch7 : Memref Cert.KernelIdeal.sig Kind.scVector Space.vmem Cert.KernelIdeal.S128x128 EltTy.f32)

variable (m : (ℓ : Loc nD τ sig) → Buf (Elt F) ℓ) (I : (d : Dev nD) → Buf (Elt F) (lLoc d))
variable [FloatOps F]
variable (d : Dev nD) (L : grid0.Coords)

/-! ## The task's run, over what the body names -/

/-- The task at grid point L of device d, from its list, its share of the table, its rows of the result at whatever
    they hold, its eight scratch buffers at whatever they hold and its fifteen semaphores at zero: it ends with the
    same, its rows of the result at the lookup, and owes what it owed, its waits recorded. -/
def TileCore (m : (ℓ : Loc nD τ sig) → Buf (Elt F) ℓ) (I : (d : Dev nD) → Buf (Elt F) (lLoc d)) (d : Dev nD) (L : grid0.Coords) : Prop :=
  ∀ (O : CellTallies nD τ sig (HIx 1)) (W : Waits sig (HIx 1)),
    iprop((Transfers.MayWaits (thr d L) (default : HIx 1) O : sProp 𝕄)
        ∗ (lLoc d ↦[lRowSet (wL L)]{fullShare} I d) ∗ (tLoc d ↦{tq (wL L)} m (tLoc d)) ∗ (∃ f, oLoc d ↦[oRowSet (wL L)]{fullShare} f)
        ∗ (∃ f, (thr d L).loc cc0_scratch0 ↦{fullShare} f) ∗ (∃ f, (thr d L).loc cc0_scratch1 ↦{fullShare} f)
        ∗ (∃ f, (thr d L).loc cc0_scratch2 ↦{fullShare} f) ∗ (∃ f, (thr d L).loc cc0_scratch3 ↦{fullShare} f)
        ∗ (∃ f, (thr d L).loc cc0_scratch4 ↦{fullShare} f) ∗ (∃ f, (thr d L).loc cc0_scratch5 ↦{fullShare} f)
        ∗ (∃ f, (thr d L).loc cc0_scratch6 ↦{fullShare} f) ∗ (∃ f, (thr d L).loc cc0_scratch7 ↦{fullShare} f)
        ∗ semVal (thr d L, SemLoc.dma cc0_scratch8.sem) 0 ∗ semVal (thr d L, SemLoc.dma cc0_scratch9.sem) 0 ∗ semVal (thr d L, SemLoc.dma cc0_scratch10.sem) 0
        ∗ semVal (thr d L, SemLoc.dma cc0_scratch11.sem) 0 ∗ semVal (thr d L, SemLoc.dma cc0_scratch12.sem) 0 ∗ semVal (thr d L, SemLoc.dma cc0_scratch13.sem) 0
        ∗ semVal (thr d L, SemLoc.dma cc0_scratch14.sem) 0 ∗ semVal (thr d L, SemLoc.dma cc0_scratch15.sem) 0 ∗ semVal (thr d L, SemLoc.dma cc0_scratch16.sem) 0
        ∗ semVal (thr d L, SemLoc.dma cc0_scratch17.sem) 0 ∗ semVal (thr d L, SemLoc.dma cc0_scratch18.sem) 0 ∗ semVal (thr d L, SemLoc.dma cc0_scratch19.sem) 0
        ∗ semVal (thr d L, SemLoc.dma cc0_scratch20.sem) 0 ∗ semVal (thr d L, SemLoc.dma cc0_scratch21.sem) 0 ∗ semVal (thr d L, SemLoc.dma cc0_scoped0.sem) 0
        ∗ owes (thr d L) O W)
      ⊢ wp frame (wpE (defs₀ (F := F)) 𝒱₀ (thr d L) none) Set.univ
          (cc0__gather_body L tV (Memref.isWhole_whole _) lV (Memref.isWhole_whole _) oV (Memref.isWhole_whole _) iS (Memref.isWhole_whole _)
            B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0)
          fun _ => iprop((lLoc d ↦[lRowSet (wL L)]{fullShare} I d) ∗ (tLoc d ↦{tq (wL L)} m (tLoc d)) ∗ (oLoc d ↦[oRowSet (wL L)]{fullShare} OUTbuf m I d)
            ∗ (∃ f, (thr d L).loc cc0_scratch0 ↦{fullShare} f) ∗ (∃ f, (thr d L).loc cc0_scratch1 ↦{fullShare} f)
            ∗ (∃ f, (thr d L).loc cc0_scratch2 ↦{fullShare} f) ∗ (∃ f, (thr d L).loc cc0_scratch3 ↦{fullShare} f)
            ∗ (∃ f, (thr d L).loc cc0_scratch4 ↦{fullShare} f) ∗ (∃ f, (thr d L).loc cc0_scratch5 ↦{fullShare} f)
            ∗ (∃ f, (thr d L).loc cc0_scratch6 ↦{fullShare} f) ∗ (∃ f, (thr d L).loc cc0_scratch7 ↦{fullShare} f)
            ∗ semVal (thr d L, SemLoc.dma cc0_scratch8.sem) 0 ∗ semVal (thr d L, SemLoc.dma cc0_scratch9.sem) 0 ∗ semVal (thr d L, SemLoc.dma cc0_scratch10.sem) 0
            ∗ semVal (thr d L, SemLoc.dma cc0_scratch11.sem) 0 ∗ semVal (thr d L, SemLoc.dma cc0_scratch12.sem) 0 ∗ semVal (thr d L, SemLoc.dma cc0_scratch13.sem) 0
            ∗ semVal (thr d L, SemLoc.dma cc0_scratch14.sem) 0 ∗ semVal (thr d L, SemLoc.dma cc0_scratch15.sem) 0 ∗ semVal (thr d L, SemLoc.dma cc0_scratch16.sem) 0
            ∗ semVal (thr d L, SemLoc.dma cc0_scratch17.sem) 0 ∗ semVal (thr d L, SemLoc.dma cc0_scratch18.sem) 0 ∗ semVal (thr d L, SemLoc.dma cc0_scratch19.sem) 0
            ∗ semVal (thr d L, SemLoc.dma cc0_scratch20.sem) 0 ∗ semVal (thr d L, SemLoc.dma cc0_scratch21.sem) 0 ∗ semVal (thr d L, SemLoc.dma cc0_scoped0.sem) 0
            ∗ ∃ W', ⌜∀ p ∈ W', p ∈ W ∨ p.2 = none⌝ ∗ owes (thr d L) O W')

/-! ## The subcore's own semaphores and scratch buffers are the ones the body names -/

omit [FloatOps F] m I d L in
/-- A family over a set holds a sub-family, indexed through an embedding, and the rest. -/
theorem bigSep_split_map {ι κ : Type} [DecidableEq κ] (s : Finset κ) (R : Finset ι) (e : ι ↪ κ) (h : ∀ r ∈ R, e r ∈ s) (Φ : κ → sProp 𝕄) :
    bigSep s Φ = iprop((bigSep R fun r => Φ (e r)) ∗ bigSep (s \ R.map e) Φ) := by
  have hsub : R.map e ⊆ s := fun x hx => by
    obtain ⟨r, hr, rfl⟩ := Finset.mem_map.mp hx
    exact h r hr
  conv_lhs => rw [← Finset.union_sdiff_of_subset hsub]
  rw [bigSep_union Finset.disjoint_sdiff, bigSep_map]
  rfl

omit [FloatOps F] m I in
/-- The subcore's own semaphores are the fifteen the body names. -/
theorem ownSems0_V :
    (ownSems0 (thr d L) : sProp 𝕄)
      = iprop(semVal (thr d L, SemLoc.dma cc0_scratch8.sem) 0
          ∗ semVal (thr d L, SemLoc.dma cc0_scratch9.sem) 0 ∗ semVal (thr d L, SemLoc.dma cc0_scratch10.sem) 0 ∗ semVal (thr d L, SemLoc.dma cc0_scratch11.sem) 0
          ∗ semVal (thr d L, SemLoc.dma cc0_scratch12.sem) 0 ∗ semVal (thr d L, SemLoc.dma cc0_scratch13.sem) 0 ∗ semVal (thr d L, SemLoc.dma cc0_scratch14.sem) 0
          ∗ semVal (thr d L, SemLoc.dma cc0_scratch15.sem) 0 ∗ semVal (thr d L, SemLoc.dma cc0_scratch16.sem) 0 ∗ semVal (thr d L, SemLoc.dma cc0_scratch17.sem) 0
          ∗ semVal (thr d L, SemLoc.dma cc0_scratch18.sem) 0 ∗ semVal (thr d L, SemLoc.dma cc0_scratch19.sem) 0 ∗ semVal (thr d L, SemLoc.dma cc0_scratch20.sem) 0
          ∗ semVal (thr d L, SemLoc.dma cc0_scratch21.sem) 0 ∗ semVal (thr d L, SemLoc.dma cc0_scoped0.sem) 0) := by
  rw [SparseCore.Cfg.ownSems0_eq (thr d L)]
  rw [show (Finset.univ.filter fun sm : SemLoc sig => sm.isScoped (thr d L).2.kind)
      = {SemLoc.dma cc0_scratch8.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem, SemLoc.dma cc0_scratch19.sem, SemLoc.dma cc0_scratch20.sem, SemLoc.dma cc0_scratch21.sem, SemLoc.dma cc0_scoped0.sem} by
    show (Finset.univ.filter fun sm : SemLoc sig => sm.isScoped .scVector) = _
    decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The eight scratch buffers, as references of a vector subcore. -/
abbrev R8 : Finset (Ref sig .scVector) := {cc0_scratch0, cc0_scratch1, cc0_scratch2, cc0_scratch3, cc0_scratch4, cc0_scratch5, cc0_scratch6, cc0_scratch7}

omit [FloatOps F] m I in
/-- The eight scratch buffers are among the subcore's own: they are them, at some contents, and the rest. -/
theorem ownBufs_V :
    (ownBufs (thr d L) : sProp 𝕄)
      = iprop(((∃ f, (thr d L).loc cc0_scratch0 ↦{fullShare} f)
          ∗ (∃ f, (thr d L).loc cc0_scratch1 ↦{fullShare} f) ∗ (∃ f, (thr d L).loc cc0_scratch2 ↦{fullShare} f)
          ∗ (∃ f, (thr d L).loc cc0_scratch3 ↦{fullShare} f) ∗ (∃ f, (thr d L).loc cc0_scratch4 ↦{fullShare} f)
          ∗ (∃ f, (thr d L).loc cc0_scratch5 ↦{fullShare} f) ∗ (∃ f, (thr d L).loc cc0_scratch6 ↦{fullShare} f)
          ∗ (∃ f, (thr d L).loc cc0_scratch7 ↦{fullShare} f))
          ∗ bigSep ((ownRefs (τ := τ) (.scVector (cV L) (jV L))) \ R8.map ⟨(Proc.scVector (cV L) (jV L)).devRef, Proc.devRef_injective _⟩)
              fun b => iprop(∃ f, ((d, b) : Loc nD τ sig) ↦{fullShare} f)) := by
  unfold SparseCore.Cfg.ownBufs
  rw [bigSep_split_map (F := F) (ownRefs (τ := τ) (.scVector (cV L) (jV L))) R8 ⟨(Proc.scVector (cV L) (jV L)).devRef, Proc.devRef_injective _⟩
    (fun r hr => by
      simp only [R8, Finset.mem_insert, Finset.mem_singleton] at hr
      rcases hr with rfl | rfl | rfl | rfl | rfl | rfl | rfl | rfl <;> exact SparseCore.Cfg.mem_ownRefs_of_owner rfl)]
  unfold R8
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-! ## The run as the launch states it -/

/-- The task on the vector subcore at grid point L of device d, as the launch states it: from the task's operands
    and ALL the subcore's scoped storage to the task's results and the storage back. -/
theorem tile_body_of_core (hF : (K (F := F)).Facts) (hcore : TileCore m I d L) (O : CellTallies nD τ sig (HIx 1)) (W : Waits sig (HIx 1))
    (hO : ∀ g, O g none = 0) :
    iprop(levAts (K (F := F)).L (K (F := F)).lev ∗ emp
        ∗ taskGo m I d (wL L)
        ∗ scopedBufs (thr d L) ∗ scopedSems0 (thr d L) ∗ owes (thr d L) O W)
      ⊢ wp frame (wpE (defs₀ (F := F)) 𝒱₀ (thr d L) none) Set.univ
          (cc0__gather_body L tV (Memref.isWhole_whole _) lV (Memref.isWhole_whole _) oV (Memref.isWhole_whole _) iS (Memref.isWhole_whole _)
            B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0)
          fun _ => iprop(taskTd m I d (wL L)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hl, Ht, Ho⟩, ⟨⟨Hb0, Hb1, Hb2, Hb3, Hb4, Hb5, Hb6, Hb7⟩, Hbufs⟩, ⟨Hs0, Hs1, Hs2, Hs3, Hs4, Hs5, Hs6, Hs7, Hs8, Hs9, Hs10, Hs11, Hs12, Hs13, Hs14⟩, HO⟩
  ihave Hmw := (show levAts (K (F := F)).L (K (F := F)).lev ⊢ Transfers.MayWaits (thr d L) (default : HIx 1) O from
    (K (F := F)).mayWaits_none (thr := thr d L) hO) $$ Hlv
  iapply (wp_wand_r frame _ Set.univ)
  isplitl [Hmw Hl Ht Ho Hb0 Hb1 Hb2 Hb3 Hb4 Hb5 Hb6 Hb7 Hs0 Hs1 Hs2 Hs3 Hs4 Hs5 Hs6 Hs7 Hs8 Hs9 Hs10 Hs11 Hs12 Hs13 Hs14 HO]
  · iapply (hcore O W)
    isplitl [Hmw]; · iexact Hmw
    isplitl [Hl]; · iexact Hl
    isplitl [Ht]; · iexact Ht
    isplitl [Ho]; · iexact Ho
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    iexact HO
  iintro %_ ⟨Hl, Ht, Ho, Hb0, Hb1, Hb2, Hb3, Hb4, Hb5, Hb6, Hb7, Hs0, Hs1, Hs2, Hs3, Hs4, Hs5, Hs6, Hs7, Hs8, Hs9, Hs10, Hs11, Hs12, Hs13, Hs14, HW⟩
  isplitl [Hl Ht Ho]
  · isplitl [Hl]; · iexact Hl
    isplitl [Ht]; · iexact Ht
    iexact Ho
  isplitl [Hb0 Hb1 Hb2 Hb3 Hb4 Hb5 Hb6 Hb7 Hbufs]
  · isplitl [Hb0 Hb1 Hb2 Hb3 Hb4 Hb5 Hb6 Hb7]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      iexact Hb7
    iexact Hbufs
  isplitl [Hs0 Hs1 Hs2 Hs3 Hs4 Hs5 Hs6 Hs7 Hs8 Hs9 Hs10 Hs11 Hs12 Hs13 Hs14]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    iexact Hs14
  iexact HW

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

omit [FloatOps F] m I d L in
/-- The task at the grid point of subcore s of SparseCore c is task 2·s + c. -/
theorem wL_coordsV (c : Fin (grid0.bound 0)) (s : Fin (grid0.bound 1)) :
    wL (coordsV c s) = wid (Fin.cast bound_zero c) (Fin.cast bound_one s) := Fin.ext rfl

omit m I d L in
theorem defs₀_vector (c : Fin τ.nSC) (s : Fin τ.nSub) :
    defs₀ (F := F) (.scVector c s) 0 ()
      = SparseCore.onTile hcore0 hsub0 (fun c s => cc0__gather_body (coordsV c s)
          tV (Memref.isWhole_whole _) lV (Memref.isWhole_whole _) oV (Memref.isWhole_whole _) iS (Memref.isWhole_whole _)
          B1 (Memref.isWhole_whole _) B2 (Memref.isWhole_whole _) B3 (Memref.isWhole_whole _) B4 (Memref.isWhole_whole _)
          B5 (Memref.isWhole_whole _) B6 (Memref.isWhole_whole _) B7 (Memref.isWhole_whole _)
          cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0) ⟨⟩ c s := rfl

omit [FloatOps F] m I d L in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch's obligation for the kernel's tasks, from the task's run at every grid point. -/
theorem tileObl_of_core (hF : (K (F := F)).Facts) (hcore : ∀ d L, TileCore m I d L) : (K (F := F)).TileObl (D (F := F)) 𝒱 (P m I) v₀ 0 := by
  intro d c i O W hO _ _
  simp only [show (P m I).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body_of_core m I d (coordsV ⟨_, hci.1⟩ ⟨_, hci.2⟩) hF (hcore d _) O W hO).trans (wp_mono frame _ _ fun _ => obl_post)

end Cert.KernelIdeal.Sc

end
-- ==== Proof.KTileInv.lean ====
/-
  One task of the lookup kernel: the views as the task addresses them, the sets of rows it holds, the values
  that travel, and the invariant of its loop of eight trips.

  The task keeps seven slots. Slot b has a row buffer, a semaphore for gathers into it and a semaphore for
  writes out of it, and a seventh of the task's read share of the table. Chunk g of the task (g < 50) is rows
  6400·w + 128·g … + 127 of the result and row g of the index scratch; it is served by slot g mod 7.
  A slot is either gathering chunk g (the gather's flight delivers the buffer at the chunk's rows of the
  lookup, the slot's share of the table, and row g of the index scratch) or writing chunk g (the write's flight
  delivers the chunk's rows of the result at the lookup, and the buffer).
  The rows of the result are held in two intervals: those finished, at the lookup, and those not begun, at
  whatever they hold; likewise the rows of the index scratch that have come back and those not yet lent.
-/
import proofs.«206296_g7516192768393_cont_9to1c4b_737_14_alg».proof.Proof.KSetup

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_arg0_scv : Memref Cert.Kernel.sig Kind.scVector Space.hbm Cert.Kernel.S100000x128 EltTy.f32)
local notation "lV" => (Memref.whole Cert.Kernel.main_v1_scv : Memref Cert.Kernel.sig Kind.scVector Space.hbm Cert.Kernel.S32x50x128 EltTy.i32)
local notation "oV" => (Memref.whole Cert.Kernel.main_v2_scv : Memref Cert.Kernel.sig Kind.scVector Space.hbm Cert.Kernel.S204800x128 EltTy.f32)
local notation "iS" => (Memref.whole Cert.Kernel.cc0_scratch0 : Memref Cert.Kernel.sig Kind.scVector Space.vmem Cert.Kernel.S50x128 EltTy.i32)
local notation "B1" => (Memref.whole Cert.Kernel.cc0_scratch1 : Memref Cert.Kernel.sig Kind.scVector Space.vmem Cert.Kernel.S128x128 EltTy.f32)
local notation "B2" => (Memref.whole Cert.Kernel.cc0_scratch2 : Memref Cert.Kernel.sig Kind.scVector Space.vmem Cert.Kernel.S128x128 EltTy.f32)
local notation "B3" => (Memref.whole Cert.Kernel.cc0_scratch3 : Memref Cert.Kernel.sig Kind.scVector Space.vmem Cert.Kernel.S128x128 EltTy.f32)
local notation "B4" => (Memref.whole Cert.Kernel.cc0_scratch4 : Memref Cert.Kernel.sig Kind.scVector Space.vmem Cert.Kernel.S128x128 EltTy.f32)
local notation "B5" => (Memref.whole Cert.Kernel.cc0_scratch5 : Memref Cert.Kernel.sig Kind.scVector Space.vmem Cert.Kernel.S128x128 EltTy.f32)
local notation "B6" => (Memref.whole Cert.Kernel.cc0_scratch6 : Memref Cert.Kernel.sig Kind.scVector Space.vmem Cert.Kernel.S128x128 EltTy.f32)
local notation "B7" => (Memref.whole Cert.Kernel.cc0_scratch7 : Memref Cert.Kernel.sig Kind.scVector Space.vmem Cert.Kernel.S128x128 EltTy.f32)

/-! ## The place -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem bound_zero : grid0.bound 0 = 2 := rfl
theorem bound_one : grid0.bound 1 = 16 := rfl

/-- The task of the subcore at grid point L: twice its subcore number plus its SparseCore's. -/
def wL (L : grid0.Coords) : Fin 32 :=
  ⟨2 * (L 1).val + (L 0).val, by have h0 : (L 0).val < 2 := (L 0).isLt; have h1 : (L 1).val < 16 := (L 1).isLt; omega⟩

/-! ## The views as the task addresses them -/

/-- The task's list: row w of the lists, squeezed. -/
abbrev lRowK (L : grid0.Coords) : Memref sig .scVector .hbm S50x128 .i32 :=
  ((lV).slice (Rect.unit (s := S32x50x128) (k0_off1 L) S1x50x128.size (k0_off1_inb L)) (fun _ => rfl)).squeeze S50x128 squeezes_S1x50x128_S50x128

/-- The whole table, as every gather slices it. -/
abbrev tAllK : Memref sig .scVector .hbm S100000x128 .f32 :=
  (tV).slice (Rect.unit (s := S100000x128) ![0, 0] S100000x128.size inb_S100000x128_S100000x128_0_0) (fun _ => rfl)

theorem iRow_inb (g : Fin 50) : ∀ a, (![g.val, 0] : Fin 2 → Nat) a + S1x128.size a ≤ S50x128.size a := by
  intro a; have := g.isLt
  match a with
  | 0 => show g.val + 1 ≤ 50; omega
  | 1 => show 0 + 128 ≤ 128; omega

/-- Row g of the index scratch, squeezed: the offsets of the gather of chunk g. -/
abbrev iRowK (g : Fin 50) : Memref sig .scVector .vmem S128 .i32 :=
  ((iS).slice (Rect.unit (s := S50x128) ![g.val, 0] S1x128.size (iRow_inb g)) (fun _ => rfl)).squeeze S128 squeezes_S1x128_S128

theorem oChunk_inb (w : Fin 32) (g : Fin 50) : ∀ a, (![6400 * w.val + 128 * g.val, 0] : Fin 2 → Nat) a + S128x128.size a ≤ S204800x128.size a := by
  intro a; have := g.isLt; have := w.isLt
  match a with
  | 0 => show 6400 * w.val + 128 * g.val + 128 ≤ 204800; omega
  | 1 => show 0 + 128 ≤ 128; omega

/-- Chunk g of task w: rows 6400·w + 128·g … + 127 of the result. -/
abbrev oChunkK (w : Fin 32) (g : Fin 50) : Memref sig .scVector .hbm S128x128 .f32 :=
  (oV).slice (Rect.unit (s := S204800x128) ![6400 * w.val + 128 * g.val, 0] S128x128.size (oChunk_inb w g)) (fun _ => rfl)

/-! ## Intervals of rows -/

/-- Rows lo ≤ r < hi of the result. -/
def oRange (lo hi : ℕ) : Finset S204800x128.Idx := Finset.univ.filter fun i => lo ≤ (i 0).val ∧ (i 0).val < hi
/-- Rows lo ≤ r < hi of the index scratch. -/
def iRange (lo hi : ℕ) : Finset S50x128.Idx := Finset.univ.filter fun i => lo ≤ (i 0).val ∧ (i 0).val < hi

variable (m : (ℓ : Loc nD τ sig) → Buf (Elt F) ℓ) (I : (d : Dev nD) → Buf (Elt F) (lLoc d))
variable [FloatOps F]
variable (d : Dev nD) (L : grid0.Coords)

/-! ## The values that travel -/

/-- What the index scratch holds once the task's list has landed: the task's list. -/
def Widx : S50x128.Idx → Elt F .i32 := (lRowK L).view.read (Elt F) (I d)

/-- What a buffer holds once chunk g has been gathered into it: the chunk's rows of the lookup. -/
def gVal (g : Fin 50) : S128x128.Idx → Elt F .f32 := (oChunkK (wL L) g).view.read (Elt F) (OUTbuf m I d)

/-- Slot b's share of the table: a seventh of the task's. -/
abbrev qt (b : Fin 7) : PosShare TreeShare := pieceOf (tq (wL L)) 7 (by norm_num) b

/-! ## The slots -/

set_option quotPrecheck false in
/-- What the gather of chunk g into buffer B delivers: the buffer at the chunk's values and row g of the index
    scratch, and the share of the table. -/
local notation "GDEL(" B ", " b ", " g ")" =>
  iprop((((B).view.loc (thr d L) ↦[(B).view.set]{fullShare} gVal m I d L g)
      ∗ ((iS).view.loc (thr d L) ↦[(iRowK g).view.set]{fullShare} Widx I d L))
    ∗ ((tV).view.loc (thr d L) ↦[(tAllK).view.set]{qt L b} m (tLoc d)))

set_option quotPrecheck false in
/-- What the write of chunk g out of buffer B delivers: the chunk's rows of the result at the lookup, the buffer. -/
local notation "WDEL(" B ", " g ")" =>
  iprop(((oV).view.loc (thr d L) ↦[(oChunkK (wL L) g).view.set]{fullShare} OUTbuf m I d)
    ∗ ((B).view.loc (thr d L) ↦[(B).view.set]{fullShare} gVal m I d L g))

def gDel1 (g : Fin 50) : sProp 𝕄 := GDEL(B1, 0, g)
def gDel2 (g : Fin 50) : sProp 𝕄 := GDEL(B2, 1, g)
def gDel3 (g : Fin 50) : sProp 𝕄 := GDEL(B3, 2, g)
def gDel4 (g : Fin 50) : sProp 𝕄 := GDEL(B4, 3, g)
def gDel5 (g : Fin 50) : sProp 𝕄 := GDEL(B5, 4, g)
def gDel6 (g : Fin 50) : sProp 𝕄 := GDEL(B6, 5, g)
def gDel7 (g : Fin 50) : sProp 𝕄 := GDEL(B7, 6, g)
def wDel1 (g : Fin 50) : sProp 𝕄 := WDEL(B1, g)
def wDel2 (g : Fin 50) : sProp 𝕄 := WDEL(B2, g)
def wDel3 (g : Fin 50) : sProp 𝕄 := WDEL(B3, g)
def wDel4 (g : Fin 50) : sProp 𝕄 := WDEL(B4, g)
def wDel5 (g : Fin 50) : sProp 𝕄 := WDEL(B5, g)
def wDel6 (g : Fin 50) : sProp 𝕄 := WDEL(B6, g)
def wDel7 (g : Fin 50) : sProp 𝕄 := WDEL(B7, g)

/-! ## The rows of the result and of the index scratch, in intervals -/

/-- The first n chunks of the task's rows of the result, at the lookup. -/
def oDone (n : ℕ) : sProp 𝕄 :=
  (oV).view.loc (thr d L) ↦[oRange (6400 * (wL L).val) (6400 * (wL L).val + 128 * n)]{fullShare} OUTbuf m I d
/-- The task's rows of the result from chunk n on, at whatever they hold. -/
def oTodo (n : ℕ) : sProp 𝕄 :=
  iprop(∃ f, (oV).view.loc (thr d L) ↦[oRange (6400 * (wL L).val + 128 * n) (6400 * (wL L).val + 6400)]{fullShare} f)
/-- The first n rows of the index scratch, at the task's list. -/
def iDone (n : ℕ) : sProp 𝕄 := (iS).view.loc (thr d L) ↦[iRange 0 n]{fullShare} Widx I d L
/-- The rows of the index scratch from row n on, at the task's list. -/
def iTodo (n : ℕ) : sProp 𝕄 := (iS).view.loc (thr d L) ↦[iRange n 50]{fullShare} Widx I d L

/-! ## A slot gathering, a slot writing -/

set_option quotPrecheck false in
local notation "SLOTG(" gs ", " ws ", " D ")" =>
  iprop(Transfers.Flight countersEmb (thr d L) (SemLoc.dma (gs).sem) (default : HIx 1) 524288 D
    ∗ semVal (thr d L, SemLoc.dma (ws).sem) 0)
set_option quotPrecheck false in
local notation "SLOTW(" gs ", " ws ", " b ", " D ")" =>
  iprop(Transfers.Flight countersEmb (thr d L) (SemLoc.dma (ws).sem) (default : HIx 1) 524288 D
    ∗ semVal (thr d L, SemLoc.dma (gs).sem) 0
    ∗ ((tV).view.loc (thr d L) ↦[(tAllK).view.set]{qt L b} m (tLoc d)))

def slotG1 (g : Fin 50) : sProp 𝕄 := SLOTG(cc0_scratch8, cc0_scratch15, gDel1 m I d L g)
def slotG2 (g : Fin 50) : sProp 𝕄 := SLOTG(cc0_scratch9, cc0_scratch16, gDel2 m I d L g)
def slotG3 (g : Fin 50) : sProp 𝕄 := SLOTG(cc0_scratch10, cc0_scratch17, gDel3 m I d L g)
def slotG4 (g : Fin 50) : sProp 𝕄 := SLOTG(cc0_scratch11, cc0_scratch18, gDel4 m I d L g)
def slotG5 (g : Fin 50) : sProp 𝕄 := SLOTG(cc0_scratch12, cc0_scratch19, gDel5 m I d L g)
def slotG6 (g : Fin 50) : sProp 𝕄 := SLOTG(cc0_scratch13, cc0_scratch20, gDel6 m I d L g)
def slotG7 (g : Fin 50) : sProp 𝕄 := SLOTG(cc0_scratch14, cc0_scratch21, gDel7 m I d L g)
def slotW1 (g : Fin 50) : sProp 𝕄 := SLOTW(cc0_scratch8, cc0_scratch15, 0, wDel1 m I d L g)
def slotW2 (g : Fin 50) : sProp 𝕄 := SLOTW(cc0_scratch9, cc0_scratch16, 1, wDel2 m I d L g)
def slotW3 (g : Fin 50) : sProp 𝕄 := SLOTW(cc0_scratch10, cc0_scratch17, 2, wDel3 m I d L g)
def slotW4 (g : Fin 50) : sProp 𝕄 := SLOTW(cc0_scratch11, cc0_scratch18, 3, wDel4 m I d L g)
def slotW5 (g : Fin 50) : sProp 𝕄 := SLOTW(cc0_scratch12, cc0_scratch19, 4, wDel5 m I d L g)
def slotW6 (g : Fin 50) : sProp 𝕄 := SLOTW(cc0_scratch13, cc0_scratch20, 5, wDel6 m I d L g)
def slotW7 (g : Fin 50) : sProp 𝕄 := SLOTW(cc0_scratch14, cc0_scratch21, 6, wDel7 m I d L g)

/-! ## The invariant -/

variable (O : CellTallies nD τ sig (HIx 1)) (W : Waits sig (HIx 1))

/-- The task's debt with the waits recorded so far, and the evidence that it may wait. -/
def owesPart : sProp 𝕄 :=
  iprop(Transfers.MayWaits (thr d L) (default : HIx 1) O ∗ ∃ W', ⌜∀ p ∈ W', p ∈ W ∨ p.2 = none⌝ ∗ owes (thr d L) O W')

/-- Before trip t ≤ 6: every slot gathers its chunk of group t; the groups before are written, the groups from t on
    are not begun; the rows of the index scratch of the groups before have come back, those of the groups after
    t have not been lent. -/
def InvA (t : ℕ) (ht : t ≤ 6) : sProp 𝕄 :=
  iprop(slotG1 m I d L ⟨7 * t, by omega⟩ ∗ slotG2 m I d L ⟨7 * t + 1, by omega⟩ ∗ slotG3 m I d L ⟨7 * t + 2, by omega⟩
    ∗ slotG4 m I d L ⟨7 * t + 3, by omega⟩ ∗ slotG5 m I d L ⟨7 * t + 4, by omega⟩ ∗ slotG6 m I d L ⟨7 * t + 5, by omega⟩
    ∗ slotG7 m I d L ⟨7 * t + 6, by omega⟩
    ∗ oDone m I d L (7 * t) ∗ oTodo d L (7 * t) ∗ iDone I d L (7 * t) ∗ iTodo I d L (7 * t + 7) ∗ owesPart d L O W)

/-- Before the last trip: slot 0 gathers the last chunk, the others write chunks 43 … 48. -/
def Inv7 : sProp 𝕄 :=
  iprop(slotG1 m I d L ⟨49, by omega⟩ ∗ slotW2 m I d L ⟨43, by omega⟩ ∗ slotW3 m I d L ⟨44, by omega⟩
    ∗ slotW4 m I d L ⟨45, by omega⟩ ∗ slotW5 m I d L ⟨46, by omega⟩ ∗ slotW6 m I d L ⟨47, by omega⟩
    ∗ slotW7 m I d L ⟨48, by omega⟩
    ∗ oDone m I d L 43 ∗ oTodo d L 49 ∗ iDone I d L 49 ∗ iTodo I d L 50 ∗ owesPart d L O W)

/-- After the loop: every slot writes. -/
def Inv8 : sProp 𝕄 :=
  iprop(slotW1 m I d L ⟨49, by omega⟩ ∗ slotW2 m I d L ⟨43, by omega⟩ ∗ slotW3 m I d L ⟨44, by omega⟩
    ∗ slotW4 m I d L ⟨45, by omega⟩ ∗ slotW5 m I d L ⟨46, by omega⟩ ∗ slotW6 m I d L ⟨47, by omega⟩
    ∗ slotW7 m I d L ⟨48, by omega⟩
    ∗ oDone m I d L 43 ∗ oTodo d L 50 ∗ iDone I d L 50 ∗ iTodo I d L 50 ∗ owesPart d L O W)

/-- The loop's invariant before trip t (the loop carries a word nobody reads). -/
def Inv (t : ℕ) (_ : BitVec 32) : sProp 𝕄 :=
  if ht : t ≤ 6 then InvA m I d L O W t ht else if t = 7 then Inv7 m I d L O W else Inv8 m I d L O W

theorem Inv_le {t : ℕ} (ht : t ≤ 6) (a : BitVec 32) : Inv m I d L O W t a = InvA m I d L O W t ht := dif_pos ht
theorem Inv_seven (a : BitVec 32) : Inv m I d L O W 7 a = Inv7 m I d L O W := by unfold Inv; rw [dif_neg (by omega), if_pos rfl]
theorem Inv_eight (a : BitVec 32) : Inv m I d L O W 8 a = Inv8 m I d L O W := by unfold Inv; rw [dif_neg (by omega), if_neg (by omega)]

end Cert.Kernel.Sc

end
-- ==== Proof.KTileWrap.lean ====
/-
  One task of the lookup kernel, as the launch asks for it.

  The launch hands a vector subcore its task's operands, ALL of the subcore's own scratch buffers at some contents
  and ALL of its own semaphores at zero, and asks them back. The task's run is stated over exactly what the body
  names: the eight scratch buffers and the fifteen semaphores, one conjunct each. Here the subcore's own are shown to
  be those named ones (the semaphores exactly; the buffers and a remainder the body never touches, carried around the
  run), the evidence that the task may wait is drawn from the levels, and the run at a grid point is made the
  obligation at the launch's own spelling of thread and program.
-/
import proofs.«206296_g7516192768393_cont_9to1c4b_737_14_alg».proof.Proof.KSetup
import proofs.«206296_g7516192768393_cont_9to1c4b_737_14_alg».proof.Proof.KTileInv

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_arg0_scv : Memref Cert.Kernel.sig Kind.scVector Space.hbm Cert.Kernel.S100000x128 EltTy.f32)
local notation "lV" => (Memref.whole Cert.Kernel.main_v1_scv : Memref Cert.Kernel.sig Kind.scVector Space.hbm Cert.Kernel.S32x50x128 EltTy.i32)
local notation "oV" => (Memref.whole Cert.Kernel.main_v2_scv : Memref Cert.Kernel.sig Kind.scVector Space.hbm Cert.Kernel.S204800x128 EltTy.f32)
local notation "iS" => (Memref.whole Cert.Kernel.cc0_scratch0 : Memref Cert.Kernel.sig Kind.scVector Space.vmem Cert.Kernel.S50x128 EltTy.i32)
local notation "B1" => (Memref.whole Cert.Kernel.cc0_scratch1 : Memref Cert.Kernel.sig Kind.scVector Space.vmem Cert.Kernel.S128x128 EltTy.f32)
local notation "B2" => (Memref.whole Cert.Kernel.cc0_scratch2 : Memref Cert.Kernel.sig Kind.scVector Space.vmem Cert.Kernel.S128x128 EltTy.f32)
local notation "B3" => (Memref.whole Cert.Kernel.cc0_scratch3 : Memref Cert.Kernel.sig Kind.scVector Space.vmem Cert.Kernel.S128x128 EltTy.f32)
local notation "B4" => (Memref.whole Cert.Kernel.cc0_scratch4 : Memref Cert.Kernel.sig Kind.scVector Space.vmem Cert.Kernel.S128x128 EltTy.f32)
local notation "B5" => (Memref.whole Cert.Kernel.cc0_scratch5 : Memref Cert.Kernel.sig Kind.scVector Space.vmem Cert.Kernel.S128x128 EltTy.f32)
local notation "B6" => (Memref.whole Cert.Kernel.cc0_scratch6 : Memref Cert.Kernel.sig Kind.scVector Space.vmem Cert.Kernel.S128x128 EltTy.f32)
local notation "B7" => (Memref.whole Cert.Kernel.cc0_scratch7 : Memref Cert.Kernel.sig Kind.scVector Space.vmem Cert.Kernel.S128x128 EltTy.f32)

variable (m : (ℓ : Loc nD τ sig) → Buf (Elt F) ℓ) (I : (d : Dev nD) → Buf (Elt F) (lLoc d))
variable [FloatOps F]
variable (d : Dev nD) (L : grid0.Coords)

/-! ## The task's run, over what the body names -/

/-- The task at grid point L of device d, from its list, its share of the table, its rows of the result at whatever
    they hold, its eight scratch buffers at whatever they hold and its fifteen semaphores at zero: it ends with the
    same, its rows of the result at the lookup, and owes what it owed, its waits recorded. -/
def TileCore (m : (ℓ : Loc nD τ sig) → Buf (Elt F) ℓ) (I : (d : Dev nD) → Buf (Elt F) (lLoc d)) (d : Dev nD) (L : grid0.Coords) : Prop :=
  ∀ (O : CellTallies nD τ sig (HIx 1)) (W : Waits sig (HIx 1)),
    iprop((Transfers.MayWaits (thr d L) (default : HIx 1) O : sProp 𝕄)
        ∗ (lLoc d ↦[lRowSet (wL L)]{fullShare} I d) ∗ (tLoc d ↦{tq (wL L)} m (tLoc d)) ∗ (∃ f, oLoc d ↦[oRowSet (wL L)]{fullShare} f)
        ∗ (∃ f, (thr d L).loc cc0_scratch0 ↦{fullShare} f) ∗ (∃ f, (thr d L).loc cc0_scratch1 ↦{fullShare} f)
        ∗ (∃ f, (thr d L).loc cc0_scratch2 ↦{fullShare} f) ∗ (∃ f, (thr d L).loc cc0_scratch3 ↦{fullShare} f)
        ∗ (∃ f, (thr d L).loc cc0_scratch4 ↦{fullShare} f) ∗ (∃ f, (thr d L).loc cc0_scratch5 ↦{fullShare} f)
        ∗ (∃ f, (thr d L).loc cc0_scratch6 ↦{fullShare} f) ∗ (∃ f, (thr d L).loc cc0_scratch7 ↦{fullShare} f)
        ∗ semVal (thr d L, SemLoc.dma cc0_scratch8.sem) 0 ∗ semVal (thr d L, SemLoc.dma cc0_scratch9.sem) 0 ∗ semVal (thr d L, SemLoc.dma cc0_scratch10.sem) 0
        ∗ semVal (thr d L, SemLoc.dma cc0_scratch11.sem) 0 ∗ semVal (thr d L, SemLoc.dma cc0_scratch12.sem) 0 ∗ semVal (thr d L, SemLoc.dma cc0_scratch13.sem) 0
        ∗ semVal (thr d L, SemLoc.dma cc0_scratch14.sem) 0 ∗ semVal (thr d L, SemLoc.dma cc0_scratch15.sem) 0 ∗ semVal (thr d L, SemLoc.dma cc0_scratch16.sem) 0
        ∗ semVal (thr d L, SemLoc.dma cc0_scratch17.sem) 0 ∗ semVal (thr d L, SemLoc.dma cc0_scratch18.sem) 0 ∗ semVal (thr d L, SemLoc.dma cc0_scratch19.sem) 0
        ∗ semVal (thr d L, SemLoc.dma cc0_scratch20.sem) 0 ∗ semVal (thr d L, SemLoc.dma cc0_scratch21.sem) 0 ∗ semVal (thr d L, SemLoc.dma cc0_scoped0.sem) 0
        ∗ owes (thr d L) O W)
      ⊢ wp frame (wpE (defs₀ (F := F)) 𝒱₀ (thr d L) none) Set.univ
          (cc0__gather_body L tV (Memref.isWhole_whole _) lV (Memref.isWhole_whole _) oV (Memref.isWhole_whole _) iS (Memref.isWhole_whole _)
            B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0)
          fun _ => iprop((lLoc d ↦[lRowSet (wL L)]{fullShare} I d) ∗ (tLoc d ↦{tq (wL L)} m (tLoc d)) ∗ (oLoc d ↦[oRowSet (wL L)]{fullShare} OUTbuf m I d)
            ∗ (∃ f, (thr d L).loc cc0_scratch0 ↦{fullShare} f) ∗ (∃ f, (thr d L).loc cc0_scratch1 ↦{fullShare} f)
            ∗ (∃ f, (thr d L).loc cc0_scratch2 ↦{fullShare} f) ∗ (∃ f, (thr d L).loc cc0_scratch3 ↦{fullShare} f)
            ∗ (∃ f, (thr d L).loc cc0_scratch4 ↦{fullShare} f) ∗ (∃ f, (thr d L).loc cc0_scratch5 ↦{fullShare} f)
            ∗ (∃ f, (thr d L).loc cc0_scratch6 ↦{fullShare} f) ∗ (∃ f, (thr d L).loc cc0_scratch7 ↦{fullShare} f)
            ∗ semVal (thr d L, SemLoc.dma cc0_scratch8.sem) 0 ∗ semVal (thr d L, SemLoc.dma cc0_scratch9.sem) 0 ∗ semVal (thr d L, SemLoc.dma cc0_scratch10.sem) 0
            ∗ semVal (thr d L, SemLoc.dma cc0_scratch11.sem) 0 ∗ semVal (thr d L, SemLoc.dma cc0_scratch12.sem) 0 ∗ semVal (thr d L, SemLoc.dma cc0_scratch13.sem) 0
            ∗ semVal (thr d L, SemLoc.dma cc0_scratch14.sem) 0 ∗ semVal (thr d L, SemLoc.dma cc0_scratch15.sem) 0 ∗ semVal (thr d L, SemLoc.dma cc0_scratch16.sem) 0
            ∗ semVal (thr d L, SemLoc.dma cc0_scratch17.sem) 0 ∗ semVal (thr d L, SemLoc.dma cc0_scratch18.sem) 0 ∗ semVal (thr d L, SemLoc.dma cc0_scratch19.sem) 0
            ∗ semVal (thr d L, SemLoc.dma cc0_scratch20.sem) 0 ∗ semVal (thr d L, SemLoc.dma cc0_scratch21.sem) 0 ∗ semVal (thr d L, SemLoc.dma cc0_scoped0.sem) 0
            ∗ ∃ W', ⌜∀ p ∈ W', p ∈ W ∨ p.2 = none⌝ ∗ owes (thr d L) O W')

/-! ## The subcore's own semaphores and scratch buffers are the ones the body names -/

omit [FloatOps F] m I d L in
/-- A family over a set holds a sub-family, indexed through an embedding, and the rest. -/
theorem bigSep_split_map {ι κ : Type} [DecidableEq κ] (s : Finset κ) (R : Finset ι) (e : ι ↪ κ) (h : ∀ r ∈ R, e r ∈ s) (Φ : κ → sProp 𝕄) :
    bigSep s Φ = iprop((bigSep R fun r => Φ (e r)) ∗ bigSep (s \ R.map e) Φ) := by
  have hsub : R.map e ⊆ s := fun x hx => by
    obtain ⟨r, hr, rfl⟩ := Finset.mem_map.mp hx
    exact h r hr
  conv_lhs => rw [← Finset.union_sdiff_of_subset hsub]
  rw [bigSep_union Finset.disjoint_sdiff, bigSep_map]
  rfl

omit [FloatOps F] m I in
/-- The subcore's own semaphores are the fifteen the body names. -/
theorem ownSems0_V :
    (ownSems0 (thr d L) : sProp 𝕄)
      = iprop(semVal (thr d L, SemLoc.dma cc0_scratch8.sem) 0
          ∗ semVal (thr d L, SemLoc.dma cc0_scratch9.sem) 0 ∗ semVal (thr d L, SemLoc.dma cc0_scratch10.sem) 0 ∗ semVal (thr d L, SemLoc.dma cc0_scratch11.sem) 0
          ∗ semVal (thr d L, SemLoc.dma cc0_scratch12.sem) 0 ∗ semVal (thr d L, SemLoc.dma cc0_scratch13.sem) 0 ∗ semVal (thr d L, SemLoc.dma cc0_scratch14.sem) 0
          ∗ semVal (thr d L, SemLoc.dma cc0_scratch15.sem) 0 ∗ semVal (thr d L, SemLoc.dma cc0_scratch16.sem) 0 ∗ semVal (thr d L, SemLoc.dma cc0_scratch17.sem) 0
          ∗ semVal (thr d L, SemLoc.dma cc0_scratch18.sem) 0 ∗ semVal (thr d L, SemLoc.dma cc0_scratch19.sem) 0 ∗ semVal (thr d L, SemLoc.dma cc0_scratch20.sem) 0
          ∗ semVal (thr d L, SemLoc.dma cc0_scratch21.sem) 0 ∗ semVal (thr d L, SemLoc.dma cc0_scoped0.sem) 0) := by
  rw [SparseCore.Cfg.ownSems0_eq (thr d L)]
  rw [show (Finset.univ.filter fun sm : SemLoc sig => sm.isScoped (thr d L).2.kind)
      = {SemLoc.dma cc0_scratch8.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem, SemLoc.dma cc0_scratch19.sem, SemLoc.dma cc0_scratch20.sem, SemLoc.dma cc0_scratch21.sem, SemLoc.dma cc0_scoped0.sem} by
    show (Finset.univ.filter fun sm : SemLoc sig => sm.isScoped .scVector) = _
    decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The eight scratch buffers, as references of a vector subcore. -/
abbrev R8 : Finset (Ref sig .scVector) := {cc0_scratch0, cc0_scratch1, cc0_scratch2, cc0_scratch3, cc0_scratch4, cc0_scratch5, cc0_scratch6, cc0_scratch7}

omit [FloatOps F] m I in
/-- The eight scratch buffers are among the subcore's own: they are them, at some contents, and the rest. -/
theorem ownBufs_V :
    (ownBufs (thr d L) : sProp 𝕄)
      = iprop(((∃ f, (thr d L).loc cc0_scratch0 ↦{fullShare} f)
          ∗ (∃ f, (thr d L).loc cc0_scratch1 ↦{fullShare} f) ∗ (∃ f, (thr d L).loc cc0_scratch2 ↦{fullShare} f)
          ∗ (∃ f, (thr d L).loc cc0_scratch3 ↦{fullShare} f) ∗ (∃ f, (thr d L).loc cc0_scratch4 ↦{fullShare} f)
          ∗ (∃ f, (thr d L).loc cc0_scratch5 ↦{fullShare} f) ∗ (∃ f, (thr d L).loc cc0_scratch6 ↦{fullShare} f)
          ∗ (∃ f, (thr d L).loc cc0_scratch7 ↦{fullShare} f))
          ∗ bigSep ((ownRefs (τ := τ) (.scVector (cV L) (jV L))) \ R8.map ⟨(Proc.scVector (cV L) (jV L)).devRef, Proc.devRef_injective _⟩)
              fun b => iprop(∃ f, ((d, b) : Loc nD τ sig) ↦{fullShare} f)) := by
  unfold SparseCore.Cfg.ownBufs
  rw [bigSep_split_map (F := F) (ownRefs (τ := τ) (.scVector (cV L) (jV L))) R8 ⟨(Proc.scVector (cV L) (jV L)).devRef, Proc.devRef_injective _⟩
    (fun r hr => by
      simp only [R8, Finset.mem_insert, Finset.mem_singleton] at hr
      rcases hr with rfl | rfl | rfl | rfl | rfl | rfl | rfl | rfl <;> exact SparseCore.Cfg.mem_ownRefs_of_owner rfl)]
  unfold R8
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-! ## The run as the launch states it -/

/-- The task on the vector subcore at grid point L of device d, as the launch states it: from the task's operands
    and ALL the subcore's scoped storage to the task's results and the storage back. -/
theorem tile_body_of_core (hF : (K (F := F)).Facts) (hcore : TileCore m I d L) (O : CellTallies nD τ sig (HIx 1)) (W : Waits sig (HIx 1))
    (hO : ∀ g, O g none = 0) :
    iprop(levAts (K (F := F)).L (K (F := F)).lev ∗ emp
        ∗ taskGo m I d (wL L)
        ∗ scopedBufs (thr d L) ∗ scopedSems0 (thr d L) ∗ owes (thr d L) O W)
      ⊢ wp frame (wpE (defs₀ (F := F)) 𝒱₀ (thr d L) none) Set.univ
          (cc0__gather_body L tV (Memref.isWhole_whole _) lV (Memref.isWhole_whole _) oV (Memref.isWhole_whole _) iS (Memref.isWhole_whole _)
            B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0)
          fun _ => iprop(taskTd m I d (wL L)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hl, Ht, Ho⟩, ⟨⟨Hb0, Hb1, Hb2, Hb3, Hb4, Hb5, Hb6, Hb7⟩, Hbufs⟩, ⟨Hs0, Hs1, Hs2, Hs3, Hs4, Hs5, Hs6, Hs7, Hs8, Hs9, Hs10, Hs11, Hs12, Hs13, Hs14⟩, HO⟩
  ihave Hmw := (show levAts (K (F := F)).L (K (F := F)).lev ⊢ Transfers.MayWaits (thr d L) (default : HIx 1) O from
    (K (F := F)).mayWaits_none (thr := thr d L) hO) $$ Hlv
  iapply (wp_wand_r frame _ Set.univ)
  isplitl [Hmw Hl Ht Ho Hb0 Hb1 Hb2 Hb3 Hb4 Hb5 Hb6 Hb7 Hs0 Hs1 Hs2 Hs3 Hs4 Hs5 Hs6 Hs7 Hs8 Hs9 Hs10 Hs11 Hs12 Hs13 Hs14 HO]
  · iapply (hcore O W)
    isplitl [Hmw]; · iexact Hmw
    isplitl [Hl]; · iexact Hl
    isplitl [Ht]; · iexact Ht
    isplitl [Ho]; · iexact Ho
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    iexact HO
  iintro %_ ⟨Hl, Ht, Ho, Hb0, Hb1, Hb2, Hb3, Hb4, Hb5, Hb6, Hb7, Hs0, Hs1, Hs2, Hs3, Hs4, Hs5, Hs6, Hs7, Hs8, Hs9, Hs10, Hs11, Hs12, Hs13, Hs14, HW⟩
  isplitl [Hl Ht Ho]
  · isplitl [Hl]; · iexact Hl
    isplitl [Ht]; · iexact Ht
    iexact Ho
  isplitl [Hb0 Hb1 Hb2 Hb3 Hb4 Hb5 Hb6 Hb7 Hbufs]
  · isplitl [Hb0 Hb1 Hb2 Hb3 Hb4 Hb5 Hb6 Hb7]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      iexact Hb7
    iexact Hbufs
  isplitl [Hs0 Hs1 Hs2 Hs3 Hs4 Hs5 Hs6 Hs7 Hs8 Hs9 Hs10 Hs11 Hs12 Hs13 Hs14]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    iexact Hs14
  iexact HW

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

omit [FloatOps F] m I d L in
/-- The task at the grid point of subcore s of SparseCore c is task 2·s + c. -/
theorem wL_coordsV (c : Fin (grid0.bound 0)) (s : Fin (grid0.bound 1)) :
    wL (coordsV c s) = wid (Fin.cast bound_zero c) (Fin.cast bound_one s) := Fin.ext rfl

omit m I d L in
theorem defs₀_vector (c : Fin τ.nSC) (s : Fin τ.nSub) :
    defs₀ (F := F) (.scVector c s) 0 ()
      = SparseCore.onTile hcore0 hsub0 (fun c s => cc0__gather_body (coordsV c s)
          tV (Memref.isWhole_whole _) lV (Memref.isWhole_whole _) oV (Memref.isWhole_whole _) iS (Memref.isWhole_whole _)
          B1 (Memref.isWhole_whole _) B2 (Memref.isWhole_whole _) B3 (Memref.isWhole_whole _) B4 (Memref.isWhole_whole _)
          B5 (Memref.isWhole_whole _) B6 (Memref.isWhole_whole _) B7 (Memref.isWhole_whole _)
          cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scoped0) ⟨⟩ c s := rfl

omit [FloatOps F] m I d L in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch's obligation for the kernel's tasks, from the task's run at every grid point. -/
theorem tileObl_of_core (hF : (K (F := F)).Facts) (hcore : ∀ d L, TileCore m I d L) : (K (F := F)).TileObl (D (F := F)) 𝒱 (P m I) v₀ 0 := by
  intro d c i O W hO _ _
  simp only [show (P m I).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body_of_core m I d (coordsV ⟨_, hci.1⟩ ⟨_, hci.2⟩) hF (hcore d _) O W hO).trans (wp_mono frame _ _ fun _ => obl_post)

end Cert.Kernel.Sc

end
-- ==== Proof.KITileSets.lean ====
/-
  The sets, indices and values a task's body meets, apart from any execution. Task w = 2·s + c owns list w of the
  32 × 50 × 128 row numbers and rows 6400·w … 6400·w + 6399 of the 204800 × 128 result. Its body copies the list
  into a 50 × 128 scratch, and for each of the 50 chunks g gathers the 128 table rows named by row g of the
  scratch into a 128 × 128 buffer and copies that buffer to rows 6400·w + 128·g … of the result. Here: a slice of
  the result at rows r … r + 127 and a row of the scratch are intervals of rows; intervals split and join; the
  task's list is its part of the lists and its rows of the result are an interval; the offsets the body computes
  are these rows and chunks; and what chunk g receives is the flat lookup on its rows.
-/
import proofs.«206296_g7516192768393_cont_9to1c4b_737_14_alg».proof.Proof.KITileInv

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
local notation "𝕄" => MT nD τ sig (HIx 1) (Elt F) ℕ UU ℕ

local notation "tV" => (Memref.whole Cert.KernelIdeal.main_arg0_scv : Memref Cert.KernelIdeal.sig Kind.scVector Space.hbm Cert.KernelIdeal.S100000x128 EltTy.f32)
local notation "lV" => (Memref.whole Cert.KernelIdeal.main_v1_scv : Memref Cert.KernelIdeal.sig Kind.scVector Space.hbm Cert.KernelIdeal.S32x50x128 EltTy.i32)
local notation "oV" => (Memref.whole Cert.KernelIdeal.main_v2_scv : Memref Cert.KernelIdeal.sig Kind.scVector Space.hbm Cert.KernelIdeal.S204800x128 EltTy.f32)
local notation "iS" => (Memref.whole Cert.KernelIdeal.cc0_scratch0 : Memref Cert.KernelIdeal.sig Kind.scVector Space.vmem Cert.KernelIdeal.S50x128 EltTy.i32)

theorem wL_val (L : grid0.Coords) : (wL L).val = 2 * (L 1).val + (L 0).val := rfl

theorem mem_oRange {lo hi : ℕ} {i : S204800x128.Idx} : i ∈ oRange lo hi ↔ lo ≤ (i 0).val ∧ (i 0).val < hi := by
  unfold oRange; rw [Finset.mem_filter]; exact ⟨fun h => h.2, fun h => ⟨Finset.mem_univ _, h⟩⟩
theorem mem_iRange {lo hi : ℕ} {i : S50x128.Idx} : i ∈ iRange lo hi ↔ lo ≤ (i 0).val ∧ (i 0).val < hi := by
  unfold iRange; rw [Finset.mem_filter]; exact ⟨fun h => h.2, fun h => ⟨Finset.mem_univ _, h⟩⟩

/-! ## (P3), (P4) A slice of the result at rows r … r + 127, a row of the scratch, are intervals of rows -/

/-- The elements of a slice of 128 rows of the result from row r. -/
theorem set_oSlice {off : Fin 2 → Nat} (r : ℕ) (h : off = ![r, 0]) (inb : ∀ a, off a + S128x128.size a ≤ S204800x128.size a) :
    ((oV).slice (Rect.unit (s := S204800x128) off S128x128.size inb) (fun _ => rfl)).view.set = oRange r (r + 128) := by
  subst h
  ext i
  rw [show ((oV).slice (Rect.unit (s := S204800x128) ![r, 0] S128x128.size inb) (fun _ => rfl)).view.set
      = (Rect.unit (s := S204800x128) ![r, 0] S128x128.size inb).toLoadRect.set from View.set_slice_whole _ _,
    Rect.mem_set_unit, Fin.forall_fin_two, mem_oRange]
  have h1 : (i 1).val < 128 := (i 1).isLt
  show (r ≤ (i 0).val ∧ (i 0).val < r + 128) ∧ (0 ≤ (i 1).val ∧ (i 1).val < 0 + 128) ↔ _
  omega

/-- The elements of row g of the scratch, sliced and its unit axis dropped. -/
theorem set_iSlice {off : Fin 2 → Nat} (g : ℕ) (h : off = ![g, 0]) (inb : ∀ a, off a + S1x128.size a ≤ S50x128.size a) :
    (((iS).slice (Rect.unit (s := S50x128) off S1x128.size inb) (fun _ => rfl)).squeeze S128 squeezes_S1x128_S128).view.set
      = iRange g (g + 1) := by
  subst h
  ext i
  rw [show (((iS).slice (Rect.unit (s := S50x128) ![g, 0] S1x128.size inb) (fun _ => rfl)).squeeze S128 squeezes_S1x128_S128).view.set
      = (((iS).view.slice (Rect.unit (s := S50x128) ![g, 0] S1x128.size inb)).reshape S128 squeezes_S1x128_S128.numel_eq).set from rfl,
    View.set_reshape,
    show ((iS).view.slice (Rect.unit (s := S50x128) ![g, 0] S1x128.size inb)).set
      = (Rect.unit (s := S50x128) ![g, 0] S1x128.size inb).toLoadRect.set from View.set_slice_whole _ _,
    Rect.mem_set_unit, Fin.forall_fin_two, mem_iRange]
  have h1 : (i 1).val < 128 := (i 1).isLt
  show (g ≤ (i 0).val ∧ (i 0).val < g + 1) ∧ (0 ≤ (i 1).val ∧ (i 1).val < 0 + 128) ↔ _
  omega

theorem set_oChunkK (w : Fin 32) (g : Fin 50) :
    (oChunkK w g).view.set = oRange (6400 * w.val + 128 * g.val) (6400 * w.val + 128 * g.val + 128) :=
  set_oSlice _ rfl _
theorem set_iRowK (g : Fin 50) : (iRowK g).view.set = iRange g.val (g.val + 1) := set_iSlice _ rfl _

/-! ### The offsets the body computes, in the form the two lemmas above take -/

theorem cond1_lt : ∀ t : Fin k0_t1_loop.trips, k0_cond1 t = 1#1 → 7 * t.val < 50 := by decide +kernel
theorem cond2_lt : ∀ t : Fin k0_t1_loop.trips, k0_cond2 t = 1#1 → 7 * t.val + 1 < 50 := by decide +kernel
theorem cond3_lt : ∀ t : Fin k0_t1_loop.trips, k0_cond3 t = 1#1 → 7 * t.val + 2 < 50 := by decide +kernel
theorem cond4_lt : ∀ t : Fin k0_t1_loop.trips, k0_cond4 t = 1#1 → 7 * t.val + 3 < 50 := by decide +kernel
theorem cond5_lt : ∀ t : Fin k0_t1_loop.trips, k0_cond5 t = 1#1 → 7 * t.val + 4 < 50 := by decide +kernel
theorem cond6_lt : ∀ t : Fin k0_t1_loop.trips, k0_cond6 t = 1#1 → 7 * t.val + 5 < 50 := by decide +kernel
theorem cond7_lt : ∀ t : Fin k0_t1_loop.trips, k0_cond7 t = 1#1 → 7 * t.val + 6 < 50 := by decide +kernel
theorem cond8_lt : ∀ t : Fin k0_t1_loop.trips, k0_cond8 t = 1#1 → 7 * t.val + 7 < 50 := by decide +kernel
theorem cond9_lt : ∀ t : Fin k0_t1_loop.trips, k0_cond9 t = 1#1 → 7 * t.val + 8 < 50 := by decide +kernel
theorem cond10_lt : ∀ t : Fin k0_t1_loop.trips, k0_cond10 t = 1#1 → 7 * t.val + 9 < 50 := by decide +kernel
theorem cond11_lt : ∀ t : Fin k0_t1_loop.trips, k0_cond11 t = 1#1 → 7 * t.val + 10 < 50 := by decide +kernel
theorem cond12_lt : ∀ t : Fin k0_t1_loop.trips, k0_cond12 t = 1#1 → 7 * t.val + 11 < 50 := by decide +kernel
theorem cond13_lt : ∀ t : Fin k0_t1_loop.trips, k0_cond13 t = 1#1 → 7 * t.val + 12 < 50 := by decide +kernel
theorem cond14_lt : ∀ t : Fin k0_t1_loop.trips, k0_cond14 t = 1#1 → 7 * t.val + 13 < 50 := by decide +kernel

theorem off_chunk (L : grid0.Coords) (t b : Nat) :
    (![12800 * (L 1).val + 6400 * (L 0).val + 896 * t + 128 * b, 0] : Fin 2 → Nat)
      = ![6400 * (wL L).val + 128 * (7 * t + b), 0] := by
  rw [wL_val]; congr 1; omega

/-- Trip t writes chunks 7·t … 7·t + 6 of the task's rows. -/
theorem k0_off2_w (L : grid0.Coords) (t : Fin k0_t1_loop.trips) : k0_off2 L t = ![6400 * (wL L).val + 128 * (7 * t.val + 0), 0] :=
  (k0_off2_eq L t).trans (off_chunk L t.val 0)
theorem k0_off3_w (L : grid0.Coords) (t : Fin k0_t1_loop.trips) : k0_off3 L t = ![6400 * (wL L).val + 128 * (7 * t.val + 1), 0] :=
  (k0_off3_eq L t).trans (off_chunk L t.val 1)
theorem k0_off4_w (L : grid0.Coords) (t : Fin k0_t1_loop.trips) : k0_off4 L t = ![6400 * (wL L).val + 128 * (7 * t.val + 2), 0] :=
  (k0_off4_eq L t).trans (off_chunk L t.val 2)
theorem k0_off5_w (L : grid0.Coords) (t : Fin k0_t1_loop.trips) : k0_off5 L t = ![6400 * (wL L).val + 128 * (7 * t.val + 3), 0] :=
  (k0_off5_eq L t).trans (off_chunk L t.val 3)
theorem k0_off6_w (L : grid0.Coords) (t : Fin k0_t1_loop.trips) : k0_off6 L t = ![6400 * (wL L).val + 128 * (7 * t.val + 4), 0] :=
  (k0_off6_eq L t).trans (off_chunk L t.val 4)
theorem k0_off7_w (L : grid0.Coords) (t : Fin k0_t1_loop.trips) : k0_off7 L t = ![6400 * (wL L).val + 128 * (7 * t.val + 5), 0] :=
  (k0_off7_eq L t).trans (off_chunk L t.val 5)
theorem k0_off8_w (L : grid0.Coords) (t : Fin k0_t1_loop.trips) : k0_off8 L t = ![6400 * (wL L).val + 128 * (7 * t.val + 6), 0] :=
  (k0_off8_eq L t).trans (off_chunk L t.val 6)

/-- The slice at the task's first row (offsets 9, 11, …, 23 of the body are all this one). -/
theorem off_first (L : grid0.Coords) : (![12800 * (L 1).val + 6400 * (L 0).val, 0] : Fin 2 → Nat) = ![6400 * (wL L).val, 0] := by
  rw [wL_val]; congr 1; omega

/-- Slices of one memref at equal offsets are equal. -/
theorem slice_unit_congr {κ : Kind} {sp : Space} {s : Shape} {e : EltTy} (M : Memref sig κ sp s e) {off off' : Fin s.rank → Nat}
    (size : Fin s.rank → Nat) (h : off = off') (inb : ∀ a, off a + size a ≤ s.size a) (inb' : ∀ a, off' a + size a ≤ s.size a) :
    M.slice (Rect.unit off size inb) (fun _ => rfl) = M.slice (Rect.unit off' size inb') (fun _ => rfl) := by
  subst h; rfl

/-- A chunk of the result named by an offset equal to (6400·w + 128·g, 0) is chunk g of task w. -/
theorem oChunk_of_off {off : Fin 2 → Nat} (w : Fin 32) (g : Fin 50) (h : off = ![6400 * w.val + 128 * g.val, 0])
    (inb : ∀ a, off a + S128x128.size a ≤ S204800x128.size a) :
    (oV).slice (Rect.unit (s := S204800x128) off S128x128.size inb) (fun _ => rfl) = oChunkK w g :=
  slice_unit_congr oV S128x128.size h inb (oChunk_inb w g)

/-- A row of the scratch named by an offset equal to (r, 0) is row r. -/
theorem iRow_of_off {off : Fin 2 → Nat} (r : Fin 50) (h : off = ![r.val, 0]) (inb : ∀ a, off a + S1x128.size a ≤ S50x128.size a) :
    ((iS).slice (Rect.unit (s := S50x128) off S1x128.size inb) (fun _ => rfl)).squeeze S128 squeezes_S1x128_S128 = iRowK r :=
  congrArg (fun M : Memref sig .scVector .vmem S1x128 .i32 => M.squeeze S128 squeezes_S1x128_S128) (slice_unit_congr iS S1x128.size h inb (iRow_inb r))

/-! ## (P1) Intervals split and join -/

theorem oRange_union {lo mid hi : ℕ} (h1 : lo ≤ mid) (h2 : mid ≤ hi) : oRange lo hi = oRange lo mid ∪ oRange mid hi := by
  ext i; rw [Finset.mem_union, mem_oRange, mem_oRange, mem_oRange]; omega
theorem oRange_disjoint (lo mid hi : ℕ) : Disjoint (oRange lo mid) (oRange mid hi) :=
  Finset.disjoint_left.mpr fun i a b => by rw [mem_oRange] at a b; omega
theorem iRange_union {lo mid hi : ℕ} (h1 : lo ≤ mid) (h2 : mid ≤ hi) : iRange lo hi = iRange lo mid ∪ iRange mid hi := by
  ext i; rw [Finset.mem_union, mem_iRange, mem_iRange, mem_iRange]; omega
theorem iRange_disjoint (lo mid hi : ℕ) : Disjoint (iRange lo mid) (iRange mid hi) :=
  Finset.disjoint_left.mpr fun i a b => by rw [mem_iRange] at a b; omega
theorem oRange_empty (lo : ℕ) : oRange lo lo = ∅ := by
  ext i; rw [mem_oRange]; simp only [Finset.notMem_empty, iff_false]; omega
theorem iRange_empty (lo : ℕ) : iRange lo lo = ∅ := by
  ext i; rw [mem_iRange]; simp only [Finset.notMem_empty, iff_false]; omega

/-- Rows lo … hi of the result held at one valuation are rows lo … mid and rows mid … hi. -/
theorem pts_oRange_split (d : Dev nD) (L : grid0.Coords) (q : PosShare TreeShare) (f : Buf (Elt F) ((oV).view.loc (thr d L)))
    {lo mid hi : ℕ} (h1 : lo ≤ mid) (h2 : mid ≤ hi) :
    ((oV).view.loc (thr d L) ↦[oRange lo hi]{q} f : sProp 𝕄)
      = iprop(((oV).view.loc (thr d L) ↦[oRange lo mid]{q} f) ∗ ((oV).view.loc (thr d L) ↦[oRange mid hi]{q} f)) := by
  rw [oRange_union h1 h2]
  exact BI.equiv_iff.mp ⟨(pointsTo_union (oRange_disjoint lo mid hi)).1, (pointsTo_union (oRange_disjoint lo mid hi)).2⟩

/-- Rows lo … hi of the scratch held at one valuation are rows lo … mid and rows mid … hi. -/
theorem pts_iRange_split (d : Dev nD) (L : grid0.Coords) (q : PosShare TreeShare) (f : Buf (Elt F) ((iS).view.loc (thr d L)))
    {lo mid hi : ℕ} (h1 : lo ≤ mid) (h2 : mid ≤ hi) :
    ((iS).view.loc (thr d L) ↦[iRange lo hi]{q} f : sProp 𝕄)
      = iprop(((iS).view.loc (thr d L) ↦[iRange lo mid]{q} f) ∗ ((iS).view.loc (thr d L) ↦[iRange mid hi]{q} f)) := by
  rw [iRange_union h1 h2]
  exact BI.equiv_iff.mp ⟨(pointsTo_union (iRange_disjoint lo mid hi)).1, (pointsTo_union (iRange_disjoint lo mid hi)).2⟩

/-! ## (P5) The task's rows of the result are an interval; its list is its part of the lists -/

theorem oRowSet_eq (w : Fin 32) : oRowSet w = oRange (6400 * w.val) (6400 * w.val + 6400) := by
  ext i
  rw [show oRowSet w = (orow w).toLoadRect.set from View.set_slice_whole _ _, Rect.mem_set_unit, Fin.forall_fin_two, mem_oRange]
  have h1 : (i 1).val < 128 := (i 1).isLt
  show (w.val * (204800 / 32) ≤ (i 0).val ∧ (i 0).val < w.val * (204800 / 32) + 204800 / 32)
      ∧ (0 * 128 ≤ (i 1).val ∧ (i 1).val < 0 * 128 + 128) ↔ _
  omega

/-- The scratch whole is rows 0 … 50. -/
theorem iRange_univ : iRange 0 50 = Finset.univ := by
  ext i; rw [mem_iRange]; simp only [Finset.mem_univ, iff_true]; have : (i 0).val < 50 := (i 0).isLt; omega

theorem lrowK_eq (L : grid0.Coords) :
    Rect.unit (s := S32x50x128) (k0_off1 L) S1x50x128.size (k0_off1_inb L) = lrow (wL L) := by
  unfold lrow Rect.part Rect.block
  congr 1 <;> funext a
  · rw [k0_off1_eq]
    match a with
    | 0 => simp [Shape.partIx, Shape.partSize, wL]
    | 1 => simp [Shape.partIx, Shape.partSize]
    | 2 => simp [Shape.partIx, Shape.partSize]
  · match a with
    | 0 => simp [Shape.partSize]
    | 1 => simp [Shape.partSize]
    | 2 => simp [Shape.partSize]

theorem set_lRowK (L : grid0.Coords) : (lRowK L).view.set = lRowSet (wL L) := by
  show (((lV).view.slice (Rect.unit (s := S32x50x128) (k0_off1 L) S1x50x128.size (k0_off1_inb L))).reshape S50x128
      squeezes_S1x50x128_S50x128.numel_eq).set = ((lV).view.slice (lrow (wL L))).set
  rw [View.set_reshape]
  exact lrowK_eq L ▸ rfl

theorem pts_lRowK (d : Dev nD) (L : grid0.Coords) (f : Buf (Elt F) (lLoc d)) :
    ((lRowK L).view.loc (thr d L) ↦[(lRowK L).view.set]{fullShare} f : sProp 𝕄) = lLoc d ↦[lRowSet (wL L)]{fullShare} f := by
  rw [set_lRowK]

/-! ## (V) The values -/

/-- Lane x of row g of the scratch is entry (g, x) of the scratch. -/
theorem emb_iRowK (g : Fin 50) (x : S128.Idx) : (iRowK g).view.emb x = ix2 (n1 := 128) g (x 0) := by
  show (Rect.unit (s := S50x128) ![g.val, 0] S1x128.size (iRow_inb g)).emb (Shape.reshapeEquiv squeezes_S1x128_S128.numel_eq x) = _
  rw [Shape.reshapeEquiv_eq_of_rowMajor squeezes_S1x128_S128.numel_eq (y := ix2 (n1 := 128) (0 : Fin 1) (x 0)) (by
    rw [Shape.rowMajor_val_two, Shape.rowMajor_val_one]
    show 0 * 128 + (x 0).val = (x 0).val
    omega)]
  funext a
  apply Fin.ext
  match a with
  | ⟨0, _⟩ => show g.val + 1 * 0 = g.val; omega
  | ⟨1, _⟩ => show 0 + 1 * (x 0).val = (x 0).val; omega

/-- Entry (c, e) of the task's list is entry (w, c, e) of the lists. -/
theorem emb_lRowK (L : grid0.Coords) (y : S50x128.Idx) : (lRowK L).view.emb y = ix3 (n1 := 50) (n2 := 128) (wL L) (y 0) (y 1) := by
  show (Rect.unit (s := S32x50x128) (k0_off1 L) S1x50x128.size (k0_off1_inb L)).emb (Shape.reshapeEquiv squeezes_S1x50x128_S50x128.numel_eq y) = _
  rw [Shape.reshapeEquiv_eq_of_rowMajor squeezes_S1x50x128_S50x128.numel_eq (y := ix3 (n1 := 50) (n2 := 128) (0 : Fin 1) (y 0) (y 1)) (by
    rw [Shape.rowMajor_val_three, Shape.rowMajor_val_two]
    show (0 * 50 + (y 0).val) * 128 + (y 1).val = (y 0).val * 128 + (y 1).val
    omega)]
  funext a
  apply Fin.ext
  match a with
  | ⟨0, _⟩ => show k0_off1 L 0 + 1 * 0 = 2 * (L 1).val + (L 0).val; rw [k0_off1_eq]; rfl
  | ⟨1, _⟩ => show k0_off1 L 1 + 1 * (y 0).val = (y 0).val; rw [k0_off1_eq]; show 0 + 1 * (y 0).val = (y 0).val; omega
  | ⟨2, _⟩ => show k0_off1 L 2 + 1 * (y 1).val = (y 1).val; rw [k0_off1_eq]; show 0 + 1 * (y 1).val = (y 1).val; omega

theorem oChunk_row_lt (w : Fin 32) (g : Fin 50) (r : Fin 128) : 6400 * w.val + 128 * g.val + r.val < 204800 := by omega

/-- Entry (r, l) of chunk g of task w is entry (6400·w + 128·g + r, l) of the result. -/
theorem emb_oChunkK (w : Fin 32) (g : Fin 50) (y : S128x128.Idx) :
    (oChunkK w g).view.emb y = ix2 (n0 := 204800) (n1 := 128) ⟨6400 * w.val + 128 * g.val + (y 0).val, oChunk_row_lt w g (y 0)⟩ (y 1) := by
  funext a
  apply Fin.ext
  match a with
  | ⟨0, _⟩ => show 6400 * w.val + 128 * g.val + 1 * (y 0).val = 6400 * w.val + 128 * g.val + (y 0).val; omega
  | ⟨1, _⟩ => show 0 + 1 * (y 1).val = (y 1).val; omega

/-- The table addressed whole is the table. -/
theorem emb_tAllK (z : S100000x128.Idx) : (tAllK).view.emb z = z := by
  funext a
  apply Fin.ext
  match a with
  | ⟨0, _⟩ => show 0 + 1 * (z 0).val = (z 0).val; omega
  | ⟨1, _⟩ => show 0 + 1 * (z 1).val = (z 1).val; omega

/-- (V2) Writing back through a view what was read through it changes nothing under the view. -/
theorem write_read_self {sg : RefSig} {κ : Kind} {sp : Space} {s : Shape} {e : EltTy} {Val : EltTy → Type} (v : View sg κ sp s e)
    (fo X : v.ty.Contents Val) (i : v.ty.Idx) (hi : i ∈ v.set) :
    v.write Val fo (v.read Val X) Finset.univ i = X i := by
  obtain ⟨x, -, rfl⟩ := Finset.mem_map.mp hi
  rw [View.write_emb_of_mem _ _ (Finset.mem_univ x), View.read_apply, cast_cast, cast_eq]

/-- Word 6400·w + 128·g + r of the lists read flat is word (w, g, r). -/
theorem flatWord_at (Il : S32x50x128.Idx → BitVec 32) (w : Fin 32) (g : Fin 50) (r : Fin 128) :
    Cert.Spec.flatWord Il ⟨6400 * w.val + 128 * g.val + r.val, oChunk_row_lt w g r⟩ = Il (ix3 (n0 := 32) (n1 := 50) (n2 := 128) w g r) := by
  unfold Cert.Spec.flatWord
  refine congrArg Il (funext fun a => ?_)
  match a with
  | ⟨0, _⟩ => exact Fin.ext (by show (6400 * w.val + 128 * g.val + r.val) / 6400 = w.val; omega)
  | ⟨1, _⟩ => exact Fin.ext (by show (6400 * w.val + 128 * g.val + r.val) % 6400 / 128 = g.val; omega)
  | ⟨2, _⟩ => exact Fin.ext (by show (6400 * w.val + 128 * g.val + r.val) % 128 = r.val; omega)

/-- Entry k of an offset list of 128 words is its word k. -/
theorem rows_val {z : ℕ} (idx : S128.Idx → Elt F .i32) (hn : S128.numel = 128) (hin : ∀ x, (idx x).toNat < z) (k : Fin 128) :
    (SparseCore.rows (F := F) idx hn hin k).val = (idx (ix1 k)).toNat := by
  unfold SparseCore.rows
  show (idx (S128.rowMajor.symm (k.cast hn.symm))).toNat = _
  rw [(Equiv.symm_apply_eq _).2 (Fin.ext (by rw [Shape.rowMajor_val_one]; rfl) : k.cast hn.symm = S128.rowMajor (ix1 k))]

variable (m : (ℓ : Loc nD τ sig) → Buf (Elt F) ℓ) (I : (d : Dev nD) → Buf (Elt F) (lLoc d))
variable [FloatOps F]
variable (d : Dev nD) (L : grid0.Coords)

/-- Lane x of row g of the scratch, once the task's list has landed, is word (w, g, x) of the lists. -/
theorem read_Widx (g : Fin 50) (x : S128.Idx) :
    (iRowK g).view.read (Elt F) (Widx I d L) x = I d (ix3 (n0 := 32) (n1 := 50) (n2 := 128) (wL L) g (x 0)) := by
  unfold Widx
  rw [View.read_apply, View.read_apply, cast_eq, cast_eq, emb_iRowK, emb_lRowK]

/-- (V0) So every word of the scratch names a row of the table when every word of the lists does. -/
theorem hin_Widx (hI : ListsOK I) (g : Fin 50) :
    ∀ x, ((iRowK g).view.read (Elt F) (Widx I d L) x).toNat < S100000x128.size gathers_S100000x128_S128x128.axis :=
  fun x => by rw [read_Widx]; exact hI d _

/-- (V1) The gather of the table's rows named by row g of the scratch is the flat lookup on chunk g of the task's rows. -/
theorem gather_eq_gVal (hI : ListsOK I) (g : Fin 50) (hn : S128.numel = S128x128.size gathers_S100000x128_S128x128.axis')
    (hin : ∀ x, ((iRowK g).view.read (Elt F) (Widx I d L) x).toNat < S100000x128.size gathers_S100000x128_S128x128.axis) :
    SparseCore.gatherPayload gathers_S100000x128_S128x128 ((tAllK).view.read (Elt F) (m (tLoc d)))
        (SparseCore.rows ((iRowK g).view.read (Elt F) (Widx I d L)) hn hin)
      = gVal m I d L g := by
  funext y
  have hA : ∀ z, (tAllK).view.read (Elt F) (m (tLoc d)) z = m (tLoc d) z := fun z => by rw [View.read_apply, cast_eq, emb_tAllK]
  have hB : gVal m I d L g y = Cert.Spec.OUT (m (tLoc d)) (I d)
      (ix2 (n0 := 204800) (n1 := 128) ⟨6400 * (wL L).val + 128 * g.val + (y 0).val, oChunk_row_lt _ _ _⟩ (y 1)) := by
    unfold gVal OUTbuf; rw [View.read_apply, cast_eq, emb_oChunkK]
  rw [hB]
  unfold SparseCore.gatherPayload Cert.Spec.OUT
  rw [hA]
  refine congrArg (m (tLoc d)) (funext fun b => ?_)
  match b with
  | ⟨0, _⟩ =>
    apply Fin.ext
    show (SparseCore.rows ((iRowK g).view.read (Elt F) (Widx I d L)) hn hin (y 0)).val
      = (Cert.Spec.rowOf (Cert.Spec.flatWord (I d) ⟨6400 * (wL L).val + 128 * g.val + (y 0).val, oChunk_row_lt _ _ _⟩)).val
    have e1 := rows_val (F := F) ((iRowK g).view.read (Elt F) (Widx I d L)) hn hin (y 0)
    have e2 := read_Widx I d L g (ix1 (y 0))
    have e3 := flatWord_at (I d) (wL L) g (y 0)
    have e4 := Cert.Spec.rowOf_of_lt (hI d (ix3 (n0 := 32) (n1 := 50) (n2 := 128) (wL L) g (y 0)))
    exact e1.trans ((congrArg BitVec.toNat e2).trans
      ((congrArg Fin.val e4).symm.trans (congrArg (fun v => (Cert.Spec.rowOf v).val) e3.symm)))
  | ⟨1, _⟩ => rfl

end Cert.KernelIdeal.Sc

end
-- ==== Proof.KITileGather.lean ====
/-
  The issue of one gather, once for each of the task's seven row buffers.

  A gather of chunk g into a buffer takes the buffer whole, row g of the index scratch (whose 128 words name the
  rows to fetch, each below the table's height), a share of the table and the buffer's gather semaphore at zero,
  and leaves the gather in flight. What the flight delivers at its wait is stated here at once in its final form:
  the buffer holds the chunk's rows of the lookup — the gather's payload, row by row the table's row named by the
  word, is exactly that —, the index row and the share of the table come back.
-/
import proofs.«206296_g7516192768393_cont_9to1c4b_737_14_alg».proof.Proof.KITileSets

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
local notation "tV" => (Memref.whole Cert.KernelIdeal.main_arg0_scv : Memref Cert.KernelIdeal.sig Kind.scVector Space.hbm Cert.KernelIdeal.S100000x128 EltTy.f32)
local notation "iS" => (Memref.whole Cert.KernelIdeal.cc0_scratch0 : Memref Cert.KernelIdeal.sig Kind.scVector Space.vmem Cert.KernelIdeal.S50x128 EltTy.i32)
local notation "B1" => (Memref.whole Cert.KernelIdeal.cc0_scratch1 : Memref Cert.KernelIdeal.sig Kind.scVector Space.vmem Cert.KernelIdeal.S128x128 EltTy.f32)
local notation "B2" => (Memref.whole Cert.KernelIdeal.cc0_scratch2 : Memref Cert.KernelIdeal.sig Kind.scVector Space.vmem Cert.KernelIdeal.S128x128 EltTy.f32)
local notation "B3" => (Memref.whole Cert.KernelIdeal.cc0_scratch3 : Memref Cert.KernelIdeal.sig Kind.scVector Space.vmem Cert.KernelIdeal.S128x128 EltTy.f32)
local notation "B4" => (Memref.whole Cert.KernelIdeal.cc0_scratch4 : Memref Cert.KernelIdeal.sig Kind.scVector Space.vmem Cert.KernelIdeal.S128x128 EltTy.f32)
local notation "B5" => (Memref.whole Cert.KernelIdeal.cc0_scratch5 : Memref Cert.KernelIdeal.sig Kind.scVector Space.vmem Cert.KernelIdeal.S128x128 EltTy.f32)
local notation "B6" => (Memref.whole Cert.KernelIdeal.cc0_scratch6 : Memref Cert.KernelIdeal.sig Kind.scVector Space.vmem Cert.KernelIdeal.S128x128 EltTy.f32)
local notation "B7" => (Memref.whole Cert.KernelIdeal.cc0_scratch7 : Memref Cert.KernelIdeal.sig Kind.scVector Space.vmem Cert.KernelIdeal.S128x128 EltTy.f32)

variable (m : (ℓ : Loc nD τ sig) → Buf (Elt F) ℓ) (I : (d : Dev nD) → Buf (Elt F) (lLoc d))
variable [FloatOps F]
variable (d : Dev nD) (L : grid0.Coords)

/-! ## Buffer 1 -/

/-- The 128 rows of the buffer credit the gather's semaphore with the buffer's whole size. -/
theorem rowsCredit_B1 : ∀ h : S100000x128.Gathers 0 S128x128,
    ∑ j, ((B1).slice (S128x128.rowRect h.axis' j) (S128x128.stride_rowRect h.axis' j)).view.dmaCredit = 524288 := by
  decide

/-- What the stream hands over at the wait is the delivery in its final form: the buffer written whole with the
    payload holds the chunk's rows of the lookup. -/
theorem gdel1_of (q : PosShare TreeShare) (g : Fin 50) (fB : Buf (Elt F) ((B1).view.loc (thr d L)))
    (hin : ∀ x, ((iRowK g).view.read (Elt F) (Widx I d L) x).toNat < S100000x128.size gathers_S100000x128_S128x128.axis)
    (hval : SparseCore.gatherPayload gathers_S100000x128_S128x128 ((tAllK).view.read (Elt F) (m (tLoc d)))
        (SparseCore.rows ((iRowK g).view.read (Elt F) (Widx I d L)) rfl hin) = gVal m I d L g) :
    (iprop(((B1).view.loc (thr d L) ↦[(B1).view.set]{fullShare}
          (B1).view.write (Elt F) fB (SparseCore.gatherPayload gathers_S100000x128_S128x128 ((tAllK).view.read (Elt F) (m (tLoc d)))
            (SparseCore.rows ((iRowK g).view.read (Elt F) (Widx I d L)) rfl hin)) Finset.univ)
        ∗ ((tAllK).view.loc (thr d L) ↦[(tAllK).view.set]{q} m (tLoc d))
        ∗ ((iRowK g).view.loc (thr d L) ↦[(iRowK g).view.set]{fullShare} Widx I d L)) : sProp 𝕄)
      ⊢ iprop((((B1).view.loc (thr d L) ↦[(B1).view.set]{fullShare} gVal m I d L g)
                  ∗ ((iS).view.loc (thr d L) ↦[(iRowK g).view.set]{fullShare} Widx I d L))
                ∗ ((tV).view.loc (thr d L) ↦[(tAllK).view.set]{q} m (tLoc d))) := by
  rw [View.write_whole_univ, hval]
  iintro ⟨HB, Ht, Hrow⟩
  isplitl [HB Hrow]
  · isplitl [HB]; · iexact HB
    iexact Hrow
  iexact Ht

/-- The gather of chunk g into buffer 1 on semaphore `gs`, at the head of a program. -/
theorem gather_issue1 (hI : ListsOK I) (gs : DmaSem sig) (q : PosShare TreeShare) (g : Fin 50) (fB : Buf (Elt F) ((B1).view.loc (thr d L)))
    {α : Type} {k : PUnit → Prog (TpuEff nD τ sig (Elt F) Λ₀ (thr d L).2) α} {Q : α → sProp 𝕄} :
    iprop(((B1).view.loc (thr d L) ↦[(B1).view.set]{fullShare} fB)
        ∗ ((iS).view.loc (thr d L) ↦[(iRowK g).view.set]{fullShare} Widx I d L)
        ∗ ((tV).view.loc (thr d L) ↦[(tAllK).view.set]{q} m (tLoc d))
        ∗ semVal (thr d L, SemLoc.dma gs) 0)
      ⊢ iprop((Transfers.Flight countersEmb (thr d L) (SemLoc.dma gs) (default : HIx 1) 524288
              iprop((((B1).view.loc (thr d L) ↦[(B1).view.set]{fullShare} gVal m I d L g)
                  ∗ ((iS).view.loc (thr d L) ↦[(iRowK g).view.set]{fullShare} Widx I d L))
                ∗ ((tV).view.loc (thr d L) ↦[(tAllK).view.set]{q} m (tLoc d)))
            -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK B1 gathers_S100000x128_S128x128 (iRowK g) rfl gs (View.wordExact_bits rfl) rfl (Or.inl rfl) >>= k) Q) := by
  have hin := hin_Widx I d L hI g
  have hval := gather_eq_gVal m I d L hI g rfl hin
  iintro ⟨HB, Hrow, Ht, Hsem⟩ Hk
  iapply (SparseCore.wp_indirectGatherLocal countersEmb 𝒱₀ (thr d L) none (hg := gathers_S100000x128_S128x128) (default : HIx 1)
      524288 (rowsCredit_B1 _) (by decide) hin) $$ [Ht HB Hrow Hsem]
  · isplitl [Ht]; · iexact Ht
    isplitl [HB]; · iexact HB
    isplitl [Hrow]; · iexact Hrow
    iexact Hsem
  iintro Hfl
  iapply Hk
  iapply (Transfers.Flight_mono countersEmb (thr d L) (gdel1_of m I d L q g fB hin hval)) $$ Hfl

/-! ## Buffer 2 -/

/-- The 128 rows of the buffer credit the gather's semaphore with the buffer's whole size. -/
theorem rowsCredit_B2 : ∀ h : S100000x128.Gathers 0 S128x128,
    ∑ j, ((B2).slice (S128x128.rowRect h.axis' j) (S128x128.stride_rowRect h.axis' j)).view.dmaCredit = 524288 := by
  decide

/-- What the stream hands over at the wait is the delivery in its final form: the buffer written whole with the
    payload holds the chunk's rows of the lookup. -/
theorem gdel2_of (q : PosShare TreeShare) (g : Fin 50) (fB : Buf (Elt F) ((B2).view.loc (thr d L)))
    (hin : ∀ x, ((iRowK g).view.read (Elt F) (Widx I d L) x).toNat < S100000x128.size gathers_S100000x128_S128x128.axis)
    (hval : SparseCore.gatherPayload gathers_S100000x128_S128x128 ((tAllK).view.read (Elt F) (m (tLoc d)))
        (SparseCore.rows ((iRowK g).view.read (Elt F) (Widx I d L)) rfl hin) = gVal m I d L g) :
    (iprop(((B2).view.loc (thr d L) ↦[(B2).view.set]{fullShare}
          (B2).view.write (Elt F) fB (SparseCore.gatherPayload gathers_S100000x128_S128x128 ((tAllK).view.read (Elt F) (m (tLoc d)))
            (SparseCore.rows ((iRowK g).view.read (Elt F) (Widx I d L)) rfl hin)) Finset.univ)
        ∗ ((tAllK).view.loc (thr d L) ↦[(tAllK).view.set]{q} m (tLoc d))
        ∗ ((iRowK g).view.loc (thr d L) ↦[(iRowK g).view.set]{fullShare} Widx I d L)) : sProp 𝕄)
      ⊢ iprop((((B2).view.loc (thr d L) ↦[(B2).view.set]{fullShare} gVal m I d L g)
                  ∗ ((iS).view.loc (thr d L) ↦[(iRowK g).view.set]{fullShare} Widx I d L))
                ∗ ((tV).view.loc (thr d L) ↦[(tAllK).view.set]{q} m (tLoc d))) := by
  rw [View.write_whole_univ, hval]
  iintro ⟨HB, Ht, Hrow⟩
  isplitl [HB Hrow]
  · isplitl [HB]; · iexact HB
    iexact Hrow
  iexact Ht

/-- The gather of chunk g into buffer 2 on semaphore `gs`, at the head of a program. -/
theorem gather_issue2 (hI : ListsOK I) (gs : DmaSem sig) (q : PosShare TreeShare) (g : Fin 50) (fB : Buf (Elt F) ((B2).view.loc (thr d L)))
    {α : Type} {k : PUnit → Prog (TpuEff nD τ sig (Elt F) Λ₀ (thr d L).2) α} {Q : α → sProp 𝕄} :
    iprop(((B2).view.loc (thr d L) ↦[(B2).view.set]{fullShare} fB)
        ∗ ((iS).view.loc (thr d L) ↦[(iRowK g).view.set]{fullShare} Widx I d L)
        ∗ ((tV).view.loc (thr d L) ↦[(tAllK).view.set]{q} m (tLoc d))
        ∗ semVal (thr d L, SemLoc.dma gs) 0)
      ⊢ iprop((Transfers.Flight countersEmb (thr d L) (SemLoc.dma gs) (default : HIx 1) 524288
              iprop((((B2).view.loc (thr d L) ↦[(B2).view.set]{fullShare} gVal m I d L g)
                  ∗ ((iS).view.loc (thr d L) ↦[(iRowK g).view.set]{fullShare} Widx I d L))
                ∗ ((tV).view.loc (thr d L) ↦[(tAllK).view.set]{q} m (tLoc d)))
            -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK B2 gathers_S100000x128_S128x128 (iRowK g) rfl gs (View.wordExact_bits rfl) rfl (Or.inl rfl) >>= k) Q) := by
  have hin := hin_Widx I d L hI g
  have hval := gather_eq_gVal m I d L hI g rfl hin
  iintro ⟨HB, Hrow, Ht, Hsem⟩ Hk
  iapply (SparseCore.wp_indirectGatherLocal countersEmb 𝒱₀ (thr d L) none (hg := gathers_S100000x128_S128x128) (default : HIx 1)
      524288 (rowsCredit_B2 _) (by decide) hin) $$ [Ht HB Hrow Hsem]
  · isplitl [Ht]; · iexact Ht
    isplitl [HB]; · iexact HB
    isplitl [Hrow]; · iexact Hrow
    iexact Hsem
  iintro Hfl
  iapply Hk
  iapply (Transfers.Flight_mono countersEmb (thr d L) (gdel2_of m I d L q g fB hin hval)) $$ Hfl

/-! ## Buffer 3 -/

/-- The 128 rows of the buffer credit the gather's semaphore with the buffer's whole size. -/
theorem rowsCredit_B3 : ∀ h : S100000x128.Gathers 0 S128x128,
    ∑ j, ((B3).slice (S128x128.rowRect h.axis' j) (S128x128.stride_rowRect h.axis' j)).view.dmaCredit = 524288 := by
  decide

/-- What the stream hands over at the wait is the delivery in its final form: the buffer written whole with the
    payload holds the chunk's rows of the lookup. -/
theorem gdel3_of (q : PosShare TreeShare) (g : Fin 50) (fB : Buf (Elt F) ((B3).view.loc (thr d L)))
    (hin : ∀ x, ((iRowK g).view.read (Elt F) (Widx I d L) x).toNat < S100000x128.size gathers_S100000x128_S128x128.axis)
    (hval : SparseCore.gatherPayload gathers_S100000x128_S128x128 ((tAllK).view.read (Elt F) (m (tLoc d)))
        (SparseCore.rows ((iRowK g).view.read (Elt F) (Widx I d L)) rfl hin) = gVal m I d L g) :
    (iprop(((B3).view.loc (thr d L) ↦[(B3).view.set]{fullShare}
          (B3).view.write (Elt F) fB (SparseCore.gatherPayload gathers_S100000x128_S128x128 ((tAllK).view.read (Elt F) (m (tLoc d)))
            (SparseCore.rows ((iRowK g).view.read (Elt F) (Widx I d L)) rfl hin)) Finset.univ)
        ∗ ((tAllK).view.loc (thr d L) ↦[(tAllK).view.set]{q} m (tLoc d))
        ∗ ((iRowK g).view.loc (thr d L) ↦[(iRowK g).view.set]{fullShare} Widx I d L)) : sProp 𝕄)
      ⊢ iprop((((B3).view.loc (thr d L) ↦[(B3).view.set]{fullShare} gVal m I d L g)
                  ∗ ((iS).view.loc (thr d L) ↦[(iRowK g).view.set]{fullShare} Widx I d L))
                ∗ ((tV).view.loc (thr d L) ↦[(tAllK).view.set]{q} m (tLoc d))) := by
  rw [View.write_whole_univ, hval]
  iintro ⟨HB, Ht, Hrow⟩
  isplitl [HB Hrow]
  · isplitl [HB]; · iexact HB
    iexact Hrow
  iexact Ht

/-- The gather of chunk g into buffer 3 on semaphore `gs`, at the head of a program. -/
theorem gather_issue3 (hI : ListsOK I) (gs : DmaSem sig) (q : PosShare TreeShare) (g : Fin 50) (fB : Buf (Elt F) ((B3).view.loc (thr d L)))
    {α : Type} {k : PUnit → Prog (TpuEff nD τ sig (Elt F) Λ₀ (thr d L).2) α} {Q : α → sProp 𝕄} :
    iprop(((B3).view.loc (thr d L) ↦[(B3).view.set]{fullShare} fB)
        ∗ ((iS).view.loc (thr d L) ↦[(iRowK g).view.set]{fullShare} Widx I d L)
        ∗ ((tV).view.loc (thr d L) ↦[(tAllK).view.set]{q} m (tLoc d))
        ∗ semVal (thr d L, SemLoc.dma gs) 0)
      ⊢ iprop((Transfers.Flight countersEmb (thr d L) (SemLoc.dma gs) (default : HIx 1) 524288
              iprop((((B3).view.loc (thr d L) ↦[(B3).view.set]{fullShare} gVal m I d L g)
                  ∗ ((iS).view.loc (thr d L) ↦[(iRowK g).view.set]{fullShare} Widx I d L))
                ∗ ((tV).view.loc (thr d L) ↦[(tAllK).view.set]{q} m (tLoc d)))
            -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK B3 gathers_S100000x128_S128x128 (iRowK g) rfl gs (View.wordExact_bits rfl) rfl (Or.inl rfl) >>= k) Q) := by
  have hin := hin_Widx I d L hI g
  have hval := gather_eq_gVal m I d L hI g rfl hin
  iintro ⟨HB, Hrow, Ht, Hsem⟩ Hk
  iapply (SparseCore.wp_indirectGatherLocal countersEmb 𝒱₀ (thr d L) none (hg := gathers_S100000x128_S128x128) (default : HIx 1)
      524288 (rowsCredit_B3 _) (by decide) hin) $$ [Ht HB Hrow Hsem]
  · isplitl [Ht]; · iexact Ht
    isplitl [HB]; · iexact HB
    isplitl [Hrow]; · iexact Hrow
    iexact Hsem
  iintro Hfl
  iapply Hk
  iapply (Transfers.Flight_mono countersEmb (thr d L) (gdel3_of m I d L q g fB hin hval)) $$ Hfl

/-! ## Buffer 4 -/

/-- The 128 rows of the buffer credit the gather's semaphore with the buffer's whole size. -/
theorem rowsCredit_B4 : ∀ h : S100000x128.Gathers 0 S128x128,
    ∑ j, ((B4).slice (S128x128.rowRect h.axis' j) (S128x128.stride_rowRect h.axis' j)).view.dmaCredit = 524288 := by
  decide

/-- What the stream hands over at the wait is the delivery in its final form: the buffer written whole with the
    payload holds the chunk's rows of the lookup. -/
theorem gdel4_of (q : PosShare TreeShare) (g : Fin 50) (fB : Buf (Elt F) ((B4).view.loc (thr d L)))
    (hin : ∀ x, ((iRowK g).view.read (Elt F) (Widx I d L) x).toNat < S100000x128.size gathers_S100000x128_S128x128.axis)
    (hval : SparseCore.gatherPayload gathers_S100000x128_S128x128 ((tAllK).view.read (Elt F) (m (tLoc d)))
        (SparseCore.rows ((iRowK g).view.read (Elt F) (Widx I d L)) rfl hin) = gVal m I d L g) :
    (iprop(((B4).view.loc (thr d L) ↦[(B4).view.set]{fullShare}
          (B4).view.write (Elt F) fB (SparseCore.gatherPayload gathers_S100000x128_S128x128 ((tAllK).view.read (Elt F) (m (tLoc d)))
            (SparseCore.rows ((iRowK g).view.read (Elt F) (Widx I d L)) rfl hin)) Finset.univ)
        ∗ ((tAllK).view.loc (thr d L) ↦[(tAllK).view.set]{q} m (tLoc d))
        ∗ ((iRowK g).view.loc (thr d L) ↦[(iRowK g).view.set]{fullShare} Widx I d L)) : sProp 𝕄)
      ⊢ iprop((((B4).view.loc (thr d L) ↦[(B4).view.set]{fullShare} gVal m I d L g)
                  ∗ ((iS).view.loc (thr d L) ↦[(iRowK g).view.set]{fullShare} Widx I d L))
                ∗ ((tV).view.loc (thr d L) ↦[(tAllK).view.set]{q} m (tLoc d))) := by
  rw [View.write_whole_univ, hval]
  iintro ⟨HB, Ht, Hrow⟩
  isplitl [HB Hrow]
  · isplitl [HB]; · iexact HB
    iexact Hrow
  iexact Ht

/-- The gather of chunk g into buffer 4 on semaphore `gs`, at the head of a program. -/
theorem gather_issue4 (hI : ListsOK I) (gs : DmaSem sig) (q : PosShare TreeShare) (g : Fin 50) (fB : Buf (Elt F) ((B4).view.loc (thr d L)))
    {α : Type} {k : PUnit → Prog (TpuEff nD τ sig (Elt F) Λ₀ (thr d L).2) α} {Q : α → sProp 𝕄} :
    iprop(((B4).view.loc (thr d L) ↦[(B4).view.set]{fullShare} fB)
        ∗ ((iS).view.loc (thr d L) ↦[(iRowK g).view.set]{fullShare} Widx I d L)
        ∗ ((tV).view.loc (thr d L) ↦[(tAllK).view.set]{q} m (tLoc d))
        ∗ semVal (thr d L, SemLoc.dma gs) 0)
      ⊢ iprop((Transfers.Flight countersEmb (thr d L) (SemLoc.dma gs) (default : HIx 1) 524288
              iprop((((B4).view.loc (thr d L) ↦[(B4).view.set]{fullShare} gVal m I d L g)
                  ∗ ((iS).view.loc (thr d L) ↦[(iRowK g).view.set]{fullShare} Widx I d L))
                ∗ ((tV).view.loc (thr d L) ↦[(tAllK).view.set]{q} m (tLoc d)))
            -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK B4 gathers_S100000x128_S128x128 (iRowK g) rfl gs (View.wordExact_bits rfl) rfl (Or.inl rfl) >>= k) Q) := by
  have hin := hin_Widx I d L hI g
  have hval := gather_eq_gVal m I d L hI g rfl hin
  iintro ⟨HB, Hrow, Ht, Hsem⟩ Hk
  iapply (SparseCore.wp_indirectGatherLocal countersEmb 𝒱₀ (thr d L) none (hg := gathers_S100000x128_S128x128) (default : HIx 1)
      524288 (rowsCredit_B4 _) (by decide) hin) $$ [Ht HB Hrow Hsem]
  · isplitl [Ht]; · iexact Ht
    isplitl [HB]; · iexact HB
    isplitl [Hrow]; · iexact Hrow
    iexact Hsem
  iintro Hfl
  iapply Hk
  iapply (Transfers.Flight_mono countersEmb (thr d L) (gdel4_of m I d L q g fB hin hval)) $$ Hfl

/-! ## Buffer 5 -/

/-- The 128 rows of the buffer credit the gather's semaphore with the buffer's whole size. -/
theorem rowsCredit_B5 : ∀ h : S100000x128.Gathers 0 S128x128,
    ∑ j, ((B5).slice (S128x128.rowRect h.axis' j) (S128x128.stride_rowRect h.axis' j)).view.dmaCredit = 524288 := by
  decide

/-- What the stream hands over at the wait is the delivery in its final form: the buffer written whole with the
    payload holds the chunk's rows of the lookup. -/
theorem gdel5_of (q : PosShare TreeShare) (g : Fin 50) (fB : Buf (Elt F) ((B5).view.loc (thr d L)))
    (hin : ∀ x, ((iRowK g).view.read (Elt F) (Widx I d L) x).toNat < S100000x128.size gathers_S100000x128_S128x128.axis)
    (hval : SparseCore.gatherPayload gathers_S100000x128_S128x128 ((tAllK).view.read (Elt F) (m (tLoc d)))
        (SparseCore.rows ((iRowK g).view.read (Elt F) (Widx I d L)) rfl hin) = gVal m I d L g) :
    (iprop(((B5).view.loc (thr d L) ↦[(B5).view.set]{fullShare}
          (B5).view.write (Elt F) fB (SparseCore.gatherPayload gathers_S100000x128_S128x128 ((tAllK).view.read (Elt F) (m (tLoc d)))
            (SparseCore.rows ((iRowK g).view.read (Elt F) (Widx I d L)) rfl hin)) Finset.univ)
        ∗ ((tAllK).view.loc (thr d L) ↦[(tAllK).view.set]{q} m (tLoc d))
        ∗ ((iRowK g).view.loc (thr d L) ↦[(iRowK g).view.set]{fullShare} Widx I d L)) : sProp 𝕄)
      ⊢ iprop((((B5).view.loc (thr d L) ↦[(B5).view.set]{fullShare} gVal m I d L g)
                  ∗ ((iS).view.loc (thr d L) ↦[(iRowK g).view.set]{fullShare} Widx I d L))
                ∗ ((tV).view.loc (thr d L) ↦[(tAllK).view.set]{q} m (tLoc d))) := by
  rw [View.write_whole_univ, hval]
  iintro ⟨HB, Ht, Hrow⟩
  isplitl [HB Hrow]
  · isplitl [HB]; · iexact HB
    iexact Hrow
  iexact Ht

/-- The gather of chunk g into buffer 5 on semaphore `gs`, at the head of a program. -/
theorem gather_issue5 (hI : ListsOK I) (gs : DmaSem sig) (q : PosShare TreeShare) (g : Fin 50) (fB : Buf (Elt F) ((B5).view.loc (thr d L)))
    {α : Type} {k : PUnit → Prog (TpuEff nD τ sig (Elt F) Λ₀ (thr d L).2) α} {Q : α → sProp 𝕄} :
    iprop(((B5).view.loc (thr d L) ↦[(B5).view.set]{fullShare} fB)
        ∗ ((iS).view.loc (thr d L) ↦[(iRowK g).view.set]{fullShare} Widx I d L)
        ∗ ((tV).view.loc (thr d L) ↦[(tAllK).view.set]{q} m (tLoc d))
        ∗ semVal (thr d L, SemLoc.dma gs) 0)
      ⊢ iprop((Transfers.Flight countersEmb (thr d L) (SemLoc.dma gs) (default : HIx 1) 524288
              iprop((((B5).view.loc (thr d L) ↦[(B5).view.set]{fullShare} gVal m I d L g)
                  ∗ ((iS).view.loc (thr d L) ↦[(iRowK g).view.set]{fullShare} Widx I d L))
                ∗ ((tV).view.loc (thr d L) ↦[(tAllK).view.set]{q} m (tLoc d)))
            -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK B5 gathers_S100000x128_S128x128 (iRowK g) rfl gs (View.wordExact_bits rfl) rfl (Or.inl rfl) >>= k) Q) := by
  have hin := hin_Widx I d L hI g
  have hval := gather_eq_gVal m I d L hI g rfl hin
  iintro ⟨HB, Hrow, Ht, Hsem⟩ Hk
  iapply (SparseCore.wp_indirectGatherLocal countersEmb 𝒱₀ (thr d L) none (hg := gathers_S100000x128_S128x128) (default : HIx 1)
      524288 (rowsCredit_B5 _) (by decide) hin) $$ [Ht HB Hrow Hsem]
  · isplitl [Ht]; · iexact Ht
    isplitl [HB]; · iexact HB
    isplitl [Hrow]; · iexact Hrow
    iexact Hsem
  iintro Hfl
  iapply Hk
  iapply (Transfers.Flight_mono countersEmb (thr d L) (gdel5_of m I d L q g fB hin hval)) $$ Hfl

/-! ## Buffer 6 -/

/-- The 128 rows of the buffer credit the gather's semaphore with the buffer's whole size. -/
theorem rowsCredit_B6 : ∀ h : S100000x128.Gathers 0 S128x128,
    ∑ j, ((B6).slice (S128x128.rowRect h.axis' j) (S128x128.stride_rowRect h.axis' j)).view.dmaCredit = 524288 := by
  decide

/-- What the stream hands over at the wait is the delivery in its final form: the buffer written whole with the
    payload holds the chunk's rows of the lookup. -/
theorem gdel6_of (q : PosShare TreeShare) (g : Fin 50) (fB : Buf (Elt F) ((B6).view.loc (thr d L)))
    (hin : ∀ x, ((iRowK g).view.read (Elt F) (Widx I d L) x).toNat < S100000x128.size gathers_S100000x128_S128x128.axis)
    (hval : SparseCore.gatherPayload gathers_S100000x128_S128x128 ((tAllK).view.read (Elt F) (m (tLoc d)))
        (SparseCore.rows ((iRowK g).view.read (Elt F) (Widx I d L)) rfl hin) = gVal m I d L g) :
    (iprop(((B6).view.loc (thr d L) ↦[(B6).view.set]{fullShare}
          (B6).view.write (Elt F) fB (SparseCore.gatherPayload gathers_S100000x128_S128x128 ((tAllK).view.read (Elt F) (m (tLoc d)))
            (SparseCore.rows ((iRowK g).view.read (Elt F) (Widx I d L)) rfl hin)) Finset.univ)
        ∗ ((tAllK).view.loc (thr d L) ↦[(tAllK).view.set]{q} m (tLoc d))
        ∗ ((iRowK g).view.loc (thr d L) ↦[(iRowK g).view.set]{fullShare} Widx I d L)) : sProp 𝕄)
      ⊢ iprop((((B6).view.loc (thr d L) ↦[(B6).view.set]{fullShare} gVal m I d L g)
                  ∗ ((iS).view.loc (thr d L) ↦[(iRowK g).view.set]{fullShare} Widx I d L))
                ∗ ((tV).view.loc (thr d L) ↦[(tAllK).view.set]{q} m (tLoc d))) := by
  rw [View.write_whole_univ, hval]
  iintro ⟨HB, Ht, Hrow⟩
  isplitl [HB Hrow]
  · isplitl [HB]; · iexact HB
    iexact Hrow
  iexact Ht

/-- The gather of chunk g into buffer 6 on semaphore `gs`, at the head of a program. -/
theorem gather_issue6 (hI : ListsOK I) (gs : DmaSem sig) (q : PosShare TreeShare) (g : Fin 50) (fB : Buf (Elt F) ((B6).view.loc (thr d L)))
    {α : Type} {k : PUnit → Prog (TpuEff nD τ sig (Elt F) Λ₀ (thr d L).2) α} {Q : α → sProp 𝕄} :
    iprop(((B6).view.loc (thr d L) ↦[(B6).view.set]{fullShare} fB)
        ∗ ((iS).view.loc (thr d L) ↦[(iRowK g).view.set]{fullShare} Widx I d L)
        ∗ ((tV).view.loc (thr d L) ↦[(tAllK).view.set]{q} m (tLoc d))
        ∗ semVal (thr d L, SemLoc.dma gs) 0)
      ⊢ iprop((Transfers.Flight countersEmb (thr d L) (SemLoc.dma gs) (default : HIx 1) 524288
              iprop((((B6).view.loc (thr d L) ↦[(B6).view.set]{fullShare} gVal m I d L g)
                  ∗ ((iS).view.loc (thr d L) ↦[(iRowK g).view.set]{fullShare} Widx I d L))
                ∗ ((tV).view.loc (thr d L) ↦[(tAllK).view.set]{q} m (tLoc d)))
            -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK B6 gathers_S100000x128_S128x128 (iRowK g) rfl gs (View.wordExact_bits rfl) rfl (Or.inl rfl) >>= k) Q) := by
  have hin := hin_Widx I d L hI g
  have hval := gather_eq_gVal m I d L hI g rfl hin
  iintro ⟨HB, Hrow, Ht, Hsem⟩ Hk
  iapply (SparseCore.wp_indirectGatherLocal countersEmb 𝒱₀ (thr d L) none (hg := gathers_S100000x128_S128x128) (default : HIx 1)
      524288 (rowsCredit_B6 _) (by decide) hin) $$ [Ht HB Hrow Hsem]
  · isplitl [Ht]; · iexact Ht
    isplitl [HB]; · iexact HB
    isplitl [Hrow]; · iexact Hrow
    iexact Hsem
  iintro Hfl
  iapply Hk
  iapply (Transfers.Flight_mono countersEmb (thr d L) (gdel6_of m I d L q g fB hin hval)) $$ Hfl

/-! ## Buffer 7 -/

/-- The 128 rows of the buffer credit the gather's semaphore with the buffer's whole size. -/
theorem rowsCredit_B7 : ∀ h : S100000x128.Gathers 0 S128x128,
    ∑ j, ((B7).slice (S128x128.rowRect h.axis' j) (S128x128.stride_rowRect h.axis' j)).view.dmaCredit = 524288 := by
  decide

/-- What the stream hands over at the wait is the delivery in its final form: the buffer written whole with the
    payload holds the chunk's rows of the lookup. -/
theorem gdel7_of (q : PosShare TreeShare) (g : Fin 50) (fB : Buf (Elt F) ((B7).view.loc (thr d L)))
    (hin : ∀ x, ((iRowK g).view.read (Elt F) (Widx I d L) x).toNat < S100000x128.size gathers_S100000x128_S128x128.axis)
    (hval : SparseCore.gatherPayload gathers_S100000x128_S128x128 ((tAllK).view.read (Elt F) (m (tLoc d)))
        (SparseCore.rows ((iRowK g).view.read (Elt F) (Widx I d L)) rfl hin) = gVal m I d L g) :
    (iprop(((B7).view.loc (thr d L) ↦[(B7).view.set]{fullShare}
          (B7).view.write (Elt F) fB (SparseCore.gatherPayload gathers_S100000x128_S128x128 ((tAllK).view.read (Elt F) (m (tLoc d)))
            (SparseCore.rows ((iRowK g).view.read (Elt F) (Widx I d L)) rfl hin)) Finset.univ)
        ∗ ((tAllK).view.loc (thr d L) ↦[(tAllK).view.set]{q} m (tLoc d))
        ∗ ((iRowK g).view.loc (thr d L) ↦[(iRowK g).view.set]{fullShare} Widx I d L)) : sProp 𝕄)
      ⊢ iprop((((B7).view.loc (thr d L) ↦[(B7).view.set]{fullShare} gVal m I d L g)
                  ∗ ((iS).view.loc (thr d L) ↦[(iRowK g).view.set]{fullShare} Widx I d L))
                ∗ ((tV).view.loc (thr d L) ↦[(tAllK).view.set]{q} m (tLoc d))) := by
  rw [View.write_whole_univ, hval]
  iintro ⟨HB, Ht, Hrow⟩
  isplitl [HB Hrow]
  · isplitl [HB]; · iexact HB
    iexact Hrow
  iexact Ht

/-- The gather of chunk g into buffer 7 on semaphore `gs`, at the head of a program. -/
theorem gather_issue7 (hI : ListsOK I) (gs : DmaSem sig) (q : PosShare TreeShare) (g : Fin 50) (fB : Buf (Elt F) ((B7).view.loc (thr d L)))
    {α : Type} {k : PUnit → Prog (TpuEff nD τ sig (Elt F) Λ₀ (thr d L).2) α} {Q : α → sProp 𝕄} :
    iprop(((B7).view.loc (thr d L) ↦[(B7).view.set]{fullShare} fB)
        ∗ ((iS).view.loc (thr d L) ↦[(iRowK g).view.set]{fullShare} Widx I d L)
        ∗ ((tV).view.loc (thr d L) ↦[(tAllK).view.set]{q} m (tLoc d))
        ∗ semVal (thr d L, SemLoc.dma gs) 0)
      ⊢ iprop((Transfers.Flight countersEmb (thr d L) (SemLoc.dma gs) (default : HIx 1) 524288
              iprop((((B7).view.loc (thr d L) ↦[(B7).view.set]{fullShare} gVal m I d L g)
                  ∗ ((iS).view.loc (thr d L) ↦[(iRowK g).view.set]{fullShare} Widx I d L))
                ∗ ((tV).view.loc (thr d L) ↦[(tAllK).view.set]{q} m (tLoc d)))
            -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK B7 gathers_S100000x128_S128x128 (iRowK g) rfl gs (View.wordExact_bits rfl) rfl (Or.inl rfl) >>= k) Q) := by
  have hin := hin_Widx I d L hI g
  have hval := gather_eq_gVal m I d L hI g rfl hin
  iintro ⟨HB, Hrow, Ht, Hsem⟩ Hk
  iapply (SparseCore.wp_indirectGatherLocal countersEmb 𝒱₀ (thr d L) none (hg := gathers_S100000x128_S128x128) (default : HIx 1)
      524288 (rowsCredit_B7 _) (by decide) hin) $$ [Ht HB Hrow Hsem]
  · isplitl [Ht]; · iexact Ht
    isplitl [HB]; · iexact HB
    isplitl [Hrow]; · iexact Hrow
    iexact Hsem
  iintro Hfl
  iapply Hk
  iapply (Transfers.Flight_mono countersEmb (thr d L) (gdel7_of m I d L q g fB hin hval)) $$ Hfl

end Cert.KernelIdeal.Sc

end
-- ==== Proof.KITilePro.lean ====
/-
  The opening of a task, up to its first four gathers.

  The task copies its list — row w of the lists, 50 × 128 words — into its index scratch and waits for it: the
  scratch then holds the list. It then starts, one after the other, the gathers of chunks 0, 1, 2, 3 into its
  first four row buffers, each on the buffer's own semaphore, each lending row g of the scratch and a seventh of the
  task's share of the table. Left outside the flights: rows 4 … 49 of the scratch.
-/
import proofs.«206296_g7516192768393_cont_9to1c4b_737_14_alg».proof.Proof.KITileGather

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
local notation "tV" => (Memref.whole Cert.KernelIdeal.main_arg0_scv : Memref Cert.KernelIdeal.sig Kind.scVector Space.hbm Cert.KernelIdeal.S100000x128 EltTy.f32)
local notation "iS" => (Memref.whole Cert.KernelIdeal.cc0_scratch0 : Memref Cert.KernelIdeal.sig Kind.scVector Space.vmem Cert.KernelIdeal.S50x128 EltTy.i32)
local notation "B1" => (Memref.whole Cert.KernelIdeal.cc0_scratch1 : Memref Cert.KernelIdeal.sig Kind.scVector Space.vmem Cert.KernelIdeal.S128x128 EltTy.f32)
local notation "B2" => (Memref.whole Cert.KernelIdeal.cc0_scratch2 : Memref Cert.KernelIdeal.sig Kind.scVector Space.vmem Cert.KernelIdeal.S128x128 EltTy.f32)
local notation "B3" => (Memref.whole Cert.KernelIdeal.cc0_scratch3 : Memref Cert.KernelIdeal.sig Kind.scVector Space.vmem Cert.KernelIdeal.S128x128 EltTy.f32)
local notation "B4" => (Memref.whole Cert.KernelIdeal.cc0_scratch4 : Memref Cert.KernelIdeal.sig Kind.scVector Space.vmem Cert.KernelIdeal.S128x128 EltTy.f32)
local notation "B5" => (Memref.whole Cert.KernelIdeal.cc0_scratch5 : Memref Cert.KernelIdeal.sig Kind.scVector Space.vmem Cert.KernelIdeal.S128x128 EltTy.f32)
local notation "B6" => (Memref.whole Cert.KernelIdeal.cc0_scratch6 : Memref Cert.KernelIdeal.sig Kind.scVector Space.vmem Cert.KernelIdeal.S128x128 EltTy.f32)
local notation "B7" => (Memref.whole Cert.KernelIdeal.cc0_scratch7 : Memref Cert.KernelIdeal.sig Kind.scVector Space.vmem Cert.KernelIdeal.S128x128 EltTy.f32)

local notation "lV" => (Memref.whole Cert.KernelIdeal.main_v1_scv : Memref Cert.KernelIdeal.sig Kind.scVector Space.hbm Cert.KernelIdeal.S32x50x128 EltTy.i32)
local notation "oV" => (Memref.whole Cert.KernelIdeal.main_v2_scv : Memref Cert.KernelIdeal.sig Kind.scVector Space.hbm Cert.KernelIdeal.S204800x128 EltTy.f32)

variable (m : (ℓ : Loc nD τ sig) → Buf (Elt F) ℓ) (I : (d : Dev nD) → Buf (Elt F) (lLoc d))
variable [FloatOps F]
variable (d : Dev nD) (L : grid0.Coords)

/-- The rows of the index scratch from row g on are row g and the rows after it. -/
theorem iTodo_row (g : Fin 50) :
    (iTodo I d L g.val : sProp 𝕄)
      = iprop(((iS).view.loc (thr d L) ↦[(iRowK g).view.set]{fullShare} Widx I d L) ∗ iTodo I d L (g.val + 1)) := by
  unfold iTodo
  rw [set_iRowK, pts_iRange_split d L fullShare (Widx I d L) (lo := g.val) (mid := g.val + 1) (hi := 50) (by omega) (by have := g.isLt; omega)]

set_option maxHeartbeats 4000000 in
/-- The list's copy, its wait, and the gathers of chunks 0 … 3. -/
theorem pro3 (hI : ListsOK I) (O : CellTallies nD τ sig (HIx 1)) (W : Waits sig (HIx 1))
    (f0 : Buf (Elt F) ((iS).view.loc (thr d L)))
    (f1 : Buf (Elt F) ((B1).view.loc (thr d L))) (f2 : Buf (Elt F) ((B2).view.loc (thr d L)))
    (f3 : Buf (Elt F) ((B3).view.loc (thr d L))) (f4 : Buf (Elt F) ((B4).view.loc (thr d L))) :
    iprop((Transfers.MayWaits (thr d L) (default : HIx 1) O : sProp 𝕄)
        ∗ ((lRowK L).view.loc (thr d L) ↦[(lRowK L).view.set]{fullShare} I d)
        ∗ ((iS).view.loc (thr d L) ↦{fullShare} f0)
        ∗ ((B1).view.loc (thr d L) ↦{fullShare} f1) ∗ ((B2).view.loc (thr d L) ↦{fullShare} f2)
        ∗ ((B3).view.loc (thr d L) ↦{fullShare} f3) ∗ ((B4).view.loc (thr d L) ↦{fullShare} f4)
        ∗ ((tV).view.loc (thr d L) ↦[(tAllK).view.set]{qt L 0} m (tLoc d)) ∗ ((tV).view.loc (thr d L) ↦[(tAllK).view.set]{qt L 1} m (tLoc d))
        ∗ ((tV).view.loc (thr d L) ↦[(tAllK).view.set]{qt L 2} m (tLoc d)) ∗ ((tV).view.loc (thr d L) ↦[(tAllK).view.set]{qt L 3} m (tLoc d))
        ∗ semVal (thr d L, SemLoc.dma cc0_scratch8.sem) 0 ∗ semVal (thr d L, SemLoc.dma cc0_scratch9.sem) 0
        ∗ semVal (thr d L, SemLoc.dma cc0_scratch10.sem) 0 ∗ semVal (thr d L, SemLoc.dma cc0_scratch11.sem) 0
        ∗ semVal (thr d L, SemLoc.dma cc0_scoped0.sem) 0
        ∗ owes (thr d L) O W)
      ⊢ wp frame (wpE (defs₀ (F := F)) 𝒱₀ (thr d L) none) Set.univ
          (k0_part3 L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0)
          fun _ => iprop((Transfers.MayWaits (thr d L) (default : HIx 1) O : sProp 𝕄)
            ∗ ((lRowK L).view.loc (thr d L) ↦[(lRowK L).view.set]{fullShare} I d)
            ∗ Transfers.Flight countersEmb (thr d L) (SemLoc.dma cc0_scratch8.sem) (default : HIx 1) 524288 (gDel1 m I d L ⟨0, by omega⟩)
            ∗ Transfers.Flight countersEmb (thr d L) (SemLoc.dma cc0_scratch9.sem) (default : HIx 1) 524288 (gDel2 m I d L ⟨1, by omega⟩)
            ∗ Transfers.Flight countersEmb (thr d L) (SemLoc.dma cc0_scratch10.sem) (default : HIx 1) 524288 (gDel3 m I d L ⟨2, by omega⟩)
            ∗ Transfers.Flight countersEmb (thr d L) (SemLoc.dma cc0_scratch11.sem) (default : HIx 1) 524288 (gDel4 m I d L ⟨3, by omega⟩)
            ∗ iTodo I d L 4
            ∗ semVal (thr d L, SemLoc.dma cc0_scoped0.sem) 0
            ∗ ∃ W', ⌜∀ p ∈ W', p ∈ W ∨ p.2 = none⌝ ∗ owes (thr d L) O W') := by
  rw [k0_part3_eq_skeleton]; unfold k0_part3_skel
  iintro ⟨Hmw, Hl, Hi, H1, H2, H3, H4, Ht1, Ht2, Ht3, Ht4, Hg1, Hg2, Hg3, Hg4, Hs0, HO⟩
  sl_exec
  ihave Hi := (Entails.of_eq (show ((iS).view.loc (thr d L) ↦{fullShare} View.write (Elt F) (iS).view f0 (pro3.sl.dma0 I d L) Finset.univ : sProp 𝕄)
      = iTodo I d L 0 from by unfold iTodo; rw [iRange_univ, View.write_whole_univ]; rfl)) $$ Hi
  -- chunk 0 into buffer 1
  ihave Hi := (Entails.of_eq (iTodo_row I d L ⟨0, by omega⟩)) $$ Hi
  icases Hi with ⟨Hr, Hi⟩
  ihave H1 := (Entails.of_eq (show ((B1).view.loc (thr d L) ↦{fullShare} f1 : sProp 𝕄)
      = (B1).view.loc (thr d L) ↦[(B1).view.set]{fullShare} f1 from by rw [View.set_whole])) $$ H1
  iapply (gather_issue1 m I d L hI cc0_scratch8.sem (qt L 0) ⟨0, by omega⟩ f1) $$ [H1 Hr Ht1 Hg1]
  · isplitl [H1]; · iexact H1
    isplitl [Hr]; · iexact Hr
    isplitl [Ht1]; · iexact Ht1
    iexact Hg1
  iintro Hf1
  sl_exec
  -- chunk 1 into buffer 2
  ihave Hi := (Entails.of_eq (iTodo_row I d L ⟨1, by omega⟩)) $$ Hi
  icases Hi with ⟨Hr, Hi⟩
  ihave H2 := (Entails.of_eq (show ((B2).view.loc (thr d L) ↦{fullShare} f2 : sProp 𝕄)
      = (B2).view.loc (thr d L) ↦[(B2).view.set]{fullShare} f2 from by rw [View.set_whole])) $$ H2
  iapply (gather_issue2 m I d L hI cc0_scratch9.sem (qt L 1) ⟨1, by omega⟩ f2) $$ [H2 Hr Ht2 Hg2]
  · isplitl [H2]; · iexact H2
    isplitl [Hr]; · iexact Hr
    isplitl [Ht2]; · iexact Ht2
    iexact Hg2
  iintro Hf2
  sl_exec
  -- chunk 2 into buffer 3
  ihave Hi := (Entails.of_eq (iTodo_row I d L ⟨2, by omega⟩)) $$ Hi
  icases Hi with ⟨Hr, Hi⟩
  ihave H3 := (Entails.of_eq (show ((B3).view.loc (thr d L) ↦{fullShare} f3 : sProp 𝕄)
      = (B3).view.loc (thr d L) ↦[(B3).view.set]{fullShare} f3 from by rw [View.set_whole])) $$ H3
  iapply (gather_issue3 m I d L hI cc0_scratch10.sem (qt L 2) ⟨2, by omega⟩ f3) $$ [H3 Hr Ht3 Hg3]
  · isplitl [H3]; · iexact H3
    isplitl [Hr]; · iexact Hr
    isplitl [Ht3]; · iexact Ht3
    iexact Hg3
  iintro Hf3
  sl_exec
  -- chunk 3 into buffer 4
  ihave Hi := (Entails.of_eq (iTodo_row I d L ⟨3, by omega⟩)) $$ Hi
  icases Hi with ⟨Hr, Hi⟩
  ihave H4 := (Entails.of_eq (show ((B4).view.loc (thr d L) ↦{fullShare} f4 : sProp 𝕄)
      = (B4).view.loc (thr d L) ↦[(B4).view.set]{fullShare} f4 from by rw [View.set_whole])) $$ H4
  iapply (gather_issue4 m I d L hI cc0_scratch11.sem (qt L 3) ⟨3, by omega⟩ f4) $$ [H4 Hr Ht4 Hg4]
  · isplitl [H4]; · iexact H4
    isplitl [Hr]; · iexact Hr
    isplitl [Ht4]; · iexact Ht4
    iexact Hg4
  iintro Hf4
  sl_exec
  sl_step
  isplitl [Hmw]; · iexact Hmw
  isplitl [Hl]; · iexact Hl
  isplitl [Hf1]; · unfold gDel1; iexact Hf1
  isplitl [Hf2]; · unfold gDel2; iexact Hf2
  isplitl [Hf3]; · unfold gDel3; iexact Hf3
  isplitl [Hf4]; · unfold gDel4; iexact Hf4
  isplitl [Hi]; · iexact Hi
  isplitl [Hs0]; · iexact Hs0
  iexists _; isplitr
  swap; · iexact HO
  ipureintro; intro p hp
  rcases Finset.mem_insert.mp hp with hp | hp; · exact .inr (hp ▸ rfl)
  exact .inl hp

end Cert.KernelIdeal.Sc

end
-- ==== Proof.KITileEpi.lean ====
/-
  The end of one task of the lookup kernel: the seven waits after its loop.

  When the loop ends every slot is writing a chunk out: slot 0 the last chunk, 49, and slots 1 … 6 the chunks
  43 … 48. The task then waits once on each slot's write semaphore, six times at the end of the function that holds
  the loop and a seventh time at the end of the task. Each wait delivers the chunk's rows of the result, holding the
  lookup, and gives the slot's buffer back. The chunks join the rows already finished, interval by interval, until the
  task's 6400 rows of the result are whole; the seven slots' shares of the table join into the task's share; the
  fifty rows of the index scratch are the scratch.
-/
import proofs.«206296_g7516192768393_cont_9to1c4b_737_14_alg».proof.Proof.KITileInv

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg0_scv : Memref Cert.KernelIdeal.sig Kind.scVector Space.hbm Cert.KernelIdeal.S100000x128 EltTy.f32)
local notation "lV" => (Memref.whole Cert.KernelIdeal.main_v1_scv : Memref Cert.KernelIdeal.sig Kind.scVector Space.hbm Cert.KernelIdeal.S32x50x128 EltTy.i32)
local notation "oV" => (Memref.whole Cert.KernelIdeal.main_v2_scv : Memref Cert.KernelIdeal.sig Kind.scVector Space.hbm Cert.KernelIdeal.S204800x128 EltTy.f32)
local notation "iS" => (Memref.whole Cert.KernelIdeal.cc0_scratch0 : Memref Cert.KernelIdeal.sig Kind.scVector Space.vmem Cert.KernelIdeal.S50x128 EltTy.i32)
local notation "B1" => (Memref.whole Cert.KernelIdeal.cc0_scratch1 : Memref Cert.KernelIdeal.sig Kind.scVector Space.vmem Cert.KernelIdeal.S128x128 EltTy.f32)
local notation "B2" => (Memref.whole Cert.KernelIdeal.cc0_scratch2 : Memref Cert.KernelIdeal.sig Kind.scVector Space.vmem Cert.KernelIdeal.S128x128 EltTy.f32)
local notation "B3" => (Memref.whole Cert.KernelIdeal.cc0_scratch3 : Memref Cert.KernelIdeal.sig Kind.scVector Space.vmem Cert.KernelIdeal.S128x128 EltTy.f32)
local notation "B4" => (Memref.whole Cert.KernelIdeal.cc0_scratch4 : Memref Cert.KernelIdeal.sig Kind.scVector Space.vmem Cert.KernelIdeal.S128x128 EltTy.f32)
local notation "B5" => (Memref.whole Cert.KernelIdeal.cc0_scratch5 : Memref Cert.KernelIdeal.sig Kind.scVector Space.vmem Cert.KernelIdeal.S128x128 EltTy.f32)
local notation "B6" => (Memref.whole Cert.KernelIdeal.cc0_scratch6 : Memref Cert.KernelIdeal.sig Kind.scVector Space.vmem Cert.KernelIdeal.S128x128 EltTy.f32)
local notation "B7" => (Memref.whole Cert.KernelIdeal.cc0_scratch7 : Memref Cert.KernelIdeal.sig Kind.scVector Space.vmem Cert.KernelIdeal.S128x128 EltTy.f32)

variable (m : (ℓ : Loc nD τ sig) → Buf (Elt F) ℓ) (I : (d : Dev nD) → Buf (Elt F) (lLoc d))
variable [FloatOps F]
variable (d : Dev nD) (L : grid0.Coords)

/-! ## The program after the loop -/

/-- The six waits that end the loop's function, as printed: each waits on a slot's write semaphore for a copy of one
    chunk's size, its destination named by the 128 rows from the task's first row. -/
def epi6 (L : grid0.Coords) : Prog (TpuEff nD τ sig (Elt F) Λ₀ (.scVector (cV L) (jV L))) PUnit := do
  let v27 : Memref sig .scVector .hbm S128x128 .f32 := (oV).slice (Rect.unit (s := S204800x128) (k0_off23 L) S128x128.size (k0_off23_inb L)) (fun _ => rfl)
  Prog.lift (.waitDma2 cc0_scratch15.sem B1 v27 (Memref.isWhole_whole _).wordExact (View.wordExact_bits rfl))
  let v29 : Memref sig .scVector .hbm S128x128 .f32 := (oV).slice (Rect.unit (s := S204800x128) (k0_off23 L) S128x128.size (k0_off23_inb L)) (fun _ => rfl)
  Prog.lift (.waitDma2 cc0_scratch16.sem B2 v29 (Memref.isWhole_whole _).wordExact (View.wordExact_bits rfl))
  let v31 : Memref sig .scVector .hbm S128x128 .f32 := (oV).slice (Rect.unit (s := S204800x128) (k0_off23 L) S128x128.size (k0_off23_inb L)) (fun _ => rfl)
  Prog.lift (.waitDma2 cc0_scratch17.sem B3 v31 (Memref.isWhole_whole _).wordExact (View.wordExact_bits rfl))
  let v33 : Memref sig .scVector .hbm S128x128 .f32 := (oV).slice (Rect.unit (s := S204800x128) (k0_off23 L) S128x128.size (k0_off23_inb L)) (fun _ => rfl)
  Prog.lift (.waitDma2 cc0_scratch18.sem B4 v33 (Memref.isWhole_whole _).wordExact (View.wordExact_bits rfl))
  let v35 : Memref sig .scVector .hbm S128x128 .f32 := (oV).slice (Rect.unit (s := S204800x128) (k0_off23 L) S128x128.size (k0_off23_inb L)) (fun _ => rfl)
  Prog.lift (.waitDma2 cc0_scratch19.sem B5 v35 (Memref.isWhole_whole _).wordExact (View.wordExact_bits rfl))
  let v37 : Memref sig .scVector .hbm S128x128 .f32 := (oV).slice (Rect.unit (s := S204800x128) (k0_off23 L) S128x128.size (k0_off23_inb L)) (fun _ => rfl)
  Prog.lift (.waitDma2 cc0_scratch20.sem B6 v37 (Memref.isWhole_whole _).wordExact (View.wordExact_bits rfl))
  pure ⟨⟩

/-- The seventh wait, which ends the task, as printed. -/
def epi7 (L : grid0.Coords) : Prog (TpuEff nD τ sig (Elt F) Λ₀ (.scVector (cV L) (jV L))) PUnit := do
  let v39 : Memref sig .scVector .hbm S128x128 .f32 := (oV).slice (Rect.unit (s := S204800x128) (k0_off23 L) S128x128.size (k0_off23_inb L)) (fun _ => rfl)
  Prog.lift (.waitDma2 cc0_scratch21.sem B7 v39 (Memref.isWhole_whole _).wordExact (View.wordExact_bits rfl))
  pure ⟨⟩

/-! ## Where the seven waits stand in the task -/

/-- The function that holds the loop, up to the loop's end: three gathers issued, then the loop. -/
def epiHead4 (L : grid0.Coords) (v2 : BitVec 32) : Prog (TpuEff nD τ sig (Elt F) Λ₀ (.scVector (cV L) (jV L))) (BitVec 32) := do
  let v15 : Memref sig .scVector .vmem S1x128 .i32 := (iS).slice (Rect.unit (s := S50x128) ![4, 0] S1x128.size inb_S50x128_S1x128_4_0) (fun _ => rfl)
  let v16 : Memref sig .scVector .vmem S128 .i32 := v15.squeeze S128 squeezes_S1x128_S128
  let v17 : Memref sig .scVector .hbm S100000x128 .f32 := (tV).slice (Rect.unit (s := S100000x128) ![0, 0] S100000x128.size inb_S100000x128_S100000x128_0_0) (fun _ => rfl)
  SparseCore.enqueueIndirectGather rfl v17 B5 gathers_S100000x128_S128x128 v16 rfl cc0_scratch12.sem (View.wordExact_bits rfl) rfl (Or.inl rfl)
  let v18 : Memref sig .scVector .vmem S1x128 .i32 := (iS).slice (Rect.unit (s := S50x128) ![5, 0] S1x128.size inb_S50x128_S1x128_5_0) (fun _ => rfl)
  let v19 : Memref sig .scVector .vmem S128 .i32 := v18.squeeze S128 squeezes_S1x128_S128
  let v20 : Memref sig .scVector .hbm S100000x128 .f32 := (tV).slice (Rect.unit (s := S100000x128) ![0, 0] S100000x128.size inb_S100000x128_S100000x128_0_0) (fun _ => rfl)
  SparseCore.enqueueIndirectGather rfl v20 B6 gathers_S100000x128_S128x128 v19 rfl cc0_scratch13.sem (View.wordExact_bits rfl) rfl (Or.inl rfl)
  let v21 : Memref sig .scVector .vmem S1x128 .i32 := (iS).slice (Rect.unit (s := S50x128) ![6, 0] S1x128.size inb_S50x128_S1x128_6_0) (fun _ => rfl)
  let v22 : Memref sig .scVector .vmem S128 .i32 := v21.squeeze S128 squeezes_S1x128_S128
  let v23 : Memref sig .scVector .hbm S100000x128 .f32 := (tV).slice (Rect.unit (s := S100000x128) ![0, 0] S100000x128.size inb_S100000x128_S100000x128_0_0) (fun _ => rfl)
  SparseCore.enqueueIndirectGather rfl v23 B7 gathers_S100000x128_S128x128 v22 rfl cc0_scratch14.sem (View.wordExact_bits rfl) rfl (Or.inl rfl)
  Scf.Loop.for k0_t1_loop k0_t1_ok 0#32 (k0_t1_body L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 v2)

/-- The function that holds the loop is that head, then the six waits. -/
theorem epi_part4_eq (v2 : BitVec 32) :
    k0_part4_skel (F := F) L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 v2 = (epiHead4 (F := F) L v2 >>= fun _ => epi6 (F := F) L) := by
  unfold k0_part4_skel epiHead4 epi6
  simp only [bind_assoc]

/-- The task is its first function, then the function that holds the loop, then the seventh wait. -/
theorem epi_body_eq :
    cc0__gather_body_skel (F := F) L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0
      = (k0_part3 (F := F) L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 >>= fun v2 =>
          k0_part4 (F := F) L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 v2 >>= fun _ => epi7 (F := F) L) := rfl

variable (O : CellTallies nD τ sig (HIx 1)) (W : Waits sig (HIx 1))

/-! ## What holds between the two, and at the end -/

abbrev epi_g48 : Fin 50 := ⟨48, by omega⟩
abbrev epi_g49 : Fin 50 := ⟨49, by omega⟩

/-- After the six waits: slot 6 still writes chunk 48; chunks 0 … 47 and chunk 49 are at the lookup; the other six
    buffers are back, their twelve semaphores at zero, their shares of the table in hand. -/
def Mid : sProp 𝕄 :=
  iprop(slotW7 m I d L epi_g48
    ∗ oDone m I d L 48
    ∗ ((oV).view.loc (thr d L) ↦[(oChunkK (wL L) epi_g49).view.set]{fullShare} OUTbuf m I d)
    ∗ ((∃ f, (B1).view.loc (thr d L) ↦{fullShare} f) ∗ (∃ f, (B2).view.loc (thr d L) ↦{fullShare} f)
      ∗ (∃ f, (B3).view.loc (thr d L) ↦{fullShare} f) ∗ (∃ f, (B4).view.loc (thr d L) ↦{fullShare} f)
      ∗ (∃ f, (B5).view.loc (thr d L) ↦{fullShare} f) ∗ (∃ f, (B6).view.loc (thr d L) ↦{fullShare} f))
    ∗ (semVal (thr d L, SemLoc.dma cc0_scratch8.sem) 0 ∗ semVal (thr d L, SemLoc.dma cc0_scratch9.sem) 0
      ∗ semVal (thr d L, SemLoc.dma cc0_scratch10.sem) 0 ∗ semVal (thr d L, SemLoc.dma cc0_scratch11.sem) 0
      ∗ semVal (thr d L, SemLoc.dma cc0_scratch12.sem) 0 ∗ semVal (thr d L, SemLoc.dma cc0_scratch13.sem) 0)
    ∗ (semVal (thr d L, SemLoc.dma cc0_scratch15.sem) 0 ∗ semVal (thr d L, SemLoc.dma cc0_scratch16.sem) 0
      ∗ semVal (thr d L, SemLoc.dma cc0_scratch17.sem) 0 ∗ semVal (thr d L, SemLoc.dma cc0_scratch18.sem) 0
      ∗ semVal (thr d L, SemLoc.dma cc0_scratch19.sem) 0 ∗ semVal (thr d L, SemLoc.dma cc0_scratch20.sem) 0)
    ∗ (((tV).view.loc (thr d L) ↦[(tAllK).view.set]{qt L 0} m (tLoc d)) ∗ ((tV).view.loc (thr d L) ↦[(tAllK).view.set]{qt L 1} m (tLoc d))
      ∗ ((tV).view.loc (thr d L) ↦[(tAllK).view.set]{qt L 2} m (tLoc d)) ∗ ((tV).view.loc (thr d L) ↦[(tAllK).view.set]{qt L 3} m (tLoc d))
      ∗ ((tV).view.loc (thr d L) ↦[(tAllK).view.set]{qt L 4} m (tLoc d)) ∗ ((tV).view.loc (thr d L) ↦[(tAllK).view.set]{qt L 5} m (tLoc d)))
    ∗ iDone I d L 50 ∗ owesPart d L O W)

/-- At the task's end: its rows of the result at the lookup, its share of the table whole again, the eight scratch
    buffers back at some contents, the fourteen semaphores of the slots at zero, the waits recorded. -/
def EpiPost : sProp 𝕄 :=
  iprop(oRowPts d (wL L) (OUTbuf m I d)
    ∗ ((tV).view.loc (thr d L) ↦[(tAllK).view.set]{tq (wL L)} m (tLoc d))
    ∗ ((∃ f, (iS).view.loc (thr d L) ↦{fullShare} f)
      ∗ (∃ f, (B1).view.loc (thr d L) ↦{fullShare} f) ∗ (∃ f, (B2).view.loc (thr d L) ↦{fullShare} f)
      ∗ (∃ f, (B3).view.loc (thr d L) ↦{fullShare} f) ∗ (∃ f, (B4).view.loc (thr d L) ↦{fullShare} f)
      ∗ (∃ f, (B5).view.loc (thr d L) ↦{fullShare} f) ∗ (∃ f, (B6).view.loc (thr d L) ↦{fullShare} f)
      ∗ (∃ f, (B7).view.loc (thr d L) ↦{fullShare} f))
    ∗ (semVal (thr d L, SemLoc.dma cc0_scratch8.sem) 0 ∗ semVal (thr d L, SemLoc.dma cc0_scratch9.sem) 0
      ∗ semVal (thr d L, SemLoc.dma cc0_scratch10.sem) 0 ∗ semVal (thr d L, SemLoc.dma cc0_scratch11.sem) 0
      ∗ semVal (thr d L, SemLoc.dma cc0_scratch12.sem) 0 ∗ semVal (thr d L, SemLoc.dma cc0_scratch13.sem) 0
      ∗ semVal (thr d L, SemLoc.dma cc0_scratch14.sem) 0)
    ∗ (semVal (thr d L, SemLoc.dma cc0_scratch15.sem) 0 ∗ semVal (thr d L, SemLoc.dma cc0_scratch16.sem) 0
      ∗ semVal (thr d L, SemLoc.dma cc0_scratch17.sem) 0 ∗ semVal (thr d L, SemLoc.dma cc0_scratch18.sem) 0
      ∗ semVal (thr d L, SemLoc.dma cc0_scratch19.sem) 0 ∗ semVal (thr d L, SemLoc.dma cc0_scratch20.sem) 0
      ∗ semVal (thr d L, SemLoc.dma cc0_scratch21.sem) 0)
    ∗ ∃ W', ⌜∀ p ∈ W', p ∈ W ∨ p.2 = none⌝ ∗ owes (thr d L) O W')

/-! ## Sets of rows -/

omit [FloatOps F] in
theorem epi_mem_oRange (lo hi : ℕ) (i : S204800x128.Idx) : i ∈ oRange lo hi ↔ lo ≤ (i 0).val ∧ (i 0).val < hi := by
  unfold oRange
  rw [Finset.mem_filter]
  exact ⟨fun h => h.2, fun h => ⟨Finset.mem_univ _, h⟩⟩

omit [FloatOps F] in
theorem epi_mem_iRange (lo hi : ℕ) (i : S50x128.Idx) : i ∈ iRange lo hi ↔ lo ≤ (i 0).val ∧ (i 0).val < hi := by
  unfold iRange
  rw [Finset.mem_filter]
  exact ⟨fun h => h.2, fun h => ⟨Finset.mem_univ _, h⟩⟩

omit [FloatOps F] in
/-- Chunk g of task w: the elements of the result whose row lies in the 128 rows from 6400·w + 128·g. -/
theorem epi_mem_oChunk (w : Fin 32) (g : Fin 50) (i : S204800x128.Idx) :
    i ∈ (oChunkK w g).view.set ↔ 6400 * w.val + 128 * g.val ≤ (i 0).val ∧ (i 0).val < 6400 * w.val + 128 * g.val + 128 := by
  rw [show (oChunkK w g).view.set
      = (Rect.unit (s := S204800x128) ![6400 * w.val + 128 * g.val, 0] S128x128.size (oChunk_inb w g)).toLoadRect.set from View.set_slice_whole _ _,
    Rect.mem_set_unit, Fin.forall_fin_two]
  have h1 : (i 1).val < 128 := (i 1).isLt
  show (6400 * w.val + 128 * g.val ≤ (i 0).val ∧ (i 0).val < 6400 * w.val + 128 * g.val + 128) ∧ (0 ≤ (i 1).val ∧ (i 1).val < 0 + 128) ↔ _
  omega

omit [FloatOps F] in
/-- Task w's rows of the result: rows 6400·w … 6400·w + 6399. -/
theorem epi_mem_oRowSet (w : Fin 32) (i : S204800x128.Idx) :
    i ∈ oRowSet w ↔ 6400 * w.val ≤ (i 0).val ∧ (i 0).val < 6400 * w.val + 6400 := by
  rw [show oRowSet w = (orow w).toLoadRect.set from View.set_slice_whole _ _, Rect.mem_set_unit, Fin.forall_fin_two]
  have h1 : (i 1).val < 128 := (i 1).isLt
  show (w.val * (204800 / 32) ≤ (i 0).val ∧ (i 0).val < w.val * (204800 / 32) + 204800 / 32)
      ∧ (0 * 128 ≤ (i 1).val ∧ (i 1).val < 0 * 128 + 128) ↔ _
  omega

/-- A chunk at the lookup joins the finished rows below it. -/
theorem epi_oDone_put (g : Fin 50) :
    iprop(((oV).view.loc (thr d L) ↦[(oChunkK (wL L) g).view.set]{fullShare} OUTbuf m I d) ∗ oDone m I d L g.val)
      ⊢ oDone m I d L (g.val + 1) := by
  unfold oDone
  have hd : Disjoint (oChunkK (wL L) g).view.set (oRange (6400 * (wL L).val) (6400 * (wL L).val + 128 * g.val)) :=
    Finset.disjoint_left.mpr fun i h1 h2 => by
      rw [epi_mem_oChunk] at h1; rw [epi_mem_oRange] at h2; omega
  have hu : (oChunkK (wL L) g).view.set ∪ oRange (6400 * (wL L).val) (6400 * (wL L).val + 128 * g.val)
      = oRange (6400 * (wL L).val) (6400 * (wL L).val + 128 * (g.val + 1)) := by
    ext i
    rw [Finset.mem_union, epi_mem_oChunk, epi_mem_oRange, epi_mem_oRange]
    omega
  rw [← hu]
  exact (pointsTo_union hd).2

/-- All fifty chunks finished: the task's rows of the result at the lookup. -/
theorem epi_oDone_all : oDone m I d L 50 = oRowPts d (wL L) (OUTbuf m I d) := by
  have hs : oRange (6400 * (wL L).val) (6400 * (wL L).val + 128 * 50) = oRowSet (wL L) := by
    ext i
    rw [epi_mem_oRange, epi_mem_oRowSet]
  unfold oDone
  rw [hs]

/-- All fifty rows of the index scratch back: the scratch whole. -/
theorem epi_iDone_all : iDone I d L 50 = ((iS).view.loc (thr d L) ↦{fullShare} Widx I d L) := by
  have hs : iRange 0 50 = (Finset.univ : Finset S50x128.Idx) := by
    ext i
    rw [epi_mem_iRange]
    have h0 : (i 0).val < 50 := (i 0).isLt
    exact ⟨fun _ => Finset.mem_univ _, fun _ => ⟨Nat.zero_le _, h0⟩⟩
  unfold iDone
  rw [hs]

omit [FloatOps F] in
theorem epi_bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide,
    bigSep_insert (by decide), bigSep_insert (by decide), bigSep_insert (by decide), bigSep_insert (by decide),
    bigSep_insert (by decide), bigSep_insert (by decide), bigSep_singleton]
  rfl

/-- The task's share of the table is its seven slots' shares. -/
theorem epi_table_pieces :
    ((tV).view.loc (thr d L) ↦[(tAllK).view.set]{tq (wL L)} m (tLoc d) : sProp 𝕄)
      = iprop(((tV).view.loc (thr d L) ↦[(tAllK).view.set]{qt L 0} m (tLoc d)) ∗ ((tV).view.loc (thr d L) ↦[(tAllK).view.set]{qt L 1} m (tLoc d))
        ∗ ((tV).view.loc (thr d L) ↦[(tAllK).view.set]{qt L 2} m (tLoc d)) ∗ ((tV).view.loc (thr d L) ↦[(tAllK).view.set]{qt L 3} m (tLoc d))
        ∗ ((tV).view.loc (thr d L) ↦[(tAllK).view.set]{qt L 4} m (tLoc d)) ∗ ((tV).view.loc (thr d L) ↦[(tAllK).view.set]{qt L 5} m (tLoc d))
        ∗ ((tV).view.loc (thr d L) ↦[(tAllK).view.set]{qt L 6} m (tLoc d))) := by
  rw [pointsTo_piecesOf (tAllK).view.set (m (tLoc d)) (by norm_num : 0 < 7) (tq (wL L)), epi_bigSep_fin7]

omit [FloatOps F] in
/-- A buffer held whole by its own elements is held whole, at some contents. -/
theorem epi_pts_ex_of_univ {sp : Space} {s : Shape} {e : EltTy} (c : Thread nD τ) (M : Memref sig c.2.kind sp s e)
    (hM : M.view.set = Finset.univ) (f : Buf (Elt F) (M.view.loc c)) :
    (M.view.loc c ↦[M.view.set]{fullShare} f : sProp 𝕄) ⊢ iprop(∃ g, M.view.loc c ↦{fullShare} g) := by
  rw [hM]
  iintro H
  iexists f
  iexact H

set_option maxHeartbeats 4000000 in
theorem epilogue6 :
    Inv8 m I d L O W
      ⊢ wp frame (wpE (defs₀ (F := F)) 𝒱₀ (thr d L) none) Set.univ (epi6 (F := F) L) fun _ => Mid m I d L O W := by
  have oDone_put := epi_oDone_put m I d L
  unfold Inv8 slotW1 slotW2 slotW3 slotW4 slotW5 slotW6 slotW7 wDel1 wDel2 wDel3 wDel4 wDel5 wDel6 wDel7 owesPart epi6
  iintro ⟨⟨Hf1, Hg1, Ht1⟩, ⟨Hf2, Hg2, Ht2⟩, ⟨Hf3, Hg3, Ht3⟩, ⟨Hf4, Hg4, Ht4⟩, ⟨Hf5, Hg5, Ht5⟩, ⟨Hf6, Hg6, Ht6⟩, ⟨Hf7, Hg7, Ht7⟩,
    HoD, HoT, HiD, HiT, Hmw, %W', %hW', HO⟩
  sl_exec
  sl_step
  unfold Mid slotW7 wDel7 owesPart
  ihave HoD := (oDone_put ⟨43, by omega⟩) $$ [Hf2_dst HoD]
  · isplitl [Hf2_dst]; · iexact Hf2_dst
    iexact HoD
  ihave HoD := (oDone_put ⟨44, by omega⟩) $$ [Hf3_dst HoD]
  · isplitl [Hf3_dst]; · iexact Hf3_dst
    iexact HoD
  ihave HoD := (oDone_put ⟨45, by omega⟩) $$ [Hf4_dst HoD]
  · isplitl [Hf4_dst]; · iexact Hf4_dst
    iexact HoD
  ihave HoD := (oDone_put ⟨46, by omega⟩) $$ [Hf5_dst HoD]
  · isplitl [Hf5_dst]; · iexact Hf5_dst
    iexact HoD
  ihave HoD := (oDone_put ⟨47, by omega⟩) $$ [Hf6_dst HoD]
  · isplitl [Hf6_dst]; · iexact Hf6_dst
    iexact HoD
  ihave Hb1 := (epi_pts_ex_of_univ (F := F) (thr d L) B1 (View.set_whole _) _) $$ Hf1_src
  ihave Hb2 := (epi_pts_ex_of_univ (F := F) (thr d L) B2 (View.set_whole _) _) $$ Hf2_src
  ihave Hb3 := (epi_pts_ex_of_univ (F := F) (thr d L) B3 (View.set_whole _) _) $$ Hf3_src
  ihave Hb4 := (epi_pts_ex_of_univ (F := F) (thr d L) B4 (View.set_whole _) _) $$ Hf4_src
  ihave Hb5 := (epi_pts_ex_of_univ (F := F) (thr d L) B5 (View.set_whole _) _) $$ Hf5_src
  ihave Hb6 := (epi_pts_ex_of_univ (F := F) (thr d L) B6 (View.set_whole _) _) $$ Hf6_src
  isplitl [Hf7 Hg7 Ht7]
  · isplitl [Hf7]; · iexact Hf7
    isplitl [Hg7]; · iexact Hg7
    iexact Ht7
  isplitl [HoD]; · iexact HoD
  isplitl [Hf1_dst]; · iexact Hf1_dst
  isplitl [Hb1 Hb2 Hb3 Hb4 Hb5 Hb6]
  · isplitl [Hb1]; · iexact Hb1
    isplitl [Hb2]; · iexact Hb2
    isplitl [Hb3]; · iexact Hb3
    isplitl [Hb4]; · iexact Hb4
    isplitl [Hb5]; · iexact Hb5
    iexact Hb6
  isplitl [Hg1 Hg2 Hg3 Hg4 Hg5 Hg6]
  · isplitl [Hg1]; · iexact Hg1
    isplitl [Hg2]; · iexact Hg2
    isplitl [Hg3]; · iexact Hg3
    isplitl [Hg4]; · iexact Hg4
    isplitl [Hg5]; · iexact Hg5
    iexact Hg6
  isplitl [Hf1 Hf2 Hf3 Hf4 Hf5 Hf6]
  · isplitl [Hf1]; · iexact Hf1
    isplitl [Hf2]; · iexact Hf2
    isplitl [Hf3]; · iexact Hf3
    isplitl [Hf4]; · iexact Hf4
    isplitl [Hf5]; · iexact Hf5
    iexact Hf6
  isplitl [Ht1 Ht2 Ht3 Ht4 Ht5 Ht6]
  · isplitl [Ht1]; · iexact Ht1
    isplitl [Ht2]; · iexact Ht2
    isplitl [Ht3]; · iexact Ht3
    isplitl [Ht4]; · iexact Ht4
    isplitl [Ht5]; · iexact Ht5
    iexact Ht6
  isplitl [HiD]; · iexact HiD
  isplitl [Hmw]; · iexact Hmw
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 4000000 in
theorem epilogue7 :
    Mid m I d L O W
      ⊢ wp frame (wpE (defs₀ (F := F)) 𝒱₀ (thr d L) none) Set.univ (epi7 (F := F) L) fun _ => EpiPost m I d L O W := by
  unfold Mid slotW7 wDel7 owesPart epi7
  iintro ⟨⟨Hf7, Hg7, Ht7⟩, HoD, Hc49, ⟨Hb1, Hb2, Hb3, Hb4, Hb5, Hb6⟩, ⟨Hg1, Hg2, Hg3, Hg4, Hg5, Hg6⟩, ⟨Hw1, Hw2, Hw3, Hw4, Hw5, Hw6⟩,
    ⟨Ht1, Ht2, Ht3, Ht4, Ht5, Ht6⟩, HiD, Hmw, %W', %hW', HO⟩
  sl_exec
  sl_step
  unfold EpiPost
  ihave HoD := (epi_oDone_put m I d L epi_g48) $$ [Hf7_dst HoD]
  · isplitl [Hf7_dst]; · iexact Hf7_dst
    iexact HoD
  ihave HoD := (epi_oDone_put m I d L epi_g49) $$ [Hc49 HoD]
  · isplitl [Hc49]; · iexact Hc49
    iexact HoD
  ihave Ho := (Entails.of_eq (epi_oDone_all m I d L)) $$ HoD
  ihave Hi := (Entails.of_eq (epi_iDone_all I d L)) $$ HiD
  ihave Hb7 := (epi_pts_ex_of_univ (F := F) (thr d L) B7 (View.set_whole _) _) $$ Hf7_src
  ihave Ht := (Entails.of_eq (epi_table_pieces m d L).symm) $$ [Ht1 Ht2 Ht3 Ht4 Ht5 Ht6 Ht7]
  · isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Ht7
  isplitl [Ho]; · iexact Ho
  isplitl [Ht]; · iexact Ht
  isplitl [Hi Hb1 Hb2 Hb3 Hb4 Hb5 Hb6 Hb7]
  · isplitl [Hi]; · iexists _; iexact Hi
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexact Hb7
  isplitl [Hg1 Hg2 Hg3 Hg4 Hg5 Hg6 Hg7]
  · isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    iexact Hg7
  isplitl [Hw1 Hw2 Hw3 Hw4 Hw5 Hw6 Hf7]
  · isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hf7
  iexists _; isplitr
  swap; · iexact HO
  ipureintro; intro p hp
  rcases Finset.mem_insert.mp hp with hp | hp; · exact .inr (hp ▸ rfl)
  exact hW' p hp

/-- The seven waits in order, from the loop's end to the task's end. -/
theorem epilogue :
    Inv8 m I d L O W
      ⊢ wp frame (wpE (defs₀ (F := F)) 𝒱₀ (thr d L) none) Set.univ (epi6 (F := F) L >>= fun _ => epi7 (F := F) L)
          fun _ => EpiPost m I d L O W := by
  rw [wp_bind]
  exact (epilogue6 m I d L O W).trans (wp_mono _ _ _ fun _ => epilogue7 m I d L O W)

end Cert.KernelIdeal.Sc

end
-- ==== Proof.KITileIv.lean ====
import proofs.«206296_g7516192768393_cont_9to1c4b_737_14_alg».proof.Proof.KITileSets

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg0_scv : Memref Cert.KernelIdeal.sig Kind.scVector Space.hbm Cert.KernelIdeal.S100000x128 EltTy.f32)
local notation "lV" => (Memref.whole Cert.KernelIdeal.main_v1_scv : Memref Cert.KernelIdeal.sig Kind.scVector Space.hbm Cert.KernelIdeal.S32x50x128 EltTy.i32)
local notation "oV" => (Memref.whole Cert.KernelIdeal.main_v2_scv : Memref Cert.KernelIdeal.sig Kind.scVector Space.hbm Cert.KernelIdeal.S204800x128 EltTy.f32)
local notation "iS" => (Memref.whole Cert.KernelIdeal.cc0_scratch0 : Memref Cert.KernelIdeal.sig Kind.scVector Space.vmem Cert.KernelIdeal.S50x128 EltTy.i32)
local notation "B1" => (Memref.whole Cert.KernelIdeal.cc0_scratch1 : Memref Cert.KernelIdeal.sig Kind.scVector Space.vmem Cert.KernelIdeal.S128x128 EltTy.f32)
local notation "B2" => (Memref.whole Cert.KernelIdeal.cc0_scratch2 : Memref Cert.KernelIdeal.sig Kind.scVector Space.vmem Cert.KernelIdeal.S128x128 EltTy.f32)
local notation "B3" => (Memref.whole Cert.KernelIdeal.cc0_scratch3 : Memref Cert.KernelIdeal.sig Kind.scVector Space.vmem Cert.KernelIdeal.S128x128 EltTy.f32)
local notation "B4" => (Memref.whole Cert.KernelIdeal.cc0_scratch4 : Memref Cert.KernelIdeal.sig Kind.scVector Space.vmem Cert.KernelIdeal.S128x128 EltTy.f32)
local notation "B5" => (Memref.whole Cert.KernelIdeal.cc0_scratch5 : Memref Cert.KernelIdeal.sig Kind.scVector Space.vmem Cert.KernelIdeal.S128x128 EltTy.f32)
local notation "B6" => (Memref.whole Cert.KernelIdeal.cc0_scratch6 : Memref Cert.KernelIdeal.sig Kind.scVector Space.vmem Cert.KernelIdeal.S128x128 EltTy.f32)
local notation "B7" => (Memref.whole Cert.KernelIdeal.cc0_scratch7 : Memref Cert.KernelIdeal.sig Kind.scVector Space.vmem Cert.KernelIdeal.S128x128 EltTy.f32)

variable (m : (ℓ : Loc nD τ sig) → Buf (Elt F) ℓ) (I : (d : Dev nD) → Buf (Elt F) (lLoc d))
variable [FloatOps F]
variable (d : Dev nD) (L : grid0.Coords)

/-! ## Taking a chunk or a row off the interval not begun, putting one onto the interval done -/

/-- Chunk g off the rows of the result not begun. -/
theorem oTodo_take (g : Fin 50) :
    oTodo (F := F) d L g.val ⊢ iprop((∃ f, (oV).view.loc (thr d L) ↦[(oChunkK (wL L) g).view.set]{fullShare} f) ∗ oTodo (F := F) d L (g.val + 1)) := by
  unfold oTodo
  have hg := g.isLt
  have ha : 6400 * (wL L).val + 128 * (g.val + 1) = 6400 * (wL L).val + 128 * g.val + 128 := by ring
  rw [ha, set_oChunkK]
  iintro ⟨%f, H⟩
  ihave H' := (Entails.of_eq (pts_oRange_split (F := F) d L fullShare f (lo := 6400 * (wL L).val + 128 * g.val)
    (mid := 6400 * (wL L).val + 128 * g.val + 128) (hi := 6400 * (wL L).val + 6400) (by omega) (by omega))) $$ H
  icases H' with ⟨Hc, Hr⟩
  isplitl [Hc]
  · iexists f; iexact Hc
  · iexists f; iexact Hr

/-- Chunk g, at the lookup, onto the rows of the result done. -/
theorem oDone_put (g : Fin 50) :
    iprop(((oV).view.loc (thr d L) ↦[(oChunkK (wL L) g).view.set]{fullShare} OUTbuf m I d) ∗ oDone m I d L g.val) ⊢ oDone m I d L (g.val + 1) := by
  unfold oDone
  have ha : 6400 * (wL L).val + 128 * (g.val + 1) = 6400 * (wL L).val + 128 * g.val + 128 := by ring
  rw [ha, set_oChunkK, pts_oRange_split (F := F) d L fullShare (OUTbuf m I d) (lo := 6400 * (wL L).val)
    (mid := 6400 * (wL L).val + 128 * g.val) (hi := 6400 * (wL L).val + 128 * g.val + 128) (by omega) (by omega)]
  iintro ⟨Hc, Hd⟩
  isplitl [Hd] <;> iassumption

/-- Row g off the rows of the index scratch not lent. -/
theorem iTodo_take (g : Fin 50) :
    iTodo I d L g.val ⊢ iprop(((iS).view.loc (thr d L) ↦[(iRowK g).view.set]{fullShare} Widx I d L) ∗ iTodo I d L (g.val + 1)) := by
  unfold iTodo
  have hg := g.isLt
  rw [set_iRowK, pts_iRange_split (F := F) d L fullShare (Widx I d L) (lo := g.val) (mid := g.val + 1) (hi := 50) (by omega) (by omega)]

/-- Row g onto the rows of the index scratch that have come back. -/
theorem iDone_put (g : Fin 50) :
    iprop(((iS).view.loc (thr d L) ↦[(iRowK g).view.set]{fullShare} Widx I d L) ∗ iDone I d L g.val) ⊢ iDone I d L (g.val + 1) := by
  unfold iDone
  rw [set_iRowK, pts_iRange_split (F := F) d L fullShare (Widx I d L) (lo := 0) (mid := g.val) (hi := g.val + 1) (by omega) (by omega)]
  iintro ⟨Hc, Hd⟩
  isplitl [Hd] <;> iassumption

/-! ## The values -/

/-- Every word of a row of the task's list names a row of the table. -/
theorem hin_row (hI : ListsOK I) (g : Fin 50) :
    ∀ x, ((iRowK g).view.read (Elt F) (Widx I d L) x).toNat < S100000x128.size gathers_S100000x128_S128x128.axis :=
  hin_Widx I d L hI g

/-- The rows of the table that row g of the task's list names are chunk g of the lookup. -/
theorem gather_val (hI : ListsOK I) (g : Fin 50) (hn : S128.numel = S128x128.size gathers_S100000x128_S128x128.axis')
    (hin : ∀ x, ((iRowK g).view.read (Elt F) (Widx I d L) x).toNat < S100000x128.size gathers_S100000x128_S128x128.axis) :
    SparseCore.gatherPayload gathers_S100000x128_S128x128 ((tAllK).view.read (Elt F) (m (tLoc d)))
        (SparseCore.rows ((iRowK g).view.read (Elt F) (Widx I d L)) hn hin) = gVal m I d L g :=
  gather_eq_gVal m I d L hI g hn hin

/-- Chunk g of the lookup written over chunk g of anything is the lookup there. -/
theorem write_val (g : Fin 50) (fo : Buf (Elt F) (oLoc d)) :
    ∀ i ∈ (oChunkK (wL L) g).view.set, (oChunkK (wL L) g).view.write (Elt F) fo (gVal m I d L g) Finset.univ i = OUTbuf m I d i :=
  fun i hi => write_read_self (oChunkK (wL L) g).view fo (OUTbuf m I d) i hi

end Cert.KernelIdeal.Sc

end
-- ==== Proof.KITileOps.lean ====
/-
  The two issues of a slot, as rules over the invariant's own forms: a slot that starts gathering a chunk lends the
  chunk's row of the index scratch and gets the gather's flight at the canonical delivery; a slot that starts writing a
  chunk takes the chunk off the rows of the result not begun, gives back the row of the index scratch, and gets the
  write's flight at the canonical delivery.
-/
import proofs.«206296_g7516192768393_cont_9to1c4b_737_14_alg».proof.Proof.KITileIv

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg0_scv : Memref Cert.KernelIdeal.sig Kind.scVector Space.hbm Cert.KernelIdeal.S100000x128 EltTy.f32)
local notation "lV" => (Memref.whole Cert.KernelIdeal.main_v1_scv : Memref Cert.KernelIdeal.sig Kind.scVector Space.hbm Cert.KernelIdeal.S32x50x128 EltTy.i32)
local notation "oV" => (Memref.whole Cert.KernelIdeal.main_v2_scv : Memref Cert.KernelIdeal.sig Kind.scVector Space.hbm Cert.KernelIdeal.S204800x128 EltTy.f32)
local notation "iS" => (Memref.whole Cert.KernelIdeal.cc0_scratch0 : Memref Cert.KernelIdeal.sig Kind.scVector Space.vmem Cert.KernelIdeal.S50x128 EltTy.i32)
local notation "B1" => (Memref.whole Cert.KernelIdeal.cc0_scratch1 : Memref Cert.KernelIdeal.sig Kind.scVector Space.vmem Cert.KernelIdeal.S128x128 EltTy.f32)
local notation "B2" => (Memref.whole Cert.KernelIdeal.cc0_scratch2 : Memref Cert.KernelIdeal.sig Kind.scVector Space.vmem Cert.KernelIdeal.S128x128 EltTy.f32)
local notation "B3" => (Memref.whole Cert.KernelIdeal.cc0_scratch3 : Memref Cert.KernelIdeal.sig Kind.scVector Space.vmem Cert.KernelIdeal.S128x128 EltTy.f32)
local notation "B4" => (Memref.whole Cert.KernelIdeal.cc0_scratch4 : Memref Cert.KernelIdeal.sig Kind.scVector Space.vmem Cert.KernelIdeal.S128x128 EltTy.f32)
local notation "B5" => (Memref.whole Cert.KernelIdeal.cc0_scratch5 : Memref Cert.KernelIdeal.sig Kind.scVector Space.vmem Cert.KernelIdeal.S128x128 EltTy.f32)
local notation "B6" => (Memref.whole Cert.KernelIdeal.cc0_scratch6 : Memref Cert.KernelIdeal.sig Kind.scVector Space.vmem Cert.KernelIdeal.S128x128 EltTy.f32)
local notation "B7" => (Memref.whole Cert.KernelIdeal.cc0_scratch7 : Memref Cert.KernelIdeal.sig Kind.scVector Space.vmem Cert.KernelIdeal.S128x128 EltTy.f32)

variable (m : (ℓ : Loc nD τ sig) → Buf (Elt F) ℓ) (I : (d : Dev nD) → Buf (Elt F) (lLoc d))
variable [FloatOps F]
variable (d : Dev nD) (L : grid0.Coords)

/-! ## Small things -/

/-- Chunk g onto the rows done, the counts as the caller spells them. -/
theorem oDone_put' (g : Fin 50) (n n' : ℕ) (hn : n = g.val) (hn' : n' = g.val + 1) :
    iprop(((oV).view.loc (thr d L) ↦[(oChunkK (wL L) g).view.set]{fullShare} OUTbuf m I d) ∗ oDone m I d L n) ⊢ oDone m I d L n' := by
  subst hn hn'; exact oDone_put m I d L g

/-- Row g onto the rows come back, the counts as the caller spells them. -/
theorem iDone_put' (g : Fin 50) (n n' : ℕ) (hn : n = g.val) (hn' : n' = g.val + 1) :
    iprop(((iS).view.loc (thr d L) ↦[(iRowK g).view.set]{fullShare} Widx I d L) ∗ iDone I d L n) ⊢ iDone I d L n' := by
  subst hn hn'; exact iDone_put I d L g

omit [FloatOps F] in
/-- One more wait at the index that is nobody's: still only such waits beyond W. -/
theorem waits_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

/-! ## The slots' two issues -/

theorem credit_B1 : ∑ j, ((B1).slice (S128x128.rowRect gathers_S100000x128_S128x128.axis' j) (S128x128.stride_rowRect gathers_S100000x128_S128x128.axis' j)).view.dmaCredit = 524288 :=
  (SparseCore.sum_rowCredit_eq_dmaCredit (B1) gathers_S100000x128_S128x128.axis' (fun _ => rfl)).trans rfl

set_option maxHeartbeats 1000000 in
/-- Slot 0 starts gathering chunk g: its share of the table, its buffer at anything, the rows of the index scratch
    not lent from g on, its gather semaphore at zero. -/
theorem gather1 (hI : ListsOK I) (g : Fin 50) (off : Fin 2 → ℕ) (h : ∀ a, off a + S1x128.size a ≤ S50x128.size a) (e : off = ![g.val, 0])
    (fd : Buf (Elt F) ((B1).view.loc (thr d L))) (n n' : ℕ) (hn : n = g.val) (hn' : n' = g.val + 1)
    {α : Type} {k : PUnit → Prog (TpuEff nD τ sig (Elt F) Λ₀ (thr d L).2) α} {Q : α → sProp 𝕄}
    {hp hnn hsrc he hsp hr} :
    iprop(((tV).view.loc (thr d L) ↦[(tAllK).view.set]{qt L 0} m (tLoc d)) ∗ ((B1).view.loc (thr d L) ↦[(B1).view.set]{fullShare} fd)
        ∗ iTodo I d L n ∗ semVal (thr d L, SemLoc.dma cc0_scratch8.sem) 0)
      ⊢ iprop((iprop(Transfers.Flight countersEmb (thr d L) (SemLoc.dma cc0_scratch8.sem) (default : HIx 1) 524288 (gDel1 m I d L g) ∗ iTodo I d L n')
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp tAllK B1 gathers_S100000x128_S128x128
                (((iS).slice (Rect.unit (s := S50x128) off S1x128.size h) (fun _ => rfl)).squeeze S128 squeezes_S1x128_S128) hnn cc0_scratch8.sem hsrc he hsp hr >>= k) Q) := by
  subst e hn hn'
  iintro ⟨Ht, Hb, HiT, Hv⟩ Hk
  ihave Hr := (iTodo_take I d L g) $$ HiT
  icases Hr with ⟨Hrow, HiT⟩
  iapply (SparseCore.wp_indirectGatherLocal countersEmb 𝒱₀ (thr d L) none (hg := gathers_S100000x128_S128x128) (default : HIx 1) 524288
      credit_B1 (by decide) (hin_row I d L hI g)) $$ [Ht Hb Hrow Hv]
  · isplitl [Ht]; · iexact Ht
    isplitl [Hb]; · iexact Hb
    isplitl [Hrow]; · iexact Hrow
    iexact Hv
  iintro Hfl
  iapply Hk
  isplitl [Hfl]
  · iapply (Transfers.Flight_mono countersEmb (thr d L) (D' := gDel1 m I d L g) ?_) $$ Hfl
    unfold gDel1
    iintro ⟨Hd, Hs, Ho⟩
    isplitl [Hd Ho]
    · isplitl [Hd]
      · rw [View.write_whole_univ, gather_val m I d L hI g]; iexact Hd
      · iexact Ho
    · iexact Hs
  · iexact HiT

set_option maxRecDepth 65536 in
set_option maxHeartbeats 1000000 in
/-- Slot 0 starts writing chunk g: its buffer at the chunk's values with row g of the index scratch (as the gather's
    wait hands them back), the rows of the result not begun from g on, the rows of the index scratch come back
    below g, its write semaphore at zero. -/
theorem write1 (g : Fin 50) (off : Fin 2 → ℕ) (h : ∀ a, off a + S128x128.size a ≤ S204800x128.size a)
    (e : off = ![6400 * (wL L).val + 128 * g.val, 0]) (n n' : ℕ) (hn : n = g.val) (hn' : n' = g.val + 1)
    {α : Type} {k : PUnit → Prog (TpuEff nD τ sig (Elt F) Λ₀ (thr d L).2) α} {Q : α → sProp 𝕄} {hsrc hdst hsem} :
    iprop((((B1).view.loc (thr d L) ↦[(B1).view.set]{fullShare} gVal m I d L g)
          ∗ ((iS).view.loc (thr d L) ↦[(iRowK g).view.set]{fullShare} Widx I d L))
        ∗ oTodo (F := F) d L n ∗ iDone I d L n ∗ semVal (thr d L, SemLoc.dma cc0_scratch15.sem) 0)
      ⊢ iprop((iprop(Transfers.Flight countersEmb (thr d L) (SemLoc.dma cc0_scratch15.sem) (default : HIx 1) 524288 (wDel1 m I d L g)
                ∗ oTodo (F := F) d L n' ∗ iDone I d L n')
              -∗ wp frame (wpE (defs₀ (F := F)) 𝒱₀ (thr d L) none) Set.univ (k ⟨⟩) Q)
          -∗ wp frame (wpE (defs₀ (F := F)) 𝒱₀ (thr d L) none) Set.univ
              (.op (.enqueueDmaAs B1 (.here ((oV).slice (Rect.unit (s := S204800x128) off S128x128.size h) (fun _ => rfl))) .same
                (SemLoc.dma cc0_scratch15.sem) hsrc hdst hsem) k) Q) := by
  subst e hn hn'
  iintro ⟨⟨Hb, Hrow⟩, HoT, HiD, Hv⟩ Hk
  ihave Hc := (oTodo_take (F := F) d L g) $$ HoT
  icases Hc with ⟨⟨%fo, Hc⟩, HoT⟩
  ihave HiD := (iDone_put I d L g) $$ [Hrow HiD]; · isplitl [Hrow] <;> iassumption
  have hN : (oChunkK (wL L) g).view.amount (SemLoc.dma cc0_scratch15.sem) = 524288 := rfl
  iapply (Transfers.wp_dmaLocal countersEmb 𝒱₀ (thr d L) none (default : HIx 1) 524288 hN (by norm_num) subset_rfl) $$ [Hb Hc Hv]
  · isplitl [Hb]; · iexact Hb
    isplitl [Hc]; · iexact Hc
    iexact Hv
  iintro Hfl
  iapply Hk
  isplitl [Hfl]
  · have hval : ∀ i ∈ (oChunkK (wL L) g).view.set,
        (oChunkK (wL L) g).view.write (Elt F) fo ((ReadAs.same : ReadAs (Elt F) S128x128 .f32 S128x128 .f32).apply ((B1).view.read (Elt F) (gVal m I d L g))) Finset.univ i
          = OUTbuf m I d i := write_val m I d L g fo
    iapply (Transfers.Flight_mono countersEmb (thr d L) (D' := wDel1 m I d L g)
      (sep_mono (Entails.of_eq (pointsTo_congr hval)) .rfl)) $$ Hfl
  · isplitl [HoT] <;> iassumption

theorem credit_B2 : ∑ j, ((B2).slice (S128x128.rowRect gathers_S100000x128_S128x128.axis' j) (S128x128.stride_rowRect gathers_S100000x128_S128x128.axis' j)).view.dmaCredit = 524288 :=
  (SparseCore.sum_rowCredit_eq_dmaCredit (B2) gathers_S100000x128_S128x128.axis' (fun _ => rfl)).trans rfl

set_option maxHeartbeats 1000000 in
/-- Slot 1 starts gathering chunk g: its share of the table, its buffer at anything, the rows of the index scratch
    not lent from g on, its gather semaphore at zero. -/
theorem gather2 (hI : ListsOK I) (g : Fin 50) (off : Fin 2 → ℕ) (h : ∀ a, off a + S1x128.size a ≤ S50x128.size a) (e : off = ![g.val, 0])
    (fd : Buf (Elt F) ((B2).view.loc (thr d L))) (n n' : ℕ) (hn : n = g.val) (hn' : n' = g.val + 1)
    {α : Type} {k : PUnit → Prog (TpuEff nD τ sig (Elt F) Λ₀ (thr d L).2) α} {Q : α → sProp 𝕄}
    {hp hnn hsrc he hsp hr} :
    iprop(((tV).view.loc (thr d L) ↦[(tAllK).view.set]{qt L 1} m (tLoc d)) ∗ ((B2).view.loc (thr d L) ↦[(B2).view.set]{fullShare} fd)
        ∗ iTodo I d L n ∗ semVal (thr d L, SemLoc.dma cc0_scratch9.sem) 0)
      ⊢ iprop((iprop(Transfers.Flight countersEmb (thr d L) (SemLoc.dma cc0_scratch9.sem) (default : HIx 1) 524288 (gDel2 m I d L g) ∗ iTodo I d L n')
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp tAllK B2 gathers_S100000x128_S128x128
                (((iS).slice (Rect.unit (s := S50x128) off S1x128.size h) (fun _ => rfl)).squeeze S128 squeezes_S1x128_S128) hnn cc0_scratch9.sem hsrc he hsp hr >>= k) Q) := by
  subst e hn hn'
  iintro ⟨Ht, Hb, HiT, Hv⟩ Hk
  ihave Hr := (iTodo_take I d L g) $$ HiT
  icases Hr with ⟨Hrow, HiT⟩
  iapply (SparseCore.wp_indirectGatherLocal countersEmb 𝒱₀ (thr d L) none (hg := gathers_S100000x128_S128x128) (default : HIx 1) 524288
      credit_B2 (by decide) (hin_row I d L hI g)) $$ [Ht Hb Hrow Hv]
  · isplitl [Ht]; · iexact Ht
    isplitl [Hb]; · iexact Hb
    isplitl [Hrow]; · iexact Hrow
    iexact Hv
  iintro Hfl
  iapply Hk
  isplitl [Hfl]
  · iapply (Transfers.Flight_mono countersEmb (thr d L) (D' := gDel2 m I d L g) ?_) $$ Hfl
    unfold gDel2
    iintro ⟨Hd, Hs, Ho⟩
    isplitl [Hd Ho]
    · isplitl [Hd]
      · rw [View.write_whole_univ, gather_val m I d L hI g]; iexact Hd
      · iexact Ho
    · iexact Hs
  · iexact HiT

set_option maxRecDepth 65536 in
set_option maxHeartbeats 1000000 in
/-- Slot 1 starts writing chunk g: its buffer at the chunk's values with row g of the index scratch (as the gather's
    wait hands them back), the rows of the result not begun from g on, the rows of the index scratch come back
    below g, its write semaphore at zero. -/
theorem write2 (g : Fin 50) (off : Fin 2 → ℕ) (h : ∀ a, off a + S128x128.size a ≤ S204800x128.size a)
    (e : off = ![6400 * (wL L).val + 128 * g.val, 0]) (n n' : ℕ) (hn : n = g.val) (hn' : n' = g.val + 1)
    {α : Type} {k : PUnit → Prog (TpuEff nD τ sig (Elt F) Λ₀ (thr d L).2) α} {Q : α → sProp 𝕄} {hsrc hdst hsem} :
    iprop((((B2).view.loc (thr d L) ↦[(B2).view.set]{fullShare} gVal m I d L g)
          ∗ ((iS).view.loc (thr d L) ↦[(iRowK g).view.set]{fullShare} Widx I d L))
        ∗ oTodo (F := F) d L n ∗ iDone I d L n ∗ semVal (thr d L, SemLoc.dma cc0_scratch16.sem) 0)
      ⊢ iprop((iprop(Transfers.Flight countersEmb (thr d L) (SemLoc.dma cc0_scratch16.sem) (default : HIx 1) 524288 (wDel2 m I d L g)
                ∗ oTodo (F := F) d L n' ∗ iDone I d L n')
              -∗ wp frame (wpE (defs₀ (F := F)) 𝒱₀ (thr d L) none) Set.univ (k ⟨⟩) Q)
          -∗ wp frame (wpE (defs₀ (F := F)) 𝒱₀ (thr d L) none) Set.univ
              (.op (.enqueueDmaAs B2 (.here ((oV).slice (Rect.unit (s := S204800x128) off S128x128.size h) (fun _ => rfl))) .same
                (SemLoc.dma cc0_scratch16.sem) hsrc hdst hsem) k) Q) := by
  subst e hn hn'
  iintro ⟨⟨Hb, Hrow⟩, HoT, HiD, Hv⟩ Hk
  ihave Hc := (oTodo_take (F := F) d L g) $$ HoT
  icases Hc with ⟨⟨%fo, Hc⟩, HoT⟩
  ihave HiD := (iDone_put I d L g) $$ [Hrow HiD]; · isplitl [Hrow] <;> iassumption
  have hN : (oChunkK (wL L) g).view.amount (SemLoc.dma cc0_scratch16.sem) = 524288 := rfl
  iapply (Transfers.wp_dmaLocal countersEmb 𝒱₀ (thr d L) none (default : HIx 1) 524288 hN (by norm_num) subset_rfl) $$ [Hb Hc Hv]
  · isplitl [Hb]; · iexact Hb
    isplitl [Hc]; · iexact Hc
    iexact Hv
  iintro Hfl
  iapply Hk
  isplitl [Hfl]
  · have hval : ∀ i ∈ (oChunkK (wL L) g).view.set,
        (oChunkK (wL L) g).view.write (Elt F) fo ((ReadAs.same : ReadAs (Elt F) S128x128 .f32 S128x128 .f32).apply ((B2).view.read (Elt F) (gVal m I d L g))) Finset.univ i
          = OUTbuf m I d i := write_val m I d L g fo
    iapply (Transfers.Flight_mono countersEmb (thr d L) (D' := wDel2 m I d L g)
      (sep_mono (Entails.of_eq (pointsTo_congr hval)) .rfl)) $$ Hfl
  · isplitl [HoT] <;> iassumption

theorem credit_B3 : ∑ j, ((B3).slice (S128x128.rowRect gathers_S100000x128_S128x128.axis' j) (S128x128.stride_rowRect gathers_S100000x128_S128x128.axis' j)).view.dmaCredit = 524288 :=
  (SparseCore.sum_rowCredit_eq_dmaCredit (B3) gathers_S100000x128_S128x128.axis' (fun _ => rfl)).trans rfl

set_option maxHeartbeats 1000000 in
/-- Slot 2 starts gathering chunk g: its share of the table, its buffer at anything, the rows of the index scratch
    not lent from g on, its gather semaphore at zero. -/
theorem gather3 (hI : ListsOK I) (g : Fin 50) (off : Fin 2 → ℕ) (h : ∀ a, off a + S1x128.size a ≤ S50x128.size a) (e : off = ![g.val, 0])
    (fd : Buf (Elt F) ((B3).view.loc (thr d L))) (n n' : ℕ) (hn : n = g.val) (hn' : n' = g.val + 1)
    {α : Type} {k : PUnit → Prog (TpuEff nD τ sig (Elt F) Λ₀ (thr d L).2) α} {Q : α → sProp 𝕄}
    {hp hnn hsrc he hsp hr} :
    iprop(((tV).view.loc (thr d L) ↦[(tAllK).view.set]{qt L 2} m (tLoc d)) ∗ ((B3).view.loc (thr d L) ↦[(B3).view.set]{fullShare} fd)
        ∗ iTodo I d L n ∗ semVal (thr d L, SemLoc.dma cc0_scratch10.sem) 0)
      ⊢ iprop((iprop(Transfers.Flight countersEmb (thr d L) (SemLoc.dma cc0_scratch10.sem) (default : HIx 1) 524288 (gDel3 m I d L g) ∗ iTodo I d L n')
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp tAllK B3 gathers_S100000x128_S128x128
                (((iS).slice (Rect.unit (s := S50x128) off S1x128.size h) (fun _ => rfl)).squeeze S128 squeezes_S1x128_S128) hnn cc0_scratch10.sem hsrc he hsp hr >>= k) Q) := by
  subst e hn hn'
  iintro ⟨Ht, Hb, HiT, Hv⟩ Hk
  ihave Hr := (iTodo_take I d L g) $$ HiT
  icases Hr with ⟨Hrow, HiT⟩
  iapply (SparseCore.wp_indirectGatherLocal countersEmb 𝒱₀ (thr d L) none (hg := gathers_S100000x128_S128x128) (default : HIx 1) 524288
      credit_B3 (by decide) (hin_row I d L hI g)) $$ [Ht Hb Hrow Hv]
  · isplitl [Ht]; · iexact Ht
    isplitl [Hb]; · iexact Hb
    isplitl [Hrow]; · iexact Hrow
    iexact Hv
  iintro Hfl
  iapply Hk
  isplitl [Hfl]
  · iapply (Transfers.Flight_mono countersEmb (thr d L) (D' := gDel3 m I d L g) ?_) $$ Hfl
    unfold gDel3
    iintro ⟨Hd, Hs, Ho⟩
    isplitl [Hd Ho]
    · isplitl [Hd]
      · rw [View.write_whole_univ, gather_val m I d L hI g]; iexact Hd
      · iexact Ho
    · iexact Hs
  · iexact HiT

set_option maxRecDepth 65536 in
set_option maxHeartbeats 1000000 in
/-- Slot 2 starts writing chunk g: its buffer at the chunk's values with row g of the index scratch (as the gather's
    wait hands them back), the rows of the result not begun from g on, the rows of the index scratch come back
    below g, its write semaphore at zero. -/
theorem write3 (g : Fin 50) (off : Fin 2 → ℕ) (h : ∀ a, off a + S128x128.size a ≤ S204800x128.size a)
    (e : off = ![6400 * (wL L).val + 128 * g.val, 0]) (n n' : ℕ) (hn : n = g.val) (hn' : n' = g.val + 1)
    {α : Type} {k : PUnit → Prog (TpuEff nD τ sig (Elt F) Λ₀ (thr d L).2) α} {Q : α → sProp 𝕄} {hsrc hdst hsem} :
    iprop((((B3).view.loc (thr d L) ↦[(B3).view.set]{fullShare} gVal m I d L g)
          ∗ ((iS).view.loc (thr d L) ↦[(iRowK g).view.set]{fullShare} Widx I d L))
        ∗ oTodo (F := F) d L n ∗ iDone I d L n ∗ semVal (thr d L, SemLoc.dma cc0_scratch17.sem) 0)
      ⊢ iprop((iprop(Transfers.Flight countersEmb (thr d L) (SemLoc.dma cc0_scratch17.sem) (default : HIx 1) 524288 (wDel3 m I d L g)
                ∗ oTodo (F := F) d L n' ∗ iDone I d L n')
              -∗ wp frame (wpE (defs₀ (F := F)) 𝒱₀ (thr d L) none) Set.univ (k ⟨⟩) Q)
          -∗ wp frame (wpE (defs₀ (F := F)) 𝒱₀ (thr d L) none) Set.univ
              (.op (.enqueueDmaAs B3 (.here ((oV).slice (Rect.unit (s := S204800x128) off S128x128.size h) (fun _ => rfl))) .same
                (SemLoc.dma cc0_scratch17.sem) hsrc hdst hsem) k) Q) := by
  subst e hn hn'
  iintro ⟨⟨Hb, Hrow⟩, HoT, HiD, Hv⟩ Hk
  ihave Hc := (oTodo_take (F := F) d L g) $$ HoT
  icases Hc with ⟨⟨%fo, Hc⟩, HoT⟩
  ihave HiD := (iDone_put I d L g) $$ [Hrow HiD]; · isplitl [Hrow] <;> iassumption
  have hN : (oChunkK (wL L) g).view.amount (SemLoc.dma cc0_scratch17.sem) = 524288 := rfl
  iapply (Transfers.wp_dmaLocal countersEmb 𝒱₀ (thr d L) none (default : HIx 1) 524288 hN (by norm_num) subset_rfl) $$ [Hb Hc Hv]
  · isplitl [Hb]; · iexact Hb
    isplitl [Hc]; · iexact Hc
    iexact Hv
  iintro Hfl
  iapply Hk
  isplitl [Hfl]
  · have hval : ∀ i ∈ (oChunkK (wL L) g).view.set,
        (oChunkK (wL L) g).view.write (Elt F) fo ((ReadAs.same : ReadAs (Elt F) S128x128 .f32 S128x128 .f32).apply ((B3).view.read (Elt F) (gVal m I d L g))) Finset.univ i
          = OUTbuf m I d i := write_val m I d L g fo
    iapply (Transfers.Flight_mono countersEmb (thr d L) (D' := wDel3 m I d L g)
      (sep_mono (Entails.of_eq (pointsTo_congr hval)) .rfl)) $$ Hfl
  · isplitl [HoT] <;> iassumption

theorem credit_B4 : ∑ j, ((B4).slice (S128x128.rowRect gathers_S100000x128_S128x128.axis' j) (S128x128.stride_rowRect gathers_S100000x128_S128x128.axis' j)).view.dmaCredit = 524288 :=
  (SparseCore.sum_rowCredit_eq_dmaCredit (B4) gathers_S100000x128_S128x128.axis' (fun _ => rfl)).trans rfl

set_option maxHeartbeats 1000000 in
/-- Slot 3 starts gathering chunk g: its share of the table, its buffer at anything, the rows of the index scratch
    not lent from g on, its gather semaphore at zero. -/
theorem gather4 (hI : ListsOK I) (g : Fin 50) (off : Fin 2 → ℕ) (h : ∀ a, off a + S1x128.size a ≤ S50x128.size a) (e : off = ![g.val, 0])
    (fd : Buf (Elt F) ((B4).view.loc (thr d L))) (n n' : ℕ) (hn : n = g.val) (hn' : n' = g.val + 1)
    {α : Type} {k : PUnit → Prog (TpuEff nD τ sig (Elt F) Λ₀ (thr d L).2) α} {Q : α → sProp 𝕄}
    {hp hnn hsrc he hsp hr} :
    iprop(((tV).view.loc (thr d L) ↦[(tAllK).view.set]{qt L 3} m (tLoc d)) ∗ ((B4).view.loc (thr d L) ↦[(B4).view.set]{fullShare} fd)
        ∗ iTodo I d L n ∗ semVal (thr d L, SemLoc.dma cc0_scratch11.sem) 0)
      ⊢ iprop((iprop(Transfers.Flight countersEmb (thr d L) (SemLoc.dma cc0_scratch11.sem) (default : HIx 1) 524288 (gDel4 m I d L g) ∗ iTodo I d L n')
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp tAllK B4 gathers_S100000x128_S128x128
                (((iS).slice (Rect.unit (s := S50x128) off S1x128.size h) (fun _ => rfl)).squeeze S128 squeezes_S1x128_S128) hnn cc0_scratch11.sem hsrc he hsp hr >>= k) Q) := by
  subst e hn hn'
  iintro ⟨Ht, Hb, HiT, Hv⟩ Hk
  ihave Hr := (iTodo_take I d L g) $$ HiT
  icases Hr with ⟨Hrow, HiT⟩
  iapply (SparseCore.wp_indirectGatherLocal countersEmb 𝒱₀ (thr d L) none (hg := gathers_S100000x128_S128x128) (default : HIx 1) 524288
      credit_B4 (by decide) (hin_row I d L hI g)) $$ [Ht Hb Hrow Hv]
  · isplitl [Ht]; · iexact Ht
    isplitl [Hb]; · iexact Hb
    isplitl [Hrow]; · iexact Hrow
    iexact Hv
  iintro Hfl
  iapply Hk
  isplitl [Hfl]
  · iapply (Transfers.Flight_mono countersEmb (thr d L) (D' := gDel4 m I d L g) ?_) $$ Hfl
    unfold gDel4
    iintro ⟨Hd, Hs, Ho⟩
    isplitl [Hd Ho]
    · isplitl [Hd]
      · rw [View.write_whole_univ, gather_val m I d L hI g]; iexact Hd
      · iexact Ho
    · iexact Hs
  · iexact HiT

set_option maxRecDepth 65536 in
set_option maxHeartbeats 1000000 in
/-- Slot 3 starts writing chunk g: its buffer at the chunk's values with row g of the index scratch (as the gather's
    wait hands them back), the rows of the result not begun from g on, the rows of the index scratch come back
    below g, its write semaphore at zero. -/
theorem write4 (g : Fin 50) (off : Fin 2 → ℕ) (h : ∀ a, off a + S128x128.size a ≤ S204800x128.size a)
    (e : off = ![6400 * (wL L).val + 128 * g.val, 0]) (n n' : ℕ) (hn : n = g.val) (hn' : n' = g.val + 1)
    {α : Type} {k : PUnit → Prog (TpuEff nD τ sig (Elt F) Λ₀ (thr d L).2) α} {Q : α → sProp 𝕄} {hsrc hdst hsem} :
    iprop((((B4).view.loc (thr d L) ↦[(B4).view.set]{fullShare} gVal m I d L g)
          ∗ ((iS).view.loc (thr d L) ↦[(iRowK g).view.set]{fullShare} Widx I d L))
        ∗ oTodo (F := F) d L n ∗ iDone I d L n ∗ semVal (thr d L, SemLoc.dma cc0_scratch18.sem) 0)
      ⊢ iprop((iprop(Transfers.Flight countersEmb (thr d L) (SemLoc.dma cc0_scratch18.sem) (default : HIx 1) 524288 (wDel4 m I d L g)
                ∗ oTodo (F := F) d L n' ∗ iDone I d L n')
              -∗ wp frame (wpE (defs₀ (F := F)) 𝒱₀ (thr d L) none) Set.univ (k ⟨⟩) Q)
          -∗ wp frame (wpE (defs₀ (F := F)) 𝒱₀ (thr d L) none) Set.univ
              (.op (.enqueueDmaAs B4 (.here ((oV).slice (Rect.unit (s := S204800x128) off S128x128.size h) (fun _ => rfl))) .same
                (SemLoc.dma cc0_scratch18.sem) hsrc hdst hsem) k) Q) := by
  subst e hn hn'
  iintro ⟨⟨Hb, Hrow⟩, HoT, HiD, Hv⟩ Hk
  ihave Hc := (oTodo_take (F := F) d L g) $$ HoT
  icases Hc with ⟨⟨%fo, Hc⟩, HoT⟩
  ihave HiD := (iDone_put I d L g) $$ [Hrow HiD]; · isplitl [Hrow] <;> iassumption
  have hN : (oChunkK (wL L) g).view.amount (SemLoc.dma cc0_scratch18.sem) = 524288 := rfl
  iapply (Transfers.wp_dmaLocal countersEmb 𝒱₀ (thr d L) none (default : HIx 1) 524288 hN (by norm_num) subset_rfl) $$ [Hb Hc Hv]
  · isplitl [Hb]; · iexact Hb
    isplitl [Hc]; · iexact Hc
    iexact Hv
  iintro Hfl
  iapply Hk
  isplitl [Hfl]
  · have hval : ∀ i ∈ (oChunkK (wL L) g).view.set,
        (oChunkK (wL L) g).view.write (Elt F) fo ((ReadAs.same : ReadAs (Elt F) S128x128 .f32 S128x128 .f32).apply ((B4).view.read (Elt F) (gVal m I d L g))) Finset.univ i
          = OUTbuf m I d i := write_val m I d L g fo
    iapply (Transfers.Flight_mono countersEmb (thr d L) (D' := wDel4 m I d L g)
      (sep_mono (Entails.of_eq (pointsTo_congr hval)) .rfl)) $$ Hfl
  · isplitl [HoT] <;> iassumption

theorem credit_B5 : ∑ j, ((B5).slice (S128x128.rowRect gathers_S100000x128_S128x128.axis' j) (S128x128.stride_rowRect gathers_S100000x128_S128x128.axis' j)).view.dmaCredit = 524288 :=
  (SparseCore.sum_rowCredit_eq_dmaCredit (B5) gathers_S100000x128_S128x128.axis' (fun _ => rfl)).trans rfl

set_option maxHeartbeats 1000000 in
/-- Slot 4 starts gathering chunk g: its share of the table, its buffer at anything, the rows of the index scratch
    not lent from g on, its gather semaphore at zero. -/
theorem gather5 (hI : ListsOK I) (g : Fin 50) (off : Fin 2 → ℕ) (h : ∀ a, off a + S1x128.size a ≤ S50x128.size a) (e : off = ![g.val, 0])
    (fd : Buf (Elt F) ((B5).view.loc (thr d L))) (n n' : ℕ) (hn : n = g.val) (hn' : n' = g.val + 1)
    {α : Type} {k : PUnit → Prog (TpuEff nD τ sig (Elt F) Λ₀ (thr d L).2) α} {Q : α → sProp 𝕄}
    {hp hnn hsrc he hsp hr} :
    iprop(((tV).view.loc (thr d L) ↦[(tAllK).view.set]{qt L 4} m (tLoc d)) ∗ ((B5).view.loc (thr d L) ↦[(B5).view.set]{fullShare} fd)
        ∗ iTodo I d L n ∗ semVal (thr d L, SemLoc.dma cc0_scratch12.sem) 0)
      ⊢ iprop((iprop(Transfers.Flight countersEmb (thr d L) (SemLoc.dma cc0_scratch12.sem) (default : HIx 1) 524288 (gDel5 m I d L g) ∗ iTodo I d L n')
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp tAllK B5 gathers_S100000x128_S128x128
                (((iS).slice (Rect.unit (s := S50x128) off S1x128.size h) (fun _ => rfl)).squeeze S128 squeezes_S1x128_S128) hnn cc0_scratch12.sem hsrc he hsp hr >>= k) Q) := by
  subst e hn hn'
  iintro ⟨Ht, Hb, HiT, Hv⟩ Hk
  ihave Hr := (iTodo_take I d L g) $$ HiT
  icases Hr with ⟨Hrow, HiT⟩
  iapply (SparseCore.wp_indirectGatherLocal countersEmb 𝒱₀ (thr d L) none (hg := gathers_S100000x128_S128x128) (default : HIx 1) 524288
      credit_B5 (by decide) (hin_row I d L hI g)) $$ [Ht Hb Hrow Hv]
  · isplitl [Ht]; · iexact Ht
    isplitl [Hb]; · iexact Hb
    isplitl [Hrow]; · iexact Hrow
    iexact Hv
  iintro Hfl
  iapply Hk
  isplitl [Hfl]
  · iapply (Transfers.Flight_mono countersEmb (thr d L) (D' := gDel5 m I d L g) ?_) $$ Hfl
    unfold gDel5
    iintro ⟨Hd, Hs, Ho⟩
    isplitl [Hd Ho]
    · isplitl [Hd]
      · rw [View.write_whole_univ, gather_val m I d L hI g]; iexact Hd
      · iexact Ho
    · iexact Hs
  · iexact HiT

set_option maxRecDepth 65536 in
set_option maxHeartbeats 1000000 in
/-- Slot 4 starts writing chunk g: its buffer at the chunk's values with row g of the index scratch (as the gather's
    wait hands them back), the rows of the result not begun from g on, the rows of the index scratch come back
    below g, its write semaphore at zero. -/
theorem write5 (g : Fin 50) (off : Fin 2 → ℕ) (h : ∀ a, off a + S128x128.size a ≤ S204800x128.size a)
    (e : off = ![6400 * (wL L).val + 128 * g.val, 0]) (n n' : ℕ) (hn : n = g.val) (hn' : n' = g.val + 1)
    {α : Type} {k : PUnit → Prog (TpuEff nD τ sig (Elt F) Λ₀ (thr d L).2) α} {Q : α → sProp 𝕄} {hsrc hdst hsem} :
    iprop((((B5).view.loc (thr d L) ↦[(B5).view.set]{fullShare} gVal m I d L g)
          ∗ ((iS).view.loc (thr d L) ↦[(iRowK g).view.set]{fullShare} Widx I d L))
        ∗ oTodo (F := F) d L n ∗ iDone I d L n ∗ semVal (thr d L, SemLoc.dma cc0_scratch19.sem) 0)
      ⊢ iprop((iprop(Transfers.Flight countersEmb (thr d L) (SemLoc.dma cc0_scratch19.sem) (default : HIx 1) 524288 (wDel5 m I d L g)
                ∗ oTodo (F := F) d L n' ∗ iDone I d L n')
              -∗ wp frame (wpE (defs₀ (F := F)) 𝒱₀ (thr d L) none) Set.univ (k ⟨⟩) Q)
          -∗ wp frame (wpE (defs₀ (F := F)) 𝒱₀ (thr d L) none) Set.univ
              (.op (.enqueueDmaAs B5 (.here ((oV).slice (Rect.unit (s := S204800x128) off S128x128.size h) (fun _ => rfl))) .same
                (SemLoc.dma cc0_scratch19.sem) hsrc hdst hsem) k) Q) := by
  subst e hn hn'
  iintro ⟨⟨Hb, Hrow⟩, HoT, HiD, Hv⟩ Hk
  ihave Hc := (oTodo_take (F := F) d L g) $$ HoT
  icases Hc with ⟨⟨%fo, Hc⟩, HoT⟩
  ihave HiD := (iDone_put I d L g) $$ [Hrow HiD]; · isplitl [Hrow] <;> iassumption
  have hN : (oChunkK (wL L) g).view.amount (SemLoc.dma cc0_scratch19.sem) = 524288 := rfl
  iapply (Transfers.wp_dmaLocal countersEmb 𝒱₀ (thr d L) none (default : HIx 1) 524288 hN (by norm_num) subset_rfl) $$ [Hb Hc Hv]
  · isplitl [Hb]; · iexact Hb
    isplitl [Hc]; · iexact Hc
    iexact Hv
  iintro Hfl
  iapply Hk
  isplitl [Hfl]
  · have hval : ∀ i ∈ (oChunkK (wL L) g).view.set,
        (oChunkK (wL L) g).view.write (Elt F) fo ((ReadAs.same : ReadAs (Elt F) S128x128 .f32 S128x128 .f32).apply ((B5).view.read (Elt F) (gVal m I d L g))) Finset.univ i
          = OUTbuf m I d i := write_val m I d L g fo
    iapply (Transfers.Flight_mono countersEmb (thr d L) (D' := wDel5 m I d L g)
      (sep_mono (Entails.of_eq (pointsTo_congr hval)) .rfl)) $$ Hfl
  · isplitl [HoT] <;> iassumption

theorem credit_B6 : ∑ j, ((B6).slice (S128x128.rowRect gathers_S100000x128_S128x128.axis' j) (S128x128.stride_rowRect gathers_S100000x128_S128x128.axis' j)).view.dmaCredit = 524288 :=
  (SparseCore.sum_rowCredit_eq_dmaCredit (B6) gathers_S100000x128_S128x128.axis' (fun _ => rfl)).trans rfl

set_option maxHeartbeats 1000000 in
/-- Slot 5 starts gathering chunk g: its share of the table, its buffer at anything, the rows of the index scratch
    not lent from g on, its gather semaphore at zero. -/
theorem gather6 (hI : ListsOK I) (g : Fin 50) (off : Fin 2 → ℕ) (h : ∀ a, off a + S1x128.size a ≤ S50x128.size a) (e : off = ![g.val, 0])
    (fd : Buf (Elt F) ((B6).view.loc (thr d L))) (n n' : ℕ) (hn : n = g.val) (hn' : n' = g.val + 1)
    {α : Type} {k : PUnit → Prog (TpuEff nD τ sig (Elt F) Λ₀ (thr d L).2) α} {Q : α → sProp 𝕄}
    {hp hnn hsrc he hsp hr} :
    iprop(((tV).view.loc (thr d L) ↦[(tAllK).view.set]{qt L 5} m (tLoc d)) ∗ ((B6).view.loc (thr d L) ↦[(B6).view.set]{fullShare} fd)
        ∗ iTodo I d L n ∗ semVal (thr d L, SemLoc.dma cc0_scratch13.sem) 0)
      ⊢ iprop((iprop(Transfers.Flight countersEmb (thr d L) (SemLoc.dma cc0_scratch13.sem) (default : HIx 1) 524288 (gDel6 m I d L g) ∗ iTodo I d L n')
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp tAllK B6 gathers_S100000x128_S128x128
                (((iS).slice (Rect.unit (s := S50x128) off S1x128.size h) (fun _ => rfl)).squeeze S128 squeezes_S1x128_S128) hnn cc0_scratch13.sem hsrc he hsp hr >>= k) Q) := by
  subst e hn hn'
  iintro ⟨Ht, Hb, HiT, Hv⟩ Hk
  ihave Hr := (iTodo_take I d L g) $$ HiT
  icases Hr with ⟨Hrow, HiT⟩
  iapply (SparseCore.wp_indirectGatherLocal countersEmb 𝒱₀ (thr d L) none (hg := gathers_S100000x128_S128x128) (default : HIx 1) 524288
      credit_B6 (by decide) (hin_row I d L hI g)) $$ [Ht Hb Hrow Hv]
  · isplitl [Ht]; · iexact Ht
    isplitl [Hb]; · iexact Hb
    isplitl [Hrow]; · iexact Hrow
    iexact Hv
  iintro Hfl
  iapply Hk
  isplitl [Hfl]
  · iapply (Transfers.Flight_mono countersEmb (thr d L) (D' := gDel6 m I d L g) ?_) $$ Hfl
    unfold gDel6
    iintro ⟨Hd, Hs, Ho⟩
    isplitl [Hd Ho]
    · isplitl [Hd]
      · rw [View.write_whole_univ, gather_val m I d L hI g]; iexact Hd
      · iexact Ho
    · iexact Hs
  · iexact HiT

set_option maxRecDepth 65536 in
set_option maxHeartbeats 1000000 in
/-- Slot 5 starts writing chunk g: its buffer at the chunk's values with row g of the index scratch (as the gather's
    wait hands them back), the rows of the result not begun from g on, the rows of the index scratch come back
    below g, its write semaphore at zero. -/
theorem write6 (g : Fin 50) (off : Fin 2 → ℕ) (h : ∀ a, off a + S128x128.size a ≤ S204800x128.size a)
    (e : off = ![6400 * (wL L).val + 128 * g.val, 0]) (n n' : ℕ) (hn : n = g.val) (hn' : n' = g.val + 1)
    {α : Type} {k : PUnit → Prog (TpuEff nD τ sig (Elt F) Λ₀ (thr d L).2) α} {Q : α → sProp 𝕄} {hsrc hdst hsem} :
    iprop((((B6).view.loc (thr d L) ↦[(B6).view.set]{fullShare} gVal m I d L g)
          ∗ ((iS).view.loc (thr d L) ↦[(iRowK g).view.set]{fullShare} Widx I d L))
        ∗ oTodo (F := F) d L n ∗ iDone I d L n ∗ semVal (thr d L, SemLoc.dma cc0_scratch20.sem) 0)
      ⊢ iprop((iprop(Transfers.Flight countersEmb (thr d L) (SemLoc.dma cc0_scratch20.sem) (default : HIx 1) 524288 (wDel6 m I d L g)
                ∗ oTodo (F := F) d L n' ∗ iDone I d L n')
              -∗ wp frame (wpE (defs₀ (F := F)) 𝒱₀ (thr d L) none) Set.univ (k ⟨⟩) Q)
          -∗ wp frame (wpE (defs₀ (F := F)) 𝒱₀ (thr d L) none) Set.univ
              (.op (.enqueueDmaAs B6 (.here ((oV).slice (Rect.unit (s := S204800x128) off S128x128.size h) (fun _ => rfl))) .same
                (SemLoc.dma cc0_scratch20.sem) hsrc hdst hsem) k) Q) := by
  subst e hn hn'
  iintro ⟨⟨Hb, Hrow⟩, HoT, HiD, Hv⟩ Hk
  ihave Hc := (oTodo_take (F := F) d L g) $$ HoT
  icases Hc with ⟨⟨%fo, Hc⟩, HoT⟩
  ihave HiD := (iDone_put I d L g) $$ [Hrow HiD]; · isplitl [Hrow] <;> iassumption
  have hN : (oChunkK (wL L) g).view.amount (SemLoc.dma cc0_scratch20.sem) = 524288 := rfl
  iapply (Transfers.wp_dmaLocal countersEmb 𝒱₀ (thr d L) none (default : HIx 1) 524288 hN (by norm_num) subset_rfl) $$ [Hb Hc Hv]
  · isplitl [Hb]; · iexact Hb
    isplitl [Hc]; · iexact Hc
    iexact Hv
  iintro Hfl
  iapply Hk
  isplitl [Hfl]
  · have hval : ∀ i ∈ (oChunkK (wL L) g).view.set,
        (oChunkK (wL L) g).view.write (Elt F) fo ((ReadAs.same : ReadAs (Elt F) S128x128 .f32 S128x128 .f32).apply ((B6).view.read (Elt F) (gVal m I d L g))) Finset.univ i
          = OUTbuf m I d i := write_val m I d L g fo
    iapply (Transfers.Flight_mono countersEmb (thr d L) (D' := wDel6 m I d L g)
      (sep_mono (Entails.of_eq (pointsTo_congr hval)) .rfl)) $$ Hfl
  · isplitl [HoT] <;> iassumption

theorem credit_B7 : ∑ j, ((B7).slice (S128x128.rowRect gathers_S100000x128_S128x128.axis' j) (S128x128.stride_rowRect gathers_S100000x128_S128x128.axis' j)).view.dmaCredit = 524288 :=
  (SparseCore.sum_rowCredit_eq_dmaCredit (B7) gathers_S100000x128_S128x128.axis' (fun _ => rfl)).trans rfl

set_option maxHeartbeats 1000000 in
/-- Slot 6 starts gathering chunk g: its share of the table, its buffer at anything, the rows of the index scratch
    not lent from g on, its gather semaphore at zero. -/
theorem gather7 (hI : ListsOK I) (g : Fin 50) (off : Fin 2 → ℕ) (h : ∀ a, off a + S1x128.size a ≤ S50x128.size a) (e : off = ![g.val, 0])
    (fd : Buf (Elt F) ((B7).view.loc (thr d L))) (n n' : ℕ) (hn : n = g.val) (hn' : n' = g.val + 1)
    {α : Type} {k : PUnit → Prog (TpuEff nD τ sig (Elt F) Λ₀ (thr d L).2) α} {Q : α → sProp 𝕄}
    {hp hnn hsrc he hsp hr} :
    iprop(((tV).view.loc (thr d L) ↦[(tAllK).view.set]{qt L 6} m (tLoc d)) ∗ ((B7).view.loc (thr d L) ↦[(B7).view.set]{fullShare} fd)
        ∗ iTodo I d L n ∗ semVal (thr d L, SemLoc.dma cc0_scratch14.sem) 0)
      ⊢ iprop((iprop(Transfers.Flight countersEmb (thr d L) (SemLoc.dma cc0_scratch14.sem) (default : HIx 1) 524288 (gDel7 m I d L g) ∗ iTodo I d L n')
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp tAllK B7 gathers_S100000x128_S128x128
                (((iS).slice (Rect.unit (s := S50x128) off S1x128.size h) (fun _ => rfl)).squeeze S128 squeezes_S1x128_S128) hnn cc0_scratch14.sem hsrc he hsp hr >>= k) Q) := by
  subst e hn hn'
  iintro ⟨Ht, Hb, HiT, Hv⟩ Hk
  ihave Hr := (iTodo_take I d L g) $$ HiT
  icases Hr with ⟨Hrow, HiT⟩
  iapply (SparseCore.wp_indirectGatherLocal countersEmb 𝒱₀ (thr d L) none (hg := gathers_S100000x128_S128x128) (default : HIx 1) 524288
      credit_B7 (by decide) (hin_row I d L hI g)) $$ [Ht Hb Hrow Hv]
  · isplitl [Ht]; · iexact Ht
    isplitl [Hb]; · iexact Hb
    isplitl [Hrow]; · iexact Hrow
    iexact Hv
  iintro Hfl
  iapply Hk
  isplitl [Hfl]
  · iapply (Transfers.Flight_mono countersEmb (thr d L) (D' := gDel7 m I d L g) ?_) $$ Hfl
    unfold gDel7
    iintro ⟨Hd, Hs, Ho⟩
    isplitl [Hd Ho]
    · isplitl [Hd]
      · rw [View.write_whole_univ, gather_val m I d L hI g]; iexact Hd
      · iexact Ho
    · iexact Hs
  · iexact HiT

set_option maxRecDepth 65536 in
set_option maxHeartbeats 1000000 in
/-- Slot 6 starts writing chunk g: its buffer at the chunk's values with row g of the index scratch (as the gather's
    wait hands them back), the rows of the result not begun from g on, the rows of the index scratch come back
    below g, its write semaphore at zero. -/
theorem write7 (g : Fin 50) (off : Fin 2 → ℕ) (h : ∀ a, off a + S128x128.size a ≤ S204800x128.size a)
    (e : off = ![6400 * (wL L).val + 128 * g.val, 0]) (n n' : ℕ) (hn : n = g.val) (hn' : n' = g.val + 1)
    {α : Type} {k : PUnit → Prog (TpuEff nD τ sig (Elt F) Λ₀ (thr d L).2) α} {Q : α → sProp 𝕄} {hsrc hdst hsem} :
    iprop((((B7).view.loc (thr d L) ↦[(B7).view.set]{fullShare} gVal m I d L g)
          ∗ ((iS).view.loc (thr d L) ↦[(iRowK g).view.set]{fullShare} Widx I d L))
        ∗ oTodo (F := F) d L n ∗ iDone I d L n ∗ semVal (thr d L, SemLoc.dma cc0_scratch21.sem) 0)
      ⊢ iprop((iprop(Transfers.Flight countersEmb (thr d L) (SemLoc.dma cc0_scratch21.sem) (default : HIx 1) 524288 (wDel7 m I d L g)
                ∗ oTodo (F := F) d L n' ∗ iDone I d L n')
              -∗ wp frame (wpE (defs₀ (F := F)) 𝒱₀ (thr d L) none) Set.univ (k ⟨⟩) Q)
          -∗ wp frame (wpE (defs₀ (F := F)) 𝒱₀ (thr d L) none) Set.univ
              (.op (.enqueueDmaAs B7 (.here ((oV).slice (Rect.unit (s := S204800x128) off S128x128.size h) (fun _ => rfl))) .same
                (SemLoc.dma cc0_scratch21.sem) hsrc hdst hsem) k) Q) := by
  subst e hn hn'
  iintro ⟨⟨Hb, Hrow⟩, HoT, HiD, Hv⟩ Hk
  ihave Hc := (oTodo_take (F := F) d L g) $$ HoT
  icases Hc with ⟨⟨%fo, Hc⟩, HoT⟩
  ihave HiD := (iDone_put I d L g) $$ [Hrow HiD]; · isplitl [Hrow] <;> iassumption
  have hN : (oChunkK (wL L) g).view.amount (SemLoc.dma cc0_scratch21.sem) = 524288 := rfl
  iapply (Transfers.wp_dmaLocal countersEmb 𝒱₀ (thr d L) none (default : HIx 1) 524288 hN (by norm_num) subset_rfl) $$ [Hb Hc Hv]
  · isplitl [Hb]; · iexact Hb
    isplitl [Hc]; · iexact Hc
    iexact Hv
  iintro Hfl
  iapply Hk
  isplitl [Hfl]
  · have hval : ∀ i ∈ (oChunkK (wL L) g).view.set,
        (oChunkK (wL L) g).view.write (Elt F) fo ((ReadAs.same : ReadAs (Elt F) S128x128 .f32 S128x128 .f32).apply ((B7).view.read (Elt F) (gVal m I d L g))) Finset.univ i
          = OUTbuf m I d i := write_val m I d L g fo
    iapply (Transfers.Flight_mono countersEmb (thr d L) (D' := wDel7 m I d L g)
      (sep_mono (Entails.of_eq (pointsTo_congr hval)) .rfl)) $$ Hfl
  · isplitl [HoT] <;> iassumption

end Cert.KernelIdeal.Sc

end
-- ==== Proof.KITileTrip.lean ====
/-
  The loop's region keeps the invariant: a trip t ≤ 5 at a symbolic t (all fourteen conditions hold), trip 6 (the
  second half only for slot 0) and trip 7 (the first half only for slot 0).
-/
import proofs.«206296_g7516192768393_cont_9to1c4b_737_14_alg».proof.Proof.KITileOps

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg0_scv : Memref Cert.KernelIdeal.sig Kind.scVector Space.hbm Cert.KernelIdeal.S100000x128 EltTy.f32)
local notation "lV" => (Memref.whole Cert.KernelIdeal.main_v1_scv : Memref Cert.KernelIdeal.sig Kind.scVector Space.hbm Cert.KernelIdeal.S32x50x128 EltTy.i32)
local notation "oV" => (Memref.whole Cert.KernelIdeal.main_v2_scv : Memref Cert.KernelIdeal.sig Kind.scVector Space.hbm Cert.KernelIdeal.S204800x128 EltTy.f32)
local notation "iS" => (Memref.whole Cert.KernelIdeal.cc0_scratch0 : Memref Cert.KernelIdeal.sig Kind.scVector Space.vmem Cert.KernelIdeal.S50x128 EltTy.i32)
local notation "B1" => (Memref.whole Cert.KernelIdeal.cc0_scratch1 : Memref Cert.KernelIdeal.sig Kind.scVector Space.vmem Cert.KernelIdeal.S128x128 EltTy.f32)
local notation "B2" => (Memref.whole Cert.KernelIdeal.cc0_scratch2 : Memref Cert.KernelIdeal.sig Kind.scVector Space.vmem Cert.KernelIdeal.S128x128 EltTy.f32)
local notation "B3" => (Memref.whole Cert.KernelIdeal.cc0_scratch3 : Memref Cert.KernelIdeal.sig Kind.scVector Space.vmem Cert.KernelIdeal.S128x128 EltTy.f32)
local notation "B4" => (Memref.whole Cert.KernelIdeal.cc0_scratch4 : Memref Cert.KernelIdeal.sig Kind.scVector Space.vmem Cert.KernelIdeal.S128x128 EltTy.f32)
local notation "B5" => (Memref.whole Cert.KernelIdeal.cc0_scratch5 : Memref Cert.KernelIdeal.sig Kind.scVector Space.vmem Cert.KernelIdeal.S128x128 EltTy.f32)
local notation "B6" => (Memref.whole Cert.KernelIdeal.cc0_scratch6 : Memref Cert.KernelIdeal.sig Kind.scVector Space.vmem Cert.KernelIdeal.S128x128 EltTy.f32)
local notation "B7" => (Memref.whole Cert.KernelIdeal.cc0_scratch7 : Memref Cert.KernelIdeal.sig Kind.scVector Space.vmem Cert.KernelIdeal.S128x128 EltTy.f32)

variable (m : (ℓ : Loc nD τ sig) → Buf (Elt F) ℓ) (I : (d : Dev nD) → Buf (Elt F) (lLoc d))
variable [FloatOps F]
variable (d : Dev nD) (L : grid0.Coords)

variable (O : CellTallies nD τ sig (HIx 1)) (W : Waits sig (HIx 1))

/-- The state after trip t < 6, spelt over 7·t + 7 …: it is the invariant before trip t + 1. -/
def InvB (t : ℕ) (ht : t ≤ 5) : sProp 𝕄 :=
  iprop(slotG1 m I d L ⟨7 * t + 7, by omega⟩ ∗ slotG2 m I d L ⟨7 * t + 8, by omega⟩ ∗ slotG3 m I d L ⟨7 * t + 9, by omega⟩
    ∗ slotG4 m I d L ⟨7 * t + 10, by omega⟩ ∗ slotG5 m I d L ⟨7 * t + 11, by omega⟩ ∗ slotG6 m I d L ⟨7 * t + 12, by omega⟩
    ∗ slotG7 m I d L ⟨7 * t + 13, by omega⟩
    ∗ oDone m I d L (7 * t + 7) ∗ oTodo d L (7 * t + 7) ∗ iDone I d L (7 * t + 7) ∗ iTodo I d L (7 * t + 14) ∗ owesPart d L O W)

theorem InvB_eq (t : ℕ) (ht : t ≤ 5) : InvB m I d L O W t ht = InvA m I d L O W (t + 1) (by omega) := by
  unfold InvB InvA
  have e : 7 * (t + 1) = 7 * t + 7 := by ring
  simp only [e, Nat.add_assoc, Nat.reduceAdd]

theorem cond1_lo : ∀ t : Fin k0_t1_loop.trips, t.val ≤ 5 → k0_cond1 t = 1#1 := by decide +kernel
theorem cond2_lo : ∀ t : Fin k0_t1_loop.trips, t.val ≤ 5 → k0_cond2 t = 1#1 := by decide +kernel
theorem cond3_lo : ∀ t : Fin k0_t1_loop.trips, t.val ≤ 5 → k0_cond3 t = 1#1 := by decide +kernel
theorem cond4_lo : ∀ t : Fin k0_t1_loop.trips, t.val ≤ 5 → k0_cond4 t = 1#1 := by decide +kernel
theorem cond5_lo : ∀ t : Fin k0_t1_loop.trips, t.val ≤ 5 → k0_cond5 t = 1#1 := by decide +kernel
theorem cond6_lo : ∀ t : Fin k0_t1_loop.trips, t.val ≤ 5 → k0_cond6 t = 1#1 := by decide +kernel
theorem cond7_lo : ∀ t : Fin k0_t1_loop.trips, t.val ≤ 5 → k0_cond7 t = 1#1 := by decide +kernel
theorem cond8_lo : ∀ t : Fin k0_t1_loop.trips, t.val ≤ 5 → k0_cond8 t = 1#1 := by decide +kernel
theorem cond9_lo : ∀ t : Fin k0_t1_loop.trips, t.val ≤ 5 → k0_cond9 t = 1#1 := by decide +kernel
theorem cond10_lo : ∀ t : Fin k0_t1_loop.trips, t.val ≤ 5 → k0_cond10 t = 1#1 := by decide +kernel
theorem cond11_lo : ∀ t : Fin k0_t1_loop.trips, t.val ≤ 5 → k0_cond11 t = 1#1 := by decide +kernel
theorem cond12_lo : ∀ t : Fin k0_t1_loop.trips, t.val ≤ 5 → k0_cond12 t = 1#1 := by decide +kernel
theorem cond13_lo : ∀ t : Fin k0_t1_loop.trips, t.val ≤ 5 → k0_cond13 t = 1#1 := by decide +kernel
theorem cond14_lo : ∀ t : Fin k0_t1_loop.trips, t.val ≤ 5 → k0_cond14 t = 1#1 := by decide +kernel

set_option maxHeartbeats 8000000 in
set_option maxRecDepth 65536 in
/-- A trip t ≤ 5: every slot's gather is waited for and its chunk written, then every slot's write is waited for and
    the gather of its chunk of the next group started. -/
theorem trip_lo (hI : ListsOK I) (k : Fin k0_t1_loop.trips) (hk : k.val ≤ 5) (v2 acc : BitVec 32) :
    InvA m I d L O W k.val (by omega)
      ⊢ wp frame (wpE (defs₀ (F := F)) 𝒱₀ (thr d L) none) Set.univ
          (k0_t1_body L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 v2 k acc)
          fun _ => InvB m I d L O W k.val hk := by
  have h1 : k0_cond1 k = 1#1 := cond1_lo k hk
  have h2 : k0_cond2 k = 1#1 := cond2_lo k hk
  have h3 : k0_cond3 k = 1#1 := cond3_lo k hk
  have h4 : k0_cond4 k = 1#1 := cond4_lo k hk
  have h5 : k0_cond5 k = 1#1 := cond5_lo k hk
  have h6 : k0_cond6 k = 1#1 := cond6_lo k hk
  have h7 : k0_cond7 k = 1#1 := cond7_lo k hk
  have h8 : k0_cond8 k = 1#1 := cond8_lo k hk
  have h9 : k0_cond9 k = 1#1 := cond9_lo k hk
  have h10 : k0_cond10 k = 1#1 := cond10_lo k hk
  have h11 : k0_cond11 k = 1#1 := cond11_lo k hk
  have h12 : k0_cond12 k = 1#1 := cond12_lo k hk
  have h13 : k0_cond13 k = 1#1 := cond13_lo k hk
  have h14 : k0_cond14 k = 1#1 := cond14_lo k hk
  unfold k0_t1_body
  rw [k0_part1_eq_skeleton, k0_part2_eq_skeleton]; unfold k0_part1_skel k0_part2_skel
  unfold InvA slotG1 slotG2 slotG3 slotG4 slotG5 slotG6 slotG7 gDel1 gDel2 gDel3 gDel4 gDel5 gDel6 gDel7 owesPart
  iintro ⟨⟨Hf1, Hw1⟩, ⟨Hf2, Hw2⟩, ⟨Hf3, Hw3⟩, ⟨Hf4, Hw4⟩, ⟨Hf5, Hw5⟩, ⟨Hf6, Hw6⟩, ⟨Hf7, Hw7⟩, HoD, HoT, HiD, HiT, #Hmw, %W', %hW', HO⟩
  sl_exec
  iapply (write1 m I d L ⟨7 * k.val + 0, by omega⟩ _ _ (k0_off2_w L k) (7 * k.val + 0) (7 * k.val + 1) rfl rfl) $$ [Hf1_dst HoT HiD Hw1]
  · isplitl [Hf1_dst]; · iexact Hf1_dst
    isplitl [HoT]; · iexact HoT
    isplitl [HiD]; · iexact HiD
    iexact Hw1
  iintro ⟨Hw1, HoT, HiD⟩
  sl_exec
  iapply (write2 m I d L ⟨7 * k.val + 1, by omega⟩ _ _ (k0_off3_w L k) (7 * k.val + 1) (7 * k.val + 2) rfl rfl) $$ [Hf2_dst HoT HiD Hw2]
  · isplitl [Hf2_dst]; · iexact Hf2_dst
    isplitl [HoT]; · iexact HoT
    isplitl [HiD]; · iexact HiD
    iexact Hw2
  iintro ⟨Hw2, HoT, HiD⟩
  sl_exec
  iapply (write3 m I d L ⟨7 * k.val + 2, by omega⟩ _ _ (k0_off4_w L k) (7 * k.val + 2) (7 * k.val + 3) rfl rfl) $$ [Hf3_dst HoT HiD Hw3]
  · isplitl [Hf3_dst]; · iexact Hf3_dst
    isplitl [HoT]; · iexact HoT
    isplitl [HiD]; · iexact HiD
    iexact Hw3
  iintro ⟨Hw3, HoT, HiD⟩
  sl_exec
  iapply (write4 m I d L ⟨7 * k.val + 3, by omega⟩ _ _ (k0_off5_w L k) (7 * k.val + 3) (7 * k.val + 4) rfl rfl) $$ [Hf4_dst HoT HiD Hw4]
  · isplitl [Hf4_dst]; · iexact Hf4_dst
    isplitl [HoT]; · iexact HoT
    isplitl [HiD]; · iexact HiD
    iexact Hw4
  iintro ⟨Hw4, HoT, HiD⟩
  sl_exec
  iapply (write5 m I d L ⟨7 * k.val + 4, by omega⟩ _ _ (k0_off6_w L k) (7 * k.val + 4) (7 * k.val + 5) rfl rfl) $$ [Hf5_dst HoT HiD Hw5]
  · isplitl [Hf5_dst]; · iexact Hf5_dst
    isplitl [HoT]; · iexact HoT
    isplitl [HiD]; · iexact HiD
    iexact Hw5
  iintro ⟨Hw5, HoT, HiD⟩
  sl_exec
  iapply (write6 m I d L ⟨7 * k.val + 5, by omega⟩ _ _ (k0_off7_w L k) (7 * k.val + 5) (7 * k.val + 6) rfl rfl) $$ [Hf6_dst HoT HiD Hw6]
  · isplitl [Hf6_dst]; · iexact Hf6_dst
    isplitl [HoT]; · iexact HoT
    isplitl [HiD]; · iexact HiD
    iexact Hw6
  iintro ⟨Hw6, HoT, HiD⟩
  sl_exec
  iapply (write7 m I d L ⟨7 * k.val + 6, by omega⟩ _ _ (k0_off8_w L k) (7 * k.val + 6) (7 * k.val + 7) rfl rfl) $$ [Hf7_dst HoT HiD Hw7]
  · isplitl [Hf7_dst]; · iexact Hf7_dst
    isplitl [HoT]; · iexact HoT
    isplitl [HiD]; · iexact HiD
    iexact Hw7
  iintro ⟨Hw7, HoT, HiD⟩
  unfold wDel1 wDel2 wDel3 wDel4 wDel5 wDel6 wDel7
  sl_exec
  ihave HoD := (oDone_put' m I d L ⟨7 * k.val + 0, by omega⟩ (7 * k.val + 0) (7 * k.val + 1) rfl rfl) $$ [Hw1_dst HoD]; · isplitl [Hw1_dst] <;> iassumption
  iapply (gather1 m I d L hI ⟨7 * k.val + 7, by omega⟩ _ _ (k0_off10_eq k) _ (7 * k.val + 7) (7 * k.val + 8) rfl rfl) $$ [Hf1_src Hw1_src HiT Hf1]
  · isplitl [Hf1_src]; · iexact Hf1_src
    isplitl [Hw1_src]; · iexact Hw1_src
    isplitl [HiT]; · iexact HiT
    iexact Hf1
  iintro ⟨Hf1, HiT⟩
  sl_exec
  ihave HoD := (oDone_put' m I d L ⟨7 * k.val + 1, by omega⟩ (7 * k.val + 1) (7 * k.val + 2) rfl rfl) $$ [Hw2_dst HoD]; · isplitl [Hw2_dst] <;> iassumption
  iapply (gather2 m I d L hI ⟨7 * k.val + 8, by omega⟩ _ _ (k0_off12_eq k) _ (7 * k.val + 8) (7 * k.val + 9) rfl rfl) $$ [Hf2_src Hw2_src HiT Hf2]
  · isplitl [Hf2_src]; · iexact Hf2_src
    isplitl [Hw2_src]; · iexact Hw2_src
    isplitl [HiT]; · iexact HiT
    iexact Hf2
  iintro ⟨Hf2, HiT⟩
  sl_exec
  ihave HoD := (oDone_put' m I d L ⟨7 * k.val + 2, by omega⟩ (7 * k.val + 2) (7 * k.val + 3) rfl rfl) $$ [Hw3_dst HoD]; · isplitl [Hw3_dst] <;> iassumption
  iapply (gather3 m I d L hI ⟨7 * k.val + 9, by omega⟩ _ _ (k0_off14_eq k) _ (7 * k.val + 9) (7 * k.val + 10) rfl rfl) $$ [Hf3_src Hw3_src HiT Hf3]
  · isplitl [Hf3_src]; · iexact Hf3_src
    isplitl [Hw3_src]; · iexact Hw3_src
    isplitl [HiT]; · iexact HiT
    iexact Hf3
  iintro ⟨Hf3, HiT⟩
  sl_exec
  ihave HoD := (oDone_put' m I d L ⟨7 * k.val + 3, by omega⟩ (7 * k.val + 3) (7 * k.val + 4) rfl rfl) $$ [Hw4_dst HoD]; · isplitl [Hw4_dst] <;> iassumption
  iapply (gather4 m I d L hI ⟨7 * k.val + 10, by omega⟩ _ _ (k0_off16_eq k) _ (7 * k.val + 10) (7 * k.val + 11) rfl rfl) $$ [Hf4_src Hw4_src HiT Hf4]
  · isplitl [Hf4_src]; · iexact Hf4_src
    isplitl [Hw4_src]; · iexact Hw4_src
    isplitl [HiT]; · iexact HiT
    iexact Hf4
  iintro ⟨Hf4, HiT⟩
  sl_exec
  ihave HoD := (oDone_put' m I d L ⟨7 * k.val + 4, by omega⟩ (7 * k.val + 4) (7 * k.val + 5) rfl rfl) $$ [Hw5_dst HoD]; · isplitl [Hw5_dst] <;> iassumption
  iapply (gather5 m I d L hI ⟨7 * k.val + 11, by omega⟩ _ _ (k0_off18_eq k) _ (7 * k.val + 11) (7 * k.val + 12) rfl rfl) $$ [Hf5_src Hw5_src HiT Hf5]
  · isplitl [Hf5_src]; · iexact Hf5_src
    isplitl [Hw5_src]; · iexact Hw5_src
    isplitl [HiT]; · iexact HiT
    iexact Hf5
  iintro ⟨Hf5, HiT⟩
  sl_exec
  ihave HoD := (oDone_put' m I d L ⟨7 * k.val + 5, by omega⟩ (7 * k.val + 5) (7 * k.val + 6) rfl rfl) $$ [Hw6_dst HoD]; · isplitl [Hw6_dst] <;> iassumption
  iapply (gather6 m I d L hI ⟨7 * k.val + 12, by omega⟩ _ _ (k0_off20_eq k) _ (7 * k.val + 12) (7 * k.val + 13) rfl rfl) $$ [Hf6_src Hw6_src HiT Hf6]
  · isplitl [Hf6_src]; · iexact Hf6_src
    isplitl [Hw6_src]; · iexact Hw6_src
    isplitl [HiT]; · iexact HiT
    iexact Hf6
  iintro ⟨Hf6, HiT⟩
  sl_exec
  ihave HoD := (oDone_put' m I d L ⟨7 * k.val + 6, by omega⟩ (7 * k.val + 6) (7 * k.val + 7) rfl rfl) $$ [Hw7_dst HoD]; · isplitl [Hw7_dst] <;> iassumption
  iapply (gather7 m I d L hI ⟨7 * k.val + 13, by omega⟩ _ _ (k0_off22_eq k) _ (7 * k.val + 13) (7 * k.val + 14) rfl rfl) $$ [Hf7_src Hw7_src HiT Hf7]
  · isplitl [Hf7_src]; · iexact Hf7_src
    isplitl [Hw7_src]; · iexact Hw7_src
    isplitl [HiT]; · iexact HiT
    iexact Hf7
  iintro ⟨Hf7, HiT⟩
  sl_exec
  sl_step
  unfold InvB slotG1 slotG2 slotG3 slotG4 slotG5 slotG6 slotG7 owesPart
  isplitl [Hf1 Hw1]
  · isplitl [Hf1]
    · iexact Hf1
    · iexact Hw1
  isplitl [Hf2 Hw2]
  · isplitl [Hf2]
    · iexact Hf2
    · iexact Hw2
  isplitl [Hf3 Hw3]
  · isplitl [Hf3]
    · iexact Hf3
    · iexact Hw3
  isplitl [Hf4 Hw4]
  · isplitl [Hf4]
    · iexact Hf4
    · iexact Hw4
  isplitl [Hf5 Hw5]
  · isplitl [Hf5]
    · iexact Hf5
    · iexact Hw5
  isplitl [Hf6 Hw6]
  · isplitl [Hf6]
    · iexact Hf6
    · iexact Hw6
  isplitl [Hf7 Hw7]
  · isplitl [Hf7]
    · iexact Hf7
    · iexact Hw7
  isplitl [HoD]; · iexact HoD
  isplitl [HoT]; · iexact HoT
  isplitl [HiD]; · iexact HiD
  isplitl [HiT]; · iexact HiT
  isplitr; · iexact Hmw
  iexists _; isplitr
  swap; · iexact HO
  ipureintro
  repeat first | exact hW' | refine waits_insert _ ?_

theorem cond1_at6 : ∀ t : Fin k0_t1_loop.trips, t.val = 6 → k0_cond1 t = 1#1 := by decide +kernel
theorem cond2_at6 : ∀ t : Fin k0_t1_loop.trips, t.val = 6 → k0_cond2 t = 1#1 := by decide +kernel
theorem cond3_at6 : ∀ t : Fin k0_t1_loop.trips, t.val = 6 → k0_cond3 t = 1#1 := by decide +kernel
theorem cond4_at6 : ∀ t : Fin k0_t1_loop.trips, t.val = 6 → k0_cond4 t = 1#1 := by decide +kernel
theorem cond5_at6 : ∀ t : Fin k0_t1_loop.trips, t.val = 6 → k0_cond5 t = 1#1 := by decide +kernel
theorem cond6_at6 : ∀ t : Fin k0_t1_loop.trips, t.val = 6 → k0_cond6 t = 1#1 := by decide +kernel
theorem cond7_at6 : ∀ t : Fin k0_t1_loop.trips, t.val = 6 → k0_cond7 t = 1#1 := by decide +kernel
theorem cond8_at6 : ∀ t : Fin k0_t1_loop.trips, t.val = 6 → k0_cond8 t = 1#1 := by decide +kernel
theorem cond9_at6 : ∀ t : Fin k0_t1_loop.trips, t.val = 6 → ¬ k0_cond9 t = 1#1 := by decide +kernel
theorem cond10_at6 : ∀ t : Fin k0_t1_loop.trips, t.val = 6 → ¬ k0_cond10 t = 1#1 := by decide +kernel
theorem cond11_at6 : ∀ t : Fin k0_t1_loop.trips, t.val = 6 → ¬ k0_cond11 t = 1#1 := by decide +kernel
theorem cond12_at6 : ∀ t : Fin k0_t1_loop.trips, t.val = 6 → ¬ k0_cond12 t = 1#1 := by decide +kernel
theorem cond13_at6 : ∀ t : Fin k0_t1_loop.trips, t.val = 6 → ¬ k0_cond13 t = 1#1 := by decide +kernel
theorem cond14_at6 : ∀ t : Fin k0_t1_loop.trips, t.val = 6 → ¬ k0_cond14 t = 1#1 := by decide +kernel

set_option maxHeartbeats 8000000 in
set_option maxRecDepth 65536 in
/-- Trip 6: every slot's gather is waited for and its chunk written; then only slot 0's write is waited for and the
    gather of the last chunk started. -/
theorem trip_6 (hI : ListsOK I) (hkv : 6 < k0_t1_loop.trips) (v2 acc : BitVec 32) :
    InvA m I d L O W 6 (by omega)
      ⊢ wp frame (wpE (defs₀ (F := F)) 𝒱₀ (thr d L) none) Set.univ
          (k0_t1_body L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 v2 (⟨6, hkv⟩ : Fin k0_t1_loop.trips) acc)
          fun _ => Inv7 m I d L O W := by
  have h1 : k0_cond1 (⟨6, hkv⟩ : Fin k0_t1_loop.trips) = 1#1 := cond1_at6 _ rfl
  have h2 : k0_cond2 (⟨6, hkv⟩ : Fin k0_t1_loop.trips) = 1#1 := cond2_at6 _ rfl
  have h3 : k0_cond3 (⟨6, hkv⟩ : Fin k0_t1_loop.trips) = 1#1 := cond3_at6 _ rfl
  have h4 : k0_cond4 (⟨6, hkv⟩ : Fin k0_t1_loop.trips) = 1#1 := cond4_at6 _ rfl
  have h5 : k0_cond5 (⟨6, hkv⟩ : Fin k0_t1_loop.trips) = 1#1 := cond5_at6 _ rfl
  have h6 : k0_cond6 (⟨6, hkv⟩ : Fin k0_t1_loop.trips) = 1#1 := cond6_at6 _ rfl
  have h7 : k0_cond7 (⟨6, hkv⟩ : Fin k0_t1_loop.trips) = 1#1 := cond7_at6 _ rfl
  have h8 : k0_cond8 (⟨6, hkv⟩ : Fin k0_t1_loop.trips) = 1#1 := cond8_at6 _ rfl
  have h9 : ¬ k0_cond9 (⟨6, hkv⟩ : Fin k0_t1_loop.trips) = 1#1 := cond9_at6 _ rfl
  have h10 : ¬ k0_cond10 (⟨6, hkv⟩ : Fin k0_t1_loop.trips) = 1#1 := cond10_at6 _ rfl
  have h11 : ¬ k0_cond11 (⟨6, hkv⟩ : Fin k0_t1_loop.trips) = 1#1 := cond11_at6 _ rfl
  have h12 : ¬ k0_cond12 (⟨6, hkv⟩ : Fin k0_t1_loop.trips) = 1#1 := cond12_at6 _ rfl
  have h13 : ¬ k0_cond13 (⟨6, hkv⟩ : Fin k0_t1_loop.trips) = 1#1 := cond13_at6 _ rfl
  have h14 : ¬ k0_cond14 (⟨6, hkv⟩ : Fin k0_t1_loop.trips) = 1#1 := cond14_at6 _ rfl
  unfold k0_t1_body
  rw [k0_part1_eq_skeleton, k0_part2_eq_skeleton]; unfold k0_part1_skel k0_part2_skel
  unfold InvA slotG1 slotG2 slotG3 slotG4 slotG5 slotG6 slotG7 gDel1 gDel2 gDel3 gDel4 gDel5 gDel6 gDel7 owesPart
  iintro ⟨⟨Hf1, Hw1⟩, ⟨Hf2, Hw2⟩, ⟨Hf3, Hw3⟩, ⟨Hf4, Hw4⟩, ⟨Hf5, Hw5⟩, ⟨Hf6, Hw6⟩, ⟨Hf7, Hw7⟩, HoD, HoT, HiD, HiT, #Hmw, %W', %hW', HO⟩
  sl_exec
  iapply (write1 m I d L ⟨42, by omega⟩ _ _ (k0_off2_w L (⟨6, hkv⟩ : Fin k0_t1_loop.trips)) 42 43 rfl rfl) $$ [Hf1_dst HoT HiD Hw1]
  · isplitl [Hf1_dst]; · iexact Hf1_dst
    isplitl [HoT]; · iexact HoT
    isplitl [HiD]; · iexact HiD
    iexact Hw1
  iintro ⟨Hw1, HoT, HiD⟩
  sl_exec
  iapply (write2 m I d L ⟨43, by omega⟩ _ _ (k0_off3_w L (⟨6, hkv⟩ : Fin k0_t1_loop.trips)) 43 44 rfl rfl) $$ [Hf2_dst HoT HiD Hw2]
  · isplitl [Hf2_dst]; · iexact Hf2_dst
    isplitl [HoT]; · iexact HoT
    isplitl [HiD]; · iexact HiD
    iexact Hw2
  iintro ⟨Hw2, HoT, HiD⟩
  sl_exec
  iapply (write3 m I d L ⟨44, by omega⟩ _ _ (k0_off4_w L (⟨6, hkv⟩ : Fin k0_t1_loop.trips)) 44 45 rfl rfl) $$ [Hf3_dst HoT HiD Hw3]
  · isplitl [Hf3_dst]; · iexact Hf3_dst
    isplitl [HoT]; · iexact HoT
    isplitl [HiD]; · iexact HiD
    iexact Hw3
  iintro ⟨Hw3, HoT, HiD⟩
  sl_exec
  iapply (write4 m I d L ⟨45, by omega⟩ _ _ (k0_off5_w L (⟨6, hkv⟩ : Fin k0_t1_loop.trips)) 45 46 rfl rfl) $$ [Hf4_dst HoT HiD Hw4]
  · isplitl [Hf4_dst]; · iexact Hf4_dst
    isplitl [HoT]; · iexact HoT
    isplitl [HiD]; · iexact HiD
    iexact Hw4
  iintro ⟨Hw4, HoT, HiD⟩
  sl_exec
  iapply (write5 m I d L ⟨46, by omega⟩ _ _ (k0_off6_w L (⟨6, hkv⟩ : Fin k0_t1_loop.trips)) 46 47 rfl rfl) $$ [Hf5_dst HoT HiD Hw5]
  · isplitl [Hf5_dst]; · iexact Hf5_dst
    isplitl [HoT]; · iexact HoT
    isplitl [HiD]; · iexact HiD
    iexact Hw5
  iintro ⟨Hw5, HoT, HiD⟩
  sl_exec
  iapply (write6 m I d L ⟨47, by omega⟩ _ _ (k0_off7_w L (⟨6, hkv⟩ : Fin k0_t1_loop.trips)) 47 48 rfl rfl) $$ [Hf6_dst HoT HiD Hw6]
  · isplitl [Hf6_dst]; · iexact Hf6_dst
    isplitl [HoT]; · iexact HoT
    isplitl [HiD]; · iexact HiD
    iexact Hw6
  iintro ⟨Hw6, HoT, HiD⟩
  sl_exec
  iapply (write7 m I d L ⟨48, by omega⟩ _ _ (k0_off8_w L (⟨6, hkv⟩ : Fin k0_t1_loop.trips)) 48 49 rfl rfl) $$ [Hf7_dst HoT HiD Hw7]
  · isplitl [Hf7_dst]; · iexact Hf7_dst
    isplitl [HoT]; · iexact HoT
    isplitl [HiD]; · iexact HiD
    iexact Hw7
  iintro ⟨Hw7, HoT, HiD⟩
  unfold wDel1
  sl_exec
  ihave HoD := (oDone_put' m I d L ⟨42, by omega⟩ 42 43 rfl rfl) $$ [Hw1_dst HoD]; · isplitl [Hw1_dst] <;> iassumption
  iapply (gather1 m I d L hI ⟨49, by omega⟩ _ _ (k0_off10_eq (⟨6, hkv⟩ : Fin k0_t1_loop.trips)) _ 49 50 rfl rfl) $$ [Hf1_src Hw1_src HiT Hf1]
  · isplitl [Hf1_src]; · iexact Hf1_src
    isplitl [Hw1_src]; · iexact Hw1_src
    isplitl [HiT]; · iexact HiT
    iexact Hf1
  iintro ⟨Hf1, HiT⟩
  sl_exec
  sl_step
  unfold Inv7 slotG1 slotW2 slotW3 slotW4 slotW5 slotW6 slotW7 owesPart
  isplitl [Hf1 Hw1]
  · isplitl [Hf1]
    · iexact Hf1
    · iexact Hw1
  isplitl [Hw2 Hf2 Hf2_src]
  · isplitl [Hw2]; · iexact Hw2
    isplitl [Hf2]; · iexact Hf2
    iexact Hf2_src
  isplitl [Hw3 Hf3 Hf3_src]
  · isplitl [Hw3]; · iexact Hw3
    isplitl [Hf3]; · iexact Hf3
    iexact Hf3_src
  isplitl [Hw4 Hf4 Hf4_src]
  · isplitl [Hw4]; · iexact Hw4
    isplitl [Hf4]; · iexact Hf4
    iexact Hf4_src
  isplitl [Hw5 Hf5 Hf5_src]
  · isplitl [Hw5]; · iexact Hw5
    isplitl [Hf5]; · iexact Hf5
    iexact Hf5_src
  isplitl [Hw6 Hf6 Hf6_src]
  · isplitl [Hw6]; · iexact Hw6
    isplitl [Hf6]; · iexact Hf6
    iexact Hf6_src
  isplitl [Hw7 Hf7 Hf7_src]
  · isplitl [Hw7]; · iexact Hw7
    isplitl [Hf7]; · iexact Hf7
    iexact Hf7_src
  isplitl [HoD]; · iexact HoD
  isplitl [HoT]; · iexact HoT
  isplitl [HiD]; · iexact HiD
  isplitl [HiT]; · iexact HiT
  isplitr; · iexact Hmw
  iexists _; isplitr
  swap; · iexact HO
  ipureintro
  repeat first | exact hW' | refine waits_insert _ ?_

theorem cond1_at7 : ∀ t : Fin k0_t1_loop.trips, t.val = 7 → k0_cond1 t = 1#1 := by decide +kernel
theorem cond2_at7 : ∀ t : Fin k0_t1_loop.trips, t.val = 7 → ¬ k0_cond2 t = 1#1 := by decide +kernel
theorem cond3_at7 : ∀ t : Fin k0_t1_loop.trips, t.val = 7 → ¬ k0_cond3 t = 1#1 := by decide +kernel
theorem cond4_at7 : ∀ t : Fin k0_t1_loop.trips, t.val = 7 → ¬ k0_cond4 t = 1#1 := by decide +kernel
theorem cond5_at7 : ∀ t : Fin k0_t1_loop.trips, t.val = 7 → ¬ k0_cond5 t = 1#1 := by decide +kernel
theorem cond6_at7 : ∀ t : Fin k0_t1_loop.trips, t.val = 7 → ¬ k0_cond6 t = 1#1 := by decide +kernel
theorem cond7_at7 : ∀ t : Fin k0_t1_loop.trips, t.val = 7 → ¬ k0_cond7 t = 1#1 := by decide +kernel
theorem cond8_at7 : ∀ t : Fin k0_t1_loop.trips, t.val = 7 → ¬ k0_cond8 t = 1#1 := by decide +kernel
theorem cond9_at7 : ∀ t : Fin k0_t1_loop.trips, t.val = 7 → ¬ k0_cond9 t = 1#1 := by decide +kernel
theorem cond10_at7 : ∀ t : Fin k0_t1_loop.trips, t.val = 7 → ¬ k0_cond10 t = 1#1 := by decide +kernel
theorem cond11_at7 : ∀ t : Fin k0_t1_loop.trips, t.val = 7 → ¬ k0_cond11 t = 1#1 := by decide +kernel
theorem cond12_at7 : ∀ t : Fin k0_t1_loop.trips, t.val = 7 → ¬ k0_cond12 t = 1#1 := by decide +kernel
theorem cond13_at7 : ∀ t : Fin k0_t1_loop.trips, t.val = 7 → ¬ k0_cond13 t = 1#1 := by decide +kernel
theorem cond14_at7 : ∀ t : Fin k0_t1_loop.trips, t.val = 7 → ¬ k0_cond14 t = 1#1 := by decide +kernel

set_option maxHeartbeats 8000000 in
set_option maxRecDepth 65536 in
/-- Trip 7: slot 0's gather of the last chunk is waited for and the chunk written; nothing else. -/
theorem trip_7 (hI : ListsOK I) (hkv : 7 < k0_t1_loop.trips) (v2 acc : BitVec 32) :
    Inv7 m I d L O W
      ⊢ wp frame (wpE (defs₀ (F := F)) 𝒱₀ (thr d L) none) Set.univ
          (k0_t1_body L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 v2 (⟨7, hkv⟩ : Fin k0_t1_loop.trips) acc)
          fun _ => Inv8 m I d L O W := by
  have h1 : k0_cond1 (⟨7, hkv⟩ : Fin k0_t1_loop.trips) = 1#1 := cond1_at7 _ rfl
  have h2 : ¬ k0_cond2 (⟨7, hkv⟩ : Fin k0_t1_loop.trips) = 1#1 := cond2_at7 _ rfl
  have h3 : ¬ k0_cond3 (⟨7, hkv⟩ : Fin k0_t1_loop.trips) = 1#1 := cond3_at7 _ rfl
  have h4 : ¬ k0_cond4 (⟨7, hkv⟩ : Fin k0_t1_loop.trips) = 1#1 := cond4_at7 _ rfl
  have h5 : ¬ k0_cond5 (⟨7, hkv⟩ : Fin k0_t1_loop.trips) = 1#1 := cond5_at7 _ rfl
  have h6 : ¬ k0_cond6 (⟨7, hkv⟩ : Fin k0_t1_loop.trips) = 1#1 := cond6_at7 _ rfl
  have h7 : ¬ k0_cond7 (⟨7, hkv⟩ : Fin k0_t1_loop.trips) = 1#1 := cond7_at7 _ rfl
  have h8 : ¬ k0_cond8 (⟨7, hkv⟩ : Fin k0_t1_loop.trips) = 1#1 := cond8_at7 _ rfl
  have h9 : ¬ k0_cond9 (⟨7, hkv⟩ : Fin k0_t1_loop.trips) = 1#1 := cond9_at7 _ rfl
  have h10 : ¬ k0_cond10 (⟨7, hkv⟩ : Fin k0_t1_loop.trips) = 1#1 := cond10_at7 _ rfl
  have h11 : ¬ k0_cond11 (⟨7, hkv⟩ : Fin k0_t1_loop.trips) = 1#1 := cond11_at7 _ rfl
  have h12 : ¬ k0_cond12 (⟨7, hkv⟩ : Fin k0_t1_loop.trips) = 1#1 := cond12_at7 _ rfl
  have h13 : ¬ k0_cond13 (⟨7, hkv⟩ : Fin k0_t1_loop.trips) = 1#1 := cond13_at7 _ rfl
  have h14 : ¬ k0_cond14 (⟨7, hkv⟩ : Fin k0_t1_loop.trips) = 1#1 := cond14_at7 _ rfl
  unfold k0_t1_body
  rw [k0_part1_eq_skeleton, k0_part2_eq_skeleton]; unfold k0_part1_skel k0_part2_skel
  unfold Inv7 slotG1 gDel1 owesPart
  iintro ⟨⟨Hf1, Hw1⟩, Hs2, Hs3, Hs4, Hs5, Hs6, Hs7, HoD, HoT, HiD, HiT, #Hmw, %W', %hW', HO⟩
  sl_exec
  iapply (write1 m I d L ⟨49, by omega⟩ _ _ (k0_off2_w L (⟨7, hkv⟩ : Fin k0_t1_loop.trips)) 49 50 rfl rfl) $$ [Hf1_dst HoT HiD Hw1]
  · isplitl [Hf1_dst]; · iexact Hf1_dst
    isplitl [HoT]; · iexact HoT
    isplitl [HiD]; · iexact HiD
    iexact Hw1
  iintro ⟨Hw1, HoT, HiD⟩
  sl_exec
  sl_step
  unfold Inv8 slotW1 owesPart
  isplitl [Hw1 Hf1 Hf1_src]
  · isplitl [Hw1]; · iexact Hw1
    isplitl [Hf1]; · iexact Hf1
    iexact Hf1_src
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [HoD]; · iexact HoD
  isplitl [HoT]; · iexact HoT
  isplitl [HiD]; · iexact HiD
  isplitl [HiT]; · iexact HiT
  isplitr; · iexact Hmw
  iexists _; isplitr
  swap; · iexact HO
  ipureintro
  repeat first | exact hW' | refine waits_insert _ ?_

/-- One trip of the loop keeps the invariant. -/
theorem region (hI : ListsOK I) (v2 : BitVec 32) (k : Fin k0_t1_loop.trips) (acc : BitVec 32) :
    Inv m I d L O W k.val acc
      ⊢ wp frame (wpE (defs₀ (F := F)) 𝒱₀ (thr d L) none) Set.univ
          (k0_t1_body L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 v2 k acc)
          fun acc' => Inv m I d L O W (k.val + 1) acc' := by
  obtain ⟨kv, hkv⟩ := k
  have h8 : kv < 8 := hkv
  by_cases h5 : kv ≤ 5
  · rw [Inv_le m I d L O W (show kv ≤ 6 by omega)]
    refine (trip_lo m I d L O W hI ⟨kv, hkv⟩ h5 v2 acc).trans (wp_mono frame _ _ fun a => ?_)
    rw [Inv_le m I d L O W (show kv + 1 ≤ 6 by omega), InvB_eq]
  · by_cases h6 : kv = 6
    · subst h6
      rw [Inv_le m I d L O W (show 6 ≤ 6 by omega)]
      refine (trip_6 m I d L O W hI hkv v2 acc).trans (wp_mono frame _ _ fun a => ?_)
      rw [Inv_seven]
    · obtain rfl : kv = 7 := by omega
      rw [Inv_seven]
      refine (trip_7 m I d L O W hI hkv v2 acc).trans (wp_mono frame _ _ fun a => ?_)
      rw [Inv_eight]

end Cert.KernelIdeal.Sc

end
-- ==== Proof.KITile.lean ====
/-
  One task of the lookup kernel, whole.

  The task's share of the table is cut into seven, one per slot. The opening copies the list in and starts the gathers
  of chunks 0 … 3; the function that holds the loop starts those of chunks 4, 5, 6, which is the loop's invariant
  before its first trip: seven gathers in flight, nothing of the result written, rows 7 … 49 of the index scratch not
  yet lent. Eight trips keep the invariant. After them the seven writes still in flight are waited for, and the task
  holds its 6400 rows of the result at the lookup, its share of the table and its list again, its scratch buffers
  and semaphores as it found them.
-/
import proofs.«206296_g7516192768393_cont_9to1c4b_737_14_alg».proof.Proof.KITilePro
import proofs.«206296_g7516192768393_cont_9to1c4b_737_14_alg».proof.Proof.KITileEpi
import proofs.«206296_g7516192768393_cont_9to1c4b_737_14_alg».proof.Proof.KITileWrap
import proofs.«206296_g7516192768393_cont_9to1c4b_737_14_alg».proof.Proof.KITileTrip

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
local notation "tV" => (Memref.whole Cert.KernelIdeal.main_arg0_scv : Memref Cert.KernelIdeal.sig Kind.scVector Space.hbm Cert.KernelIdeal.S100000x128 EltTy.f32)
local notation "iS" => (Memref.whole Cert.KernelIdeal.cc0_scratch0 : Memref Cert.KernelIdeal.sig Kind.scVector Space.vmem Cert.KernelIdeal.S50x128 EltTy.i32)
local notation "B1" => (Memref.whole Cert.KernelIdeal.cc0_scratch1 : Memref Cert.KernelIdeal.sig Kind.scVector Space.vmem Cert.KernelIdeal.S128x128 EltTy.f32)
local notation "B2" => (Memref.whole Cert.KernelIdeal.cc0_scratch2 : Memref Cert.KernelIdeal.sig Kind.scVector Space.vmem Cert.KernelIdeal.S128x128 EltTy.f32)
local notation "B3" => (Memref.whole Cert.KernelIdeal.cc0_scratch3 : Memref Cert.KernelIdeal.sig Kind.scVector Space.vmem Cert.KernelIdeal.S128x128 EltTy.f32)
local notation "B4" => (Memref.whole Cert.KernelIdeal.cc0_scratch4 : Memref Cert.KernelIdeal.sig Kind.scVector Space.vmem Cert.KernelIdeal.S128x128 EltTy.f32)
local notation "B5" => (Memref.whole Cert.KernelIdeal.cc0_scratch5 : Memref Cert.KernelIdeal.sig Kind.scVector Space.vmem Cert.KernelIdeal.S128x128 EltTy.f32)
local notation "B6" => (Memref.whole Cert.KernelIdeal.cc0_scratch6 : Memref Cert.KernelIdeal.sig Kind.scVector Space.vmem Cert.KernelIdeal.S128x128 EltTy.f32)
local notation "B7" => (Memref.whole Cert.KernelIdeal.cc0_scratch7 : Memref Cert.KernelIdeal.sig Kind.scVector Space.vmem Cert.KernelIdeal.S128x128 EltTy.f32)

local notation "lV" => (Memref.whole Cert.KernelIdeal.main_v1_scv : Memref Cert.KernelIdeal.sig Kind.scVector Space.hbm Cert.KernelIdeal.S32x50x128 EltTy.i32)
local notation "oV" => (Memref.whole Cert.KernelIdeal.main_v2_scv : Memref Cert.KernelIdeal.sig Kind.scVector Space.hbm Cert.KernelIdeal.S204800x128 EltTy.f32)

variable (m : (ℓ : Loc nD τ sig) → Buf (Elt F) ℓ) (I : (d : Dev nD) → Buf (Elt F) (lLoc d))
variable [FloatOps F]
variable (d : Dev nD) (L : grid0.Coords)

set_option maxHeartbeats 4000000 in
/-- The task's body over its named resources: from its operands and scratch to its rows of the result at the lookup. -/
theorem tile_core (hI : ListsOK I) : TileCore m I d L := by
  intro O W
  rw [cc0__gather_body_eq_skeleton, epi_body_eq, wp_bind]
  iintro ⟨Hmw, Hl, Ht, ⟨%fo, Ho⟩, ⟨%f0, H0⟩, ⟨%f1, H1⟩, ⟨%f2, H2⟩, ⟨%f3, H3⟩, ⟨%f4, H4⟩, ⟨%f5, H5⟩, ⟨%f6, H6⟩, ⟨%f7, H7⟩,
    Hs8, Hs9, Hs10, Hs11, Hs12, Hs13, Hs14, Hs15, Hs16, Hs17, Hs18, Hs19, Hs20, Hs21, Hss0, HO⟩
  ihave Hl := (Entails.of_eq (pts_lRowK d L (I d)).symm) $$ Hl
  ihave Htt := (pointsTo_split_subset (q := tq (wL L)) (f := m (tLoc d)) (S := Finset.univ) (Finset.subset_univ (tAllK).view.set)).1 $$ Ht
  icases Htt with ⟨Ht, Htr⟩
  ihave Ht := (Entails.of_eq (epi_table_pieces m d L)) $$ Ht
  icases Ht with ⟨Ht1, Ht2, Ht3, Ht4, Ht5, Ht6, Ht7⟩
  iapply (wp_wand_r frame _ Set.univ)
  isplitl [Hmw Hl H0 H1 H2 H3 H4 Ht1 Ht2 Ht3 Ht4 Hs8 Hs9 Hs10 Hs11 Hss0 HO]
  · iapply (pro3 m I d L hI O W f0 f1 f2 f3 f4)
    isplitl [Hmw]; · iexact Hmw
    isplitl [Hl]; · iexact Hl
    isplitl [H0]; · iexact H0
    isplitl [H1]; · iexact H1
    isplitl [H2]; · iexact H2
    isplitl [H3]; · iexact H3
    isplitl [H4]; · iexact H4
    isplitl [Ht1]; · iexact Ht1
    isplitl [Ht2]; · iexact Ht2
    isplitl [Ht3]; · iexact Ht3
    isplitl [Ht4]; · iexact Ht4
    isplitl [Hs8]; · iexact Hs8
    isplitl [Hs9]; · iexact Hs9
    isplitl [Hs10]; · iexact Hs10
    isplitl [Hs11]; · iexact Hs11
    isplitl [Hss0]; · iexact Hss0
    iexact HO
  iintro %v2 ⟨Hmw, Hl, Hf1, Hf2, Hf3, Hf4, HiT, Hss0, %W1, %hW1, HO⟩
  rw [wp_bind, k0_part4_eq_skeleton, epi_part4_eq, wp_bind]
  unfold epiHead4
  -- chunk 4 into buffer 5
  sl_exec
  ihave HiT := (Entails.of_eq (iTodo_row I d L ⟨4, by omega⟩)) $$ HiT
  icases HiT with ⟨Hr, HiT⟩
  ihave H5 := (Entails.of_eq (show ((thr d L).loc cc0_scratch5 ↦{fullShare} f5 : sProp 𝕄)
      = (B5).view.loc (thr d L) ↦[(B5).view.set]{fullShare} f5 from by rw [View.set_whole])) $$ H5
  iapply (gather_issue5 m I d L hI cc0_scratch12.sem (qt L 4) ⟨4, by omega⟩ f5) $$ [H5 Hr Ht5 Hs12]
  · isplitl [H5]; · iexact H5
    isplitl [Hr]; · iexact Hr
    isplitl [Ht5]; · iexact Ht5
    iexact Hs12
  iintro Hf5
  -- chunk 5 into buffer 6
  sl_exec
  ihave HiT := (Entails.of_eq (iTodo_row I d L ⟨5, by omega⟩)) $$ HiT
  icases HiT with ⟨Hr, HiT⟩
  ihave H6 := (Entails.of_eq (show ((thr d L).loc cc0_scratch6 ↦{fullShare} f6 : sProp 𝕄)
      = (B6).view.loc (thr d L) ↦[(B6).view.set]{fullShare} f6 from by rw [View.set_whole])) $$ H6
  iapply (gather_issue6 m I d L hI cc0_scratch13.sem (qt L 5) ⟨5, by omega⟩ f6) $$ [H6 Hr Ht6 Hs13]
  · isplitl [H6]; · iexact H6
    isplitl [Hr]; · iexact Hr
    isplitl [Ht6]; · iexact Ht6
    iexact Hs13
  iintro Hf6
  -- chunk 6 into buffer 7
  sl_exec
  ihave HiT := (Entails.of_eq (iTodo_row I d L ⟨6, by omega⟩)) $$ HiT
  icases HiT with ⟨Hr, HiT⟩
  ihave H7 := (Entails.of_eq (show ((thr d L).loc cc0_scratch7 ↦{fullShare} f7 : sProp 𝕄)
      = (B7).view.loc (thr d L) ↦[(B7).view.set]{fullShare} f7 from by rw [View.set_whole])) $$ H7
  iapply (gather_issue7 m I d L hI cc0_scratch14.sem (qt L 6) ⟨6, by omega⟩ f7) $$ [H7 Hr Ht7 Hs14]
  · isplitl [H7]; · iexact H7
    isplitl [Hr]; · iexact Hr
    isplitl [Ht7]; · iexact Ht7
    iexact Hs14
  iintro Hf7
  sl_exec
  -- the invariant before the first trip
  have hoD : (oDone m I d L (7 * 0) : sProp 𝕄) = iprop(emp) := by unfold oDone; simp only [Nat.mul_zero, Nat.add_zero]; rw [oRange_empty, pointsTo_empty]
  have hiD : (iDone I d L (7 * 0) : sProp 𝕄) = iprop(emp) := by unfold iDone; simp only [Nat.mul_zero]; rw [iRange_empty, pointsTo_empty]
  have hoT : (oLoc d ↦[oRowSet (wL L)]{fullShare} fo : sProp 𝕄) ⊢ oTodo d L (7 * 0) := by
    unfold oTodo; rw [oRowSet_eq]; simp only [Nat.mul_zero, Nat.add_zero]
    iintro H; iexists fo; iexact H
  sl_for (Inv m I d L O W) $$ [Hmw Hf1 Hf2 Hf3 Hf4 Hf5 Hf6 Hf7 Hs15 Hs16 Hs17 Hs18 Hs19 Hs20 Hs21 Ho HiT HO Hl Htr Hss0]
  case region =>
    intro k acc
    exact region m I d L O W hI _ k acc
  isplitl [Hmw Hf1 Hf2 Hf3 Hf4 Hf5 Hf6 Hf7 Hs15 Hs16 Hs17 Hs18 Hs19 Hs20 Hs21 Ho HiT HO]
  · rw [Inv_le m I d L O W (by omega : 0 ≤ 6)]
    unfold InvA slotG1 slotG2 slotG3 slotG4 slotG5 slotG6 slotG7 owesPart
    isplitl [Hf1 Hs15]
    · isplitl [Hf1]; · iexact Hf1
      iexact Hs15
    isplitl [Hf2 Hs16]
    · isplitl [Hf2]; · iexact Hf2
      iexact Hs16
    isplitl [Hf3 Hs17]
    · isplitl [Hf3]; · iexact Hf3
      iexact Hs17
    isplitl [Hf4 Hs18]
    · isplitl [Hf4]; · iexact Hf4
      iexact Hs18
    isplitl [Hf5 Hs19]
    · isplitl [Hf5]; · unfold gDel5; iexact Hf5
      iexact Hs19
    isplitl [Hf6 Hs20]
    · isplitl [Hf6]; · unfold gDel6; iexact Hf6
      iexact Hs20
    isplitl [Hf7 Hs21]
    · isplitl [Hf7]; · unfold gDel7; iexact Hf7
      iexact Hs21
    isplitl []; · rw [hoD]; iempintro
    isplitl [Ho]; · iapply hoT; iexact Ho
    isplitl []; · rw [hiD]; iempintro
    isplitl [HiT]; · iexact HiT
    isplitl [Hmw]; · iexact Hmw
    iexists W1; isplitr
    · ipureintro; exact hW1
    · iexact HO
  iintro %acc HI
  have h8 : Scf.trips k0_t1_loop.lb k0_t1_loop.ub k0_t1_loop.st = 8 := by decide
  ihave HI := (Entails.of_eq (show (Inv m I d L O W (Scf.trips k0_t1_loop.lb k0_t1_loop.ub k0_t1_loop.st) acc : sProp 𝕄) = Inv8 m I d L O W from by rw [h8, Inv_eight])) $$ HI
  iapply (wp_wand_r frame _ Set.univ)
  isplitl [HI]
  · iapply (epilogue6 m I d L O W); iexact HI
  iintro %_ HM
  iapply (wp_wand_r frame _ Set.univ)
  isplitl [HM]
  · iapply (epilogue7 m I d L O W); iexact HM
  iintro %_ HP
  unfold EpiPost
  icases HP with ⟨Ho, Ht, ⟨Hb0, Hb1, Hb2, Hb3, Hb4, Hb5, Hb6, Hb7⟩, ⟨Hg8, Hg9, Hg10, Hg11, Hg12, Hg13, Hg14⟩, ⟨Hw15, Hw16, Hw17, Hw18, Hw19, Hw20, Hw21⟩, %W2, %hW2, HO⟩
  isplitl [Hl]; · iapply (Entails.of_eq (pts_lRowK d L (I d))); iexact Hl
  isplitl [Ht Htr]
  · iapply (pointsTo_split_subset (q := tq (wL L)) (f := m (tLoc d)) (S := Finset.univ) (Finset.subset_univ (tAllK).view.set)).2
    isplitl [Ht]; · iexact Ht
    iexact Htr
  isplitl [Ho]; · iexact Ho
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hg8]; · iexact Hg8
  isplitl [Hg9]; · iexact Hg9
  isplitl [Hg10]; · iexact Hg10
  isplitl [Hg11]; · iexact Hg11
  isplitl [Hg12]; · iexact Hg12
  isplitl [Hg13]; · iexact Hg13
  isplitl [Hg14]; · iexact Hg14
  isplitl [Hw15]; · iexact Hw15
  isplitl [Hw16]; · iexact Hw16
  isplitl [Hw17]; · iexact Hw17
  isplitl [Hw18]; · iexact Hw18
  isplitl [Hw19]; · iexact Hw19
  isplitl [Hw20]; · iexact Hw20
  isplitl [Hw21]; · iexact Hw21
  isplitl [Hss0]; · iexact Hss0
  iexists W2; isplitr
  · ipureintro; exact hW2
  · iexact HO

end Cert.KernelIdeal.Sc

end
-- ==== Proof.KTileSets.lean ====
/-
  The sets, indices and values a task's body meets, apart from any execution. Task w = 2·s + c owns list w of the
  32 × 50 × 128 row numbers and rows 6400·w … 6400·w + 6399 of the 204800 × 128 result. Its body copies the list
  into a 50 × 128 scratch, and for each of the 50 chunks g gathers the 128 table rows named by row g of the
  scratch into a 128 × 128 buffer and copies that buffer to rows 6400·w + 128·g … of the result. Here: a slice of
  the result at rows r … r + 127 and a row of the scratch are intervals of rows; intervals split and join; the
  task's list is its part of the lists and its rows of the result are an interval; the offsets the body computes
  are these rows and chunks; and what chunk g receives is the flat lookup on its rows.
-/
import proofs.«206296_g7516192768393_cont_9to1c4b_737_14_alg».proof.Proof.KTileInv

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
local notation "𝕄" => MT nD τ sig (HIx 1) (Elt F) ℕ UU ℕ

local notation "tV" => (Memref.whole Cert.Kernel.main_arg0_scv : Memref Cert.Kernel.sig Kind.scVector Space.hbm Cert.Kernel.S100000x128 EltTy.f32)
local notation "lV" => (Memref.whole Cert.Kernel.main_v1_scv : Memref Cert.Kernel.sig Kind.scVector Space.hbm Cert.Kernel.S32x50x128 EltTy.i32)
local notation "oV" => (Memref.whole Cert.Kernel.main_v2_scv : Memref Cert.Kernel.sig Kind.scVector Space.hbm Cert.Kernel.S204800x128 EltTy.f32)
local notation "iS" => (Memref.whole Cert.Kernel.cc0_scratch0 : Memref Cert.Kernel.sig Kind.scVector Space.vmem Cert.Kernel.S50x128 EltTy.i32)

theorem wL_val (L : grid0.Coords) : (wL L).val = 2 * (L 1).val + (L 0).val := rfl

theorem mem_oRange {lo hi : ℕ} {i : S204800x128.Idx} : i ∈ oRange lo hi ↔ lo ≤ (i 0).val ∧ (i 0).val < hi := by
  unfold oRange; rw [Finset.mem_filter]; exact ⟨fun h => h.2, fun h => ⟨Finset.mem_univ _, h⟩⟩
theorem mem_iRange {lo hi : ℕ} {i : S50x128.Idx} : i ∈ iRange lo hi ↔ lo ≤ (i 0).val ∧ (i 0).val < hi := by
  unfold iRange; rw [Finset.mem_filter]; exact ⟨fun h => h.2, fun h => ⟨Finset.mem_univ _, h⟩⟩

/-! ## (P3), (P4) A slice of the result at rows r … r + 127, a row of the scratch, are intervals of rows -/

/-- The elements of a slice of 128 rows of the result from row r. -/
theorem set_oSlice {off : Fin 2 → Nat} (r : ℕ) (h : off = ![r, 0]) (inb : ∀ a, off a + S128x128.size a ≤ S204800x128.size a) :
    ((oV).slice (Rect.unit (s := S204800x128) off S128x128.size inb) (fun _ => rfl)).view.set = oRange r (r + 128) := by
  subst h
  ext i
  rw [show ((oV).slice (Rect.unit (s := S204800x128) ![r, 0] S128x128.size inb) (fun _ => rfl)).view.set
      = (Rect.unit (s := S204800x128) ![r, 0] S128x128.size inb).toLoadRect.set from View.set_slice_whole _ _,
    Rect.mem_set_unit, Fin.forall_fin_two, mem_oRange]
  have h1 : (i 1).val < 128 := (i 1).isLt
  show (r ≤ (i 0).val ∧ (i 0).val < r + 128) ∧ (0 ≤ (i 1).val ∧ (i 1).val < 0 + 128) ↔ _
  omega

/-- The elements of row g of the scratch, sliced and its unit axis dropped. -/
theorem set_iSlice {off : Fin 2 → Nat} (g : ℕ) (h : off = ![g, 0]) (inb : ∀ a, off a + S1x128.size a ≤ S50x128.size a) :
    (((iS).slice (Rect.unit (s := S50x128) off S1x128.size inb) (fun _ => rfl)).squeeze S128 squeezes_S1x128_S128).view.set
      = iRange g (g + 1) := by
  subst h
  ext i
  rw [show (((iS).slice (Rect.unit (s := S50x128) ![g, 0] S1x128.size inb) (fun _ => rfl)).squeeze S128 squeezes_S1x128_S128).view.set
      = (((iS).view.slice (Rect.unit (s := S50x128) ![g, 0] S1x128.size inb)).reshape S128 squeezes_S1x128_S128.numel_eq).set from rfl,
    View.set_reshape,
    show ((iS).view.slice (Rect.unit (s := S50x128) ![g, 0] S1x128.size inb)).set
      = (Rect.unit (s := S50x128) ![g, 0] S1x128.size inb).toLoadRect.set from View.set_slice_whole _ _,
    Rect.mem_set_unit, Fin.forall_fin_two, mem_iRange]
  have h1 : (i 1).val < 128 := (i 1).isLt
  show (g ≤ (i 0).val ∧ (i 0).val < g + 1) ∧ (0 ≤ (i 1).val ∧ (i 1).val < 0 + 128) ↔ _
  omega

theorem set_oChunkK (w : Fin 32) (g : Fin 50) :
    (oChunkK w g).view.set = oRange (6400 * w.val + 128 * g.val) (6400 * w.val + 128 * g.val + 128) :=
  set_oSlice _ rfl _
theorem set_iRowK (g : Fin 50) : (iRowK g).view.set = iRange g.val (g.val + 1) := set_iSlice _ rfl _

/-! ### The offsets the body computes, in the form the two lemmas above take -/

theorem cond1_lt : ∀ t : Fin k0_t1_loop.trips, k0_cond1 t = 1#1 → 7 * t.val < 50 := by decide +kernel
theorem cond2_lt : ∀ t : Fin k0_t1_loop.trips, k0_cond2 t = 1#1 → 7 * t.val + 1 < 50 := by decide +kernel
theorem cond3_lt : ∀ t : Fin k0_t1_loop.trips, k0_cond3 t = 1#1 → 7 * t.val + 2 < 50 := by decide +kernel
theorem cond4_lt : ∀ t : Fin k0_t1_loop.trips, k0_cond4 t = 1#1 → 7 * t.val + 3 < 50 := by decide +kernel
theorem cond5_lt : ∀ t : Fin k0_t1_loop.trips, k0_cond5 t = 1#1 → 7 * t.val + 4 < 50 := by decide +kernel
theorem cond6_lt : ∀ t : Fin k0_t1_loop.trips, k0_cond6 t = 1#1 → 7 * t.val + 5 < 50 := by decide +kernel
theorem cond7_lt : ∀ t : Fin k0_t1_loop.trips, k0_cond7 t = 1#1 → 7 * t.val + 6 < 50 := by decide +kernel
theorem cond8_lt : ∀ t : Fin k0_t1_loop.trips, k0_cond8 t = 1#1 → 7 * t.val + 7 < 50 := by decide +kernel
theorem cond9_lt : ∀ t : Fin k0_t1_loop.trips, k0_cond9 t = 1#1 → 7 * t.val + 8 < 50 := by decide +kernel
theorem cond10_lt : ∀ t : Fin k0_t1_loop.trips, k0_cond10 t = 1#1 → 7 * t.val + 9 < 50 := by decide +kernel
theorem cond11_lt : ∀ t : Fin k0_t1_loop.trips, k0_cond11 t = 1#1 → 7 * t.val + 10 < 50 := by decide +kernel
theorem cond12_lt : ∀ t : Fin k0_t1_loop.trips, k0_cond12 t = 1#1 → 7 * t.val + 11 < 50 := by decide +kernel
theorem cond13_lt : ∀ t : Fin k0_t1_loop.trips, k0_cond13 t = 1#1 → 7 * t.val + 12 < 50 := by decide +kernel
theorem cond14_lt : ∀ t : Fin k0_t1_loop.trips, k0_cond14 t = 1#1 → 7 * t.val + 13 < 50 := by decide +kernel

theorem off_chunk (L : grid0.Coords) (t b : Nat) :
    (![12800 * (L 1).val + 6400 * (L 0).val + 896 * t + 128 * b, 0] : Fin 2 → Nat)
      = ![6400 * (wL L).val + 128 * (7 * t + b), 0] := by
  rw [wL_val]; congr 1; omega

/-- Trip t writes chunks 7·t … 7·t + 6 of the task's rows. -/
theorem k0_off2_w (L : grid0.Coords) (t : Fin k0_t1_loop.trips) : k0_off2 L t = ![6400 * (wL L).val + 128 * (7 * t.val + 0), 0] :=
  (k0_off2_eq L t).trans (off_chunk L t.val 0)
theorem k0_off3_w (L : grid0.Coords) (t : Fin k0_t1_loop.trips) : k0_off3 L t = ![6400 * (wL L).val + 128 * (7 * t.val + 1), 0] :=
  (k0_off3_eq L t).trans (off_chunk L t.val 1)
theorem k0_off4_w (L : grid0.Coords) (t : Fin k0_t1_loop.trips) : k0_off4 L t = ![6400 * (wL L).val + 128 * (7 * t.val + 2), 0] :=
  (k0_off4_eq L t).trans (off_chunk L t.val 2)
theorem k0_off5_w (L : grid0.Coords) (t : Fin k0_t1_loop.trips) : k0_off5 L t = ![6400 * (wL L).val + 128 * (7 * t.val + 3), 0] :=
  (k0_off5_eq L t).trans (off_chunk L t.val 3)
theorem k0_off6_w (L : grid0.Coords) (t : Fin k0_t1_loop.trips) : k0_off6 L t = ![6400 * (wL L).val + 128 * (7 * t.val + 4), 0] :=
  (k0_off6_eq L t).trans (off_chunk L t.val 4)
theorem k0_off7_w (L : grid0.Coords) (t : Fin k0_t1_loop.trips) : k0_off7 L t = ![6400 * (wL L).val + 128 * (7 * t.val + 5), 0] :=
  (k0_off7_eq L t).trans (off_chunk L t.val 5)
theorem k0_off8_w (L : grid0.Coords) (t : Fin k0_t1_loop.trips) : k0_off8 L t = ![6400 * (wL L).val + 128 * (7 * t.val + 6), 0] :=
  (k0_off8_eq L t).trans (off_chunk L t.val 6)

/-- The slice at the task's first row (offsets 9, 11, …, 23 of the body are all this one). -/
theorem off_first (L : grid0.Coords) : (![12800 * (L 1).val + 6400 * (L 0).val, 0] : Fin 2 → Nat) = ![6400 * (wL L).val, 0] := by
  rw [wL_val]; congr 1; omega

/-- Slices of one memref at equal offsets are equal. -/
theorem slice_unit_congr {κ : Kind} {sp : Space} {s : Shape} {e : EltTy} (M : Memref sig κ sp s e) {off off' : Fin s.rank → Nat}
    (size : Fin s.rank → Nat) (h : off = off') (inb : ∀ a, off a + size a ≤ s.size a) (inb' : ∀ a, off' a + size a ≤ s.size a) :
    M.slice (Rect.unit off size inb) (fun _ => rfl) = M.slice (Rect.unit off' size inb') (fun _ => rfl) := by
  subst h; rfl

/-- A chunk of the result named by an offset equal to (6400·w + 128·g, 0) is chunk g of task w. -/
theorem oChunk_of_off {off : Fin 2 → Nat} (w : Fin 32) (g : Fin 50) (h : off = ![6400 * w.val + 128 * g.val, 0])
    (inb : ∀ a, off a + S128x128.size a ≤ S204800x128.size a) :
    (oV).slice (Rect.unit (s := S204800x128) off S128x128.size inb) (fun _ => rfl) = oChunkK w g :=
  slice_unit_congr oV S128x128.size h inb (oChunk_inb w g)

/-- A row of the scratch named by an offset equal to (r, 0) is row r. -/
theorem iRow_of_off {off : Fin 2 → Nat} (r : Fin 50) (h : off = ![r.val, 0]) (inb : ∀ a, off a + S1x128.size a ≤ S50x128.size a) :
    ((iS).slice (Rect.unit (s := S50x128) off S1x128.size inb) (fun _ => rfl)).squeeze S128 squeezes_S1x128_S128 = iRowK r :=
  congrArg (fun M : Memref sig .scVector .vmem S1x128 .i32 => M.squeeze S128 squeezes_S1x128_S128) (slice_unit_congr iS S1x128.size h inb (iRow_inb r))

/-! ## (P1) Intervals split and join -/

theorem oRange_union {lo mid hi : ℕ} (h1 : lo ≤ mid) (h2 : mid ≤ hi) : oRange lo hi = oRange lo mid ∪ oRange mid hi := by
  ext i; rw [Finset.mem_union, mem_oRange, mem_oRange, mem_oRange]; omega
theorem oRange_disjoint (lo mid hi : ℕ) : Disjoint (oRange lo mid) (oRange mid hi) :=
  Finset.disjoint_left.mpr fun i a b => by rw [mem_oRange] at a b; omega
theorem iRange_union {lo mid hi : ℕ} (h1 : lo ≤ mid) (h2 : mid ≤ hi) : iRange lo hi = iRange lo mid ∪ iRange mid hi := by
  ext i; rw [Finset.mem_union, mem_iRange, mem_iRange, mem_iRange]; omega
theorem iRange_disjoint (lo mid hi : ℕ) : Disjoint (iRange lo mid) (iRange mid hi) :=
  Finset.disjoint_left.mpr fun i a b => by rw [mem_iRange] at a b; omega
theorem oRange_empty (lo : ℕ) : oRange lo lo = ∅ := by
  ext i; rw [mem_oRange]; simp only [Finset.notMem_empty, iff_false]; omega
theorem iRange_empty (lo : ℕ) : iRange lo lo = ∅ := by
  ext i; rw [mem_iRange]; simp only [Finset.notMem_empty, iff_false]; omega

/-- Rows lo … hi of the result held at one valuation are rows lo … mid and rows mid … hi. -/
theorem pts_oRange_split (d : Dev nD) (L : grid0.Coords) (q : PosShare TreeShare) (f : Buf (Elt F) ((oV).view.loc (thr d L)))
    {lo mid hi : ℕ} (h1 : lo ≤ mid) (h2 : mid ≤ hi) :
    ((oV).view.loc (thr d L) ↦[oRange lo hi]{q} f : sProp 𝕄)
      = iprop(((oV).view.loc (thr d L) ↦[oRange lo mid]{q} f) ∗ ((oV).view.loc (thr d L) ↦[oRange mid hi]{q} f)) := by
  rw [oRange_union h1 h2]
  exact BI.equiv_iff.mp ⟨(pointsTo_union (oRange_disjoint lo mid hi)).1, (pointsTo_union (oRange_disjoint lo mid hi)).2⟩

/-- Rows lo … hi of the scratch held at one valuation are rows lo … mid and rows mid … hi. -/
theorem pts_iRange_split (d : Dev nD) (L : grid0.Coords) (q : PosShare TreeShare) (f : Buf (Elt F) ((iS).view.loc (thr d L)))
    {lo mid hi : ℕ} (h1 : lo ≤ mid) (h2 : mid ≤ hi) :
    ((iS).view.loc (thr d L) ↦[iRange lo hi]{q} f : sProp 𝕄)
      = iprop(((iS).view.loc (thr d L) ↦[iRange lo mid]{q} f) ∗ ((iS).view.loc (thr d L) ↦[iRange mid hi]{q} f)) := by
  rw [iRange_union h1 h2]
  exact BI.equiv_iff.mp ⟨(pointsTo_union (iRange_disjoint lo mid hi)).1, (pointsTo_union (iRange_disjoint lo mid hi)).2⟩

/-! ## (P5) The task's rows of the result are an interval; its list is its part of the lists -/

theorem oRowSet_eq (w : Fin 32) : oRowSet w = oRange (6400 * w.val) (6400 * w.val + 6400) := by
  ext i
  rw [show oRowSet w = (orow w).toLoadRect.set from View.set_slice_whole _ _, Rect.mem_set_unit, Fin.forall_fin_two, mem_oRange]
  have h1 : (i 1).val < 128 := (i 1).isLt
  show (w.val * (204800 / 32) ≤ (i 0).val ∧ (i 0).val < w.val * (204800 / 32) + 204800 / 32)
      ∧ (0 * 128 ≤ (i 1).val ∧ (i 1).val < 0 * 128 + 128) ↔ _
  omega

/-- The scratch whole is rows 0 … 50. -/
theorem iRange_univ : iRange 0 50 = Finset.univ := by
  ext i; rw [mem_iRange]; simp only [Finset.mem_univ, iff_true]; have : (i 0).val < 50 := (i 0).isLt; omega

theorem lrowK_eq (L : grid0.Coords) :
    Rect.unit (s := S32x50x128) (k0_off1 L) S1x50x128.size (k0_off1_inb L) = lrow (wL L) := by
  unfold lrow Rect.part Rect.block
  congr 1 <;> funext a
  · rw [k0_off1_eq]
    match a with
    | 0 => simp [Shape.partIx, Shape.partSize, wL]
    | 1 => simp [Shape.partIx, Shape.partSize]
    | 2 => simp [Shape.partIx, Shape.partSize]
  · match a with
    | 0 => simp [Shape.partSize]
    | 1 => simp [Shape.partSize]
    | 2 => simp [Shape.partSize]

theorem set_lRowK (L : grid0.Coords) : (lRowK L).view.set = lRowSet (wL L) := by
  show (((lV).view.slice (Rect.unit (s := S32x50x128) (k0_off1 L) S1x50x128.size (k0_off1_inb L))).reshape S50x128
      squeezes_S1x50x128_S50x128.numel_eq).set = ((lV).view.slice (lrow (wL L))).set
  rw [View.set_reshape]
  exact lrowK_eq L ▸ rfl

theorem pts_lRowK (d : Dev nD) (L : grid0.Coords) (f : Buf (Elt F) (lLoc d)) :
    ((lRowK L).view.loc (thr d L) ↦[(lRowK L).view.set]{fullShare} f : sProp 𝕄) = lLoc d ↦[lRowSet (wL L)]{fullShare} f := by
  rw [set_lRowK]

/-! ## (V) The values -/

/-- Lane x of row g of the scratch is entry (g, x) of the scratch. -/
theorem emb_iRowK (g : Fin 50) (x : S128.Idx) : (iRowK g).view.emb x = ix2 (n1 := 128) g (x 0) := by
  show (Rect.unit (s := S50x128) ![g.val, 0] S1x128.size (iRow_inb g)).emb (Shape.reshapeEquiv squeezes_S1x128_S128.numel_eq x) = _
  rw [Shape.reshapeEquiv_eq_of_rowMajor squeezes_S1x128_S128.numel_eq (y := ix2 (n1 := 128) (0 : Fin 1) (x 0)) (by
    rw [Shape.rowMajor_val_two, Shape.rowMajor_val_one]
    show 0 * 128 + (x 0).val = (x 0).val
    omega)]
  funext a
  apply Fin.ext
  match a with
  | ⟨0, _⟩ => show g.val + 1 * 0 = g.val; omega
  | ⟨1, _⟩ => show 0 + 1 * (x 0).val = (x 0).val; omega

/-- Entry (c, e) of the task's list is entry (w, c, e) of the lists. -/
theorem emb_lRowK (L : grid0.Coords) (y : S50x128.Idx) : (lRowK L).view.emb y = ix3 (n1 := 50) (n2 := 128) (wL L) (y 0) (y 1) := by
  show (Rect.unit (s := S32x50x128) (k0_off1 L) S1x50x128.size (k0_off1_inb L)).emb (Shape.reshapeEquiv squeezes_S1x50x128_S50x128.numel_eq y) = _
  rw [Shape.reshapeEquiv_eq_of_rowMajor squeezes_S1x50x128_S50x128.numel_eq (y := ix3 (n1 := 50) (n2 := 128) (0 : Fin 1) (y 0) (y 1)) (by
    rw [Shape.rowMajor_val_three, Shape.rowMajor_val_two]
    show (0 * 50 + (y 0).val) * 128 + (y 1).val = (y 0).val * 128 + (y 1).val
    omega)]
  funext a
  apply Fin.ext
  match a with
  | ⟨0, _⟩ => show k0_off1 L 0 + 1 * 0 = 2 * (L 1).val + (L 0).val; rw [k0_off1_eq]; rfl
  | ⟨1, _⟩ => show k0_off1 L 1 + 1 * (y 0).val = (y 0).val; rw [k0_off1_eq]; show 0 + 1 * (y 0).val = (y 0).val; omega
  | ⟨2, _⟩ => show k0_off1 L 2 + 1 * (y 1).val = (y 1).val; rw [k0_off1_eq]; show 0 + 1 * (y 1).val = (y 1).val; omega

theorem oChunk_row_lt (w : Fin 32) (g : Fin 50) (r : Fin 128) : 6400 * w.val + 128 * g.val + r.val < 204800 := by omega

/-- Entry (r, l) of chunk g of task w is entry (6400·w + 128·g + r, l) of the result. -/
theorem emb_oChunkK (w : Fin 32) (g : Fin 50) (y : S128x128.Idx) :
    (oChunkK w g).view.emb y = ix2 (n0 := 204800) (n1 := 128) ⟨6400 * w.val + 128 * g.val + (y 0).val, oChunk_row_lt w g (y 0)⟩ (y 1) := by
  funext a
  apply Fin.ext
  match a with
  | ⟨0, _⟩ => show 6400 * w.val + 128 * g.val + 1 * (y 0).val = 6400 * w.val + 128 * g.val + (y 0).val; omega
  | ⟨1, _⟩ => show 0 + 1 * (y 1).val = (y 1).val; omega

/-- The table addressed whole is the table. -/
theorem emb_tAllK (z : S100000x128.Idx) : (tAllK).view.emb z = z := by
  funext a
  apply Fin.ext
  match a with
  | ⟨0, _⟩ => show 0 + 1 * (z 0).val = (z 0).val; omega
  | ⟨1, _⟩ => show 0 + 1 * (z 1).val = (z 1).val; omega

/-- (V2) Writing back through a view what was read through it changes nothing under the view. -/
theorem write_read_self {sg : RefSig} {κ : Kind} {sp : Space} {s : Shape} {e : EltTy} {Val : EltTy → Type} (v : View sg κ sp s e)
    (fo X : v.ty.Contents Val) (i : v.ty.Idx) (hi : i ∈ v.set) :
    v.write Val fo (v.read Val X) Finset.univ i = X i := by
  obtain ⟨x, -, rfl⟩ := Finset.mem_map.mp hi
  rw [View.write_emb_of_mem _ _ (Finset.mem_univ x), View.read_apply, cast_cast, cast_eq]

/-- Word 6400·w + 128·g + r of the lists read flat is word (w, g, r). -/
theorem flatWord_at (Il : S32x50x128.Idx → BitVec 32) (w : Fin 32) (g : Fin 50) (r : Fin 128) :
    Cert.Spec.flatWord Il ⟨6400 * w.val + 128 * g.val + r.val, oChunk_row_lt w g r⟩ = Il (ix3 (n0 := 32) (n1 := 50) (n2 := 128) w g r) := by
  unfold Cert.Spec.flatWord
  refine congrArg Il (funext fun a => ?_)
  match a with
  | ⟨0, _⟩ => exact Fin.ext (by show (6400 * w.val + 128 * g.val + r.val) / 6400 = w.val; omega)
  | ⟨1, _⟩ => exact Fin.ext (by show (6400 * w.val + 128 * g.val + r.val) % 6400 / 128 = g.val; omega)
  | ⟨2, _⟩ => exact Fin.ext (by show (6400 * w.val + 128 * g.val + r.val) % 128 = r.val; omega)

/-- Entry k of an offset list of 128 words is its word k. -/
theorem rows_val {z : ℕ} (idx : S128.Idx → Elt F .i32) (hn : S128.numel = 128) (hin : ∀ x, (idx x).toNat < z) (k : Fin 128) :
    (SparseCore.rows (F := F) idx hn hin k).val = (idx (ix1 k)).toNat := by
  unfold SparseCore.rows
  show (idx (S128.rowMajor.symm (k.cast hn.symm))).toNat = _
  rw [(Equiv.symm_apply_eq _).2 (Fin.ext (by rw [Shape.rowMajor_val_one]; rfl) : k.cast hn.symm = S128.rowMajor (ix1 k))]

variable (m : (ℓ : Loc nD τ sig) → Buf (Elt F) ℓ) (I : (d : Dev nD) → Buf (Elt F) (lLoc d))
variable [FloatOps F]
variable (d : Dev nD) (L : grid0.Coords)

/-- Lane x of row g of the scratch, once the task's list has landed, is word (w, g, x) of the lists. -/
theorem read_Widx (g : Fin 50) (x : S128.Idx) :
    (iRowK g).view.read (Elt F) (Widx I d L) x = I d (ix3 (n0 := 32) (n1 := 50) (n2 := 128) (wL L) g (x 0)) := by
  unfold Widx
  rw [View.read_apply, View.read_apply, cast_eq, cast_eq, emb_iRowK, emb_lRowK]

/-- (V0) So every word of the scratch names a row of the table when every word of the lists does. -/
theorem hin_Widx (hI : ListsOK I) (g : Fin 50) :
    ∀ x, ((iRowK g).view.read (Elt F) (Widx I d L) x).toNat < S100000x128.size gathers_S100000x128_S128x128.axis :=
  fun x => by rw [read_Widx]; exact hI d _

/-- (V1) The gather of the table's rows named by row g of the scratch is the flat lookup on chunk g of the task's rows. -/
theorem gather_eq_gVal (hI : ListsOK I) (g : Fin 50) (hn : S128.numel = S128x128.size gathers_S100000x128_S128x128.axis')
    (hin : ∀ x, ((iRowK g).view.read (Elt F) (Widx I d L) x).toNat < S100000x128.size gathers_S100000x128_S128x128.axis) :
    SparseCore.gatherPayload gathers_S100000x128_S128x128 ((tAllK).view.read (Elt F) (m (tLoc d)))
        (SparseCore.rows ((iRowK g).view.read (Elt F) (Widx I d L)) hn hin)
      = gVal m I d L g := by
  funext y
  have hA : ∀ z, (tAllK).view.read (Elt F) (m (tLoc d)) z = m (tLoc d) z := fun z => by rw [View.read_apply, cast_eq, emb_tAllK]
  have hB : gVal m I d L g y = Cert.Spec.OUT (m (tLoc d)) (I d)
      (ix2 (n0 := 204800) (n1 := 128) ⟨6400 * (wL L).val + 128 * g.val + (y 0).val, oChunk_row_lt _ _ _⟩ (y 1)) := by
    unfold gVal OUTbuf; rw [View.read_apply, cast_eq, emb_oChunkK]
  rw [hB]
  unfold SparseCore.gatherPayload Cert.Spec.OUT
  rw [hA]
  refine congrArg (m (tLoc d)) (funext fun b => ?_)
  match b with
  | ⟨0, _⟩ =>
    apply Fin.ext
    show (SparseCore.rows ((iRowK g).view.read (Elt F) (Widx I d L)) hn hin (y 0)).val
      = (Cert.Spec.rowOf (Cert.Spec.flatWord (I d) ⟨6400 * (wL L).val + 128 * g.val + (y 0).val, oChunk_row_lt _ _ _⟩)).val
    have e1 := rows_val (F := F) ((iRowK g).view.read (Elt F) (Widx I d L)) hn hin (y 0)
    have e2 := read_Widx I d L g (ix1 (y 0))
    have e3 := flatWord_at (I d) (wL L) g (y 0)
    have e4 := Cert.Spec.rowOf_of_lt (hI d (ix3 (n0 := 32) (n1 := 50) (n2 := 128) (wL L) g (y 0)))
    exact e1.trans ((congrArg BitVec.toNat e2).trans
      ((congrArg Fin.val e4).symm.trans (congrArg (fun v => (Cert.Spec.rowOf v).val) e3.symm)))
  | ⟨1, _⟩ => rfl

end Cert.Kernel.Sc

end
-- ==== Proof.KTileGather.lean ====
/-
  The issue of one gather, once for each of the task's seven row buffers.

  A gather of chunk g into a buffer takes the buffer whole, row g of the index scratch (whose 128 words name the
  rows to fetch, each below the table's height), a share of the table and the buffer's gather semaphore at zero,
  and leaves the gather in flight. What the flight delivers at its wait is stated here at once in its final form:
  the buffer holds the chunk's rows of the lookup — the gather's payload, row by row the table's row named by the
  word, is exactly that —, the index row and the share of the table come back.
-/
import proofs.«206296_g7516192768393_cont_9to1c4b_737_14_alg».proof.Proof.KTileSets

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
local notation "tV" => (Memref.whole Cert.Kernel.main_arg0_scv : Memref Cert.Kernel.sig Kind.scVector Space.hbm Cert.Kernel.S100000x128 EltTy.f32)
local notation "iS" => (Memref.whole Cert.Kernel.cc0_scratch0 : Memref Cert.Kernel.sig Kind.scVector Space.vmem Cert.Kernel.S50x128 EltTy.i32)
local notation "B1" => (Memref.whole Cert.Kernel.cc0_scratch1 : Memref Cert.Kernel.sig Kind.scVector Space.vmem Cert.Kernel.S128x128 EltTy.f32)
local notation "B2" => (Memref.whole Cert.Kernel.cc0_scratch2 : Memref Cert.Kernel.sig Kind.scVector Space.vmem Cert.Kernel.S128x128 EltTy.f32)
local notation "B3" => (Memref.whole Cert.Kernel.cc0_scratch3 : Memref Cert.Kernel.sig Kind.scVector Space.vmem Cert.Kernel.S128x128 EltTy.f32)
local notation "B4" => (Memref.whole Cert.Kernel.cc0_scratch4 : Memref Cert.Kernel.sig Kind.scVector Space.vmem Cert.Kernel.S128x128 EltTy.f32)
local notation "B5" => (Memref.whole Cert.Kernel.cc0_scratch5 : Memref Cert.Kernel.sig Kind.scVector Space.vmem Cert.Kernel.S128x128 EltTy.f32)
local notation "B6" => (Memref.whole Cert.Kernel.cc0_scratch6 : Memref Cert.Kernel.sig Kind.scVector Space.vmem Cert.Kernel.S128x128 EltTy.f32)
local notation "B7" => (Memref.whole Cert.Kernel.cc0_scratch7 : Memref Cert.Kernel.sig Kind.scVector Space.vmem Cert.Kernel.S128x128 EltTy.f32)

variable (m : (ℓ : Loc nD τ sig) → Buf (Elt F) ℓ) (I : (d : Dev nD) → Buf (Elt F) (lLoc d))
variable [FloatOps F]
variable (d : Dev nD) (L : grid0.Coords)

/-! ## Buffer 1 -/

/-- The 128 rows of the buffer credit the gather's semaphore with the buffer's whole size. -/
theorem rowsCredit_B1 : ∀ h : S100000x128.Gathers 0 S128x128,
    ∑ j, ((B1).slice (S128x128.rowRect h.axis' j) (S128x128.stride_rowRect h.axis' j)).view.dmaCredit = 524288 := by
  decide

/-- What the stream hands over at the wait is the delivery in its final form: the buffer written whole with the
    payload holds the chunk's rows of the lookup. -/
theorem gdel1_of (q : PosShare TreeShare) (g : Fin 50) (fB : Buf (Elt F) ((B1).view.loc (thr d L)))
    (hin : ∀ x, ((iRowK g).view.read (Elt F) (Widx I d L) x).toNat < S100000x128.size gathers_S100000x128_S128x128.axis)
    (hval : SparseCore.gatherPayload gathers_S100000x128_S128x128 ((tAllK).view.read (Elt F) (m (tLoc d)))
        (SparseCore.rows ((iRowK g).view.read (Elt F) (Widx I d L)) rfl hin) = gVal m I d L g) :
    (iprop(((B1).view.loc (thr d L) ↦[(B1).view.set]{fullShare}
          (B1).view.write (Elt F) fB (SparseCore.gatherPayload gathers_S100000x128_S128x128 ((tAllK).view.read (Elt F) (m (tLoc d)))
            (SparseCore.rows ((iRowK g).view.read (Elt F) (Widx I d L)) rfl hin)) Finset.univ)
        ∗ ((tAllK).view.loc (thr d L) ↦[(tAllK).view.set]{q} m (tLoc d))
        ∗ ((iRowK g).view.loc (thr d L) ↦[(iRowK g).view.set]{fullShare} Widx I d L)) : sProp 𝕄)
      ⊢ iprop((((B1).view.loc (thr d L) ↦[(B1).view.set]{fullShare} gVal m I d L g)
                  ∗ ((iS).view.loc (thr d L) ↦[(iRowK g).view.set]{fullShare} Widx I d L))
                ∗ ((tV).view.loc (thr d L) ↦[(tAllK).view.set]{q} m (tLoc d))) := by
  rw [View.write_whole_univ, hval]
  iintro ⟨HB, Ht, Hrow⟩
  isplitl [HB Hrow]
  · isplitl [HB]; · iexact HB
    iexact Hrow
  iexact Ht

/-- The gather of chunk g into buffer 1 on semaphore `gs`, at the head of a program. -/
theorem gather_issue1 (hI : ListsOK I) (gs : DmaSem sig) (q : PosShare TreeShare) (g : Fin 50) (fB : Buf (Elt F) ((B1).view.loc (thr d L)))
    {α : Type} {k : PUnit → Prog (TpuEff nD τ sig (Elt F) Λ₀ (thr d L).2) α} {Q : α → sProp 𝕄} :
    iprop(((B1).view.loc (thr d L) ↦[(B1).view.set]{fullShare} fB)
        ∗ ((iS).view.loc (thr d L) ↦[(iRowK g).view.set]{fullShare} Widx I d L)
        ∗ ((tV).view.loc (thr d L) ↦[(tAllK).view.set]{q} m (tLoc d))
        ∗ semVal (thr d L, SemLoc.dma gs) 0)
      ⊢ iprop((Transfers.Flight countersEmb (thr d L) (SemLoc.dma gs) (default : HIx 1) 524288
              iprop((((B1).view.loc (thr d L) ↦[(B1).view.set]{fullShare} gVal m I d L g)
                  ∗ ((iS).view.loc (thr d L) ↦[(iRowK g).view.set]{fullShare} Widx I d L))
                ∗ ((tV).view.loc (thr d L) ↦[(tAllK).view.set]{q} m (tLoc d)))
            -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK B1 gathers_S100000x128_S128x128 (iRowK g) rfl gs (View.wordExact_bits rfl) rfl (Or.inl rfl) >>= k) Q) := by
  have hin := hin_Widx I d L hI g
  have hval := gather_eq_gVal m I d L hI g rfl hin
  iintro ⟨HB, Hrow, Ht, Hsem⟩ Hk
  iapply (SparseCore.wp_indirectGatherLocal countersEmb 𝒱₀ (thr d L) none (hg := gathers_S100000x128_S128x128) (default : HIx 1)
      524288 (rowsCredit_B1 _) (by decide) hin) $$ [Ht HB Hrow Hsem]
  · isplitl [Ht]; · iexact Ht
    isplitl [HB]; · iexact HB
    isplitl [Hrow]; · iexact Hrow
    iexact Hsem
  iintro Hfl
  iapply Hk
  iapply (Transfers.Flight_mono countersEmb (thr d L) (gdel1_of m I d L q g fB hin hval)) $$ Hfl

/-! ## Buffer 2 -/

/-- The 128 rows of the buffer credit the gather's semaphore with the buffer's whole size. -/
theorem rowsCredit_B2 : ∀ h : S100000x128.Gathers 0 S128x128,
    ∑ j, ((B2).slice (S128x128.rowRect h.axis' j) (S128x128.stride_rowRect h.axis' j)).view.dmaCredit = 524288 := by
  decide

/-- What the stream hands over at the wait is the delivery in its final form: the buffer written whole with the
    payload holds the chunk's rows of the lookup. -/
theorem gdel2_of (q : PosShare TreeShare) (g : Fin 50) (fB : Buf (Elt F) ((B2).view.loc (thr d L)))
    (hin : ∀ x, ((iRowK g).view.read (Elt F) (Widx I d L) x).toNat < S100000x128.size gathers_S100000x128_S128x128.axis)
    (hval : SparseCore.gatherPayload gathers_S100000x128_S128x128 ((tAllK).view.read (Elt F) (m (tLoc d)))
        (SparseCore.rows ((iRowK g).view.read (Elt F) (Widx I d L)) rfl hin) = gVal m I d L g) :
    (iprop(((B2).view.loc (thr d L) ↦[(B2).view.set]{fullShare}
          (B2).view.write (Elt F) fB (SparseCore.gatherPayload gathers_S100000x128_S128x128 ((tAllK).view.read (Elt F) (m (tLoc d)))
            (SparseCore.rows ((iRowK g).view.read (Elt F) (Widx I d L)) rfl hin)) Finset.univ)
        ∗ ((tAllK).view.loc (thr d L) ↦[(tAllK).view.set]{q} m (tLoc d))
        ∗ ((iRowK g).view.loc (thr d L) ↦[(iRowK g).view.set]{fullShare} Widx I d L)) : sProp 𝕄)
      ⊢ iprop((((B2).view.loc (thr d L) ↦[(B2).view.set]{fullShare} gVal m I d L g)
                  ∗ ((iS).view.loc (thr d L) ↦[(iRowK g).view.set]{fullShare} Widx I d L))
                ∗ ((tV).view.loc (thr d L) ↦[(tAllK).view.set]{q} m (tLoc d))) := by
  rw [View.write_whole_univ, hval]
  iintro ⟨HB, Ht, Hrow⟩
  isplitl [HB Hrow]
  · isplitl [HB]; · iexact HB
    iexact Hrow
  iexact Ht

/-- The gather of chunk g into buffer 2 on semaphore `gs`, at the head of a program. -/
theorem gather_issue2 (hI : ListsOK I) (gs : DmaSem sig) (q : PosShare TreeShare) (g : Fin 50) (fB : Buf (Elt F) ((B2).view.loc (thr d L)))
    {α : Type} {k : PUnit → Prog (TpuEff nD τ sig (Elt F) Λ₀ (thr d L).2) α} {Q : α → sProp 𝕄} :
    iprop(((B2).view.loc (thr d L) ↦[(B2).view.set]{fullShare} fB)
        ∗ ((iS).view.loc (thr d L) ↦[(iRowK g).view.set]{fullShare} Widx I d L)
        ∗ ((tV).view.loc (thr d L) ↦[(tAllK).view.set]{q} m (tLoc d))
        ∗ semVal (thr d L, SemLoc.dma gs) 0)
      ⊢ iprop((Transfers.Flight countersEmb (thr d L) (SemLoc.dma gs) (default : HIx 1) 524288
              iprop((((B2).view.loc (thr d L) ↦[(B2).view.set]{fullShare} gVal m I d L g)
                  ∗ ((iS).view.loc (thr d L) ↦[(iRowK g).view.set]{fullShare} Widx I d L))
                ∗ ((tV).view.loc (thr d L) ↦[(tAllK).view.set]{q} m (tLoc d)))
            -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK B2 gathers_S100000x128_S128x128 (iRowK g) rfl gs (View.wordExact_bits rfl) rfl (Or.inl rfl) >>= k) Q) := by
  have hin := hin_Widx I d L hI g
  have hval := gather_eq_gVal m I d L hI g rfl hin
  iintro ⟨HB, Hrow, Ht, Hsem⟩ Hk
  iapply (SparseCore.wp_indirectGatherLocal countersEmb 𝒱₀ (thr d L) none (hg := gathers_S100000x128_S128x128) (default : HIx 1)
      524288 (rowsCredit_B2 _) (by decide) hin) $$ [Ht HB Hrow Hsem]
  · isplitl [Ht]; · iexact Ht
    isplitl [HB]; · iexact HB
    isplitl [Hrow]; · iexact Hrow
    iexact Hsem
  iintro Hfl
  iapply Hk
  iapply (Transfers.Flight_mono countersEmb (thr d L) (gdel2_of m I d L q g fB hin hval)) $$ Hfl

/-! ## Buffer 3 -/

/-- The 128 rows of the buffer credit the gather's semaphore with the buffer's whole size. -/
theorem rowsCredit_B3 : ∀ h : S100000x128.Gathers 0 S128x128,
    ∑ j, ((B3).slice (S128x128.rowRect h.axis' j) (S128x128.stride_rowRect h.axis' j)).view.dmaCredit = 524288 := by
  decide

/-- What the stream hands over at the wait is the delivery in its final form: the buffer written whole with the
    payload holds the chunk's rows of the lookup. -/
theorem gdel3_of (q : PosShare TreeShare) (g : Fin 50) (fB : Buf (Elt F) ((B3).view.loc (thr d L)))
    (hin : ∀ x, ((iRowK g).view.read (Elt F) (Widx I d L) x).toNat < S100000x128.size gathers_S100000x128_S128x128.axis)
    (hval : SparseCore.gatherPayload gathers_S100000x128_S128x128 ((tAllK).view.read (Elt F) (m (tLoc d)))
        (SparseCore.rows ((iRowK g).view.read (Elt F) (Widx I d L)) rfl hin) = gVal m I d L g) :
    (iprop(((B3).view.loc (thr d L) ↦[(B3).view.set]{fullShare}
          (B3).view.write (Elt F) fB (SparseCore.gatherPayload gathers_S100000x128_S128x128 ((tAllK).view.read (Elt F) (m (tLoc d)))
            (SparseCore.rows ((iRowK g).view.read (Elt F) (Widx I d L)) rfl hin)) Finset.univ)
        ∗ ((tAllK).view.loc (thr d L) ↦[(tAllK).view.set]{q} m (tLoc d))
        ∗ ((iRowK g).view.loc (thr d L) ↦[(iRowK g).view.set]{fullShare} Widx I d L)) : sProp 𝕄)
      ⊢ iprop((((B3).view.loc (thr d L) ↦[(B3).view.set]{fullShare} gVal m I d L g)
                  ∗ ((iS).view.loc (thr d L) ↦[(iRowK g).view.set]{fullShare} Widx I d L))
                ∗ ((tV).view.loc (thr d L) ↦[(tAllK).view.set]{q} m (tLoc d))) := by
  rw [View.write_whole_univ, hval]
  iintro ⟨HB, Ht, Hrow⟩
  isplitl [HB Hrow]
  · isplitl [HB]; · iexact HB
    iexact Hrow
  iexact Ht

/-- The gather of chunk g into buffer 3 on semaphore `gs`, at the head of a program. -/
theorem gather_issue3 (hI : ListsOK I) (gs : DmaSem sig) (q : PosShare TreeShare) (g : Fin 50) (fB : Buf (Elt F) ((B3).view.loc (thr d L)))
    {α : Type} {k : PUnit → Prog (TpuEff nD τ sig (Elt F) Λ₀ (thr d L).2) α} {Q : α → sProp 𝕄} :
    iprop(((B3).view.loc (thr d L) ↦[(B3).view.set]{fullShare} fB)
        ∗ ((iS).view.loc (thr d L) ↦[(iRowK g).view.set]{fullShare} Widx I d L)
        ∗ ((tV).view.loc (thr d L) ↦[(tAllK).view.set]{q} m (tLoc d))
        ∗ semVal (thr d L, SemLoc.dma gs) 0)
      ⊢ iprop((Transfers.Flight countersEmb (thr d L) (SemLoc.dma gs) (default : HIx 1) 524288
              iprop((((B3).view.loc (thr d L) ↦[(B3).view.set]{fullShare} gVal m I d L g)
                  ∗ ((iS).view.loc (thr d L) ↦[(iRowK g).view.set]{fullShare} Widx I d L))
                ∗ ((tV).view.loc (thr d L) ↦[(tAllK).view.set]{q} m (tLoc d)))
            -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK B3 gathers_S100000x128_S128x128 (iRowK g) rfl gs (View.wordExact_bits rfl) rfl (Or.inl rfl) >>= k) Q) := by
  have hin := hin_Widx I d L hI g
  have hval := gather_eq_gVal m I d L hI g rfl hin
  iintro ⟨HB, Hrow, Ht, Hsem⟩ Hk
  iapply (SparseCore.wp_indirectGatherLocal countersEmb 𝒱₀ (thr d L) none (hg := gathers_S100000x128_S128x128) (default : HIx 1)
      524288 (rowsCredit_B3 _) (by decide) hin) $$ [Ht HB Hrow Hsem]
  · isplitl [Ht]; · iexact Ht
    isplitl [HB]; · iexact HB
    isplitl [Hrow]; · iexact Hrow
    iexact Hsem
  iintro Hfl
  iapply Hk
  iapply (Transfers.Flight_mono countersEmb (thr d L) (gdel3_of m I d L q g fB hin hval)) $$ Hfl

/-! ## Buffer 4 -/

/-- The 128 rows of the buffer credit the gather's semaphore with the buffer's whole size. -/
theorem rowsCredit_B4 : ∀ h : S100000x128.Gathers 0 S128x128,
    ∑ j, ((B4).slice (S128x128.rowRect h.axis' j) (S128x128.stride_rowRect h.axis' j)).view.dmaCredit = 524288 := by
  decide

/-- What the stream hands over at the wait is the delivery in its final form: the buffer written whole with the
    payload holds the chunk's rows of the lookup. -/
theorem gdel4_of (q : PosShare TreeShare) (g : Fin 50) (fB : Buf (Elt F) ((B4).view.loc (thr d L)))
    (hin : ∀ x, ((iRowK g).view.read (Elt F) (Widx I d L) x).toNat < S100000x128.size gathers_S100000x128_S128x128.axis)
    (hval : SparseCore.gatherPayload gathers_S100000x128_S128x128 ((tAllK).view.read (Elt F) (m (tLoc d)))
        (SparseCore.rows ((iRowK g).view.read (Elt F) (Widx I d L)) rfl hin) = gVal m I d L g) :
    (iprop(((B4).view.loc (thr d L) ↦[(B4).view.set]{fullShare}
          (B4).view.write (Elt F) fB (SparseCore.gatherPayload gathers_S100000x128_S128x128 ((tAllK).view.read (Elt F) (m (tLoc d)))
            (SparseCore.rows ((iRowK g).view.read (Elt F) (Widx I d L)) rfl hin)) Finset.univ)
        ∗ ((tAllK).view.loc (thr d L) ↦[(tAllK).view.set]{q} m (tLoc d))
        ∗ ((iRowK g).view.loc (thr d L) ↦[(iRowK g).view.set]{fullShare} Widx I d L)) : sProp 𝕄)
      ⊢ iprop((((B4).view.loc (thr d L) ↦[(B4).view.set]{fullShare} gVal m I d L g)
                  ∗ ((iS).view.loc (thr d L) ↦[(iRowK g).view.set]{fullShare} Widx I d L))
                ∗ ((tV).view.loc (thr d L) ↦[(tAllK).view.set]{q} m (tLoc d))) := by
  rw [View.write_whole_univ, hval]
  iintro ⟨HB, Ht, Hrow⟩
  isplitl [HB Hrow]
  · isplitl [HB]; · iexact HB
    iexact Hrow
  iexact Ht

/-- The gather of chunk g into buffer 4 on semaphore `gs`, at the head of a program. -/
theorem gather_issue4 (hI : ListsOK I) (gs : DmaSem sig) (q : PosShare TreeShare) (g : Fin 50) (fB : Buf (Elt F) ((B4).view.loc (thr d L)))
    {α : Type} {k : PUnit → Prog (TpuEff nD τ sig (Elt F) Λ₀ (thr d L).2) α} {Q : α → sProp 𝕄} :
    iprop(((B4).view.loc (thr d L) ↦[(B4).view.set]{fullShare} fB)
        ∗ ((iS).view.loc (thr d L) ↦[(iRowK g).view.set]{fullShare} Widx I d L)
        ∗ ((tV).view.loc (thr d L) ↦[(tAllK).view.set]{q} m (tLoc d))
        ∗ semVal (thr d L, SemLoc.dma gs) 0)
      ⊢ iprop((Transfers.Flight countersEmb (thr d L) (SemLoc.dma gs) (default : HIx 1) 524288
              iprop((((B4).view.loc (thr d L) ↦[(B4).view.set]{fullShare} gVal m I d L g)
                  ∗ ((iS).view.loc (thr d L) ↦[(iRowK g).view.set]{fullShare} Widx I d L))
                ∗ ((tV).view.loc (thr d L) ↦[(tAllK).view.set]{q} m (tLoc d)))
            -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK B4 gathers_S100000x128_S128x128 (iRowK g) rfl gs (View.wordExact_bits rfl) rfl (Or.inl rfl) >>= k) Q) := by
  have hin := hin_Widx I d L hI g
  have hval := gather_eq_gVal m I d L hI g rfl hin
  iintro ⟨HB, Hrow, Ht, Hsem⟩ Hk
  iapply (SparseCore.wp_indirectGatherLocal countersEmb 𝒱₀ (thr d L) none (hg := gathers_S100000x128_S128x128) (default : HIx 1)
      524288 (rowsCredit_B4 _) (by decide) hin) $$ [Ht HB Hrow Hsem]
  · isplitl [Ht]; · iexact Ht
    isplitl [HB]; · iexact HB
    isplitl [Hrow]; · iexact Hrow
    iexact Hsem
  iintro Hfl
  iapply Hk
  iapply (Transfers.Flight_mono countersEmb (thr d L) (gdel4_of m I d L q g fB hin hval)) $$ Hfl

/-! ## Buffer 5 -/

/-- The 128 rows of the buffer credit the gather's semaphore with the buffer's whole size. -/
theorem rowsCredit_B5 : ∀ h : S100000x128.Gathers 0 S128x128,
    ∑ j, ((B5).slice (S128x128.rowRect h.axis' j) (S128x128.stride_rowRect h.axis' j)).view.dmaCredit = 524288 := by
  decide

/-- What the stream hands over at the wait is the delivery in its final form: the buffer written whole with the
    payload holds the chunk's rows of the lookup. -/
theorem gdel5_of (q : PosShare TreeShare) (g : Fin 50) (fB : Buf (Elt F) ((B5).view.loc (thr d L)))
    (hin : ∀ x, ((iRowK g).view.read (Elt F) (Widx I d L) x).toNat < S100000x128.size gathers_S100000x128_S128x128.axis)
    (hval : SparseCore.gatherPayload gathers_S100000x128_S128x128 ((tAllK).view.read (Elt F) (m (tLoc d)))
        (SparseCore.rows ((iRowK g).view.read (Elt F) (Widx I d L)) rfl hin) = gVal m I d L g) :
    (iprop(((B5).view.loc (thr d L) ↦[(B5).view.set]{fullShare}
          (B5).view.write (Elt F) fB (SparseCore.gatherPayload gathers_S100000x128_S128x128 ((tAllK).view.read (Elt F) (m (tLoc d)))
            (SparseCore.rows ((iRowK g).view.read (Elt F) (Widx I d L)) rfl hin)) Finset.univ)
        ∗ ((tAllK).view.loc (thr d L) ↦[(tAllK).view.set]{q} m (tLoc d))
        ∗ ((iRowK g).view.loc (thr d L) ↦[(iRowK g).view.set]{fullShare} Widx I d L)) : sProp 𝕄)
      ⊢ iprop((((B5).view.loc (thr d L) ↦[(B5).view.set]{fullShare} gVal m I d L g)
                  ∗ ((iS).view.loc (thr d L) ↦[(iRowK g).view.set]{fullShare} Widx I d L))
                ∗ ((tV).view.loc (thr d L) ↦[(tAllK).view.set]{q} m (tLoc d))) := by
  rw [View.write_whole_univ, hval]
  iintro ⟨HB, Ht, Hrow⟩
  isplitl [HB Hrow]
  · isplitl [HB]; · iexact HB
    iexact Hrow
  iexact Ht

/-- The gather of chunk g into buffer 5 on semaphore `gs`, at the head of a program. -/
theorem gather_issue5 (hI : ListsOK I) (gs : DmaSem sig) (q : PosShare TreeShare) (g : Fin 50) (fB : Buf (Elt F) ((B5).view.loc (thr d L)))
    {α : Type} {k : PUnit → Prog (TpuEff nD τ sig (Elt F) Λ₀ (thr d L).2) α} {Q : α → sProp 𝕄} :
    iprop(((B5).view.loc (thr d L) ↦[(B5).view.set]{fullShare} fB)
        ∗ ((iS).view.loc (thr d L) ↦[(iRowK g).view.set]{fullShare} Widx I d L)
        ∗ ((tV).view.loc (thr d L) ↦[(tAllK).view.set]{q} m (tLoc d))
        ∗ semVal (thr d L, SemLoc.dma gs) 0)
      ⊢ iprop((Transfers.Flight countersEmb (thr d L) (SemLoc.dma gs) (default : HIx 1) 524288
              iprop((((B5).view.loc (thr d L) ↦[(B5).view.set]{fullShare} gVal m I d L g)
                  ∗ ((iS).view.loc (thr d L) ↦[(iRowK g).view.set]{fullShare} Widx I d L))
                ∗ ((tV).view.loc (thr d L) ↦[(tAllK).view.set]{q} m (tLoc d)))
            -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK B5 gathers_S100000x128_S128x128 (iRowK g) rfl gs (View.wordExact_bits rfl) rfl (Or.inl rfl) >>= k) Q) := by
  have hin := hin_Widx I d L hI g
  have hval := gather_eq_gVal m I d L hI g rfl hin
  iintro ⟨HB, Hrow, Ht, Hsem⟩ Hk
  iapply (SparseCore.wp_indirectGatherLocal countersEmb 𝒱₀ (thr d L) none (hg := gathers_S100000x128_S128x128) (default : HIx 1)
      524288 (rowsCredit_B5 _) (by decide) hin) $$ [Ht HB Hrow Hsem]
  · isplitl [Ht]; · iexact Ht
    isplitl [HB]; · iexact HB
    isplitl [Hrow]; · iexact Hrow
    iexact Hsem
  iintro Hfl
  iapply Hk
  iapply (Transfers.Flight_mono countersEmb (thr d L) (gdel5_of m I d L q g fB hin hval)) $$ Hfl

/-! ## Buffer 6 -/

/-- The 128 rows of the buffer credit the gather's semaphore with the buffer's whole size. -/
theorem rowsCredit_B6 : ∀ h : S100000x128.Gathers 0 S128x128,
    ∑ j, ((B6).slice (S128x128.rowRect h.axis' j) (S128x128.stride_rowRect h.axis' j)).view.dmaCredit = 524288 := by
  decide

/-- What the stream hands over at the wait is the delivery in its final form: the buffer written whole with the
    payload holds the chunk's rows of the lookup. -/
theorem gdel6_of (q : PosShare TreeShare) (g : Fin 50) (fB : Buf (Elt F) ((B6).view.loc (thr d L)))
    (hin : ∀ x, ((iRowK g).view.read (Elt F) (Widx I d L) x).toNat < S100000x128.size gathers_S100000x128_S128x128.axis)
    (hval : SparseCore.gatherPayload gathers_S100000x128_S128x128 ((tAllK).view.read (Elt F) (m (tLoc d)))
        (SparseCore.rows ((iRowK g).view.read (Elt F) (Widx I d L)) rfl hin) = gVal m I d L g) :
    (iprop(((B6).view.loc (thr d L) ↦[(B6).view.set]{fullShare}
          (B6).view.write (Elt F) fB (SparseCore.gatherPayload gathers_S100000x128_S128x128 ((tAllK).view.read (Elt F) (m (tLoc d)))
            (SparseCore.rows ((iRowK g).view.read (Elt F) (Widx I d L)) rfl hin)) Finset.univ)
        ∗ ((tAllK).view.loc (thr d L) ↦[(tAllK).view.set]{q} m (tLoc d))
        ∗ ((iRowK g).view.loc (thr d L) ↦[(iRowK g).view.set]{fullShare} Widx I d L)) : sProp 𝕄)
      ⊢ iprop((((B6).view.loc (thr d L) ↦[(B6).view.set]{fullShare} gVal m I d L g)
                  ∗ ((iS).view.loc (thr d L) ↦[(iRowK g).view.set]{fullShare} Widx I d L))
                ∗ ((tV).view.loc (thr d L) ↦[(tAllK).view.set]{q} m (tLoc d))) := by
  rw [View.write_whole_univ, hval]
  iintro ⟨HB, Ht, Hrow⟩
  isplitl [HB Hrow]
  · isplitl [HB]; · iexact HB
    iexact Hrow
  iexact Ht

/-- The gather of chunk g into buffer 6 on semaphore `gs`, at the head of a program. -/
theorem gather_issue6 (hI : ListsOK I) (gs : DmaSem sig) (q : PosShare TreeShare) (g : Fin 50) (fB : Buf (Elt F) ((B6).view.loc (thr d L)))
    {α : Type} {k : PUnit → Prog (TpuEff nD τ sig (Elt F) Λ₀ (thr d L).2) α} {Q : α → sProp 𝕄} :
    iprop(((B6).view.loc (thr d L) ↦[(B6).view.set]{fullShare} fB)
        ∗ ((iS).view.loc (thr d L) ↦[(iRowK g).view.set]{fullShare} Widx I d L)
        ∗ ((tV).view.loc (thr d L) ↦[(tAllK).view.set]{q} m (tLoc d))
        ∗ semVal (thr d L, SemLoc.dma gs) 0)
      ⊢ iprop((Transfers.Flight countersEmb (thr d L) (SemLoc.dma gs) (default : HIx 1) 524288
              iprop((((B6).view.loc (thr d L) ↦[(B6).view.set]{fullShare} gVal m I d L g)
                  ∗ ((iS).view.loc (thr d L) ↦[(iRowK g).view.set]{fullShare} Widx I d L))
                ∗ ((tV).view.loc (thr d L) ↦[(tAllK).view.set]{q} m (tLoc d)))
            -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK B6 gathers_S100000x128_S128x128 (iRowK g) rfl gs (View.wordExact_bits rfl) rfl (Or.inl rfl) >>= k) Q) := by
  have hin := hin_Widx I d L hI g
  have hval := gather_eq_gVal m I d L hI g rfl hin
  iintro ⟨HB, Hrow, Ht, Hsem⟩ Hk
  iapply (SparseCore.wp_indirectGatherLocal countersEmb 𝒱₀ (thr d L) none (hg := gathers_S100000x128_S128x128) (default : HIx 1)
      524288 (rowsCredit_B6 _) (by decide) hin) $$ [Ht HB Hrow Hsem]
  · isplitl [Ht]; · iexact Ht
    isplitl [HB]; · iexact HB
    isplitl [Hrow]; · iexact Hrow
    iexact Hsem
  iintro Hfl
  iapply Hk
  iapply (Transfers.Flight_mono countersEmb (thr d L) (gdel6_of m I d L q g fB hin hval)) $$ Hfl

/-! ## Buffer 7 -/

/-- The 128 rows of the buffer credit the gather's semaphore with the buffer's whole size. -/
theorem rowsCredit_B7 : ∀ h : S100000x128.Gathers 0 S128x128,
    ∑ j, ((B7).slice (S128x128.rowRect h.axis' j) (S128x128.stride_rowRect h.axis' j)).view.dmaCredit = 524288 := by
  decide

/-- What the stream hands over at the wait is the delivery in its final form: the buffer written whole with the
    payload holds the chunk's rows of the lookup. -/
theorem gdel7_of (q : PosShare TreeShare) (g : Fin 50) (fB : Buf (Elt F) ((B7).view.loc (thr d L)))
    (hin : ∀ x, ((iRowK g).view.read (Elt F) (Widx I d L) x).toNat < S100000x128.size gathers_S100000x128_S128x128.axis)
    (hval : SparseCore.gatherPayload gathers_S100000x128_S128x128 ((tAllK).view.read (Elt F) (m (tLoc d)))
        (SparseCore.rows ((iRowK g).view.read (Elt F) (Widx I d L)) rfl hin) = gVal m I d L g) :
    (iprop(((B7).view.loc (thr d L) ↦[(B7).view.set]{fullShare}
          (B7).view.write (Elt F) fB (SparseCore.gatherPayload gathers_S100000x128_S128x128 ((tAllK).view.read (Elt F) (m (tLoc d)))
            (SparseCore.rows ((iRowK g).view.read (Elt F) (Widx I d L)) rfl hin)) Finset.univ)
        ∗ ((tAllK).view.loc (thr d L) ↦[(tAllK).view.set]{q} m (tLoc d))
        ∗ ((iRowK g).view.loc (thr d L) ↦[(iRowK g).view.set]{fullShare} Widx I d L)) : sProp 𝕄)
      ⊢ iprop((((B7).view.loc (thr d L) ↦[(B7).view.set]{fullShare} gVal m I d L g)
                  ∗ ((iS).view.loc (thr d L) ↦[(iRowK g).view.set]{fullShare} Widx I d L))
                ∗ ((tV).view.loc (thr d L) ↦[(tAllK).view.set]{q} m (tLoc d))) := by
  rw [View.write_whole_univ, hval]
  iintro ⟨HB, Ht, Hrow⟩
  isplitl [HB Hrow]
  · isplitl [HB]; · iexact HB
    iexact Hrow
  iexact Ht

/-- The gather of chunk g into buffer 7 on semaphore `gs`, at the head of a program. -/
theorem gather_issue7 (hI : ListsOK I) (gs : DmaSem sig) (q : PosShare TreeShare) (g : Fin 50) (fB : Buf (Elt F) ((B7).view.loc (thr d L)))
    {α : Type} {k : PUnit → Prog (TpuEff nD τ sig (Elt F) Λ₀ (thr d L).2) α} {Q : α → sProp 𝕄} :
    iprop(((B7).view.loc (thr d L) ↦[(B7).view.set]{fullShare} fB)
        ∗ ((iS).view.loc (thr d L) ↦[(iRowK g).view.set]{fullShare} Widx I d L)
        ∗ ((tV).view.loc (thr d L) ↦[(tAllK).view.set]{q} m (tLoc d))
        ∗ semVal (thr d L, SemLoc.dma gs) 0)
      ⊢ iprop((Transfers.Flight countersEmb (thr d L) (SemLoc.dma gs) (default : HIx 1) 524288
              iprop((((B7).view.loc (thr d L) ↦[(B7).view.set]{fullShare} gVal m I d L g)
                  ∗ ((iS).view.loc (thr d L) ↦[(iRowK g).view.set]{fullShare} Widx I d L))
                ∗ ((tV).view.loc (thr d L) ↦[(tAllK).view.set]{q} m (tLoc d)))
            -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK B7 gathers_S100000x128_S128x128 (iRowK g) rfl gs (View.wordExact_bits rfl) rfl (Or.inl rfl) >>= k) Q) := by
  have hin := hin_Widx I d L hI g
  have hval := gather_eq_gVal m I d L hI g rfl hin
  iintro ⟨HB, Hrow, Ht, Hsem⟩ Hk
  iapply (SparseCore.wp_indirectGatherLocal countersEmb 𝒱₀ (thr d L) none (hg := gathers_S100000x128_S128x128) (default : HIx 1)
      524288 (rowsCredit_B7 _) (by decide) hin) $$ [Ht HB Hrow Hsem]
  · isplitl [Ht]; · iexact Ht
    isplitl [HB]; · iexact HB
    isplitl [Hrow]; · iexact Hrow
    iexact Hsem
  iintro Hfl
  iapply Hk
  iapply (Transfers.Flight_mono countersEmb (thr d L) (gdel7_of m I d L q g fB hin hval)) $$ Hfl

end Cert.Kernel.Sc

end
-- ==== Proof.KTilePro.lean ====
/-
  The opening of a task, up to its first four gathers.

  The task copies its list — row w of the lists, 50 × 128 words — into its index scratch and waits for it: the
  scratch then holds the list. It then starts, one after the other, the gathers of chunks 0, 1, 2, 3 into its
  first four row buffers, each on the buffer's own semaphore, each lending row g of the scratch and a seventh of the
  task's share of the table. Left outside the flights: rows 4 … 49 of the scratch.
-/
import proofs.«206296_g7516192768393_cont_9to1c4b_737_14_alg».proof.Proof.KTileGather

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
local notation "tV" => (Memref.whole Cert.Kernel.main_arg0_scv : Memref Cert.Kernel.sig Kind.scVector Space.hbm Cert.Kernel.S100000x128 EltTy.f32)
local notation "iS" => (Memref.whole Cert.Kernel.cc0_scratch0 : Memref Cert.Kernel.sig Kind.scVector Space.vmem Cert.Kernel.S50x128 EltTy.i32)
local notation "B1" => (Memref.whole Cert.Kernel.cc0_scratch1 : Memref Cert.Kernel.sig Kind.scVector Space.vmem Cert.Kernel.S128x128 EltTy.f32)
local notation "B2" => (Memref.whole Cert.Kernel.cc0_scratch2 : Memref Cert.Kernel.sig Kind.scVector Space.vmem Cert.Kernel.S128x128 EltTy.f32)
local notation "B3" => (Memref.whole Cert.Kernel.cc0_scratch3 : Memref Cert.Kernel.sig Kind.scVector Space.vmem Cert.Kernel.S128x128 EltTy.f32)
local notation "B4" => (Memref.whole Cert.Kernel.cc0_scratch4 : Memref Cert.Kernel.sig Kind.scVector Space.vmem Cert.Kernel.S128x128 EltTy.f32)
local notation "B5" => (Memref.whole Cert.Kernel.cc0_scratch5 : Memref Cert.Kernel.sig Kind.scVector Space.vmem Cert.Kernel.S128x128 EltTy.f32)
local notation "B6" => (Memref.whole Cert.Kernel.cc0_scratch6 : Memref Cert.Kernel.sig Kind.scVector Space.vmem Cert.Kernel.S128x128 EltTy.f32)
local notation "B7" => (Memref.whole Cert.Kernel.cc0_scratch7 : Memref Cert.Kernel.sig Kind.scVector Space.vmem Cert.Kernel.S128x128 EltTy.f32)

local notation "lV" => (Memref.whole Cert.Kernel.main_v1_scv : Memref Cert.Kernel.sig Kind.scVector Space.hbm Cert.Kernel.S32x50x128 EltTy.i32)
local notation "oV" => (Memref.whole Cert.Kernel.main_v2_scv : Memref Cert.Kernel.sig Kind.scVector Space.hbm Cert.Kernel.S204800x128 EltTy.f32)

variable (m : (ℓ : Loc nD τ sig) → Buf (Elt F) ℓ) (I : (d : Dev nD) → Buf (Elt F) (lLoc d))
variable [FloatOps F]
variable (d : Dev nD) (L : grid0.Coords)

/-- The rows of the index scratch from row g on are row g and the rows after it. -/
theorem iTodo_row (g : Fin 50) :
    (iTodo I d L g.val : sProp 𝕄)
      = iprop(((iS).view.loc (thr d L) ↦[(iRowK g).view.set]{fullShare} Widx I d L) ∗ iTodo I d L (g.val + 1)) := by
  unfold iTodo
  rw [set_iRowK, pts_iRange_split d L fullShare (Widx I d L) (lo := g.val) (mid := g.val + 1) (hi := 50) (by omega) (by have := g.isLt; omega)]

set_option maxHeartbeats 4000000 in
/-- The list's copy, its wait, and the gathers of chunks 0 … 3. -/
theorem pro3 (hI : ListsOK I) (O : CellTallies nD τ sig (HIx 1)) (W : Waits sig (HIx 1))
    (f0 : Buf (Elt F) ((iS).view.loc (thr d L)))
    (f1 : Buf (Elt F) ((B1).view.loc (thr d L))) (f2 : Buf (Elt F) ((B2).view.loc (thr d L)))
    (f3 : Buf (Elt F) ((B3).view.loc (thr d L))) (f4 : Buf (Elt F) ((B4).view.loc (thr d L))) :
    iprop((Transfers.MayWaits (thr d L) (default : HIx 1) O : sProp 𝕄)
        ∗ ((lRowK L).view.loc (thr d L) ↦[(lRowK L).view.set]{fullShare} I d)
        ∗ ((iS).view.loc (thr d L) ↦{fullShare} f0)
        ∗ ((B1).view.loc (thr d L) ↦{fullShare} f1) ∗ ((B2).view.loc (thr d L) ↦{fullShare} f2)
        ∗ ((B3).view.loc (thr d L) ↦{fullShare} f3) ∗ ((B4).view.loc (thr d L) ↦{fullShare} f4)
        ∗ ((tV).view.loc (thr d L) ↦[(tAllK).view.set]{qt L 0} m (tLoc d)) ∗ ((tV).view.loc (thr d L) ↦[(tAllK).view.set]{qt L 1} m (tLoc d))
        ∗ ((tV).view.loc (thr d L) ↦[(tAllK).view.set]{qt L 2} m (tLoc d)) ∗ ((tV).view.loc (thr d L) ↦[(tAllK).view.set]{qt L 3} m (tLoc d))
        ∗ semVal (thr d L, SemLoc.dma cc0_scratch8.sem) 0 ∗ semVal (thr d L, SemLoc.dma cc0_scratch9.sem) 0
        ∗ semVal (thr d L, SemLoc.dma cc0_scratch10.sem) 0 ∗ semVal (thr d L, SemLoc.dma cc0_scratch11.sem) 0
        ∗ semVal (thr d L, SemLoc.dma cc0_scoped0.sem) 0
        ∗ owes (thr d L) O W)
      ⊢ wp frame (wpE (defs₀ (F := F)) 𝒱₀ (thr d L) none) Set.univ
          (k0_part3 L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0)
          fun _ => iprop((Transfers.MayWaits (thr d L) (default : HIx 1) O : sProp 𝕄)
            ∗ ((lRowK L).view.loc (thr d L) ↦[(lRowK L).view.set]{fullShare} I d)
            ∗ Transfers.Flight countersEmb (thr d L) (SemLoc.dma cc0_scratch8.sem) (default : HIx 1) 524288 (gDel1 m I d L ⟨0, by omega⟩)
            ∗ Transfers.Flight countersEmb (thr d L) (SemLoc.dma cc0_scratch9.sem) (default : HIx 1) 524288 (gDel2 m I d L ⟨1, by omega⟩)
            ∗ Transfers.Flight countersEmb (thr d L) (SemLoc.dma cc0_scratch10.sem) (default : HIx 1) 524288 (gDel3 m I d L ⟨2, by omega⟩)
            ∗ Transfers.Flight countersEmb (thr d L) (SemLoc.dma cc0_scratch11.sem) (default : HIx 1) 524288 (gDel4 m I d L ⟨3, by omega⟩)
            ∗ iTodo I d L 4
            ∗ semVal (thr d L, SemLoc.dma cc0_scoped0.sem) 0
            ∗ ∃ W', ⌜∀ p ∈ W', p ∈ W ∨ p.2 = none⌝ ∗ owes (thr d L) O W') := by
  rw [k0_part3_eq_skeleton]; unfold k0_part3_skel
  iintro ⟨Hmw, Hl, Hi, H1, H2, H3, H4, Ht1, Ht2, Ht3, Ht4, Hg1, Hg2, Hg3, Hg4, Hs0, HO⟩
  sl_exec
  ihave Hi := (Entails.of_eq (show ((iS).view.loc (thr d L) ↦{fullShare} View.write (Elt F) (iS).view f0 (pro3.sl.dma0 I d L) Finset.univ : sProp 𝕄)
      = iTodo I d L 0 from by unfold iTodo; rw [iRange_univ, View.write_whole_univ]; rfl)) $$ Hi
  -- chunk 0 into buffer 1
  ihave Hi := (Entails.of_eq (iTodo_row I d L ⟨0, by omega⟩)) $$ Hi
  icases Hi with ⟨Hr, Hi⟩
  ihave H1 := (Entails.of_eq (show ((B1).view.loc (thr d L) ↦{fullShare} f1 : sProp 𝕄)
      = (B1).view.loc (thr d L) ↦[(B1).view.set]{fullShare} f1 from by rw [View.set_whole])) $$ H1
  iapply (gather_issue1 m I d L hI cc0_scratch8.sem (qt L 0) ⟨0, by omega⟩ f1) $$ [H1 Hr Ht1 Hg1]
  · isplitl [H1]; · iexact H1
    isplitl [Hr]; · iexact Hr
    isplitl [Ht1]; · iexact Ht1
    iexact Hg1
  iintro Hf1
  sl_exec
  -- chunk 1 into buffer 2
  ihave Hi := (Entails.of_eq (iTodo_row I d L ⟨1, by omega⟩)) $$ Hi
  icases Hi with ⟨Hr, Hi⟩
  ihave H2 := (Entails.of_eq (show ((B2).view.loc (thr d L) ↦{fullShare} f2 : sProp 𝕄)
      = (B2).view.loc (thr d L) ↦[(B2).view.set]{fullShare} f2 from by rw [View.set_whole])) $$ H2
  iapply (gather_issue2 m I d L hI cc0_scratch9.sem (qt L 1) ⟨1, by omega⟩ f2) $$ [H2 Hr Ht2 Hg2]
  · isplitl [H2]; · iexact H2
    isplitl [Hr]; · iexact Hr
    isplitl [Ht2]; · iexact Ht2
    iexact Hg2
  iintro Hf2
  sl_exec
  -- chunk 2 into buffer 3
  ihave Hi := (Entails.of_eq (iTodo_row I d L ⟨2, by omega⟩)) $$ Hi
  icases Hi with ⟨Hr, Hi⟩
  ihave H3 := (Entails.of_eq (show ((B3).view.loc (thr d L) ↦{fullShare} f3 : sProp 𝕄)
      = (B3).view.loc (thr d L) ↦[(B3).view.set]{fullShare} f3 from by rw [View.set_whole])) $$ H3
  iapply (gather_issue3 m I d L hI cc0_scratch10.sem (qt L 2) ⟨2, by omega⟩ f3) $$ [H3 Hr Ht3 Hg3]
  · isplitl [H3]; · iexact H3
    isplitl [Hr]; · iexact Hr
    isplitl [Ht3]; · iexact Ht3
    iexact Hg3
  iintro Hf3
  sl_exec
  -- chunk 3 into buffer 4
  ihave Hi := (Entails.of_eq (iTodo_row I d L ⟨3, by omega⟩)) $$ Hi
  icases Hi with ⟨Hr, Hi⟩
  ihave H4 := (Entails.of_eq (show ((B4).view.loc (thr d L) ↦{fullShare} f4 : sProp 𝕄)
      = (B4).view.loc (thr d L) ↦[(B4).view.set]{fullShare} f4 from by rw [View.set_whole])) $$ H4
  iapply (gather_issue4 m I d L hI cc0_scratch11.sem (qt L 3) ⟨3, by omega⟩ f4) $$ [H4 Hr Ht4 Hg4]
  · isplitl [H4]; · iexact H4
    isplitl [Hr]; · iexact Hr
    isplitl [Ht4]; · iexact Ht4
    iexact Hg4
  iintro Hf4
  sl_exec
  sl_step
  isplitl [Hmw]; · iexact Hmw
  isplitl [Hl]; · iexact Hl
  isplitl [Hf1]; · unfold gDel1; iexact Hf1
  isplitl [Hf2]; · unfold gDel2; iexact Hf2
  isplitl [Hf3]; · unfold gDel3; iexact Hf3
  isplitl [Hf4]; · unfold gDel4; iexact Hf4
  isplitl [Hi]; · iexact Hi
  isplitl [Hs0]; · iexact Hs0
  iexists _; isplitr
  swap; · iexact HO
  ipureintro; intro p hp
  rcases Finset.mem_insert.mp hp with hp | hp; · exact .inr (hp ▸ rfl)
  exact .inl hp

end Cert.Kernel.Sc

end
-- ==== Proof.KTileEpi.lean ====
/-
  The end of one task of the lookup kernel: the seven waits after its loop.

  When the loop ends every slot is writing a chunk out: slot 0 the last chunk, 49, and slots 1 … 6 the chunks
  43 … 48. The task then waits once on each slot's write semaphore, six times at the end of the function that holds
  the loop and a seventh time at the end of the task. Each wait delivers the chunk's rows of the result, holding the
  lookup, and gives the slot's buffer back. The chunks join the rows already finished, interval by interval, until the
  task's 6400 rows of the result are whole; the seven slots' shares of the table join into the task's share; the
  fifty rows of the index scratch are the scratch.
-/
import proofs.«206296_g7516192768393_cont_9to1c4b_737_14_alg».proof.Proof.KTileInv

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_arg0_scv : Memref Cert.Kernel.sig Kind.scVector Space.hbm Cert.Kernel.S100000x128 EltTy.f32)
local notation "lV" => (Memref.whole Cert.Kernel.main_v1_scv : Memref Cert.Kernel.sig Kind.scVector Space.hbm Cert.Kernel.S32x50x128 EltTy.i32)
local notation "oV" => (Memref.whole Cert.Kernel.main_v2_scv : Memref Cert.Kernel.sig Kind.scVector Space.hbm Cert.Kernel.S204800x128 EltTy.f32)
local notation "iS" => (Memref.whole Cert.Kernel.cc0_scratch0 : Memref Cert.Kernel.sig Kind.scVector Space.vmem Cert.Kernel.S50x128 EltTy.i32)
local notation "B1" => (Memref.whole Cert.Kernel.cc0_scratch1 : Memref Cert.Kernel.sig Kind.scVector Space.vmem Cert.Kernel.S128x128 EltTy.f32)
local notation "B2" => (Memref.whole Cert.Kernel.cc0_scratch2 : Memref Cert.Kernel.sig Kind.scVector Space.vmem Cert.Kernel.S128x128 EltTy.f32)
local notation "B3" => (Memref.whole Cert.Kernel.cc0_scratch3 : Memref Cert.Kernel.sig Kind.scVector Space.vmem Cert.Kernel.S128x128 EltTy.f32)
local notation "B4" => (Memref.whole Cert.Kernel.cc0_scratch4 : Memref Cert.Kernel.sig Kind.scVector Space.vmem Cert.Kernel.S128x128 EltTy.f32)
local notation "B5" => (Memref.whole Cert.Kernel.cc0_scratch5 : Memref Cert.Kernel.sig Kind.scVector Space.vmem Cert.Kernel.S128x128 EltTy.f32)
local notation "B6" => (Memref.whole Cert.Kernel.cc0_scratch6 : Memref Cert.Kernel.sig Kind.scVector Space.vmem Cert.Kernel.S128x128 EltTy.f32)
local notation "B7" => (Memref.whole Cert.Kernel.cc0_scratch7 : Memref Cert.Kernel.sig Kind.scVector Space.vmem Cert.Kernel.S128x128 EltTy.f32)

variable (m : (ℓ : Loc nD τ sig) → Buf (Elt F) ℓ) (I : (d : Dev nD) → Buf (Elt F) (lLoc d))
variable [FloatOps F]
variable (d : Dev nD) (L : grid0.Coords)

/-! ## The program after the loop -/

/-- The six waits that end the loop's function, as printed: each waits on a slot's write semaphore for a copy of one
    chunk's size, its destination named by the 128 rows from the task's first row. -/
def epi6 (L : grid0.Coords) : Prog (TpuEff nD τ sig (Elt F) Λ₀ (.scVector (cV L) (jV L))) PUnit := do
  let v27 : Memref sig .scVector .hbm S128x128 .f32 := (oV).slice (Rect.unit (s := S204800x128) (k0_off23 L) S128x128.size (k0_off23_inb L)) (fun _ => rfl)
  Prog.lift (.waitDma2 cc0_scratch15.sem B1 v27 (Memref.isWhole_whole _).wordExact (View.wordExact_bits rfl))
  let v29 : Memref sig .scVector .hbm S128x128 .f32 := (oV).slice (Rect.unit (s := S204800x128) (k0_off23 L) S128x128.size (k0_off23_inb L)) (fun _ => rfl)
  Prog.lift (.waitDma2 cc0_scratch16.sem B2 v29 (Memref.isWhole_whole _).wordExact (View.wordExact_bits rfl))
  let v31 : Memref sig .scVector .hbm S128x128 .f32 := (oV).slice (Rect.unit (s := S204800x128) (k0_off23 L) S128x128.size (k0_off23_inb L)) (fun _ => rfl)
  Prog.lift (.waitDma2 cc0_scratch17.sem B3 v31 (Memref.isWhole_whole _).wordExact (View.wordExact_bits rfl))
  let v33 : Memref sig .scVector .hbm S128x128 .f32 := (oV).slice (Rect.unit (s := S204800x128) (k0_off23 L) S128x128.size (k0_off23_inb L)) (fun _ => rfl)
  Prog.lift (.waitDma2 cc0_scratch18.sem B4 v33 (Memref.isWhole_whole _).wordExact (View.wordExact_bits rfl))
  let v35 : Memref sig .scVector .hbm S128x128 .f32 := (oV).slice (Rect.unit (s := S204800x128) (k0_off23 L) S128x128.size (k0_off23_inb L)) (fun _ => rfl)
  Prog.lift (.waitDma2 cc0_scratch19.sem B5 v35 (Memref.isWhole_whole _).wordExact (View.wordExact_bits rfl))
  let v37 : Memref sig .scVector .hbm S128x128 .f32 := (oV).slice (Rect.unit (s := S204800x128) (k0_off23 L) S128x128.size (k0_off23_inb L)) (fun _ => rfl)
  Prog.lift (.waitDma2 cc0_scratch20.sem B6 v37 (Memref.isWhole_whole _).wordExact (View.wordExact_bits rfl))
  pure ⟨⟩

/-- The seventh wait, which ends the task, as printed. -/
def epi7 (L : grid0.Coords) : Prog (TpuEff nD τ sig (Elt F) Λ₀ (.scVector (cV L) (jV L))) PUnit := do
  let v39 : Memref sig .scVector .hbm S128x128 .f32 := (oV).slice (Rect.unit (s := S204800x128) (k0_off23 L) S128x128.size (k0_off23_inb L)) (fun _ => rfl)
  Prog.lift (.waitDma2 cc0_scratch21.sem B7 v39 (Memref.isWhole_whole _).wordExact (View.wordExact_bits rfl))
  pure ⟨⟩

/-! ## Where the seven waits stand in the task -/

/-- The function that holds the loop, up to the loop's end: three gathers issued, then the loop. -/
def epiHead4 (L : grid0.Coords) (v2 : BitVec 32) : Prog (TpuEff nD τ sig (Elt F) Λ₀ (.scVector (cV L) (jV L))) (BitVec 32) := do
  let v15 : Memref sig .scVector .vmem S1x128 .i32 := (iS).slice (Rect.unit (s := S50x128) ![4, 0] S1x128.size inb_S50x128_S1x128_4_0) (fun _ => rfl)
  let v16 : Memref sig .scVector .vmem S128 .i32 := v15.squeeze S128 squeezes_S1x128_S128
  let v17 : Memref sig .scVector .hbm S100000x128 .f32 := (tV).slice (Rect.unit (s := S100000x128) ![0, 0] S100000x128.size inb_S100000x128_S100000x128_0_0) (fun _ => rfl)
  SparseCore.enqueueIndirectGather rfl v17 B5 gathers_S100000x128_S128x128 v16 rfl cc0_scratch12.sem (View.wordExact_bits rfl) rfl (Or.inl rfl)
  let v18 : Memref sig .scVector .vmem S1x128 .i32 := (iS).slice (Rect.unit (s := S50x128) ![5, 0] S1x128.size inb_S50x128_S1x128_5_0) (fun _ => rfl)
  let v19 : Memref sig .scVector .vmem S128 .i32 := v18.squeeze S128 squeezes_S1x128_S128
  let v20 : Memref sig .scVector .hbm S100000x128 .f32 := (tV).slice (Rect.unit (s := S100000x128) ![0, 0] S100000x128.size inb_S100000x128_S100000x128_0_0) (fun _ => rfl)
  SparseCore.enqueueIndirectGather rfl v20 B6 gathers_S100000x128_S128x128 v19 rfl cc0_scratch13.sem (View.wordExact_bits rfl) rfl (Or.inl rfl)
  let v21 : Memref sig .scVector .vmem S1x128 .i32 := (iS).slice (Rect.unit (s := S50x128) ![6, 0] S1x128.size inb_S50x128_S1x128_6_0) (fun _ => rfl)
  let v22 : Memref sig .scVector .vmem S128 .i32 := v21.squeeze S128 squeezes_S1x128_S128
  let v23 : Memref sig .scVector .hbm S100000x128 .f32 := (tV).slice (Rect.unit (s := S100000x128) ![0, 0] S100000x128.size inb_S100000x128_S100000x128_0_0) (fun _ => rfl)
  SparseCore.enqueueIndirectGather rfl v23 B7 gathers_S100000x128_S128x128 v22 rfl cc0_scratch14.sem (View.wordExact_bits rfl) rfl (Or.inl rfl)
  Scf.Loop.for k0_t1_loop k0_t1_ok 0#32 (k0_t1_body L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 v2)

/-- The function that holds the loop is that head, then the six waits. -/
theorem epi_part4_eq (v2 : BitVec 32) :
    k0_part4_skel (F := F) L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 v2 = (epiHead4 (F := F) L v2 >>= fun _ => epi6 (F := F) L) := by
  unfold k0_part4_skel epiHead4 epi6
  simp only [bind_assoc]

/-- The task is its first function, then the function that holds the loop, then the seventh wait. -/
theorem epi_body_eq :
    cc0__gather_body_skel (F := F) L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0
      = (k0_part3 (F := F) L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 >>= fun v2 =>
          k0_part4 (F := F) L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 v2 >>= fun _ => epi7 (F := F) L) := rfl

variable (O : CellTallies nD τ sig (HIx 1)) (W : Waits sig (HIx 1))

/-! ## What holds between the two, and at the end -/

abbrev epi_g48 : Fin 50 := ⟨48, by omega⟩
abbrev epi_g49 : Fin 50 := ⟨49, by omega⟩

/-- After the six waits: slot 6 still writes chunk 48; chunks 0 … 47 and chunk 49 are at the lookup; the other six
    buffers are back, their twelve semaphores at zero, their shares of the table in hand. -/
def Mid : sProp 𝕄 :=
  iprop(slotW7 m I d L epi_g48
    ∗ oDone m I d L 48
    ∗ ((oV).view.loc (thr d L) ↦[(oChunkK (wL L) epi_g49).view.set]{fullShare} OUTbuf m I d)
    ∗ ((∃ f, (B1).view.loc (thr d L) ↦{fullShare} f) ∗ (∃ f, (B2).view.loc (thr d L) ↦{fullShare} f)
      ∗ (∃ f, (B3).view.loc (thr d L) ↦{fullShare} f) ∗ (∃ f, (B4).view.loc (thr d L) ↦{fullShare} f)
      ∗ (∃ f, (B5).view.loc (thr d L) ↦{fullShare} f) ∗ (∃ f, (B6).view.loc (thr d L) ↦{fullShare} f))
    ∗ (semVal (thr d L, SemLoc.dma cc0_scratch8.sem) 0 ∗ semVal (thr d L, SemLoc.dma cc0_scratch9.sem) 0
      ∗ semVal (thr d L, SemLoc.dma cc0_scratch10.sem) 0 ∗ semVal (thr d L, SemLoc.dma cc0_scratch11.sem) 0
      ∗ semVal (thr d L, SemLoc.dma cc0_scratch12.sem) 0 ∗ semVal (thr d L, SemLoc.dma cc0_scratch13.sem) 0)
    ∗ (semVal (thr d L, SemLoc.dma cc0_scratch15.sem) 0 ∗ semVal (thr d L, SemLoc.dma cc0_scratch16.sem) 0
      ∗ semVal (thr d L, SemLoc.dma cc0_scratch17.sem) 0 ∗ semVal (thr d L, SemLoc.dma cc0_scratch18.sem) 0
      ∗ semVal (thr d L, SemLoc.dma cc0_scratch19.sem) 0 ∗ semVal (thr d L, SemLoc.dma cc0_scratch20.sem) 0)
    ∗ (((tV).view.loc (thr d L) ↦[(tAllK).view.set]{qt L 0} m (tLoc d)) ∗ ((tV).view.loc (thr d L) ↦[(tAllK).view.set]{qt L 1} m (tLoc d))
      ∗ ((tV).view.loc (thr d L) ↦[(tAllK).view.set]{qt L 2} m (tLoc d)) ∗ ((tV).view.loc (thr d L) ↦[(tAllK).view.set]{qt L 3} m (tLoc d))
      ∗ ((tV).view.loc (thr d L) ↦[(tAllK).view.set]{qt L 4} m (tLoc d)) ∗ ((tV).view.loc (thr d L) ↦[(tAllK).view.set]{qt L 5} m (tLoc d)))
    ∗ iDone I d L 50 ∗ owesPart d L O W)

/-- At the task's end: its rows of the result at the lookup, its share of the table whole again, the eight scratch
    buffers back at some contents, the fourteen semaphores of the slots at zero, the waits recorded. -/
def EpiPost : sProp 𝕄 :=
  iprop(oRowPts d (wL L) (OUTbuf m I d)
    ∗ ((tV).view.loc (thr d L) ↦[(tAllK).view.set]{tq (wL L)} m (tLoc d))
    ∗ ((∃ f, (iS).view.loc (thr d L) ↦{fullShare} f)
      ∗ (∃ f, (B1).view.loc (thr d L) ↦{fullShare} f) ∗ (∃ f, (B2).view.loc (thr d L) ↦{fullShare} f)
      ∗ (∃ f, (B3).view.loc (thr d L) ↦{fullShare} f) ∗ (∃ f, (B4).view.loc (thr d L) ↦{fullShare} f)
      ∗ (∃ f, (B5).view.loc (thr d L) ↦{fullShare} f) ∗ (∃ f, (B6).view.loc (thr d L) ↦{fullShare} f)
      ∗ (∃ f, (B7).view.loc (thr d L) ↦{fullShare} f))
    ∗ (semVal (thr d L, SemLoc.dma cc0_scratch8.sem) 0 ∗ semVal (thr d L, SemLoc.dma cc0_scratch9.sem) 0
      ∗ semVal (thr d L, SemLoc.dma cc0_scratch10.sem) 0 ∗ semVal (thr d L, SemLoc.dma cc0_scratch11.sem) 0
      ∗ semVal (thr d L, SemLoc.dma cc0_scratch12.sem) 0 ∗ semVal (thr d L, SemLoc.dma cc0_scratch13.sem) 0
      ∗ semVal (thr d L, SemLoc.dma cc0_scratch14.sem) 0)
    ∗ (semVal (thr d L, SemLoc.dma cc0_scratch15.sem) 0 ∗ semVal (thr d L, SemLoc.dma cc0_scratch16.sem) 0
      ∗ semVal (thr d L, SemLoc.dma cc0_scratch17.sem) 0 ∗ semVal (thr d L, SemLoc.dma cc0_scratch18.sem) 0
      ∗ semVal (thr d L, SemLoc.dma cc0_scratch19.sem) 0 ∗ semVal (thr d L, SemLoc.dma cc0_scratch20.sem) 0
      ∗ semVal (thr d L, SemLoc.dma cc0_scratch21.sem) 0)
    ∗ ∃ W', ⌜∀ p ∈ W', p ∈ W ∨ p.2 = none⌝ ∗ owes (thr d L) O W')

/-! ## Sets of rows -/

omit [FloatOps F] in
theorem epi_mem_oRange (lo hi : ℕ) (i : S204800x128.Idx) : i ∈ oRange lo hi ↔ lo ≤ (i 0).val ∧ (i 0).val < hi := by
  unfold oRange
  rw [Finset.mem_filter]
  exact ⟨fun h => h.2, fun h => ⟨Finset.mem_univ _, h⟩⟩

omit [FloatOps F] in
theorem epi_mem_iRange (lo hi : ℕ) (i : S50x128.Idx) : i ∈ iRange lo hi ↔ lo ≤ (i 0).val ∧ (i 0).val < hi := by
  unfold iRange
  rw [Finset.mem_filter]
  exact ⟨fun h => h.2, fun h => ⟨Finset.mem_univ _, h⟩⟩

omit [FloatOps F] in
/-- Chunk g of task w: the elements of the result whose row lies in the 128 rows from 6400·w + 128·g. -/
theorem epi_mem_oChunk (w : Fin 32) (g : Fin 50) (i : S204800x128.Idx) :
    i ∈ (oChunkK w g).view.set ↔ 6400 * w.val + 128 * g.val ≤ (i 0).val ∧ (i 0).val < 6400 * w.val + 128 * g.val + 128 := by
  rw [show (oChunkK w g).view.set
      = (Rect.unit (s := S204800x128) ![6400 * w.val + 128 * g.val, 0] S128x128.size (oChunk_inb w g)).toLoadRect.set from View.set_slice_whole _ _,
    Rect.mem_set_unit, Fin.forall_fin_two]
  have h1 : (i 1).val < 128 := (i 1).isLt
  show (6400 * w.val + 128 * g.val ≤ (i 0).val ∧ (i 0).val < 6400 * w.val + 128 * g.val + 128) ∧ (0 ≤ (i 1).val ∧ (i 1).val < 0 + 128) ↔ _
  omega

omit [FloatOps F] in
/-- Task w's rows of the result: rows 6400·w … 6400·w + 6399. -/
theorem epi_mem_oRowSet (w : Fin 32) (i : S204800x128.Idx) :
    i ∈ oRowSet w ↔ 6400 * w.val ≤ (i 0).val ∧ (i 0).val < 6400 * w.val + 6400 := by
  rw [show oRowSet w = (orow w).toLoadRect.set from View.set_slice_whole _ _, Rect.mem_set_unit, Fin.forall_fin_two]
  have h1 : (i 1).val < 128 := (i 1).isLt
  show (w.val * (204800 / 32) ≤ (i 0).val ∧ (i 0).val < w.val * (204800 / 32) + 204800 / 32)
      ∧ (0 * 128 ≤ (i 1).val ∧ (i 1).val < 0 * 128 + 128) ↔ _
  omega

/-- A chunk at the lookup joins the finished rows below it. -/
theorem epi_oDone_put (g : Fin 50) :
    iprop(((oV).view.loc (thr d L) ↦[(oChunkK (wL L) g).view.set]{fullShare} OUTbuf m I d) ∗ oDone m I d L g.val)
      ⊢ oDone m I d L (g.val + 1) := by
  unfold oDone
  have hd : Disjoint (oChunkK (wL L) g).view.set (oRange (6400 * (wL L).val) (6400 * (wL L).val + 128 * g.val)) :=
    Finset.disjoint_left.mpr fun i h1 h2 => by
      rw [epi_mem_oChunk] at h1; rw [epi_mem_oRange] at h2; omega
  have hu : (oChunkK (wL L) g).view.set ∪ oRange (6400 * (wL L).val) (6400 * (wL L).val + 128 * g.val)
      = oRange (6400 * (wL L).val) (6400 * (wL L).val + 128 * (g.val + 1)) := by
    ext i
    rw [Finset.mem_union, epi_mem_oChunk, epi_mem_oRange, epi_mem_oRange]
    omega
  rw [← hu]
  exact (pointsTo_union hd).2

/-- All fifty chunks finished: the task's rows of the result at the lookup. -/
theorem epi_oDone_all : oDone m I d L 50 = oRowPts d (wL L) (OUTbuf m I d) := by
  have hs : oRange (6400 * (wL L).val) (6400 * (wL L).val + 128 * 50) = oRowSet (wL L) := by
    ext i
    rw [epi_mem_oRange, epi_mem_oRowSet]
  unfold oDone
  rw [hs]

/-- All fifty rows of the index scratch back: the scratch whole. -/
theorem epi_iDone_all : iDone I d L 50 = ((iS).view.loc (thr d L) ↦{fullShare} Widx I d L) := by
  have hs : iRange 0 50 = (Finset.univ : Finset S50x128.Idx) := by
    ext i
    rw [epi_mem_iRange]
    have h0 : (i 0).val < 50 := (i 0).isLt
    exact ⟨fun _ => Finset.mem_univ _, fun _ => ⟨Nat.zero_le _, h0⟩⟩
  unfold iDone
  rw [hs]

omit [FloatOps F] in
theorem epi_bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide,
    bigSep_insert (by decide), bigSep_insert (by decide), bigSep_insert (by decide), bigSep_insert (by decide),
    bigSep_insert (by decide), bigSep_insert (by decide), bigSep_singleton]
  rfl

/-- The task's share of the table is its seven slots' shares. -/
theorem epi_table_pieces :
    ((tV).view.loc (thr d L) ↦[(tAllK).view.set]{tq (wL L)} m (tLoc d) : sProp 𝕄)
      = iprop(((tV).view.loc (thr d L) ↦[(tAllK).view.set]{qt L 0} m (tLoc d)) ∗ ((tV).view.loc (thr d L) ↦[(tAllK).view.set]{qt L 1} m (tLoc d))
        ∗ ((tV).view.loc (thr d L) ↦[(tAllK).view.set]{qt L 2} m (tLoc d)) ∗ ((tV).view.loc (thr d L) ↦[(tAllK).view.set]{qt L 3} m (tLoc d))
        ∗ ((tV).view.loc (thr d L) ↦[(tAllK).view.set]{qt L 4} m (tLoc d)) ∗ ((tV).view.loc (thr d L) ↦[(tAllK).view.set]{qt L 5} m (tLoc d))
        ∗ ((tV).view.loc (thr d L) ↦[(tAllK).view.set]{qt L 6} m (tLoc d))) := by
  rw [pointsTo_piecesOf (tAllK).view.set (m (tLoc d)) (by norm_num : 0 < 7) (tq (wL L)), epi_bigSep_fin7]

omit [FloatOps F] in
/-- A buffer held whole by its own elements is held whole, at some contents. -/
theorem epi_pts_ex_of_univ {sp : Space} {s : Shape} {e : EltTy} (c : Thread nD τ) (M : Memref sig c.2.kind sp s e)
    (hM : M.view.set = Finset.univ) (f : Buf (Elt F) (M.view.loc c)) :
    (M.view.loc c ↦[M.view.set]{fullShare} f : sProp 𝕄) ⊢ iprop(∃ g, M.view.loc c ↦{fullShare} g) := by
  rw [hM]
  iintro H
  iexists f
  iexact H

set_option maxHeartbeats 4000000 in
theorem epilogue6 :
    Inv8 m I d L O W
      ⊢ wp frame (wpE (defs₀ (F := F)) 𝒱₀ (thr d L) none) Set.univ (epi6 (F := F) L) fun _ => Mid m I d L O W := by
  have oDone_put := epi_oDone_put m I d L
  unfold Inv8 slotW1 slotW2 slotW3 slotW4 slotW5 slotW6 slotW7 wDel1 wDel2 wDel3 wDel4 wDel5 wDel6 wDel7 owesPart epi6
  iintro ⟨⟨Hf1, Hg1, Ht1⟩, ⟨Hf2, Hg2, Ht2⟩, ⟨Hf3, Hg3, Ht3⟩, ⟨Hf4, Hg4, Ht4⟩, ⟨Hf5, Hg5, Ht5⟩, ⟨Hf6, Hg6, Ht6⟩, ⟨Hf7, Hg7, Ht7⟩,
    HoD, HoT, HiD, HiT, Hmw, %W', %hW', HO⟩
  sl_exec
  sl_step
  unfold Mid slotW7 wDel7 owesPart
  ihave HoD := (oDone_put ⟨43, by omega⟩) $$ [Hf2_dst HoD]
  · isplitl [Hf2_dst]; · iexact Hf2_dst
    iexact HoD
  ihave HoD := (oDone_put ⟨44, by omega⟩) $$ [Hf3_dst HoD]
  · isplitl [Hf3_dst]; · iexact Hf3_dst
    iexact HoD
  ihave HoD := (oDone_put ⟨45, by omega⟩) $$ [Hf4_dst HoD]
  · isplitl [Hf4_dst]; · iexact Hf4_dst
    iexact HoD
  ihave HoD := (oDone_put ⟨46, by omega⟩) $$ [Hf5_dst HoD]
  · isplitl [Hf5_dst]; · iexact Hf5_dst
    iexact HoD
  ihave HoD := (oDone_put ⟨47, by omega⟩) $$ [Hf6_dst HoD]
  · isplitl [Hf6_dst]; · iexact Hf6_dst
    iexact HoD
  ihave Hb1 := (epi_pts_ex_of_univ (F := F) (thr d L) B1 (View.set_whole _) _) $$ Hf1_src
  ihave Hb2 := (epi_pts_ex_of_univ (F := F) (thr d L) B2 (View.set_whole _) _) $$ Hf2_src
  ihave Hb3 := (epi_pts_ex_of_univ (F := F) (thr d L) B3 (View.set_whole _) _) $$ Hf3_src
  ihave Hb4 := (epi_pts_ex_of_univ (F := F) (thr d L) B4 (View.set_whole _) _) $$ Hf4_src
  ihave Hb5 := (epi_pts_ex_of_univ (F := F) (thr d L) B5 (View.set_whole _) _) $$ Hf5_src
  ihave Hb6 := (epi_pts_ex_of_univ (F := F) (thr d L) B6 (View.set_whole _) _) $$ Hf6_src
  isplitl [Hf7 Hg7 Ht7]
  · isplitl [Hf7]; · iexact Hf7
    isplitl [Hg7]; · iexact Hg7
    iexact Ht7
  isplitl [HoD]; · iexact HoD
  isplitl [Hf1_dst]; · iexact Hf1_dst
  isplitl [Hb1 Hb2 Hb3 Hb4 Hb5 Hb6]
  · isplitl [Hb1]; · iexact Hb1
    isplitl [Hb2]; · iexact Hb2
    isplitl [Hb3]; · iexact Hb3
    isplitl [Hb4]; · iexact Hb4
    isplitl [Hb5]; · iexact Hb5
    iexact Hb6
  isplitl [Hg1 Hg2 Hg3 Hg4 Hg5 Hg6]
  · isplitl [Hg1]; · iexact Hg1
    isplitl [Hg2]; · iexact Hg2
    isplitl [Hg3]; · iexact Hg3
    isplitl [Hg4]; · iexact Hg4
    isplitl [Hg5]; · iexact Hg5
    iexact Hg6
  isplitl [Hf1 Hf2 Hf3 Hf4 Hf5 Hf6]
  · isplitl [Hf1]; · iexact Hf1
    isplitl [Hf2]; · iexact Hf2
    isplitl [Hf3]; · iexact Hf3
    isplitl [Hf4]; · iexact Hf4
    isplitl [Hf5]; · iexact Hf5
    iexact Hf6
  isplitl [Ht1 Ht2 Ht3 Ht4 Ht5 Ht6]
  · isplitl [Ht1]; · iexact Ht1
    isplitl [Ht2]; · iexact Ht2
    isplitl [Ht3]; · iexact Ht3
    isplitl [Ht4]; · iexact Ht4
    isplitl [Ht5]; · iexact Ht5
    iexact Ht6
  isplitl [HiD]; · iexact HiD
  isplitl [Hmw]; · iexact Hmw
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 4000000 in
theorem epilogue7 :
    Mid m I d L O W
      ⊢ wp frame (wpE (defs₀ (F := F)) 𝒱₀ (thr d L) none) Set.univ (epi7 (F := F) L) fun _ => EpiPost m I d L O W := by
  unfold Mid slotW7 wDel7 owesPart epi7
  iintro ⟨⟨Hf7, Hg7, Ht7⟩, HoD, Hc49, ⟨Hb1, Hb2, Hb3, Hb4, Hb5, Hb6⟩, ⟨Hg1, Hg2, Hg3, Hg4, Hg5, Hg6⟩, ⟨Hw1, Hw2, Hw3, Hw4, Hw5, Hw6⟩,
    ⟨Ht1, Ht2, Ht3, Ht4, Ht5, Ht6⟩, HiD, Hmw, %W', %hW', HO⟩
  sl_exec
  sl_step
  unfold EpiPost
  ihave HoD := (epi_oDone_put m I d L epi_g48) $$ [Hf7_dst HoD]
  · isplitl [Hf7_dst]; · iexact Hf7_dst
    iexact HoD
  ihave HoD := (epi_oDone_put m I d L epi_g49) $$ [Hc49 HoD]
  · isplitl [Hc49]; · iexact Hc49
    iexact HoD
  ihave Ho := (Entails.of_eq (epi_oDone_all m I d L)) $$ HoD
  ihave Hi := (Entails.of_eq (epi_iDone_all I d L)) $$ HiD
  ihave Hb7 := (epi_pts_ex_of_univ (F := F) (thr d L) B7 (View.set_whole _) _) $$ Hf7_src
  ihave Ht := (Entails.of_eq (epi_table_pieces m d L).symm) $$ [Ht1 Ht2 Ht3 Ht4 Ht5 Ht6 Ht7]
  · isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Ht7
  isplitl [Ho]; · iexact Ho
  isplitl [Ht]; · iexact Ht
  isplitl [Hi Hb1 Hb2 Hb3 Hb4 Hb5 Hb6 Hb7]
  · isplitl [Hi]; · iexists _; iexact Hi
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexact Hb7
  isplitl [Hg1 Hg2 Hg3 Hg4 Hg5 Hg6 Hg7]
  · isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    iexact Hg7
  isplitl [Hw1 Hw2 Hw3 Hw4 Hw5 Hw6 Hf7]
  · isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hf7
  iexists _; isplitr
  swap; · iexact HO
  ipureintro; intro p hp
  rcases Finset.mem_insert.mp hp with hp | hp; · exact .inr (hp ▸ rfl)
  exact hW' p hp

/-- The seven waits in order, from the loop's end to the task's end. -/
theorem epilogue :
    Inv8 m I d L O W
      ⊢ wp frame (wpE (defs₀ (F := F)) 𝒱₀ (thr d L) none) Set.univ (epi6 (F := F) L >>= fun _ => epi7 (F := F) L)
          fun _ => EpiPost m I d L O W := by
  rw [wp_bind]
  exact (epilogue6 m I d L O W).trans (wp_mono _ _ _ fun _ => epilogue7 m I d L O W)

end Cert.Kernel.Sc

end
-- ==== Proof.KTileIv.lean ====
import proofs.«206296_g7516192768393_cont_9to1c4b_737_14_alg».proof.Proof.KTileSets

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_arg0_scv : Memref Cert.Kernel.sig Kind.scVector Space.hbm Cert.Kernel.S100000x128 EltTy.f32)
local notation "lV" => (Memref.whole Cert.Kernel.main_v1_scv : Memref Cert.Kernel.sig Kind.scVector Space.hbm Cert.Kernel.S32x50x128 EltTy.i32)
local notation "oV" => (Memref.whole Cert.Kernel.main_v2_scv : Memref Cert.Kernel.sig Kind.scVector Space.hbm Cert.Kernel.S204800x128 EltTy.f32)
local notation "iS" => (Memref.whole Cert.Kernel.cc0_scratch0 : Memref Cert.Kernel.sig Kind.scVector Space.vmem Cert.Kernel.S50x128 EltTy.i32)
local notation "B1" => (Memref.whole Cert.Kernel.cc0_scratch1 : Memref Cert.Kernel.sig Kind.scVector Space.vmem Cert.Kernel.S128x128 EltTy.f32)
local notation "B2" => (Memref.whole Cert.Kernel.cc0_scratch2 : Memref Cert.Kernel.sig Kind.scVector Space.vmem Cert.Kernel.S128x128 EltTy.f32)
local notation "B3" => (Memref.whole Cert.Kernel.cc0_scratch3 : Memref Cert.Kernel.sig Kind.scVector Space.vmem Cert.Kernel.S128x128 EltTy.f32)
local notation "B4" => (Memref.whole Cert.Kernel.cc0_scratch4 : Memref Cert.Kernel.sig Kind.scVector Space.vmem Cert.Kernel.S128x128 EltTy.f32)
local notation "B5" => (Memref.whole Cert.Kernel.cc0_scratch5 : Memref Cert.Kernel.sig Kind.scVector Space.vmem Cert.Kernel.S128x128 EltTy.f32)
local notation "B6" => (Memref.whole Cert.Kernel.cc0_scratch6 : Memref Cert.Kernel.sig Kind.scVector Space.vmem Cert.Kernel.S128x128 EltTy.f32)
local notation "B7" => (Memref.whole Cert.Kernel.cc0_scratch7 : Memref Cert.Kernel.sig Kind.scVector Space.vmem Cert.Kernel.S128x128 EltTy.f32)

variable (m : (ℓ : Loc nD τ sig) → Buf (Elt F) ℓ) (I : (d : Dev nD) → Buf (Elt F) (lLoc d))
variable [FloatOps F]
variable (d : Dev nD) (L : grid0.Coords)

/-! ## Taking a chunk or a row off the interval not begun, putting one onto the interval done -/

/-- Chunk g off the rows of the result not begun. -/
theorem oTodo_take (g : Fin 50) :
    oTodo (F := F) d L g.val ⊢ iprop((∃ f, (oV).view.loc (thr d L) ↦[(oChunkK (wL L) g).view.set]{fullShare} f) ∗ oTodo (F := F) d L (g.val + 1)) := by
  unfold oTodo
  have hg := g.isLt
  have ha : 6400 * (wL L).val + 128 * (g.val + 1) = 6400 * (wL L).val + 128 * g.val + 128 := by ring
  rw [ha, set_oChunkK]
  iintro ⟨%f, H⟩
  ihave H' := (Entails.of_eq (pts_oRange_split (F := F) d L fullShare f (lo := 6400 * (wL L).val + 128 * g.val)
    (mid := 6400 * (wL L).val + 128 * g.val + 128) (hi := 6400 * (wL L).val + 6400) (by omega) (by omega))) $$ H
  icases H' with ⟨Hc, Hr⟩
  isplitl [Hc]
  · iexists f; iexact Hc
  · iexists f; iexact Hr

/-- Chunk g, at the lookup, onto the rows of the result done. -/
theorem oDone_put (g : Fin 50) :
    iprop(((oV).view.loc (thr d L) ↦[(oChunkK (wL L) g).view.set]{fullShare} OUTbuf m I d) ∗ oDone m I d L g.val) ⊢ oDone m I d L (g.val + 1) := by
  unfold oDone
  have ha : 6400 * (wL L).val + 128 * (g.val + 1) = 6400 * (wL L).val + 128 * g.val + 128 := by ring
  rw [ha, set_oChunkK, pts_oRange_split (F := F) d L fullShare (OUTbuf m I d) (lo := 6400 * (wL L).val)
    (mid := 6400 * (wL L).val + 128 * g.val) (hi := 6400 * (wL L).val + 128 * g.val + 128) (by omega) (by omega)]
  iintro ⟨Hc, Hd⟩
  isplitl [Hd] <;> iassumption

/-- Row g off the rows of the index scratch not lent. -/
theorem iTodo_take (g : Fin 50) :
    iTodo I d L g.val ⊢ iprop(((iS).view.loc (thr d L) ↦[(iRowK g).view.set]{fullShare} Widx I d L) ∗ iTodo I d L (g.val + 1)) := by
  unfold iTodo
  have hg := g.isLt
  rw [set_iRowK, pts_iRange_split (F := F) d L fullShare (Widx I d L) (lo := g.val) (mid := g.val + 1) (hi := 50) (by omega) (by omega)]

/-- Row g onto the rows of the index scratch that have come back. -/
theorem iDone_put (g : Fin 50) :
    iprop(((iS).view.loc (thr d L) ↦[(iRowK g).view.set]{fullShare} Widx I d L) ∗ iDone I d L g.val) ⊢ iDone I d L (g.val + 1) := by
  unfold iDone
  rw [set_iRowK, pts_iRange_split (F := F) d L fullShare (Widx I d L) (lo := 0) (mid := g.val) (hi := g.val + 1) (by omega) (by omega)]
  iintro ⟨Hc, Hd⟩
  isplitl [Hd] <;> iassumption

/-! ## The values -/

/-- Every word of a row of the task's list names a row of the table. -/
theorem hin_row (hI : ListsOK I) (g : Fin 50) :
    ∀ x, ((iRowK g).view.read (Elt F) (Widx I d L) x).toNat < S100000x128.size gathers_S100000x128_S128x128.axis :=
  hin_Widx I d L hI g

/-- The rows of the table that row g of the task's list names are chunk g of the lookup. -/
theorem gather_val (hI : ListsOK I) (g : Fin 50) (hn : S128.numel = S128x128.size gathers_S100000x128_S128x128.axis')
    (hin : ∀ x, ((iRowK g).view.read (Elt F) (Widx I d L) x).toNat < S100000x128.size gathers_S100000x128_S128x128.axis) :
    SparseCore.gatherPayload gathers_S100000x128_S128x128 ((tAllK).view.read (Elt F) (m (tLoc d)))
        (SparseCore.rows ((iRowK g).view.read (Elt F) (Widx I d L)) hn hin) = gVal m I d L g :=
  gather_eq_gVal m I d L hI g hn hin

/-- Chunk g of the lookup written over chunk g of anything is the lookup there. -/
theorem write_val (g : Fin 50) (fo : Buf (Elt F) (oLoc d)) :
    ∀ i ∈ (oChunkK (wL L) g).view.set, (oChunkK (wL L) g).view.write (Elt F) fo (gVal m I d L g) Finset.univ i = OUTbuf m I d i :=
  fun i hi => write_read_self (oChunkK (wL L) g).view fo (OUTbuf m I d) i hi

end Cert.Kernel.Sc

end
-- ==== Proof.KTileOps.lean ====
/-
  The two issues of a slot, as rules over the invariant's own forms: a slot that starts gathering a chunk lends the
  chunk's row of the index scratch and gets the gather's flight at the canonical delivery; a slot that starts writing a
  chunk takes the chunk off the rows of the result not begun, gives back the row of the index scratch, and gets the
  write's flight at the canonical delivery.
-/
import proofs.«206296_g7516192768393_cont_9to1c4b_737_14_alg».proof.Proof.KTileIv

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_arg0_scv : Memref Cert.Kernel.sig Kind.scVector Space.hbm Cert.Kernel.S100000x128 EltTy.f32)
local notation "lV" => (Memref.whole Cert.Kernel.main_v1_scv : Memref Cert.Kernel.sig Kind.scVector Space.hbm Cert.Kernel.S32x50x128 EltTy.i32)
local notation "oV" => (Memref.whole Cert.Kernel.main_v2_scv : Memref Cert.Kernel.sig Kind.scVector Space.hbm Cert.Kernel.S204800x128 EltTy.f32)
local notation "iS" => (Memref.whole Cert.Kernel.cc0_scratch0 : Memref Cert.Kernel.sig Kind.scVector Space.vmem Cert.Kernel.S50x128 EltTy.i32)
local notation "B1" => (Memref.whole Cert.Kernel.cc0_scratch1 : Memref Cert.Kernel.sig Kind.scVector Space.vmem Cert.Kernel.S128x128 EltTy.f32)
local notation "B2" => (Memref.whole Cert.Kernel.cc0_scratch2 : Memref Cert.Kernel.sig Kind.scVector Space.vmem Cert.Kernel.S128x128 EltTy.f32)
local notation "B3" => (Memref.whole Cert.Kernel.cc0_scratch3 : Memref Cert.Kernel.sig Kind.scVector Space.vmem Cert.Kernel.S128x128 EltTy.f32)
local notation "B4" => (Memref.whole Cert.Kernel.cc0_scratch4 : Memref Cert.Kernel.sig Kind.scVector Space.vmem Cert.Kernel.S128x128 EltTy.f32)
local notation "B5" => (Memref.whole Cert.Kernel.cc0_scratch5 : Memref Cert.Kernel.sig Kind.scVector Space.vmem Cert.Kernel.S128x128 EltTy.f32)
local notation "B6" => (Memref.whole Cert.Kernel.cc0_scratch6 : Memref Cert.Kernel.sig Kind.scVector Space.vmem Cert.Kernel.S128x128 EltTy.f32)
local notation "B7" => (Memref.whole Cert.Kernel.cc0_scratch7 : Memref Cert.Kernel.sig Kind.scVector Space.vmem Cert.Kernel.S128x128 EltTy.f32)

variable (m : (ℓ : Loc nD τ sig) → Buf (Elt F) ℓ) (I : (d : Dev nD) → Buf (Elt F) (lLoc d))
variable [FloatOps F]
variable (d : Dev nD) (L : grid0.Coords)

/-! ## Small things -/

/-- Chunk g onto the rows done, the counts as the caller spells them. -/
theorem oDone_put' (g : Fin 50) (n n' : ℕ) (hn : n = g.val) (hn' : n' = g.val + 1) :
    iprop(((oV).view.loc (thr d L) ↦[(oChunkK (wL L) g).view.set]{fullShare} OUTbuf m I d) ∗ oDone m I d L n) ⊢ oDone m I d L n' := by
  subst hn hn'; exact oDone_put m I d L g

/-- Row g onto the rows come back, the counts as the caller spells them. -/
theorem iDone_put' (g : Fin 50) (n n' : ℕ) (hn : n = g.val) (hn' : n' = g.val + 1) :
    iprop(((iS).view.loc (thr d L) ↦[(iRowK g).view.set]{fullShare} Widx I d L) ∗ iDone I d L n) ⊢ iDone I d L n' := by
  subst hn hn'; exact iDone_put I d L g

omit [FloatOps F] in
/-- One more wait at the index that is nobody's: still only such waits beyond W. -/
theorem waits_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

/-! ## The slots' two issues -/

theorem credit_B1 : ∑ j, ((B1).slice (S128x128.rowRect gathers_S100000x128_S128x128.axis' j) (S128x128.stride_rowRect gathers_S100000x128_S128x128.axis' j)).view.dmaCredit = 524288 :=
  (SparseCore.sum_rowCredit_eq_dmaCredit (B1) gathers_S100000x128_S128x128.axis' (fun _ => rfl)).trans rfl

set_option maxHeartbeats 1000000 in
/-- Slot 0 starts gathering chunk g: its share of the table, its buffer at anything, the rows of the index scratch
    not lent from g on, its gather semaphore at zero. -/
theorem gather1 (hI : ListsOK I) (g : Fin 50) (off : Fin 2 → ℕ) (h : ∀ a, off a + S1x128.size a ≤ S50x128.size a) (e : off = ![g.val, 0])
    (fd : Buf (Elt F) ((B1).view.loc (thr d L))) (n n' : ℕ) (hn : n = g.val) (hn' : n' = g.val + 1)
    {α : Type} {k : PUnit → Prog (TpuEff nD τ sig (Elt F) Λ₀ (thr d L).2) α} {Q : α → sProp 𝕄}
    {hp hnn hsrc he hsp hr} :
    iprop(((tV).view.loc (thr d L) ↦[(tAllK).view.set]{qt L 0} m (tLoc d)) ∗ ((B1).view.loc (thr d L) ↦[(B1).view.set]{fullShare} fd)
        ∗ iTodo I d L n ∗ semVal (thr d L, SemLoc.dma cc0_scratch8.sem) 0)
      ⊢ iprop((iprop(Transfers.Flight countersEmb (thr d L) (SemLoc.dma cc0_scratch8.sem) (default : HIx 1) 524288 (gDel1 m I d L g) ∗ iTodo I d L n')
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp tAllK B1 gathers_S100000x128_S128x128
                (((iS).slice (Rect.unit (s := S50x128) off S1x128.size h) (fun _ => rfl)).squeeze S128 squeezes_S1x128_S128) hnn cc0_scratch8.sem hsrc he hsp hr >>= k) Q) := by
  subst e hn hn'
  iintro ⟨Ht, Hb, HiT, Hv⟩ Hk
  ihave Hr := (iTodo_take I d L g) $$ HiT
  icases Hr with ⟨Hrow, HiT⟩
  iapply (SparseCore.wp_indirectGatherLocal countersEmb 𝒱₀ (thr d L) none (hg := gathers_S100000x128_S128x128) (default : HIx 1) 524288
      credit_B1 (by decide) (hin_row I d L hI g)) $$ [Ht Hb Hrow Hv]
  · isplitl [Ht]; · iexact Ht
    isplitl [Hb]; · iexact Hb
    isplitl [Hrow]; · iexact Hrow
    iexact Hv
  iintro Hfl
  iapply Hk
  isplitl [Hfl]
  · iapply (Transfers.Flight_mono countersEmb (thr d L) (D' := gDel1 m I d L g) ?_) $$ Hfl
    unfold gDel1
    iintro ⟨Hd, Hs, Ho⟩
    isplitl [Hd Ho]
    · isplitl [Hd]
      · rw [View.write_whole_univ, gather_val m I d L hI g]; iexact Hd
      · iexact Ho
    · iexact Hs
  · iexact HiT

set_option maxRecDepth 65536 in
set_option maxHeartbeats 1000000 in
/-- Slot 0 starts writing chunk g: its buffer at the chunk's values with row g of the index scratch (as the gather's
    wait hands them back), the rows of the result not begun from g on, the rows of the index scratch come back
    below g, its write semaphore at zero. -/
theorem write1 (g : Fin 50) (off : Fin 2 → ℕ) (h : ∀ a, off a + S128x128.size a ≤ S204800x128.size a)
    (e : off = ![6400 * (wL L).val + 128 * g.val, 0]) (n n' : ℕ) (hn : n = g.val) (hn' : n' = g.val + 1)
    {α : Type} {k : PUnit → Prog (TpuEff nD τ sig (Elt F) Λ₀ (thr d L).2) α} {Q : α → sProp 𝕄} {hsrc hdst hsem} :
    iprop((((B1).view.loc (thr d L) ↦[(B1).view.set]{fullShare} gVal m I d L g)
          ∗ ((iS).view.loc (thr d L) ↦[(iRowK g).view.set]{fullShare} Widx I d L))
        ∗ oTodo (F := F) d L n ∗ iDone I d L n ∗ semVal (thr d L, SemLoc.dma cc0_scratch15.sem) 0)
      ⊢ iprop((iprop(Transfers.Flight countersEmb (thr d L) (SemLoc.dma cc0_scratch15.sem) (default : HIx 1) 524288 (wDel1 m I d L g)
                ∗ oTodo (F := F) d L n' ∗ iDone I d L n')
              -∗ wp frame (wpE (defs₀ (F := F)) 𝒱₀ (thr d L) none) Set.univ (k ⟨⟩) Q)
          -∗ wp frame (wpE (defs₀ (F := F)) 𝒱₀ (thr d L) none) Set.univ
              (.op (.enqueueDmaAs B1 (.here ((oV).slice (Rect.unit (s := S204800x128) off S128x128.size h) (fun _ => rfl))) .same
                (SemLoc.dma cc0_scratch15.sem) hsrc hdst hsem) k) Q) := by
  subst e hn hn'
  iintro ⟨⟨Hb, Hrow⟩, HoT, HiD, Hv⟩ Hk
  ihave Hc := (oTodo_take (F := F) d L g) $$ HoT
  icases Hc with ⟨⟨%fo, Hc⟩, HoT⟩
  ihave HiD := (iDone_put I d L g) $$ [Hrow HiD]; · isplitl [Hrow] <;> iassumption
  have hN : (oChunkK (wL L) g).view.amount (SemLoc.dma cc0_scratch15.sem) = 524288 := rfl
  iapply (Transfers.wp_dmaLocal countersEmb 𝒱₀ (thr d L) none (default : HIx 1) 524288 hN (by norm_num) subset_rfl) $$ [Hb Hc Hv]
  · isplitl [Hb]; · iexact Hb
    isplitl [Hc]; · iexact Hc
    iexact Hv
  iintro Hfl
  iapply Hk
  isplitl [Hfl]
  · have hval : ∀ i ∈ (oChunkK (wL L) g).view.set,
        (oChunkK (wL L) g).view.write (Elt F) fo ((ReadAs.same : ReadAs (Elt F) S128x128 .f32 S128x128 .f32).apply ((B1).view.read (Elt F) (gVal m I d L g))) Finset.univ i
          = OUTbuf m I d i := write_val m I d L g fo
    iapply (Transfers.Flight_mono countersEmb (thr d L) (D' := wDel1 m I d L g)
      (sep_mono (Entails.of_eq (pointsTo_congr hval)) .rfl)) $$ Hfl
  · isplitl [HoT] <;> iassumption

theorem credit_B2 : ∑ j, ((B2).slice (S128x128.rowRect gathers_S100000x128_S128x128.axis' j) (S128x128.stride_rowRect gathers_S100000x128_S128x128.axis' j)).view.dmaCredit = 524288 :=
  (SparseCore.sum_rowCredit_eq_dmaCredit (B2) gathers_S100000x128_S128x128.axis' (fun _ => rfl)).trans rfl

set_option maxHeartbeats 1000000 in
/-- Slot 1 starts gathering chunk g: its share of the table, its buffer at anything, the rows of the index scratch
    not lent from g on, its gather semaphore at zero. -/
theorem gather2 (hI : ListsOK I) (g : Fin 50) (off : Fin 2 → ℕ) (h : ∀ a, off a + S1x128.size a ≤ S50x128.size a) (e : off = ![g.val, 0])
    (fd : Buf (Elt F) ((B2).view.loc (thr d L))) (n n' : ℕ) (hn : n = g.val) (hn' : n' = g.val + 1)
    {α : Type} {k : PUnit → Prog (TpuEff nD τ sig (Elt F) Λ₀ (thr d L).2) α} {Q : α → sProp 𝕄}
    {hp hnn hsrc he hsp hr} :
    iprop(((tV).view.loc (thr d L) ↦[(tAllK).view.set]{qt L 1} m (tLoc d)) ∗ ((B2).view.loc (thr d L) ↦[(B2).view.set]{fullShare} fd)
        ∗ iTodo I d L n ∗ semVal (thr d L, SemLoc.dma cc0_scratch9.sem) 0)
      ⊢ iprop((iprop(Transfers.Flight countersEmb (thr d L) (SemLoc.dma cc0_scratch9.sem) (default : HIx 1) 524288 (gDel2 m I d L g) ∗ iTodo I d L n')
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp tAllK B2 gathers_S100000x128_S128x128
                (((iS).slice (Rect.unit (s := S50x128) off S1x128.size h) (fun _ => rfl)).squeeze S128 squeezes_S1x128_S128) hnn cc0_scratch9.sem hsrc he hsp hr >>= k) Q) := by
  subst e hn hn'
  iintro ⟨Ht, Hb, HiT, Hv⟩ Hk
  ihave Hr := (iTodo_take I d L g) $$ HiT
  icases Hr with ⟨Hrow, HiT⟩
  iapply (SparseCore.wp_indirectGatherLocal countersEmb 𝒱₀ (thr d L) none (hg := gathers_S100000x128_S128x128) (default : HIx 1) 524288
      credit_B2 (by decide) (hin_row I d L hI g)) $$ [Ht Hb Hrow Hv]
  · isplitl [Ht]; · iexact Ht
    isplitl [Hb]; · iexact Hb
    isplitl [Hrow]; · iexact Hrow
    iexact Hv
  iintro Hfl
  iapply Hk
  isplitl [Hfl]
  · iapply (Transfers.Flight_mono countersEmb (thr d L) (D' := gDel2 m I d L g) ?_) $$ Hfl
    unfold gDel2
    iintro ⟨Hd, Hs, Ho⟩
    isplitl [Hd Ho]
    · isplitl [Hd]
      · rw [View.write_whole_univ, gather_val m I d L hI g]; iexact Hd
      · iexact Ho
    · iexact Hs
  · iexact HiT

set_option maxRecDepth 65536 in
set_option maxHeartbeats 1000000 in
/-- Slot 1 starts writing chunk g: its buffer at the chunk's values with row g of the index scratch (as the gather's
    wait hands them back), the rows of the result not begun from g on, the rows of the index scratch come back
    below g, its write semaphore at zero. -/
theorem write2 (g : Fin 50) (off : Fin 2 → ℕ) (h : ∀ a, off a + S128x128.size a ≤ S204800x128.size a)
    (e : off = ![6400 * (wL L).val + 128 * g.val, 0]) (n n' : ℕ) (hn : n = g.val) (hn' : n' = g.val + 1)
    {α : Type} {k : PUnit → Prog (TpuEff nD τ sig (Elt F) Λ₀ (thr d L).2) α} {Q : α → sProp 𝕄} {hsrc hdst hsem} :
    iprop((((B2).view.loc (thr d L) ↦[(B2).view.set]{fullShare} gVal m I d L g)
          ∗ ((iS).view.loc (thr d L) ↦[(iRowK g).view.set]{fullShare} Widx I d L))
        ∗ oTodo (F := F) d L n ∗ iDone I d L n ∗ semVal (thr d L, SemLoc.dma cc0_scratch16.sem) 0)
      ⊢ iprop((iprop(Transfers.Flight countersEmb (thr d L) (SemLoc.dma cc0_scratch16.sem) (default : HIx 1) 524288 (wDel2 m I d L g)
                ∗ oTodo (F := F) d L n' ∗ iDone I d L n')
              -∗ wp frame (wpE (defs₀ (F := F)) 𝒱₀ (thr d L) none) Set.univ (k ⟨⟩) Q)
          -∗ wp frame (wpE (defs₀ (F := F)) 𝒱₀ (thr d L) none) Set.univ
              (.op (.enqueueDmaAs B2 (.here ((oV).slice (Rect.unit (s := S204800x128) off S128x128.size h) (fun _ => rfl))) .same
                (SemLoc.dma cc0_scratch16.sem) hsrc hdst hsem) k) Q) := by
  subst e hn hn'
  iintro ⟨⟨Hb, Hrow⟩, HoT, HiD, Hv⟩ Hk
  ihave Hc := (oTodo_take (F := F) d L g) $$ HoT
  icases Hc with ⟨⟨%fo, Hc⟩, HoT⟩
  ihave HiD := (iDone_put I d L g) $$ [Hrow HiD]; · isplitl [Hrow] <;> iassumption
  have hN : (oChunkK (wL L) g).view.amount (SemLoc.dma cc0_scratch16.sem) = 524288 := rfl
  iapply (Transfers.wp_dmaLocal countersEmb 𝒱₀ (thr d L) none (default : HIx 1) 524288 hN (by norm_num) subset_rfl) $$ [Hb Hc Hv]
  · isplitl [Hb]; · iexact Hb
    isplitl [Hc]; · iexact Hc
    iexact Hv
  iintro Hfl
  iapply Hk
  isplitl [Hfl]
  · have hval : ∀ i ∈ (oChunkK (wL L) g).view.set,
        (oChunkK (wL L) g).view.write (Elt F) fo ((ReadAs.same : ReadAs (Elt F) S128x128 .f32 S128x128 .f32).apply ((B2).view.read (Elt F) (gVal m I d L g))) Finset.univ i
          = OUTbuf m I d i := write_val m I d L g fo
    iapply (Transfers.Flight_mono countersEmb (thr d L) (D' := wDel2 m I d L g)
      (sep_mono (Entails.of_eq (pointsTo_congr hval)) .rfl)) $$ Hfl
  · isplitl [HoT] <;> iassumption

theorem credit_B3 : ∑ j, ((B3).slice (S128x128.rowRect gathers_S100000x128_S128x128.axis' j) (S128x128.stride_rowRect gathers_S100000x128_S128x128.axis' j)).view.dmaCredit = 524288 :=
  (SparseCore.sum_rowCredit_eq_dmaCredit (B3) gathers_S100000x128_S128x128.axis' (fun _ => rfl)).trans rfl

set_option maxHeartbeats 1000000 in
/-- Slot 2 starts gathering chunk g: its share of the table, its buffer at anything, the rows of the index scratch
    not lent from g on, its gather semaphore at zero. -/
theorem gather3 (hI : ListsOK I) (g : Fin 50) (off : Fin 2 → ℕ) (h : ∀ a, off a + S1x128.size a ≤ S50x128.size a) (e : off = ![g.val, 0])
    (fd : Buf (Elt F) ((B3).view.loc (thr d L))) (n n' : ℕ) (hn : n = g.val) (hn' : n' = g.val + 1)
    {α : Type} {k : PUnit → Prog (TpuEff nD τ sig (Elt F) Λ₀ (thr d L).2) α} {Q : α → sProp 𝕄}
    {hp hnn hsrc he hsp hr} :
    iprop(((tV).view.loc (thr d L) ↦[(tAllK).view.set]{qt L 2} m (tLoc d)) ∗ ((B3).view.loc (thr d L) ↦[(B3).view.set]{fullShare} fd)
        ∗ iTodo I d L n ∗ semVal (thr d L, SemLoc.dma cc0_scratch10.sem) 0)
      ⊢ iprop((iprop(Transfers.Flight countersEmb (thr d L) (SemLoc.dma cc0_scratch10.sem) (default : HIx 1) 524288 (gDel3 m I d L g) ∗ iTodo I d L n')
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp tAllK B3 gathers_S100000x128_S128x128
                (((iS).slice (Rect.unit (s := S50x128) off S1x128.size h) (fun _ => rfl)).squeeze S128 squeezes_S1x128_S128) hnn cc0_scratch10.sem hsrc he hsp hr >>= k) Q) := by
  subst e hn hn'
  iintro ⟨Ht, Hb, HiT, Hv⟩ Hk
  ihave Hr := (iTodo_take I d L g) $$ HiT
  icases Hr with ⟨Hrow, HiT⟩
  iapply (SparseCore.wp_indirectGatherLocal countersEmb 𝒱₀ (thr d L) none (hg := gathers_S100000x128_S128x128) (default : HIx 1) 524288
      credit_B3 (by decide) (hin_row I d L hI g)) $$ [Ht Hb Hrow Hv]
  · isplitl [Ht]; · iexact Ht
    isplitl [Hb]; · iexact Hb
    isplitl [Hrow]; · iexact Hrow
    iexact Hv
  iintro Hfl
  iapply Hk
  isplitl [Hfl]
  · iapply (Transfers.Flight_mono countersEmb (thr d L) (D' := gDel3 m I d L g) ?_) $$ Hfl
    unfold gDel3
    iintro ⟨Hd, Hs, Ho⟩
    isplitl [Hd Ho]
    · isplitl [Hd]
      · rw [View.write_whole_univ, gather_val m I d L hI g]; iexact Hd
      · iexact Ho
    · iexact Hs
  · iexact HiT

set_option maxRecDepth 65536 in
set_option maxHeartbeats 1000000 in
/-- Slot 2 starts writing chunk g: its buffer at the chunk's values with row g of the index scratch (as the gather's
    wait hands them back), the rows of the result not begun from g on, the rows of the index scratch come back
    below g, its write semaphore at zero. -/
theorem write3 (g : Fin 50) (off : Fin 2 → ℕ) (h : ∀ a, off a + S128x128.size a ≤ S204800x128.size a)
    (e : off = ![6400 * (wL L).val + 128 * g.val, 0]) (n n' : ℕ) (hn : n = g.val) (hn' : n' = g.val + 1)
    {α : Type} {k : PUnit → Prog (TpuEff nD τ sig (Elt F) Λ₀ (thr d L).2) α} {Q : α → sProp 𝕄} {hsrc hdst hsem} :
    iprop((((B3).view.loc (thr d L) ↦[(B3).view.set]{fullShare} gVal m I d L g)
          ∗ ((iS).view.loc (thr d L) ↦[(iRowK g).view.set]{fullShare} Widx I d L))
        ∗ oTodo (F := F) d L n ∗ iDone I d L n ∗ semVal (thr d L, SemLoc.dma cc0_scratch17.sem) 0)
      ⊢ iprop((iprop(Transfers.Flight countersEmb (thr d L) (SemLoc.dma cc0_scratch17.sem) (default : HIx 1) 524288 (wDel3 m I d L g)
                ∗ oTodo (F := F) d L n' ∗ iDone I d L n')
              -∗ wp frame (wpE (defs₀ (F := F)) 𝒱₀ (thr d L) none) Set.univ (k ⟨⟩) Q)
          -∗ wp frame (wpE (defs₀ (F := F)) 𝒱₀ (thr d L) none) Set.univ
              (.op (.enqueueDmaAs B3 (.here ((oV).slice (Rect.unit (s := S204800x128) off S128x128.size h) (fun _ => rfl))) .same
                (SemLoc.dma cc0_scratch17.sem) hsrc hdst hsem) k) Q) := by
  subst e hn hn'
  iintro ⟨⟨Hb, Hrow⟩, HoT, HiD, Hv⟩ Hk
  ihave Hc := (oTodo_take (F := F) d L g) $$ HoT
  icases Hc with ⟨⟨%fo, Hc⟩, HoT⟩
  ihave HiD := (iDone_put I d L g) $$ [Hrow HiD]; · isplitl [Hrow] <;> iassumption
  have hN : (oChunkK (wL L) g).view.amount (SemLoc.dma cc0_scratch17.sem) = 524288 := rfl
  iapply (Transfers.wp_dmaLocal countersEmb 𝒱₀ (thr d L) none (default : HIx 1) 524288 hN (by norm_num) subset_rfl) $$ [Hb Hc Hv]
  · isplitl [Hb]; · iexact Hb
    isplitl [Hc]; · iexact Hc
    iexact Hv
  iintro Hfl
  iapply Hk
  isplitl [Hfl]
  · have hval : ∀ i ∈ (oChunkK (wL L) g).view.set,
        (oChunkK (wL L) g).view.write (Elt F) fo ((ReadAs.same : ReadAs (Elt F) S128x128 .f32 S128x128 .f32).apply ((B3).view.read (Elt F) (gVal m I d L g))) Finset.univ i
          = OUTbuf m I d i := write_val m I d L g fo
    iapply (Transfers.Flight_mono countersEmb (thr d L) (D' := wDel3 m I d L g)
      (sep_mono (Entails.of_eq (pointsTo_congr hval)) .rfl)) $$ Hfl
  · isplitl [HoT] <;> iassumption

theorem credit_B4 : ∑ j, ((B4).slice (S128x128.rowRect gathers_S100000x128_S128x128.axis' j) (S128x128.stride_rowRect gathers_S100000x128_S128x128.axis' j)).view.dmaCredit = 524288 :=
  (SparseCore.sum_rowCredit_eq_dmaCredit (B4) gathers_S100000x128_S128x128.axis' (fun _ => rfl)).trans rfl

set_option maxHeartbeats 1000000 in
/-- Slot 3 starts gathering chunk g: its share of the table, its buffer at anything, the rows of the index scratch
    not lent from g on, its gather semaphore at zero. -/
theorem gather4 (hI : ListsOK I) (g : Fin 50) (off : Fin 2 → ℕ) (h : ∀ a, off a + S1x128.size a ≤ S50x128.size a) (e : off = ![g.val, 0])
    (fd : Buf (Elt F) ((B4).view.loc (thr d L))) (n n' : ℕ) (hn : n = g.val) (hn' : n' = g.val + 1)
    {α : Type} {k : PUnit → Prog (TpuEff nD τ sig (Elt F) Λ₀ (thr d L).2) α} {Q : α → sProp 𝕄}
    {hp hnn hsrc he hsp hr} :
    iprop(((tV).view.loc (thr d L) ↦[(tAllK).view.set]{qt L 3} m (tLoc d)) ∗ ((B4).view.loc (thr d L) ↦[(B4).view.set]{fullShare} fd)
        ∗ iTodo I d L n ∗ semVal (thr d L, SemLoc.dma cc0_scratch11.sem) 0)
      ⊢ iprop((iprop(Transfers.Flight countersEmb (thr d L) (SemLoc.dma cc0_scratch11.sem) (default : HIx 1) 524288 (gDel4 m I d L g) ∗ iTodo I d L n')
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp tAllK B4 gathers_S100000x128_S128x128
                (((iS).slice (Rect.unit (s := S50x128) off S1x128.size h) (fun _ => rfl)).squeeze S128 squeezes_S1x128_S128) hnn cc0_scratch11.sem hsrc he hsp hr >>= k) Q) := by
  subst e hn hn'
  iintro ⟨Ht, Hb, HiT, Hv⟩ Hk
  ihave Hr := (iTodo_take I d L g) $$ HiT
  icases Hr with ⟨Hrow, HiT⟩
  iapply (SparseCore.wp_indirectGatherLocal countersEmb 𝒱₀ (thr d L) none (hg := gathers_S100000x128_S128x128) (default : HIx 1) 524288
      credit_B4 (by decide) (hin_row I d L hI g)) $$ [Ht Hb Hrow Hv]
  · isplitl [Ht]; · iexact Ht
    isplitl [Hb]; · iexact Hb
    isplitl [Hrow]; · iexact Hrow
    iexact Hv
  iintro Hfl
  iapply Hk
  isplitl [Hfl]
  · iapply (Transfers.Flight_mono countersEmb (thr d L) (D' := gDel4 m I d L g) ?_) $$ Hfl
    unfold gDel4
    iintro ⟨Hd, Hs, Ho⟩
    isplitl [Hd Ho]
    · isplitl [Hd]
      · rw [View.write_whole_univ, gather_val m I d L hI g]; iexact Hd
      · iexact Ho
    · iexact Hs
  · iexact HiT

set_option maxRecDepth 65536 in
set_option maxHeartbeats 1000000 in
/-- Slot 3 starts writing chunk g: its buffer at the chunk's values with row g of the index scratch (as the gather's
    wait hands them back), the rows of the result not begun from g on, the rows of the index scratch come back
    below g, its write semaphore at zero. -/
theorem write4 (g : Fin 50) (off : Fin 2 → ℕ) (h : ∀ a, off a + S128x128.size a ≤ S204800x128.size a)
    (e : off = ![6400 * (wL L).val + 128 * g.val, 0]) (n n' : ℕ) (hn : n = g.val) (hn' : n' = g.val + 1)
    {α : Type} {k : PUnit → Prog (TpuEff nD τ sig (Elt F) Λ₀ (thr d L).2) α} {Q : α → sProp 𝕄} {hsrc hdst hsem} :
    iprop((((B4).view.loc (thr d L) ↦[(B4).view.set]{fullShare} gVal m I d L g)
          ∗ ((iS).view.loc (thr d L) ↦[(iRowK g).view.set]{fullShare} Widx I d L))
        ∗ oTodo (F := F) d L n ∗ iDone I d L n ∗ semVal (thr d L, SemLoc.dma cc0_scratch18.sem) 0)
      ⊢ iprop((iprop(Transfers.Flight countersEmb (thr d L) (SemLoc.dma cc0_scratch18.sem) (default : HIx 1) 524288 (wDel4 m I d L g)
                ∗ oTodo (F := F) d L n' ∗ iDone I d L n')
              -∗ wp frame (wpE (defs₀ (F := F)) 𝒱₀ (thr d L) none) Set.univ (k ⟨⟩) Q)
          -∗ wp frame (wpE (defs₀ (F := F)) 𝒱₀ (thr d L) none) Set.univ
              (.op (.enqueueDmaAs B4 (.here ((oV).slice (Rect.unit (s := S204800x128) off S128x128.size h) (fun _ => rfl))) .same
                (SemLoc.dma cc0_scratch18.sem) hsrc hdst hsem) k) Q) := by
  subst e hn hn'
  iintro ⟨⟨Hb, Hrow⟩, HoT, HiD, Hv⟩ Hk
  ihave Hc := (oTodo_take (F := F) d L g) $$ HoT
  icases Hc with ⟨⟨%fo, Hc⟩, HoT⟩
  ihave HiD := (iDone_put I d L g) $$ [Hrow HiD]; · isplitl [Hrow] <;> iassumption
  have hN : (oChunkK (wL L) g).view.amount (SemLoc.dma cc0_scratch18.sem) = 524288 := rfl
  iapply (Transfers.wp_dmaLocal countersEmb 𝒱₀ (thr d L) none (default : HIx 1) 524288 hN (by norm_num) subset_rfl) $$ [Hb Hc Hv]
  · isplitl [Hb]; · iexact Hb
    isplitl [Hc]; · iexact Hc
    iexact Hv
  iintro Hfl
  iapply Hk
  isplitl [Hfl]
  · have hval : ∀ i ∈ (oChunkK (wL L) g).view.set,
        (oChunkK (wL L) g).view.write (Elt F) fo ((ReadAs.same : ReadAs (Elt F) S128x128 .f32 S128x128 .f32).apply ((B4).view.read (Elt F) (gVal m I d L g))) Finset.univ i
          = OUTbuf m I d i := write_val m I d L g fo
    iapply (Transfers.Flight_mono countersEmb (thr d L) (D' := wDel4 m I d L g)
      (sep_mono (Entails.of_eq (pointsTo_congr hval)) .rfl)) $$ Hfl
  · isplitl [HoT] <;> iassumption

theorem credit_B5 : ∑ j, ((B5).slice (S128x128.rowRect gathers_S100000x128_S128x128.axis' j) (S128x128.stride_rowRect gathers_S100000x128_S128x128.axis' j)).view.dmaCredit = 524288 :=
  (SparseCore.sum_rowCredit_eq_dmaCredit (B5) gathers_S100000x128_S128x128.axis' (fun _ => rfl)).trans rfl

set_option maxHeartbeats 1000000 in
/-- Slot 4 starts gathering chunk g: its share of the table, its buffer at anything, the rows of the index scratch
    not lent from g on, its gather semaphore at zero. -/
theorem gather5 (hI : ListsOK I) (g : Fin 50) (off : Fin 2 → ℕ) (h : ∀ a, off a + S1x128.size a ≤ S50x128.size a) (e : off = ![g.val, 0])
    (fd : Buf (Elt F) ((B5).view.loc (thr d L))) (n n' : ℕ) (hn : n = g.val) (hn' : n' = g.val + 1)
    {α : Type} {k : PUnit → Prog (TpuEff nD τ sig (Elt F) Λ₀ (thr d L).2) α} {Q : α → sProp 𝕄}
    {hp hnn hsrc he hsp hr} :
    iprop(((tV).view.loc (thr d L) ↦[(tAllK).view.set]{qt L 4} m (tLoc d)) ∗ ((B5).view.loc (thr d L) ↦[(B5).view.set]{fullShare} fd)
        ∗ iTodo I d L n ∗ semVal (thr d L, SemLoc.dma cc0_scratch12.sem) 0)
      ⊢ iprop((iprop(Transfers.Flight countersEmb (thr d L) (SemLoc.dma cc0_scratch12.sem) (default : HIx 1) 524288 (gDel5 m I d L g) ∗ iTodo I d L n')
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp tAllK B5 gathers_S100000x128_S128x128
                (((iS).slice (Rect.unit (s := S50x128) off S1x128.size h) (fun _ => rfl)).squeeze S128 squeezes_S1x128_S128) hnn cc0_scratch12.sem hsrc he hsp hr >>= k) Q) := by
  subst e hn hn'
  iintro ⟨Ht, Hb, HiT, Hv⟩ Hk
  ihave Hr := (iTodo_take I d L g) $$ HiT
  icases Hr with ⟨Hrow, HiT⟩
  iapply (SparseCore.wp_indirectGatherLocal countersEmb 𝒱₀ (thr d L) none (hg := gathers_S100000x128_S128x128) (default : HIx 1) 524288
      credit_B5 (by decide) (hin_row I d L hI g)) $$ [Ht Hb Hrow Hv]
  · isplitl [Ht]; · iexact Ht
    isplitl [Hb]; · iexact Hb
    isplitl [Hrow]; · iexact Hrow
    iexact Hv
  iintro Hfl
  iapply Hk
  isplitl [Hfl]
  · iapply (Transfers.Flight_mono countersEmb (thr d L) (D' := gDel5 m I d L g) ?_) $$ Hfl
    unfold gDel5
    iintro ⟨Hd, Hs, Ho⟩
    isplitl [Hd Ho]
    · isplitl [Hd]
      · rw [View.write_whole_univ, gather_val m I d L hI g]; iexact Hd
      · iexact Ho
    · iexact Hs
  · iexact HiT

set_option maxRecDepth 65536 in
set_option maxHeartbeats 1000000 in
/-- Slot 4 starts writing chunk g: its buffer at the chunk's values with row g of the index scratch (as the gather's
    wait hands them back), the rows of the result not begun from g on, the rows of the index scratch come back
    below g, its write semaphore at zero. -/
theorem write5 (g : Fin 50) (off : Fin 2 → ℕ) (h : ∀ a, off a + S128x128.size a ≤ S204800x128.size a)
    (e : off = ![6400 * (wL L).val + 128 * g.val, 0]) (n n' : ℕ) (hn : n = g.val) (hn' : n' = g.val + 1)
    {α : Type} {k : PUnit → Prog (TpuEff nD τ sig (Elt F) Λ₀ (thr d L).2) α} {Q : α → sProp 𝕄} {hsrc hdst hsem} :
    iprop((((B5).view.loc (thr d L) ↦[(B5).view.set]{fullShare} gVal m I d L g)
          ∗ ((iS).view.loc (thr d L) ↦[(iRowK g).view.set]{fullShare} Widx I d L))
        ∗ oTodo (F := F) d L n ∗ iDone I d L n ∗ semVal (thr d L, SemLoc.dma cc0_scratch19.sem) 0)
      ⊢ iprop((iprop(Transfers.Flight countersEmb (thr d L) (SemLoc.dma cc0_scratch19.sem) (default : HIx 1) 524288 (wDel5 m I d L g)
                ∗ oTodo (F := F) d L n' ∗ iDone I d L n')
              -∗ wp frame (wpE (defs₀ (F := F)) 𝒱₀ (thr d L) none) Set.univ (k ⟨⟩) Q)
          -∗ wp frame (wpE (defs₀ (F := F)) 𝒱₀ (thr d L) none) Set.univ
              (.op (.enqueueDmaAs B5 (.here ((oV).slice (Rect.unit (s := S204800x128) off S128x128.size h) (fun _ => rfl))) .same
                (SemLoc.dma cc0_scratch19.sem) hsrc hdst hsem) k) Q) := by
  subst e hn hn'
  iintro ⟨⟨Hb, Hrow⟩, HoT, HiD, Hv⟩ Hk
  ihave Hc := (oTodo_take (F := F) d L g) $$ HoT
  icases Hc with ⟨⟨%fo, Hc⟩, HoT⟩
  ihave HiD := (iDone_put I d L g) $$ [Hrow HiD]; · isplitl [Hrow] <;> iassumption
  have hN : (oChunkK (wL L) g).view.amount (SemLoc.dma cc0_scratch19.sem) = 524288 := rfl
  iapply (Transfers.wp_dmaLocal countersEmb 𝒱₀ (thr d L) none (default : HIx 1) 524288 hN (by norm_num) subset_rfl) $$ [Hb Hc Hv]
  · isplitl [Hb]; · iexact Hb
    isplitl [Hc]; · iexact Hc
    iexact Hv
  iintro Hfl
  iapply Hk
  isplitl [Hfl]
  · have hval : ∀ i ∈ (oChunkK (wL L) g).view.set,
        (oChunkK (wL L) g).view.write (Elt F) fo ((ReadAs.same : ReadAs (Elt F) S128x128 .f32 S128x128 .f32).apply ((B5).view.read (Elt F) (gVal m I d L g))) Finset.univ i
          = OUTbuf m I d i := write_val m I d L g fo
    iapply (Transfers.Flight_mono countersEmb (thr d L) (D' := wDel5 m I d L g)
      (sep_mono (Entails.of_eq (pointsTo_congr hval)) .rfl)) $$ Hfl
  · isplitl [HoT] <;> iassumption

theorem credit_B6 : ∑ j, ((B6).slice (S128x128.rowRect gathers_S100000x128_S128x128.axis' j) (S128x128.stride_rowRect gathers_S100000x128_S128x128.axis' j)).view.dmaCredit = 524288 :=
  (SparseCore.sum_rowCredit_eq_dmaCredit (B6) gathers_S100000x128_S128x128.axis' (fun _ => rfl)).trans rfl

set_option maxHeartbeats 1000000 in
/-- Slot 5 starts gathering chunk g: its share of the table, its buffer at anything, the rows of the index scratch
    not lent from g on, its gather semaphore at zero. -/
theorem gather6 (hI : ListsOK I) (g : Fin 50) (off : Fin 2 → ℕ) (h : ∀ a, off a + S1x128.size a ≤ S50x128.size a) (e : off = ![g.val, 0])
    (fd : Buf (Elt F) ((B6).view.loc (thr d L))) (n n' : ℕ) (hn : n = g.val) (hn' : n' = g.val + 1)
    {α : Type} {k : PUnit → Prog (TpuEff nD τ sig (Elt F) Λ₀ (thr d L).2) α} {Q : α → sProp 𝕄}
    {hp hnn hsrc he hsp hr} :
    iprop(((tV).view.loc (thr d L) ↦[(tAllK).view.set]{qt L 5} m (tLoc d)) ∗ ((B6).view.loc (thr d L) ↦[(B6).view.set]{fullShare} fd)
        ∗ iTodo I d L n ∗ semVal (thr d L, SemLoc.dma cc0_scratch13.sem) 0)
      ⊢ iprop((iprop(Transfers.Flight countersEmb (thr d L) (SemLoc.dma cc0_scratch13.sem) (default : HIx 1) 524288 (gDel6 m I d L g) ∗ iTodo I d L n')
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp tAllK B6 gathers_S100000x128_S128x128
                (((iS).slice (Rect.unit (s := S50x128) off S1x128.size h) (fun _ => rfl)).squeeze S128 squeezes_S1x128_S128) hnn cc0_scratch13.sem hsrc he hsp hr >>= k) Q) := by
  subst e hn hn'
  iintro ⟨Ht, Hb, HiT, Hv⟩ Hk
  ihave Hr := (iTodo_take I d L g) $$ HiT
  icases Hr with ⟨Hrow, HiT⟩
  iapply (SparseCore.wp_indirectGatherLocal countersEmb 𝒱₀ (thr d L) none (hg := gathers_S100000x128_S128x128) (default : HIx 1) 524288
      credit_B6 (by decide) (hin_row I d L hI g)) $$ [Ht Hb Hrow Hv]
  · isplitl [Ht]; · iexact Ht
    isplitl [Hb]; · iexact Hb
    isplitl [Hrow]; · iexact Hrow
    iexact Hv
  iintro Hfl
  iapply Hk
  isplitl [Hfl]
  · iapply (Transfers.Flight_mono countersEmb (thr d L) (D' := gDel6 m I d L g) ?_) $$ Hfl
    unfold gDel6
    iintro ⟨Hd, Hs, Ho⟩
    isplitl [Hd Ho]
    · isplitl [Hd]
      · rw [View.write_whole_univ, gather_val m I d L hI g]; iexact Hd
      · iexact Ho
    · iexact Hs
  · iexact HiT

set_option maxRecDepth 65536 in
set_option maxHeartbeats 1000000 in
/-- Slot 5 starts writing chunk g: its buffer at the chunk's values with row g of the index scratch (as the gather's
    wait hands them back), the rows of the result not begun from g on, the rows of the index scratch come back
    below g, its write semaphore at zero. -/
theorem write6 (g : Fin 50) (off : Fin 2 → ℕ) (h : ∀ a, off a + S128x128.size a ≤ S204800x128.size a)
    (e : off = ![6400 * (wL L).val + 128 * g.val, 0]) (n n' : ℕ) (hn : n = g.val) (hn' : n' = g.val + 1)
    {α : Type} {k : PUnit → Prog (TpuEff nD τ sig (Elt F) Λ₀ (thr d L).2) α} {Q : α → sProp 𝕄} {hsrc hdst hsem} :
    iprop((((B6).view.loc (thr d L) ↦[(B6).view.set]{fullShare} gVal m I d L g)
          ∗ ((iS).view.loc (thr d L) ↦[(iRowK g).view.set]{fullShare} Widx I d L))
        ∗ oTodo (F := F) d L n ∗ iDone I d L n ∗ semVal (thr d L, SemLoc.dma cc0_scratch20.sem) 0)
      ⊢ iprop((iprop(Transfers.Flight countersEmb (thr d L) (SemLoc.dma cc0_scratch20.sem) (default : HIx 1) 524288 (wDel6 m I d L g)
                ∗ oTodo (F := F) d L n' ∗ iDone I d L n')
              -∗ wp frame (wpE (defs₀ (F := F)) 𝒱₀ (thr d L) none) Set.univ (k ⟨⟩) Q)
          -∗ wp frame (wpE (defs₀ (F := F)) 𝒱₀ (thr d L) none) Set.univ
              (.op (.enqueueDmaAs B6 (.here ((oV).slice (Rect.unit (s := S204800x128) off S128x128.size h) (fun _ => rfl))) .same
                (SemLoc.dma cc0_scratch20.sem) hsrc hdst hsem) k) Q) := by
  subst e hn hn'
  iintro ⟨⟨Hb, Hrow⟩, HoT, HiD, Hv⟩ Hk
  ihave Hc := (oTodo_take (F := F) d L g) $$ HoT
  icases Hc with ⟨⟨%fo, Hc⟩, HoT⟩
  ihave HiD := (iDone_put I d L g) $$ [Hrow HiD]; · isplitl [Hrow] <;> iassumption
  have hN : (oChunkK (wL L) g).view.amount (SemLoc.dma cc0_scratch20.sem) = 524288 := rfl
  iapply (Transfers.wp_dmaLocal countersEmb 𝒱₀ (thr d L) none (default : HIx 1) 524288 hN (by norm_num) subset_rfl) $$ [Hb Hc Hv]
  · isplitl [Hb]; · iexact Hb
    isplitl [Hc]; · iexact Hc
    iexact Hv
  iintro Hfl
  iapply Hk
  isplitl [Hfl]
  · have hval : ∀ i ∈ (oChunkK (wL L) g).view.set,
        (oChunkK (wL L) g).view.write (Elt F) fo ((ReadAs.same : ReadAs (Elt F) S128x128 .f32 S128x128 .f32).apply ((B6).view.read (Elt F) (gVal m I d L g))) Finset.univ i
          = OUTbuf m I d i := write_val m I d L g fo
    iapply (Transfers.Flight_mono countersEmb (thr d L) (D' := wDel6 m I d L g)
      (sep_mono (Entails.of_eq (pointsTo_congr hval)) .rfl)) $$ Hfl
  · isplitl [HoT] <;> iassumption

theorem credit_B7 : ∑ j, ((B7).slice (S128x128.rowRect gathers_S100000x128_S128x128.axis' j) (S128x128.stride_rowRect gathers_S100000x128_S128x128.axis' j)).view.dmaCredit = 524288 :=
  (SparseCore.sum_rowCredit_eq_dmaCredit (B7) gathers_S100000x128_S128x128.axis' (fun _ => rfl)).trans rfl

set_option maxHeartbeats 1000000 in
/-- Slot 6 starts gathering chunk g: its share of the table, its buffer at anything, the rows of the index scratch
    not lent from g on, its gather semaphore at zero. -/
theorem gather7 (hI : ListsOK I) (g : Fin 50) (off : Fin 2 → ℕ) (h : ∀ a, off a + S1x128.size a ≤ S50x128.size a) (e : off = ![g.val, 0])
    (fd : Buf (Elt F) ((B7).view.loc (thr d L))) (n n' : ℕ) (hn : n = g.val) (hn' : n' = g.val + 1)
    {α : Type} {k : PUnit → Prog (TpuEff nD τ sig (Elt F) Λ₀ (thr d L).2) α} {Q : α → sProp 𝕄}
    {hp hnn hsrc he hsp hr} :
    iprop(((tV).view.loc (thr d L) ↦[(tAllK).view.set]{qt L 6} m (tLoc d)) ∗ ((B7).view.loc (thr d L) ↦[(B7).view.set]{fullShare} fd)
        ∗ iTodo I d L n ∗ semVal (thr d L, SemLoc.dma cc0_scratch14.sem) 0)
      ⊢ iprop((iprop(Transfers.Flight countersEmb (thr d L) (SemLoc.dma cc0_scratch14.sem) (default : HIx 1) 524288 (gDel7 m I d L g) ∗ iTodo I d L n')
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp tAllK B7 gathers_S100000x128_S128x128
                (((iS).slice (Rect.unit (s := S50x128) off S1x128.size h) (fun _ => rfl)).squeeze S128 squeezes_S1x128_S128) hnn cc0_scratch14.sem hsrc he hsp hr >>= k) Q) := by
  subst e hn hn'
  iintro ⟨Ht, Hb, HiT, Hv⟩ Hk
  ihave Hr := (iTodo_take I d L g) $$ HiT
  icases Hr with ⟨Hrow, HiT⟩
  iapply (SparseCore.wp_indirectGatherLocal countersEmb 𝒱₀ (thr d L) none (hg := gathers_S100000x128_S128x128) (default : HIx 1) 524288
      credit_B7 (by decide) (hin_row I d L hI g)) $$ [Ht Hb Hrow Hv]
  · isplitl [Ht]; · iexact Ht
    isplitl [Hb]; · iexact Hb
    isplitl [Hrow]; · iexact Hrow
    iexact Hv
  iintro Hfl
  iapply Hk
  isplitl [Hfl]
  · iapply (Transfers.Flight_mono countersEmb (thr d L) (D' := gDel7 m I d L g) ?_) $$ Hfl
    unfold gDel7
    iintro ⟨Hd, Hs, Ho⟩
    isplitl [Hd Ho]
    · isplitl [Hd]
      · rw [View.write_whole_univ, gather_val m I d L hI g]; iexact Hd
      · iexact Ho
    · iexact Hs
  · iexact HiT

set_option maxRecDepth 65536 in
set_option maxHeartbeats 1000000 in
/-- Slot 6 starts writing chunk g: its buffer at the chunk's values with row g of the index scratch (as the gather's
    wait hands them back), the rows of the result not begun from g on, the rows of the index scratch come back
    below g, its write semaphore at zero. -/
theorem write7 (g : Fin 50) (off : Fin 2 → ℕ) (h : ∀ a, off a + S128x128.size a ≤ S204800x128.size a)
    (e : off = ![6400 * (wL L).val + 128 * g.val, 0]) (n n' : ℕ) (hn : n = g.val) (hn' : n' = g.val + 1)
    {α : Type} {k : PUnit → Prog (TpuEff nD τ sig (Elt F) Λ₀ (thr d L).2) α} {Q : α → sProp 𝕄} {hsrc hdst hsem} :
    iprop((((B7).view.loc (thr d L) ↦[(B7).view.set]{fullShare} gVal m I d L g)
          ∗ ((iS).view.loc (thr d L) ↦[(iRowK g).view.set]{fullShare} Widx I d L))
        ∗ oTodo (F := F) d L n ∗ iDone I d L n ∗ semVal (thr d L, SemLoc.dma cc0_scratch21.sem) 0)
      ⊢ iprop((iprop(Transfers.Flight countersEmb (thr d L) (SemLoc.dma cc0_scratch21.sem) (default : HIx 1) 524288 (wDel7 m I d L g)
                ∗ oTodo (F := F) d L n' ∗ iDone I d L n')
              -∗ wp frame (wpE (defs₀ (F := F)) 𝒱₀ (thr d L) none) Set.univ (k ⟨⟩) Q)
          -∗ wp frame (wpE (defs₀ (F := F)) 𝒱₀ (thr d L) none) Set.univ
              (.op (.enqueueDmaAs B7 (.here ((oV).slice (Rect.unit (s := S204800x128) off S128x128.size h) (fun _ => rfl))) .same
                (SemLoc.dma cc0_scratch21.sem) hsrc hdst hsem) k) Q) := by
  subst e hn hn'
  iintro ⟨⟨Hb, Hrow⟩, HoT, HiD, Hv⟩ Hk
  ihave Hc := (oTodo_take (F := F) d L g) $$ HoT
  icases Hc with ⟨⟨%fo, Hc⟩, HoT⟩
  ihave HiD := (iDone_put I d L g) $$ [Hrow HiD]; · isplitl [Hrow] <;> iassumption
  have hN : (oChunkK (wL L) g).view.amount (SemLoc.dma cc0_scratch21.sem) = 524288 := rfl
  iapply (Transfers.wp_dmaLocal countersEmb 𝒱₀ (thr d L) none (default : HIx 1) 524288 hN (by norm_num) subset_rfl) $$ [Hb Hc Hv]
  · isplitl [Hb]; · iexact Hb
    isplitl [Hc]; · iexact Hc
    iexact Hv
  iintro Hfl
  iapply Hk
  isplitl [Hfl]
  · have hval : ∀ i ∈ (oChunkK (wL L) g).view.set,
        (oChunkK (wL L) g).view.write (Elt F) fo ((ReadAs.same : ReadAs (Elt F) S128x128 .f32 S128x128 .f32).apply ((B7).view.read (Elt F) (gVal m I d L g))) Finset.univ i
          = OUTbuf m I d i := write_val m I d L g fo
    iapply (Transfers.Flight_mono countersEmb (thr d L) (D' := wDel7 m I d L g)
      (sep_mono (Entails.of_eq (pointsTo_congr hval)) .rfl)) $$ Hfl
  · isplitl [HoT] <;> iassumption

end Cert.Kernel.Sc

end
-- ==== Proof.KTileTrip.lean ====
/-
  The loop's region keeps the invariant: a trip t ≤ 5 at a symbolic t (all fourteen conditions hold), trip 6 (the
  second half only for slot 0) and trip 7 (the first half only for slot 0).
-/
import proofs.«206296_g7516192768393_cont_9to1c4b_737_14_alg».proof.Proof.KTileOps

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_arg0_scv : Memref Cert.Kernel.sig Kind.scVector Space.hbm Cert.Kernel.S100000x128 EltTy.f32)
local notation "lV" => (Memref.whole Cert.Kernel.main_v1_scv : Memref Cert.Kernel.sig Kind.scVector Space.hbm Cert.Kernel.S32x50x128 EltTy.i32)
local notation "oV" => (Memref.whole Cert.Kernel.main_v2_scv : Memref Cert.Kernel.sig Kind.scVector Space.hbm Cert.Kernel.S204800x128 EltTy.f32)
local notation "iS" => (Memref.whole Cert.Kernel.cc0_scratch0 : Memref Cert.Kernel.sig Kind.scVector Space.vmem Cert.Kernel.S50x128 EltTy.i32)
local notation "B1" => (Memref.whole Cert.Kernel.cc0_scratch1 : Memref Cert.Kernel.sig Kind.scVector Space.vmem Cert.Kernel.S128x128 EltTy.f32)
local notation "B2" => (Memref.whole Cert.Kernel.cc0_scratch2 : Memref Cert.Kernel.sig Kind.scVector Space.vmem Cert.Kernel.S128x128 EltTy.f32)
local notation "B3" => (Memref.whole Cert.Kernel.cc0_scratch3 : Memref Cert.Kernel.sig Kind.scVector Space.vmem Cert.Kernel.S128x128 EltTy.f32)
local notation "B4" => (Memref.whole Cert.Kernel.cc0_scratch4 : Memref Cert.Kernel.sig Kind.scVector Space.vmem Cert.Kernel.S128x128 EltTy.f32)
local notation "B5" => (Memref.whole Cert.Kernel.cc0_scratch5 : Memref Cert.Kernel.sig Kind.scVector Space.vmem Cert.Kernel.S128x128 EltTy.f32)
local notation "B6" => (Memref.whole Cert.Kernel.cc0_scratch6 : Memref Cert.Kernel.sig Kind.scVector Space.vmem Cert.Kernel.S128x128 EltTy.f32)
local notation "B7" => (Memref.whole Cert.Kernel.cc0_scratch7 : Memref Cert.Kernel.sig Kind.scVector Space.vmem Cert.Kernel.S128x128 EltTy.f32)

variable (m : (ℓ : Loc nD τ sig) → Buf (Elt F) ℓ) (I : (d : Dev nD) → Buf (Elt F) (lLoc d))
variable [FloatOps F]
variable (d : Dev nD) (L : grid0.Coords)

variable (O : CellTallies nD τ sig (HIx 1)) (W : Waits sig (HIx 1))

/-- The state after trip t < 6, spelt over 7·t + 7 …: it is the invariant before trip t + 1. -/
def InvB (t : ℕ) (ht : t ≤ 5) : sProp 𝕄 :=
  iprop(slotG1 m I d L ⟨7 * t + 7, by omega⟩ ∗ slotG2 m I d L ⟨7 * t + 8, by omega⟩ ∗ slotG3 m I d L ⟨7 * t + 9, by omega⟩
    ∗ slotG4 m I d L ⟨7 * t + 10, by omega⟩ ∗ slotG5 m I d L ⟨7 * t + 11, by omega⟩ ∗ slotG6 m I d L ⟨7 * t + 12, by omega⟩
    ∗ slotG7 m I d L ⟨7 * t + 13, by omega⟩
    ∗ oDone m I d L (7 * t + 7) ∗ oTodo d L (7 * t + 7) ∗ iDone I d L (7 * t + 7) ∗ iTodo I d L (7 * t + 14) ∗ owesPart d L O W)

theorem InvB_eq (t : ℕ) (ht : t ≤ 5) : InvB m I d L O W t ht = InvA m I d L O W (t + 1) (by omega) := by
  unfold InvB InvA
  have e : 7 * (t + 1) = 7 * t + 7 := by ring
  simp only [e, Nat.add_assoc, Nat.reduceAdd]

theorem cond1_lo : ∀ t : Fin k0_t1_loop.trips, t.val ≤ 5 → k0_cond1 t = 1#1 := by decide +kernel
theorem cond2_lo : ∀ t : Fin k0_t1_loop.trips, t.val ≤ 5 → k0_cond2 t = 1#1 := by decide +kernel
theorem cond3_lo : ∀ t : Fin k0_t1_loop.trips, t.val ≤ 5 → k0_cond3 t = 1#1 := by decide +kernel
theorem cond4_lo : ∀ t : Fin k0_t1_loop.trips, t.val ≤ 5 → k0_cond4 t = 1#1 := by decide +kernel
theorem cond5_lo : ∀ t : Fin k0_t1_loop.trips, t.val ≤ 5 → k0_cond5 t = 1#1 := by decide +kernel
theorem cond6_lo : ∀ t : Fin k0_t1_loop.trips, t.val ≤ 5 → k0_cond6 t = 1#1 := by decide +kernel
theorem cond7_lo : ∀ t : Fin k0_t1_loop.trips, t.val ≤ 5 → k0_cond7 t = 1#1 := by decide +kernel
theorem cond8_lo : ∀ t : Fin k0_t1_loop.trips, t.val ≤ 5 → k0_cond8 t = 1#1 := by decide +kernel
theorem cond9_lo : ∀ t : Fin k0_t1_loop.trips, t.val ≤ 5 → k0_cond9 t = 1#1 := by decide +kernel
theorem cond10_lo : ∀ t : Fin k0_t1_loop.trips, t.val ≤ 5 → k0_cond10 t = 1#1 := by decide +kernel
theorem cond11_lo : ∀ t : Fin k0_t1_loop.trips, t.val ≤ 5 → k0_cond11 t = 1#1 := by decide +kernel
theorem cond12_lo : ∀ t : Fin k0_t1_loop.trips, t.val ≤ 5 → k0_cond12 t = 1#1 := by decide +kernel
theorem cond13_lo : ∀ t : Fin k0_t1_loop.trips, t.val ≤ 5 → k0_cond13 t = 1#1 := by decide +kernel
theorem cond14_lo : ∀ t : Fin k0_t1_loop.trips, t.val ≤ 5 → k0_cond14 t = 1#1 := by decide +kernel

set_option maxHeartbeats 8000000 in
set_option maxRecDepth 65536 in
/-- A trip t ≤ 5: every slot's gather is waited for and its chunk written, then every slot's write is waited for and
    the gather of its chunk of the next group started. -/
theorem trip_lo (hI : ListsOK I) (k : Fin k0_t1_loop.trips) (hk : k.val ≤ 5) (v2 acc : BitVec 32) :
    InvA m I d L O W k.val (by omega)
      ⊢ wp frame (wpE (defs₀ (F := F)) 𝒱₀ (thr d L) none) Set.univ
          (k0_t1_body L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 v2 k acc)
          fun _ => InvB m I d L O W k.val hk := by
  have h1 : k0_cond1 k = 1#1 := cond1_lo k hk
  have h2 : k0_cond2 k = 1#1 := cond2_lo k hk
  have h3 : k0_cond3 k = 1#1 := cond3_lo k hk
  have h4 : k0_cond4 k = 1#1 := cond4_lo k hk
  have h5 : k0_cond5 k = 1#1 := cond5_lo k hk
  have h6 : k0_cond6 k = 1#1 := cond6_lo k hk
  have h7 : k0_cond7 k = 1#1 := cond7_lo k hk
  have h8 : k0_cond8 k = 1#1 := cond8_lo k hk
  have h9 : k0_cond9 k = 1#1 := cond9_lo k hk
  have h10 : k0_cond10 k = 1#1 := cond10_lo k hk
  have h11 : k0_cond11 k = 1#1 := cond11_lo k hk
  have h12 : k0_cond12 k = 1#1 := cond12_lo k hk
  have h13 : k0_cond13 k = 1#1 := cond13_lo k hk
  have h14 : k0_cond14 k = 1#1 := cond14_lo k hk
  unfold k0_t1_body
  rw [k0_part1_eq_skeleton, k0_part2_eq_skeleton]; unfold k0_part1_skel k0_part2_skel
  unfold InvA slotG1 slotG2 slotG3 slotG4 slotG5 slotG6 slotG7 gDel1 gDel2 gDel3 gDel4 gDel5 gDel6 gDel7 owesPart
  iintro ⟨⟨Hf1, Hw1⟩, ⟨Hf2, Hw2⟩, ⟨Hf3, Hw3⟩, ⟨Hf4, Hw4⟩, ⟨Hf5, Hw5⟩, ⟨Hf6, Hw6⟩, ⟨Hf7, Hw7⟩, HoD, HoT, HiD, HiT, #Hmw, %W', %hW', HO⟩
  sl_exec
  iapply (write1 m I d L ⟨7 * k.val + 0, by omega⟩ _ _ (k0_off2_w L k) (7 * k.val + 0) (7 * k.val + 1) rfl rfl) $$ [Hf1_dst HoT HiD Hw1]
  · isplitl [Hf1_dst]; · iexact Hf1_dst
    isplitl [HoT]; · iexact HoT
    isplitl [HiD]; · iexact HiD
    iexact Hw1
  iintro ⟨Hw1, HoT, HiD⟩
  sl_exec
  iapply (write2 m I d L ⟨7 * k.val + 1, by omega⟩ _ _ (k0_off3_w L k) (7 * k.val + 1) (7 * k.val + 2) rfl rfl) $$ [Hf2_dst HoT HiD Hw2]
  · isplitl [Hf2_dst]; · iexact Hf2_dst
    isplitl [HoT]; · iexact HoT
    isplitl [HiD]; · iexact HiD
    iexact Hw2
  iintro ⟨Hw2, HoT, HiD⟩
  sl_exec
  iapply (write3 m I d L ⟨7 * k.val + 2, by omega⟩ _ _ (k0_off4_w L k) (7 * k.val + 2) (7 * k.val + 3) rfl rfl) $$ [Hf3_dst HoT HiD Hw3]
  · isplitl [Hf3_dst]; · iexact Hf3_dst
    isplitl [HoT]; · iexact HoT
    isplitl [HiD]; · iexact HiD
    iexact Hw3
  iintro ⟨Hw3, HoT, HiD⟩
  sl_exec
  iapply (write4 m I d L ⟨7 * k.val + 3, by omega⟩ _ _ (k0_off5_w L k) (7 * k.val + 3) (7 * k.val + 4) rfl rfl) $$ [Hf4_dst HoT HiD Hw4]
  · isplitl [Hf4_dst]; · iexact Hf4_dst
    isplitl [HoT]; · iexact HoT
    isplitl [HiD]; · iexact HiD
    iexact Hw4
  iintro ⟨Hw4, HoT, HiD⟩
  sl_exec
  iapply (write5 m I d L ⟨7 * k.val + 4, by omega⟩ _ _ (k0_off6_w L k) (7 * k.val + 4) (7 * k.val + 5) rfl rfl) $$ [Hf5_dst HoT HiD Hw5]
  · isplitl [Hf5_dst]; · iexact Hf5_dst
    isplitl [HoT]; · iexact HoT
    isplitl [HiD]; · iexact HiD
    iexact Hw5
  iintro ⟨Hw5, HoT, HiD⟩
  sl_exec
  iapply (write6 m I d L ⟨7 * k.val + 5, by omega⟩ _ _ (k0_off7_w L k) (7 * k.val + 5) (7 * k.val + 6) rfl rfl) $$ [Hf6_dst HoT HiD Hw6]
  · isplitl [Hf6_dst]; · iexact Hf6_dst
    isplitl [HoT]; · iexact HoT
    isplitl [HiD]; · iexact HiD
    iexact Hw6
  iintro ⟨Hw6, HoT, HiD⟩
  sl_exec
  iapply (write7 m I d L ⟨7 * k.val + 6, by omega⟩ _ _ (k0_off8_w L k) (7 * k.val + 6) (7 * k.val + 7) rfl rfl) $$ [Hf7_dst HoT HiD Hw7]
  · isplitl [Hf7_dst]; · iexact Hf7_dst
    isplitl [HoT]; · iexact HoT
    isplitl [HiD]; · iexact HiD
    iexact Hw7
  iintro ⟨Hw7, HoT, HiD⟩
  unfold wDel1 wDel2 wDel3 wDel4 wDel5 wDel6 wDel7
  sl_exec
  ihave HoD := (oDone_put' m I d L ⟨7 * k.val + 0, by omega⟩ (7 * k.val + 0) (7 * k.val + 1) rfl rfl) $$ [Hw1_dst HoD]; · isplitl [Hw1_dst] <;> iassumption
  iapply (gather1 m I d L hI ⟨7 * k.val + 7, by omega⟩ _ _ (k0_off10_eq k) _ (7 * k.val + 7) (7 * k.val + 8) rfl rfl) $$ [Hf1_src Hw1_src HiT Hf1]
  · isplitl [Hf1_src]; · iexact Hf1_src
    isplitl [Hw1_src]; · iexact Hw1_src
    isplitl [HiT]; · iexact HiT
    iexact Hf1
  iintro ⟨Hf1, HiT⟩
  sl_exec
  ihave HoD := (oDone_put' m I d L ⟨7 * k.val + 1, by omega⟩ (7 * k.val + 1) (7 * k.val + 2) rfl rfl) $$ [Hw2_dst HoD]; · isplitl [Hw2_dst] <;> iassumption
  iapply (gather2 m I d L hI ⟨7 * k.val + 8, by omega⟩ _ _ (k0_off12_eq k) _ (7 * k.val + 8) (7 * k.val + 9) rfl rfl) $$ [Hf2_src Hw2_src HiT Hf2]
  · isplitl [Hf2_src]; · iexact Hf2_src
    isplitl [Hw2_src]; · iexact Hw2_src
    isplitl [HiT]; · iexact HiT
    iexact Hf2
  iintro ⟨Hf2, HiT⟩
  sl_exec
  ihave HoD := (oDone_put' m I d L ⟨7 * k.val + 2, by omega⟩ (7 * k.val + 2) (7 * k.val + 3) rfl rfl) $$ [Hw3_dst HoD]; · isplitl [Hw3_dst] <;> iassumption
  iapply (gather3 m I d L hI ⟨7 * k.val + 9, by omega⟩ _ _ (k0_off14_eq k) _ (7 * k.val + 9) (7 * k.val + 10) rfl rfl) $$ [Hf3_src Hw3_src HiT Hf3]
  · isplitl [Hf3_src]; · iexact Hf3_src
    isplitl [Hw3_src]; · iexact Hw3_src
    isplitl [HiT]; · iexact HiT
    iexact Hf3
  iintro ⟨Hf3, HiT⟩
  sl_exec
  ihave HoD := (oDone_put' m I d L ⟨7 * k.val + 3, by omega⟩ (7 * k.val + 3) (7 * k.val + 4) rfl rfl) $$ [Hw4_dst HoD]; · isplitl [Hw4_dst] <;> iassumption
  iapply (gather4 m I d L hI ⟨7 * k.val + 10, by omega⟩ _ _ (k0_off16_eq k) _ (7 * k.val + 10) (7 * k.val + 11) rfl rfl) $$ [Hf4_src Hw4_src HiT Hf4]
  · isplitl [Hf4_src]; · iexact Hf4_src
    isplitl [Hw4_src]; · iexact Hw4_src
    isplitl [HiT]; · iexact HiT
    iexact Hf4
  iintro ⟨Hf4, HiT⟩
  sl_exec
  ihave HoD := (oDone_put' m I d L ⟨7 * k.val + 4, by omega⟩ (7 * k.val + 4) (7 * k.val + 5) rfl rfl) $$ [Hw5_dst HoD]; · isplitl [Hw5_dst] <;> iassumption
  iapply (gather5 m I d L hI ⟨7 * k.val + 11, by omega⟩ _ _ (k0_off18_eq k) _ (7 * k.val + 11) (7 * k.val + 12) rfl rfl) $$ [Hf5_src Hw5_src HiT Hf5]
  · isplitl [Hf5_src]; · iexact Hf5_src
    isplitl [Hw5_src]; · iexact Hw5_src
    isplitl [HiT]; · iexact HiT
    iexact Hf5
  iintro ⟨Hf5, HiT⟩
  sl_exec
  ihave HoD := (oDone_put' m I d L ⟨7 * k.val + 5, by omega⟩ (7 * k.val + 5) (7 * k.val + 6) rfl rfl) $$ [Hw6_dst HoD]; · isplitl [Hw6_dst] <;> iassumption
  iapply (gather6 m I d L hI ⟨7 * k.val + 12, by omega⟩ _ _ (k0_off20_eq k) _ (7 * k.val + 12) (7 * k.val + 13) rfl rfl) $$ [Hf6_src Hw6_src HiT Hf6]
  · isplitl [Hf6_src]; · iexact Hf6_src
    isplitl [Hw6_src]; · iexact Hw6_src
    isplitl [HiT]; · iexact HiT
    iexact Hf6
  iintro ⟨Hf6, HiT⟩
  sl_exec
  ihave HoD := (oDone_put' m I d L ⟨7 * k.val + 6, by omega⟩ (7 * k.val + 6) (7 * k.val + 7) rfl rfl) $$ [Hw7_dst HoD]; · isplitl [Hw7_dst] <;> iassumption
  iapply (gather7 m I d L hI ⟨7 * k.val + 13, by omega⟩ _ _ (k0_off22_eq k) _ (7 * k.val + 13) (7 * k.val + 14) rfl rfl) $$ [Hf7_src Hw7_src HiT Hf7]
  · isplitl [Hf7_src]; · iexact Hf7_src
    isplitl [Hw7_src]; · iexact Hw7_src
    isplitl [HiT]; · iexact HiT
    iexact Hf7
  iintro ⟨Hf7, HiT⟩
  sl_exec
  sl_step
  unfold InvB slotG1 slotG2 slotG3 slotG4 slotG5 slotG6 slotG7 owesPart
  isplitl [Hf1 Hw1]
  · isplitl [Hf1]
    · iexact Hf1
    · iexact Hw1
  isplitl [Hf2 Hw2]
  · isplitl [Hf2]
    · iexact Hf2
    · iexact Hw2
  isplitl [Hf3 Hw3]
  · isplitl [Hf3]
    · iexact Hf3
    · iexact Hw3
  isplitl [Hf4 Hw4]
  · isplitl [Hf4]
    · iexact Hf4
    · iexact Hw4
  isplitl [Hf5 Hw5]
  · isplitl [Hf5]
    · iexact Hf5
    · iexact Hw5
  isplitl [Hf6 Hw6]
  · isplitl [Hf6]
    · iexact Hf6
    · iexact Hw6
  isplitl [Hf7 Hw7]
  · isplitl [Hf7]
    · iexact Hf7
    · iexact Hw7
  isplitl [HoD]; · iexact HoD
  isplitl [HoT]; · iexact HoT
  isplitl [HiD]; · iexact HiD
  isplitl [HiT]; · iexact HiT
  isplitr; · iexact Hmw
  iexists _; isplitr
  swap; · iexact HO
  ipureintro
  repeat first | exact hW' | refine waits_insert _ ?_

theorem cond1_at6 : ∀ t : Fin k0_t1_loop.trips, t.val = 6 → k0_cond1 t = 1#1 := by decide +kernel
theorem cond2_at6 : ∀ t : Fin k0_t1_loop.trips, t.val = 6 → k0_cond2 t = 1#1 := by decide +kernel
theorem cond3_at6 : ∀ t : Fin k0_t1_loop.trips, t.val = 6 → k0_cond3 t = 1#1 := by decide +kernel
theorem cond4_at6 : ∀ t : Fin k0_t1_loop.trips, t.val = 6 → k0_cond4 t = 1#1 := by decide +kernel
theorem cond5_at6 : ∀ t : Fin k0_t1_loop.trips, t.val = 6 → k0_cond5 t = 1#1 := by decide +kernel
theorem cond6_at6 : ∀ t : Fin k0_t1_loop.trips, t.val = 6 → k0_cond6 t = 1#1 := by decide +kernel
theorem cond7_at6 : ∀ t : Fin k0_t1_loop.trips, t.val = 6 → k0_cond7 t = 1#1 := by decide +kernel
theorem cond8_at6 : ∀ t : Fin k0_t1_loop.trips, t.val = 6 → k0_cond8 t = 1#1 := by decide +kernel
theorem cond9_at6 : ∀ t : Fin k0_t1_loop.trips, t.val = 6 → ¬ k0_cond9 t = 1#1 := by decide +kernel
theorem cond10_at6 : ∀ t : Fin k0_t1_loop.trips, t.val = 6 → ¬ k0_cond10 t = 1#1 := by decide +kernel
theorem cond11_at6 : ∀ t : Fin k0_t1_loop.trips, t.val = 6 → ¬ k0_cond11 t = 1#1 := by decide +kernel
theorem cond12_at6 : ∀ t : Fin k0_t1_loop.trips, t.val = 6 → ¬ k0_cond12 t = 1#1 := by decide +kernel
theorem cond13_at6 : ∀ t : Fin k0_t1_loop.trips, t.val = 6 → ¬ k0_cond13 t = 1#1 := by decide +kernel
theorem cond14_at6 : ∀ t : Fin k0_t1_loop.trips, t.val = 6 → ¬ k0_cond14 t = 1#1 := by decide +kernel

set_option maxHeartbeats 8000000 in
set_option maxRecDepth 65536 in
/-- Trip 6: every slot's gather is waited for and its chunk written; then only slot 0's write is waited for and the
    gather of the last chunk started. -/
theorem trip_6 (hI : ListsOK I) (hkv : 6 < k0_t1_loop.trips) (v2 acc : BitVec 32) :
    InvA m I d L O W 6 (by omega)
      ⊢ wp frame (wpE (defs₀ (F := F)) 𝒱₀ (thr d L) none) Set.univ
          (k0_t1_body L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 v2 (⟨6, hkv⟩ : Fin k0_t1_loop.trips) acc)
          fun _ => Inv7 m I d L O W := by
  have h1 : k0_cond1 (⟨6, hkv⟩ : Fin k0_t1_loop.trips) = 1#1 := cond1_at6 _ rfl
  have h2 : k0_cond2 (⟨6, hkv⟩ : Fin k0_t1_loop.trips) = 1#1 := cond2_at6 _ rfl
  have h3 : k0_cond3 (⟨6, hkv⟩ : Fin k0_t1_loop.trips) = 1#1 := cond3_at6 _ rfl
  have h4 : k0_cond4 (⟨6, hkv⟩ : Fin k0_t1_loop.trips) = 1#1 := cond4_at6 _ rfl
  have h5 : k0_cond5 (⟨6, hkv⟩ : Fin k0_t1_loop.trips) = 1#1 := cond5_at6 _ rfl
  have h6 : k0_cond6 (⟨6, hkv⟩ : Fin k0_t1_loop.trips) = 1#1 := cond6_at6 _ rfl
  have h7 : k0_cond7 (⟨6, hkv⟩ : Fin k0_t1_loop.trips) = 1#1 := cond7_at6 _ rfl
  have h8 : k0_cond8 (⟨6, hkv⟩ : Fin k0_t1_loop.trips) = 1#1 := cond8_at6 _ rfl
  have h9 : ¬ k0_cond9 (⟨6, hkv⟩ : Fin k0_t1_loop.trips) = 1#1 := cond9_at6 _ rfl
  have h10 : ¬ k0_cond10 (⟨6, hkv⟩ : Fin k0_t1_loop.trips) = 1#1 := cond10_at6 _ rfl
  have h11 : ¬ k0_cond11 (⟨6, hkv⟩ : Fin k0_t1_loop.trips) = 1#1 := cond11_at6 _ rfl
  have h12 : ¬ k0_cond12 (⟨6, hkv⟩ : Fin k0_t1_loop.trips) = 1#1 := cond12_at6 _ rfl
  have h13 : ¬ k0_cond13 (⟨6, hkv⟩ : Fin k0_t1_loop.trips) = 1#1 := cond13_at6 _ rfl
  have h14 : ¬ k0_cond14 (⟨6, hkv⟩ : Fin k0_t1_loop.trips) = 1#1 := cond14_at6 _ rfl
  unfold k0_t1_body
  rw [k0_part1_eq_skeleton, k0_part2_eq_skeleton]; unfold k0_part1_skel k0_part2_skel
  unfold InvA slotG1 slotG2 slotG3 slotG4 slotG5 slotG6 slotG7 gDel1 gDel2 gDel3 gDel4 gDel5 gDel6 gDel7 owesPart
  iintro ⟨⟨Hf1, Hw1⟩, ⟨Hf2, Hw2⟩, ⟨Hf3, Hw3⟩, ⟨Hf4, Hw4⟩, ⟨Hf5, Hw5⟩, ⟨Hf6, Hw6⟩, ⟨Hf7, Hw7⟩, HoD, HoT, HiD, HiT, #Hmw, %W', %hW', HO⟩
  sl_exec
  iapply (write1 m I d L ⟨42, by omega⟩ _ _ (k0_off2_w L (⟨6, hkv⟩ : Fin k0_t1_loop.trips)) 42 43 rfl rfl) $$ [Hf1_dst HoT HiD Hw1]
  · isplitl [Hf1_dst]; · iexact Hf1_dst
    isplitl [HoT]; · iexact HoT
    isplitl [HiD]; · iexact HiD
    iexact Hw1
  iintro ⟨Hw1, HoT, HiD⟩
  sl_exec
  iapply (write2 m I d L ⟨43, by omega⟩ _ _ (k0_off3_w L (⟨6, hkv⟩ : Fin k0_t1_loop.trips)) 43 44 rfl rfl) $$ [Hf2_dst HoT HiD Hw2]
  · isplitl [Hf2_dst]; · iexact Hf2_dst
    isplitl [HoT]; · iexact HoT
    isplitl [HiD]; · iexact HiD
    iexact Hw2
  iintro ⟨Hw2, HoT, HiD⟩
  sl_exec
  iapply (write3 m I d L ⟨44, by omega⟩ _ _ (k0_off4_w L (⟨6, hkv⟩ : Fin k0_t1_loop.trips)) 44 45 rfl rfl) $$ [Hf3_dst HoT HiD Hw3]
  · isplitl [Hf3_dst]; · iexact Hf3_dst
    isplitl [HoT]; · iexact HoT
    isplitl [HiD]; · iexact HiD
    iexact Hw3
  iintro ⟨Hw3, HoT, HiD⟩
  sl_exec
  iapply (write4 m I d L ⟨45, by omega⟩ _ _ (k0_off5_w L (⟨6, hkv⟩ : Fin k0_t1_loop.trips)) 45 46 rfl rfl) $$ [Hf4_dst HoT HiD Hw4]
  · isplitl [Hf4_dst]; · iexact Hf4_dst
    isplitl [HoT]; · iexact HoT
    isplitl [HiD]; · iexact HiD
    iexact Hw4
  iintro ⟨Hw4, HoT, HiD⟩
  sl_exec
  iapply (write5 m I d L ⟨46, by omega⟩ _ _ (k0_off6_w L (⟨6, hkv⟩ : Fin k0_t1_loop.trips)) 46 47 rfl rfl) $$ [Hf5_dst HoT HiD Hw5]
  · isplitl [Hf5_dst]; · iexact Hf5_dst
    isplitl [HoT]; · iexact HoT
    isplitl [HiD]; · iexact HiD
    iexact Hw5
  iintro ⟨Hw5, HoT, HiD⟩
  sl_exec
  iapply (write6 m I d L ⟨47, by omega⟩ _ _ (k0_off7_w L (⟨6, hkv⟩ : Fin k0_t1_loop.trips)) 47 48 rfl rfl) $$ [Hf6_dst HoT HiD Hw6]
  · isplitl [Hf6_dst]; · iexact Hf6_dst
    isplitl [HoT]; · iexact HoT
    isplitl [HiD]; · iexact HiD
    iexact Hw6
  iintro ⟨Hw6, HoT, HiD⟩
  sl_exec
  iapply (write7 m I d L ⟨48, by omega⟩ _ _ (k0_off8_w L (⟨6, hkv⟩ : Fin k0_t1_loop.trips)) 48 49 rfl rfl) $$ [Hf7_dst HoT HiD Hw7]
  · isplitl [Hf7_dst]; · iexact Hf7_dst
    isplitl [HoT]; · iexact HoT
    isplitl [HiD]; · iexact HiD
    iexact Hw7
  iintro ⟨Hw7, HoT, HiD⟩
  unfold wDel1
  sl_exec
  ihave HoD := (oDone_put' m I d L ⟨42, by omega⟩ 42 43 rfl rfl) $$ [Hw1_dst HoD]; · isplitl [Hw1_dst] <;> iassumption
  iapply (gather1 m I d L hI ⟨49, by omega⟩ _ _ (k0_off10_eq (⟨6, hkv⟩ : Fin k0_t1_loop.trips)) _ 49 50 rfl rfl) $$ [Hf1_src Hw1_src HiT Hf1]
  · isplitl [Hf1_src]; · iexact Hf1_src
    isplitl [Hw1_src]; · iexact Hw1_src
    isplitl [HiT]; · iexact HiT
    iexact Hf1
  iintro ⟨Hf1, HiT⟩
  sl_exec
  sl_step
  unfold Inv7 slotG1 slotW2 slotW3 slotW4 slotW5 slotW6 slotW7 owesPart
  isplitl [Hf1 Hw1]
  · isplitl [Hf1]
    · iexact Hf1
    · iexact Hw1
  isplitl [Hw2 Hf2 Hf2_src]
  · isplitl [Hw2]; · iexact Hw2
    isplitl [Hf2]; · iexact Hf2
    iexact Hf2_src
  isplitl [Hw3 Hf3 Hf3_src]
  · isplitl [Hw3]; · iexact Hw3
    isplitl [Hf3]; · iexact Hf3
    iexact Hf3_src
  isplitl [Hw4 Hf4 Hf4_src]
  · isplitl [Hw4]; · iexact Hw4
    isplitl [Hf4]; · iexact Hf4
    iexact Hf4_src
  isplitl [Hw5 Hf5 Hf5_src]
  · isplitl [Hw5]; · iexact Hw5
    isplitl [Hf5]; · iexact Hf5
    iexact Hf5_src
  isplitl [Hw6 Hf6 Hf6_src]
  · isplitl [Hw6]; · iexact Hw6
    isplitl [Hf6]; · iexact Hf6
    iexact Hf6_src
  isplitl [Hw7 Hf7 Hf7_src]
  · isplitl [Hw7]; · iexact Hw7
    isplitl [Hf7]; · iexact Hf7
    iexact Hf7_src
  isplitl [HoD]; · iexact HoD
  isplitl [HoT]; · iexact HoT
  isplitl [HiD]; · iexact HiD
  isplitl [HiT]; · iexact HiT
  isplitr; · iexact Hmw
  iexists _; isplitr
  swap; · iexact HO
  ipureintro
  repeat first | exact hW' | refine waits_insert _ ?_

theorem cond1_at7 : ∀ t : Fin k0_t1_loop.trips, t.val = 7 → k0_cond1 t = 1#1 := by decide +kernel
theorem cond2_at7 : ∀ t : Fin k0_t1_loop.trips, t.val = 7 → ¬ k0_cond2 t = 1#1 := by decide +kernel
theorem cond3_at7 : ∀ t : Fin k0_t1_loop.trips, t.val = 7 → ¬ k0_cond3 t = 1#1 := by decide +kernel
theorem cond4_at7 : ∀ t : Fin k0_t1_loop.trips, t.val = 7 → ¬ k0_cond4 t = 1#1 := by decide +kernel
theorem cond5_at7 : ∀ t : Fin k0_t1_loop.trips, t.val = 7 → ¬ k0_cond5 t = 1#1 := by decide +kernel
theorem cond6_at7 : ∀ t : Fin k0_t1_loop.trips, t.val = 7 → ¬ k0_cond6 t = 1#1 := by decide +kernel
theorem cond7_at7 : ∀ t : Fin k0_t1_loop.trips, t.val = 7 → ¬ k0_cond7 t = 1#1 := by decide +kernel
theorem cond8_at7 : ∀ t : Fin k0_t1_loop.trips, t.val = 7 → ¬ k0_cond8 t = 1#1 := by decide +kernel
theorem cond9_at7 : ∀ t : Fin k0_t1_loop.trips, t.val = 7 → ¬ k0_cond9 t = 1#1 := by decide +kernel
theorem cond10_at7 : ∀ t : Fin k0_t1_loop.trips, t.val = 7 → ¬ k0_cond10 t = 1#1 := by decide +kernel
theorem cond11_at7 : ∀ t : Fin k0_t1_loop.trips, t.val = 7 → ¬ k0_cond11 t = 1#1 := by decide +kernel
theorem cond12_at7 : ∀ t : Fin k0_t1_loop.trips, t.val = 7 → ¬ k0_cond12 t = 1#1 := by decide +kernel
theorem cond13_at7 : ∀ t : Fin k0_t1_loop.trips, t.val = 7 → ¬ k0_cond13 t = 1#1 := by decide +kernel
theorem cond14_at7 : ∀ t : Fin k0_t1_loop.trips, t.val = 7 → ¬ k0_cond14 t = 1#1 := by decide +kernel

set_option maxHeartbeats 8000000 in
set_option maxRecDepth 65536 in
/-- Trip 7: slot 0's gather of the last chunk is waited for and the chunk written; nothing else. -/
theorem trip_7 (hI : ListsOK I) (hkv : 7 < k0_t1_loop.trips) (v2 acc : BitVec 32) :
    Inv7 m I d L O W
      ⊢ wp frame (wpE (defs₀ (F := F)) 𝒱₀ (thr d L) none) Set.univ
          (k0_t1_body L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 v2 (⟨7, hkv⟩ : Fin k0_t1_loop.trips) acc)
          fun _ => Inv8 m I d L O W := by
  have h1 : k0_cond1 (⟨7, hkv⟩ : Fin k0_t1_loop.trips) = 1#1 := cond1_at7 _ rfl
  have h2 : ¬ k0_cond2 (⟨7, hkv⟩ : Fin k0_t1_loop.trips) = 1#1 := cond2_at7 _ rfl
  have h3 : ¬ k0_cond3 (⟨7, hkv⟩ : Fin k0_t1_loop.trips) = 1#1 := cond3_at7 _ rfl
  have h4 : ¬ k0_cond4 (⟨7, hkv⟩ : Fin k0_t1_loop.trips) = 1#1 := cond4_at7 _ rfl
  have h5 : ¬ k0_cond5 (⟨7, hkv⟩ : Fin k0_t1_loop.trips) = 1#1 := cond5_at7 _ rfl
  have h6 : ¬ k0_cond6 (⟨7, hkv⟩ : Fin k0_t1_loop.trips) = 1#1 := cond6_at7 _ rfl
  have h7 : ¬ k0_cond7 (⟨7, hkv⟩ : Fin k0_t1_loop.trips) = 1#1 := cond7_at7 _ rfl
  have h8 : ¬ k0_cond8 (⟨7, hkv⟩ : Fin k0_t1_loop.trips) = 1#1 := cond8_at7 _ rfl
  have h9 : ¬ k0_cond9 (⟨7, hkv⟩ : Fin k0_t1_loop.trips) = 1#1 := cond9_at7 _ rfl
  have h10 : ¬ k0_cond10 (⟨7, hkv⟩ : Fin k0_t1_loop.trips) = 1#1 := cond10_at7 _ rfl
  have h11 : ¬ k0_cond11 (⟨7, hkv⟩ : Fin k0_t1_loop.trips) = 1#1 := cond11_at7 _ rfl
  have h12 : ¬ k0_cond12 (⟨7, hkv⟩ : Fin k0_t1_loop.trips) = 1#1 := cond12_at7 _ rfl
  have h13 : ¬ k0_cond13 (⟨7, hkv⟩ : Fin k0_t1_loop.trips) = 1#1 := cond13_at7 _ rfl
  have h14 : ¬ k0_cond14 (⟨7, hkv⟩ : Fin k0_t1_loop.trips) = 1#1 := cond14_at7 _ rfl
  unfold k0_t1_body
  rw [k0_part1_eq_skeleton, k0_part2_eq_skeleton]; unfold k0_part1_skel k0_part2_skel
  unfold Inv7 slotG1 gDel1 owesPart
  iintro ⟨⟨Hf1, Hw1⟩, Hs2, Hs3, Hs4, Hs5, Hs6, Hs7, HoD, HoT, HiD, HiT, #Hmw, %W', %hW', HO⟩
  sl_exec
  iapply (write1 m I d L ⟨49, by omega⟩ _ _ (k0_off2_w L (⟨7, hkv⟩ : Fin k0_t1_loop.trips)) 49 50 rfl rfl) $$ [Hf1_dst HoT HiD Hw1]
  · isplitl [Hf1_dst]; · iexact Hf1_dst
    isplitl [HoT]; · iexact HoT
    isplitl [HiD]; · iexact HiD
    iexact Hw1
  iintro ⟨Hw1, HoT, HiD⟩
  sl_exec
  sl_step
  unfold Inv8 slotW1 owesPart
  isplitl [Hw1 Hf1 Hf1_src]
  · isplitl [Hw1]; · iexact Hw1
    isplitl [Hf1]; · iexact Hf1
    iexact Hf1_src
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [HoD]; · iexact HoD
  isplitl [HoT]; · iexact HoT
  isplitl [HiD]; · iexact HiD
  isplitl [HiT]; · iexact HiT
  isplitr; · iexact Hmw
  iexists _; isplitr
  swap; · iexact HO
  ipureintro
  repeat first | exact hW' | refine waits_insert _ ?_

/-- One trip of the loop keeps the invariant. -/
theorem region (hI : ListsOK I) (v2 : BitVec 32) (k : Fin k0_t1_loop.trips) (acc : BitVec 32) :
    Inv m I d L O W k.val acc
      ⊢ wp frame (wpE (defs₀ (F := F)) 𝒱₀ (thr d L) none) Set.univ
          (k0_t1_body L tV (Memref.isWhole_whole _) lV (Memref.isWhole_whole _) oV (Memref.isWhole_whole _)
            iS (Memref.isWhole_whole _) B1 (Memref.isWhole_whole _) B2 (Memref.isWhole_whole _) B3 (Memref.isWhole_whole _) B4 (Memref.isWhole_whole _)
            B5 (Memref.isWhole_whole _) B6 (Memref.isWhole_whole _) B7 (Memref.isWhole_whole _)
            cc0_scratch8 cc0_scratch9 cc0_scratch10 cc0_scratch11 cc0_scratch12 cc0_scratch13 cc0_scratch14
            cc0_scratch15 cc0_scratch16 cc0_scratch17 cc0_scratch18 cc0_scratch19 cc0_scratch20 cc0_scratch21 cc0_scoped0 v2 k acc)
          fun acc' => Inv m I d L O W (k.val + 1) acc' := by
  obtain ⟨kv, hkv⟩ := k
  have h8 : kv < 8 := hkv
  by_cases h5 : kv ≤ 5
  · rw [Inv_le m I d L O W (show kv ≤ 6 by omega)]
    refine (trip_lo m I d L O W hI ⟨kv, hkv⟩ h5 v2 acc).trans (wp_mono frame _ _ fun a => ?_)
    rw [Inv_le m I d L O W (show kv + 1 ≤ 6 by omega), InvB_eq]
  · by_cases h6 : kv = 6
    · subst h6
      rw [Inv_le m I d L O W (show 6 ≤ 6 by omega)]
      refine (trip_6 m I d L O W hI hkv v2 acc).trans (wp_mono frame _ _ fun a => ?_)
      rw [Inv_seven]
    · obtain rfl : kv = 7 := by omega
      rw [Inv_seven]
      refine (trip_7 m I d L O W hI hkv v2 acc).trans (wp_mono frame _ _ fun a => ?_)
      rw [Inv_eight]

end Cert.Kernel.Sc

end
-- ==== Proof.KTile.lean ====
/-
  One task of the lookup kernel, whole.

  The task's share of the table is cut into seven, one per slot. The opening copies the list in and starts the gathers
  of chunks 0 … 3; the function that holds the loop starts those of chunks 4, 5, 6, which is the loop's invariant
  before its first trip: seven gathers in flight, nothing of the result written, rows 7 … 49 of the index scratch not
  yet lent. Eight trips keep the invariant. After them the seven writes still in flight are waited for, and the task
  holds its 6400 rows of the result at the lookup, its share of the table and its list again, its scratch buffers
  and semaphores as it found them.
-/
import proofs.«206296_g7516192768393_cont_9to1c4b_737_14_alg».proof.Proof.KTilePro
import proofs.«206296_g7516192768393_cont_9to1c4b_737_14_alg».proof.Proof.KTileEpi
import proofs.«206296_g7516192768393_cont_9to1c4b_737_14_alg».proof.Proof.KTileWrap
import proofs.«206296_g7516192768393_cont_9to1c4b_737_14_alg».proof.Proof.KTileTrip

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
local notation "tV" => (Memref.whole Cert.Kernel.main_arg0_scv : Memref Cert.Kernel.sig Kind.scVector Space.hbm Cert.Kernel.S100000x128 EltTy.f32)
local notation "iS" => (Memref.whole Cert.Kernel.cc0_scratch0 : Memref Cert.Kernel.sig Kind.scVector Space.vmem Cert.Kernel.S50x128 EltTy.i32)
local notation "B1" => (Memref.whole Cert.Kernel.cc0_scratch1 : Memref Cert.Kernel.sig Kind.scVector Space.vmem Cert.Kernel.S128x128 EltTy.f32)
local notation "B2" => (Memref.whole Cert.Kernel.cc0_scratch2 : Memref Cert.Kernel.sig Kind.scVector Space.vmem Cert.Kernel.S128x128 EltTy.f32)
local notation "B3" => (Memref.whole Cert.Kernel.cc0_scratch3 : Memref Cert.Kernel.sig Kind.scVector Space.vmem Cert.Kernel.S128x128 EltTy.f32)
local notation "B4" => (Memref.whole Cert.Kernel.cc0_scratch4 : Memref Cert.Kernel.sig Kind.scVector Space.vmem Cert.Kernel.S128x128 EltTy.f32)
local notation "B5" => (Memref.whole Cert.Kernel.cc0_scratch5 : Memref Cert.Kernel.sig Kind.scVector Space.vmem Cert.Kernel.S128x128 EltTy.f32)
local notation "B6" => (Memref.whole Cert.Kernel.cc0_scratch6 : Memref Cert.Kernel.sig Kind.scVector Space.vmem Cert.Kernel.S128x128 EltTy.f32)
local notation "B7" => (Memref.whole Cert.Kernel.cc0_scratch7 : Memref Cert.Kernel.sig Kind.scVector Space.vmem Cert.Kernel.S128x128 EltTy.f32)

local notation "lV" => (Memref.whole Cert.Kernel.main_v1_scv : Memref Cert.Kernel.sig Kind.scVector Space.hbm Cert.Kernel.S32x50x128 EltTy.i32)
local notation "oV" => (Memref.whole Cert.Kernel.main_v2_scv : Memref Cert.Kernel.sig Kind.scVector Space.hbm Cert.Kernel.S204800x128 EltTy.f32)

variable (m : (ℓ : Loc nD τ sig) → Buf (Elt F) ℓ) (I : (d : Dev nD) → Buf (Elt F) (lLoc d))
variable [FloatOps F]
variable (d : Dev nD) (L : grid0.Coords)

set_option maxHeartbeats 4000000 in
/-- The task's body over its named resources: from its operands and scratch to its rows of the result at the lookup. -/
theorem tile_core (hI : ListsOK I) : TileCore m I d L := by
  intro O W
  rw [cc0__gather_body_eq_skeleton, epi_body_eq, wp_bind]
  iintro ⟨Hmw, Hl, Ht, ⟨%fo, Ho⟩, ⟨%f0, H0⟩, ⟨%f1, H1⟩, ⟨%f2, H2⟩, ⟨%f3, H3⟩, ⟨%f4, H4⟩, ⟨%f5, H5⟩, ⟨%f6, H6⟩, ⟨%f7, H7⟩,
    Hs8, Hs9, Hs10, Hs11, Hs12, Hs13, Hs14, Hs15, Hs16, Hs17, Hs18, Hs19, Hs20, Hs21, Hss0, HO⟩
  ihave Hl := (Entails.of_eq (pts_lRowK d L (I d)).symm) $$ Hl
  ihave Htt := (pointsTo_split_subset (q := tq (wL L)) (f := m (tLoc d)) (S := Finset.univ) (Finset.subset_univ (tAllK).view.set)).1 $$ Ht
  icases Htt with ⟨Ht, Htr⟩
  ihave Ht := (Entails.of_eq (epi_table_pieces m d L)) $$ Ht
  icases Ht with ⟨Ht1, Ht2, Ht3, Ht4, Ht5, Ht6, Ht7⟩
  iapply (wp_wand_r frame _ Set.univ)
  isplitl [Hmw Hl H0 H1 H2 H3 H4 Ht1 Ht2 Ht3 Ht4 Hs8 Hs9 Hs10 Hs11 Hss0 HO]
  · iapply (pro3 m I d L hI O W f0 f1 f2 f3 f4)
    isplitl [Hmw]; · iexact Hmw
    isplitl [Hl]; · iexact Hl
    isplitl [H0]; · iexact H0
    isplitl [H1]; · iexact H1
    isplitl [H2]; · iexact H2
    isplitl [H3]; · iexact H3
    isplitl [H4]; · iexact H4
    isplitl [Ht1]; · iexact Ht1
    isplitl [Ht2]; · iexact Ht2
    isplitl [Ht3]; · iexact Ht3
    isplitl [Ht4]; · iexact Ht4
    isplitl [Hs8]; · iexact Hs8
    isplitl [Hs9]; · iexact Hs9
    isplitl [Hs10]; · iexact Hs10
    isplitl [Hs11]; · iexact Hs11
    isplitl [Hss0]; · iexact Hss0
    iexact HO
  iintro %v2 ⟨Hmw, Hl, Hf1, Hf2, Hf3, Hf4, HiT, Hss0, %W1, %hW1, HO⟩
  rw [wp_bind, k0_part4_eq_skeleton, epi_part4_eq, wp_bind]
  unfold epiHead4
  -- chunk 4 into buffer 5
  sl_exec
  ihave HiT := (Entails.of_eq (iTodo_row I d L ⟨4, by omega⟩)) $$ HiT
  icases HiT with ⟨Hr, HiT⟩
  ihave H5 := (Entails.of_eq (show ((thr d L).loc cc0_scratch5 ↦{fullShare} f5 : sProp 𝕄)
      = (B5).view.loc (thr d L) ↦[(B5).view.set]{fullShare} f5 from by rw [View.set_whole])) $$ H5
  iapply (gather_issue5 m I d L hI cc0_scratch12.sem (qt L 4) ⟨4, by omega⟩ f5) $$ [H5 Hr Ht5 Hs12]
  · isplitl [H5]; · iexact H5
    isplitl [Hr]; · iexact Hr
    isplitl [Ht5]; · iexact Ht5
    iexact Hs12
  iintro Hf5
  -- chunk 5 into buffer 6
  sl_exec
  ihave HiT := (Entails.of_eq (iTodo_row I d L ⟨5, by omega⟩)) $$ HiT
  icases HiT with ⟨Hr, HiT⟩
  ihave H6 := (Entails.of_eq (show ((thr d L).loc cc0_scratch6 ↦{fullShare} f6 : sProp 𝕄)
      = (B6).view.loc (thr d L) ↦[(B6).view.set]{fullShare} f6 from by rw [View.set_whole])) $$ H6
  iapply (gather_issue6 m I d L hI cc0_scratch13.sem (qt L 5) ⟨5, by omega⟩ f6) $$ [H6 Hr Ht6 Hs13]
  · isplitl [H6]; · iexact H6
    isplitl [Hr]; · iexact Hr
    isplitl [Ht6]; · iexact Ht6
    iexact Hs13
  iintro Hf6
  -- chunk 6 into buffer 7
  sl_exec
  ihave HiT := (Entails.of_eq (iTodo_row I d L ⟨6, by omega⟩)) $$ HiT
  icases HiT with ⟨Hr, HiT⟩
  ihave H7 := (Entails.of_eq (show ((thr d L).loc cc0_scratch7 ↦{fullShare} f7 : sProp 𝕄)
      = (B7).view.loc (thr d L) ↦[(B7).view.set]{fullShare} f7 from by rw [View.set_whole])) $$ H7
  iapply (gather_issue7 m I d L hI cc0_scratch14.sem (qt L 6) ⟨6, by omega⟩ f7) $$ [H7 Hr Ht7 Hs14]
  · isplitl [H7]; · iexact H7
    isplitl [Hr]; · iexact Hr
    isplitl [Ht7]; · iexact Ht7
    iexact Hs14
  iintro Hf7
  sl_exec
  -- the invariant before the first trip
  have hoD : (oDone m I d L (7 * 0) : sProp 𝕄) = iprop(emp) := by unfold oDone; simp only [Nat.mul_zero, Nat.add_zero]; rw [oRange_empty, pointsTo_empty]
  have hiD : (iDone I d L (7 * 0) : sProp 𝕄) = iprop(emp) := by unfold iDone; simp only [Nat.mul_zero]; rw [iRange_empty, pointsTo_empty]
  have hoT : (oLoc d ↦[oRowSet (wL L)]{fullShare} fo : sProp 𝕄) ⊢ oTodo d L (7 * 0) := by
    unfold oTodo; rw [oRowSet_eq]; simp only [Nat.mul_zero, Nat.add_zero]
    iintro H; iexists fo; iexact H
  sl_for (Inv m I d L O W) $$ [Hmw Hf1 Hf2 Hf3 Hf4 Hf5 Hf6 Hf7 Hs15 Hs16 Hs17 Hs18 Hs19 Hs20 Hs21 Ho HiT HO Hl Htr Hss0]
  case region =>
    intro k acc
    exact region m I d L O W hI _ k acc
  isplitl [Hmw Hf1 Hf2 Hf3 Hf4 Hf5 Hf6 Hf7 Hs15 Hs16 Hs17 Hs18 Hs19 Hs20 Hs21 Ho HiT HO]
  · rw [Inv_le m I d L O W (by omega : 0 ≤ 6)]
    unfold InvA slotG1 slotG2 slotG3 slotG4 slotG5 slotG6 slotG7 owesPart
    isplitl [Hf1 Hs15]
    · isplitl [Hf1]; · iexact Hf1
      iexact Hs15
    isplitl [Hf2 Hs16]
    · isplitl [Hf2]; · iexact Hf2
      iexact Hs16
    isplitl [Hf3 Hs17]
    · isplitl [Hf3]; · iexact Hf3
      iexact Hs17
    isplitl [Hf4 Hs18]
    · isplitl [Hf4]; · iexact Hf4
      iexact Hs18
    isplitl [Hf5 Hs19]
    · isplitl [Hf5]; · unfold gDel5; iexact Hf5
      iexact Hs19
    isplitl [Hf6 Hs20]
    · isplitl [Hf6]; · unfold gDel6; iexact Hf6
      iexact Hs20
    isplitl [Hf7 Hs21]
    · isplitl [Hf7]; · unfold gDel7; iexact Hf7
      iexact Hs21
    isplitl []; · rw [hoD]; iempintro
    isplitl [Ho]; · iapply hoT; iexact Ho
    isplitl []; · rw [hiD]; iempintro
    isplitl [HiT]; · iexact HiT
    isplitl [Hmw]; · iexact Hmw
    iexists W1; isplitr
    · ipureintro; exact hW1
    · iexact HO
  iintro %acc HI
  have h8 : Scf.trips k0_t1_loop.lb k0_t1_loop.ub k0_t1_loop.st = 8 := by decide
  ihave HI := (Entails.of_eq (show (Inv m I d L O W (Scf.trips k0_t1_loop.lb k0_t1_loop.ub k0_t1_loop.st) acc : sProp 𝕄) = Inv8 m I d L O W from by rw [h8, Inv_eight])) $$ HI
  iapply (wp_wand_r frame _ Set.univ)
  isplitl [HI]
  · iapply (epilogue6 m I d L O W); iexact HI
  iintro %_ HM
  iapply (wp_wand_r frame _ Set.univ)
  isplitl [HM]
  · iapply (epilogue7 m I d L O W); iexact HM
  iintro %_ HP
  unfold EpiPost
  icases HP with ⟨Ho, Ht, ⟨Hb0, Hb1, Hb2, Hb3, Hb4, Hb5, Hb6, Hb7⟩, ⟨Hg8, Hg9, Hg10, Hg11, Hg12, Hg13, Hg14⟩, ⟨Hw15, Hw16, Hw17, Hw18, Hw19, Hw20, Hw21⟩, %W2, %hW2, HO⟩
  isplitl [Hl]; · iapply (Entails.of_eq (pts_lRowK d L (I d))); iexact Hl
  isplitl [Ht Htr]
  · iapply (pointsTo_split_subset (q := tq (wL L)) (f := m (tLoc d)) (S := Finset.univ) (Finset.subset_univ (tAllK).view.set)).2
    isplitl [Ht]; · iexact Ht
    iexact Htr
  isplitl [Ho]; · iexact Ho
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hg8]; · iexact Hg8
  isplitl [Hg9]; · iexact Hg9
  isplitl [Hg10]; · iexact Hg10
  isplitl [Hg11]; · iexact Hg11
  isplitl [Hg12]; · iexact Hg12
  isplitl [Hg13]; · iexact Hg13
  isplitl [Hg14]; · iexact Hg14
  isplitl [Hw15]; · iexact Hw15
  isplitl [Hw16]; · iexact Hw16
  isplitl [Hw17]; · iexact Hw17
  isplitl [Hw18]; · iexact Hw18
  isplitl [Hw19]; · iexact Hw19
  isplitl [Hw20]; · iexact Hw20
  isplitl [Hw21]; · iexact Hw21
  isplitl [Hss0]; · iexact Hss0
  iexists W2; isplitr
  · ipureintro; exact hW2
  · iexact HO

end Cert.Kernel.Sc

end
-- ==== Proof.LibTypedRef.lean ====
/-
  Typed references to tensor buffers: storing and reading back.

  An operation of a function the compiler outlined reaches its buffers through typed references: it stores a value by
  transporting it to the buffer's own type and reads one by transporting it back.  Whatever the reference, a value
  stored through it and read back through it is the value: the two transports are along an equation and its inverse.
-/
import Idealize.ShloMosaic.Lib.StableHlo

namespace Idealize.ShloMosaic.StableHlo.TRef

variable {sig : RefSig} {T : BufTy} {Val : EltTy → Type}

/-- A value stored through a typed reference and read back through it is the value. -/
theorem ofBuf_toBuf (x : TRef sig T) (v : T.Contents Val) : x.ofBuf (x.toBuf v) = v := by
  obtain ⟨r, h, h2, h3⟩ := x
  subst h
  rfl

end Idealize.ShloMosaic.StableHlo.TRef
-- ==== Proof.RefRun.lean ====
/-
  The reference side. The reference program's one function body is a call of a function that itself calls a
  second one; read with both calls replaced by their bodies it is a straight line of twenty-four host operations.
  This module lists them, shows the program equal to the line, and reads the run of the line back: every execution
  ends with the result buffer at ONE pure term of the two argument arrays, the arguments unchanged.
-/
import proofs.«206296_g7516192768393_cont_9to1c4b_737_14_alg».proof.Proof.Gen.ReferenceIdeal
import proofs.«206296_g7516192768393_cont_9to1c4b_737_14_alg».proof.Proof.LibTypedRef
import Idealize.ShloMosaic.Lib.StableHlo.Run

noncomputable section

namespace Cert.RefSide

open Cert.ReferenceIdeal Cert.ReferenceIdeal.Gen Idealize.ShloMosaic Idealize.ShloMosaic.TcCoe Idealize.SL.Sem
  Idealize.ShloMosaic.StableHlo

variable {F : FTy → Type} [FloatOps F]

/-! ## The result as a term of the arguments -/

/-- The row numbers after the wrap-around: a negative word has the number of rows added. -/
def wrapped (X : IVec S4096x50 32) : IVec S4096x50 32 :=
  select (cmpi .slt X (broadcastInDim S4096x50 ![] bcast_S_S4096x50 (constantI S_ 32 0#32)))
    (addi X (broadcastInDim S4096x50 ![] bcast_S_S4096x50 (constantI S_ 32 100000#32))) X

/-- The same with a trailing axis of extent one: the start indices of the gather. -/
def starts (X : IVec S4096x50 32) : IVec S4096x50x1 32 :=
  broadcastInDim S4096x50x1 ![0, 1] bcast_S4096x50_S4096x50x1_0_1 (wrapped X)

/-- Which start indices name a row: `0 ≤ i ≤ 99999`, and-ed over the trailing axis. -/
def inRange (X : IVec S4096x50 32) : IVec S4096x50 1 :=
  Host.reduce IntOp.andi
    (andi (cmpi .sge (starts X) (broadcastInDim S4096x50x1 ![] bcast_S_S4096x50x1 (constantI S_ 32 0#32)))
      (cmpi .sle (starts X)
        (broadcastInDim S4096x50x1 ![0, 1, 2] bcast_S1x1x1_S4096x50x1_0_1_2
          (broadcastInDim S1x1x1 ![2] bcast_S1_S1x1x1_2 (constantI S1 32 99999#32)))))
    (constantI S_ 1 1#1) reducesTo_S4096x50x1_S4096x50_d2 h_S_

/-- The reference's result: the gathered rows where the start index names a row, the constant elsewhere. -/
def RG (T : FVec F S100000x128 .f32) (X : IVec S4096x50 32) : FVec F S4096x50x128 .f32 :=
  select (broadcastInDim S4096x50x128 ![0, 1] bcast_S4096x50_S4096x50x128_0_1 (inRange X))
    (Host.gather gather_S100000x128_S4096x50x1_S4096x50x128_2_0_n_n_0_2_1128 T (starts X))
    (broadcastInDim S4096x50x128 ![] bcast_S_S4096x50x128 (constant S_ .f32 0x7FC00000#32))

/-! ## The program as a straight line -/

/-- The reference's operations in order, both calls replaced by their bodies over the calls' own buffers. -/
abbrev ops : List (HloOp τ sig (Elt F)) :=
  [ TRef.nullary main_call0.c (constantI S_ 32 0#32),
    TRef.unary main_call0.c main_call0.v0 (broadcastInDim S4096x50 ![] bcast_S_S4096x50),
    TRef.binary (.of main_arg1) main_call0.v0 main_call0.v1 (cmpi .slt),
    TRef.nullary main_call0.c_0 (constantI S_ 32 100000#32),
    TRef.unary main_call0.c_0 main_call0.v2 (broadcastInDim S4096x50 ![] bcast_S_S4096x50),
    TRef.binary (.of main_arg1) main_call0.v2 main_call0.v3 addi,
    TRef.ternary main_call0.v1 main_call0.v3 (.of main_arg1) main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg0) main_call0.v5 main_call0.v13 (fun x i => Host.gather gather_S100000x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select ]

set_option maxRecDepth 1024 in
/-- The program is that line: the two functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every buffer after the line, from any launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- At a literal reference the transport to and from the buffer's own type is the identity. -/
theorem toBuf_v0 (h1 h2 h3) (v : (⟨S4096x50x128, .f32⟩ : BufTy).Contents (Elt F)) :
    (TRef.of (T := ⟨S4096x50x128, .f32⟩) main_v0 h1 h2 h3).toBuf v = v := rfl

set_option maxRecDepth 8192 in
/-- The fold at the result buffer is `RG` of the launch contents of the two arguments. -/
theorem out_eq (V : Valuation τ sig (Elt F)) :
    after ops V (main_v0 : DevRef τ sig) = RG (F := F) (V (main_arg0 : DevRef τ sig)) (V (main_arg1 : DevRef τ sig)) := by
  after_results
  simp only [TRef.ofBuf_toBuf, toBuf_v0]
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- From any memory with zero counters every weakly fair execution of the reference ends, the result buffer at
    `RG` of the two argument arrays as launched, the arguments unchanged. No precondition. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v0) = RG (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v0).trans (out_eq _),
      (h c main_arg0).trans (arg0_eq _),
      (h c main_arg1).trans (arg1_eq _)⟩)
    (run_all m ρ)

end Cert.RefSide

end
-- ==== Proof.RefSpec.lean ====
/-
  The reference's result is the lookup. With every row number below the number of rows: the wrap-around select
  keeps each word (no word is negative as a signed number), the in-range mask is all ones (so the constant branch of
  the last select is never taken), and the gather reads, for the result's entry (b, h, l), entry l of the row the word
  (b, h) names: its clamp to the last row is the identity.
-/
import proofs.«206296_g7516192768393_cont_9to1c4b_737_14_alg».proof.Proof.RefRun
import proofs.«206296_g7516192768393_cont_9to1c4b_737_14_alg».proof.Proof.Spec

noncomputable section

namespace Cert.RefSide

open Cert.ReferenceIdeal Cert.ReferenceIdeal.Gen Idealize.ShloMosaic Idealize.ShloMosaic.ValueIdx

variable {F : FTy → Type} [FloatOps F]

/-! ## Words below the number of rows -/

/-- A 32-bit word below 100000 is its own value as a signed number. -/
theorem toInt_of_lt {w : BitVec 32} (h : w.toNat < 100000) : w.toInt = (w.toNat : Int) := by
  rw [BitVec.toInt_eq_toNat_cond]
  split
  · rfl
  · omega

/-- Such a word is not below zero … -/
theorem slt_zero_of_lt {w : BitVec 32} (h : w.toNat < 100000) : IntOp.cmpi .slt w 0#32 = 0#1 := by
  have h0 := toInt_of_lt h
  have h1 : (0#32 : BitVec 32).toInt = 0 := by decide
  have hb : w.slt 0#32 = false := by
    unfold BitVec.slt
    rw [h0, h1]
    exact decide_eq_false (by omega)
  show BitVec.ofBool (w.slt 0#32) = 0#1
  rw [hb]; rfl

/-- … is at least zero … -/
theorem sge_zero_of_lt {w : BitVec 32} (h : w.toNat < 100000) : IntOp.cmpi .sge w 0#32 = 1#1 := by
  have h0 := toInt_of_lt h
  have h1 : (0#32 : BitVec 32).toInt = 0 := by decide
  have hb : (0#32 : BitVec 32).sle w = true := by
    unfold BitVec.sle
    rw [h0, h1]
    exact decide_eq_true (by omega)
  show BitVec.ofBool ((0#32 : BitVec 32).sle w) = 1#1
  rw [hb]; rfl

/-- … and at most 99999. -/
theorem sle_last_of_lt {w : BitVec 32} (h : w.toNat < 100000) : IntOp.cmpi .sle w 99999#32 = 1#1 := by
  have h0 := toInt_of_lt h
  have h1 : (99999#32 : BitVec 32).toInt = 99999 := by decide
  have hb : w.sle 99999#32 = true := by
    unfold BitVec.sle
    rw [h0, h1]
    exact decide_eq_true (by omega)
  show BitVec.ofBool (w.sle 99999#32) = 1#1
  rw [hb]; rfl

/-! ## The stages -/

/-- The wrap-around keeps every word. -/
theorem wrapped_eq (X : IVec S4096x50 32) (hX : ∀ j, (X j).toNat < 100000) : wrapped X = X := by
  funext i
  show Scalar.select (IntOp.cmpi .slt (X i) 0#32) _ (X i) = X i
  rw [slt_zero_of_lt (hX i)]
  exact select_zero _ _

/-- A start index is the word of its first two coordinates. -/
theorem starts_apply (X : IVec S4096x50 32) (hX : ∀ j, (X j).toNat < 100000) (i : S4096x50x1.Idx) :
    starts X i = X (ix2 (i 0) (i 1)) := by
  unfold starts
  rw [wrapped_eq X hX]
  unfold broadcastInDim
  congr 1
  funext a
  match a with
  | ⟨0, _⟩ => rfl
  | ⟨1, _⟩ => rfl

/-- A left fold of the bitwise and over ones, from one, is one. -/
theorem foldl_and_one {ι : Type} (l : List ι) (g : ι → BitVec 1) (hg : ∀ n, g n = 1#1) :
    l.foldl (fun r n => IntOp.andi r (g n)) 1#1 = 1#1 := by
  induction l with
  | nil => rfl
  | cons n l ih => rw [List.foldl_cons, hg n]; exact ih

/-- Every start index names a row. -/
theorem inRange_apply (X : IVec S4096x50 32) (hX : ∀ j, (X j).toNat < 100000) (i : S4096x50.Idx) :
    inRange X i = 1#1 := by
  unfold inRange Host.reduce
  refine foldl_and_one _ _ fun n => ?_
  show IntOp.andi (IntOp.cmpi .sge (starts X _) 0#32) (IntOp.cmpi .sle (starts X _) 99999#32) = 1#1
  rw [starts_apply X hX, sge_zero_of_lt (hX _), sle_last_of_lt (hX _)]
  rfl

/-! ## The gather at an entry -/

local notation "gd" => gather_S100000x128_S4096x50x1_S4096x50x128_2_0_n_n_0_2_1128

/-- The gather at entry (b, h, l): entry l of the table's row named by start index (b, h, 0), the word read as a
    signed number and clamped to the last row. -/
theorem gather_apply {α : Type} (T : S100000x128.Idx → α) (idx : IVec S4096x50x1 32) (j : S4096x50x128.Idx) :
    Host.gather gd T idx j
      = T (ix2 (⟨min (idx (ix3 (j 0) (j 1) (0 : Fin 1))).toInt.toNat 99999, by omega⟩ : Fin 100000) (j 2)) := by
  unfold Host.gather
  congr 1
  funext a
  refine Fin.ext ?_
  have hbat : ∀ a : Fin 2, a ∉ (gd).operandBatchingDims := fun a => List.not_mem_nil
  match a with
  | ⟨0, _⟩ =>
    show (gd).start j idx 0 + (gd).batchCoord j 0 + (gd).offCoord j 0 = _
    rw [GatherDims.batchCoord_eq_zero _ _ _ (hbat 0),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gd).startIndexMap from List.mem_singleton.mpr rfl)]
    have hsi : (gd).siIdx j ⟨List.idxOf (0 : Fin 2) (gd).startIndexMap,
        List.idxOf_lt_length_iff.2 (List.mem_singleton.mpr rfl)⟩ = ix3 (j 0) (j 1) (0 : Fin 1) := by
      funext b; refine Fin.ext ?_
      match b with
      | ⟨0, _⟩ => rfl
      | ⟨1, _⟩ => rfl
      | ⟨2, _⟩ => rfl
    rw [hsi]
    rfl
  | ⟨1, _⟩ =>
    show (gd).start j idx 1 + (gd).batchCoord j 1 + (gd).offCoord j 1 = (j 2).val
    rw [GatherDims.batchCoord_eq_zero _ _ _ (hbat 1)]
    have hs : (gd).start j idx 1 = 0 := by
      unfold GatherDims.start
      rw [dif_neg (show (1 : Fin 2) ∉ (gd).startIndexMap by decide)]
    have ho : (gd).offCoord j 1 = (j 2).val := by
      unfold GatherDims.offCoord
      rw [dif_pos (show (1 : Fin 2) ∈ (gd).sKept by decide)]
      rfl
    rw [hs, ho]
    omega

/-! ## The result is the lookup -/

/-- With every row number below the number of rows the reference's result is the lookup. -/
theorem RG_eq_spec (T : FVec F S100000x128 .f32) (X : IVec S4096x50 32) (hX : ∀ j, (X j).toNat < 100000) :
    RG T X = Cert.Spec.G T X := by
  funext j
  unfold RG
  rw [select_apply]
  have hm : broadcastInDim S4096x50x128 ![0, 1] bcast_S4096x50_S4096x50x128_0_1 (inRange X) j = 1#1 := by
    unfold broadcastInDim
    exact inRange_apply X hX _
  rw [hm, select_one, gather_apply]
  unfold Cert.Spec.G
  have hx := hX (ix2 (j 0) (j 1))
  refine congrArg (fun r : Fin 100000 => T (ix2 r (j 2))) (Fin.ext ?_)
  show min (starts X (ix3 (j 0) (j 1) (0 : Fin 1))).toInt.toNat 99999 = (X (ix2 (j 0) (j 1))).toNat % 100000
  rw [starts_apply X hX]
  show min (X (ix2 (j 0) (j 1))).toInt.toNat 99999 = (X (ix2 (j 0) (j 1))).toNat % 100000
  rw [toInt_of_lt hx, Int.toNat_natCast, Nat.mod_eq_of_lt hx]
  omega

end Cert.RefSide

end
-- ==== Proof.lean ====
/-
  The lookup kernel against jnp.take: the five claims.

  The kernel: the 4096 × 50 row numbers are transposed and laid out as 32 lists of 50 chunks of 128; each of the 32
  vector subcores copies its list into its own memory and moves the table's rows it names, 128 at a time through a
  ring of seven buffers, into its 6400 rows of a flat 204800 × 128 array — row n of which thereby holds the table's
  row named by word n of the lists —; the flat array is reshaped to 50 × 4096 × 128 and transposed to
  4096 × 50 × 128. The reference: a gather of the table's rows by the row numbers, with negative numbers wrapped,
  numbers out of range masked; under the precondition (every row number between 0 and 99999) neither happens.
  Both results are, entry by entry, the one function `Cert.Spec.G`: entry (b, h, l) is entry l of the table's row
  numbered by entry (b, h). No arithmetic is done on a table entry, so the two results agree at every instance and
  nothing about finiteness is used.

  The kernel's run names its result (the launch over the thirty-two tasks, each task's body proved once at a
  symbolic place); each frame is that run with the value dropped, the algebraic claim its instance at the extended
  reals beside the reference's run. The ideal pass rewrote nothing, so `preserves` is `True`.
-/
import proofs.«206296_g7516192768393_cont_9to1c4b_737_14_alg».proof.Defs
import proofs.«206296_g7516192768393_cont_9to1c4b_737_14_alg».proof.Proof.Gen.Kernel
import proofs.«206296_g7516192768393_cont_9to1c4b_737_14_alg».proof.Proof.Gen.Kernel.Skeleton
import proofs.«206296_g7516192768393_cont_9to1c4b_737_14_alg».proof.Proof.Gen.KernelIdeal
import proofs.«206296_g7516192768393_cont_9to1c4b_737_14_alg».proof.Proof.Gen.KernelIdeal.Skeleton
import proofs.«206296_g7516192768393_cont_9to1c4b_737_14_alg».proof.Proof.Gen.ReferenceIdeal
import proofs.«206296_g7516192768393_cont_9to1c4b_737_14_alg».proof.Proof.Gen.Pre_input_domain
import proofs.«206296_g7516192768393_cont_9to1c4b_737_14_alg».proof.Proof.KILaunch
import proofs.«206296_g7516192768393_cont_9to1c4b_737_14_alg».proof.Proof.KLaunch
import proofs.«206296_g7516192768393_cont_9to1c4b_737_14_alg».proof.Proof.KIHostValue
import proofs.«206296_g7516192768393_cont_9to1c4b_737_14_alg».proof.Proof.KHostValue
import proofs.«206296_g7516192768393_cont_9to1c4b_737_14_alg».proof.Proof.KIPre
import proofs.«206296_g7516192768393_cont_9to1c4b_737_14_alg».proof.Proof.KPre
import proofs.«206296_g7516192768393_cont_9to1c4b_737_14_alg».proof.Proof.KITileWrap
import proofs.«206296_g7516192768393_cont_9to1c4b_737_14_alg».proof.Proof.KTileWrap
import proofs.«206296_g7516192768393_cont_9to1c4b_737_14_alg».proof.Proof.KITile
import proofs.«206296_g7516192768393_cont_9to1c4b_737_14_alg».proof.Proof.KTile
import proofs.«206296_g7516192768393_cont_9to1c4b_737_14_alg».proof.Proof.RefRun
import proofs.«206296_g7516192768393_cont_9to1c4b_737_14_alg».proof.Proof.RefSpec
import Idealize.ShloMosaic.Adequacy
import Idealize.ShloMosaic.Init

noncomputable section

namespace Cert.Proof

open Idealize.ShloMosaic Idealize.SL.Sem

/-! ## The idealized kernel's run, its result named -/

/-- Under the precondition every word of the lists the host hands the kernel names a row of the table. -/
theorem listsOK_KI (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) :
    Cert.KernelIdeal.Sc.ListsOK (F := Ideal) (fun d => Cert.KernelIdeal.HostValue.lists (m (Cert.KernelIdeal.Sc.xLoc d))) :=
  fun d i => Cert.KernelIdeal.HostValue.lists_lt _ (fun j => Cert.KernelIdeal.PreDecode.ok_of_pre m hpre d j) i

/-- The idealized kernel runs, ends with the lookup `Cert.Spec.G` of its two arguments, and leaves them unchanged. -/
theorem run_KI (m : (ℓ : Loc Cert.KernelIdeal.nD Cert.KernelIdeal.τ Cert.KernelIdeal.sig) → Buf (Elt Ideal) ℓ) (ρ : Dev Cert.KernelIdeal.nD → PrngReg)
    (hpre : Cert.Pre_KernelIdeal (hPre_input_domain := Cert.Pre_input_domain.Gen.facts) m) :
    θ_run (Cert.KernelIdeal.defs (F := Ideal)) (Cert.KernelIdeal.threads (F := Ideal)) ⟨m, fun _ => 0, ρ⟩
      (fun r => ∀ c : Dev Cert.KernelIdeal.nD,
        r.2.mem ((c.tc : Thread Cert.KernelIdeal.nD Cert.KernelIdeal.τ).loc Cert.KernelIdeal.main_v4)
            = Cert.Spec.G (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) := by
  have htile := Cert.KernelIdeal.Sc.tileObl_of_core m (fun d => Cert.KernelIdeal.HostValue.lists (m (Cert.KernelIdeal.Sc.xLoc d)))
    Cert.KernelIdeal.Sc.facts (fun d L => Cert.KernelIdeal.Sc.tile_core m _ d L (listsOK_KI m hpre))
  refine (θ_run Cert.KernelIdeal.defs _ _).mono (fun r h c => ⟨(h c).1.trans ?_, (h c).2.1, (h c).2.2⟩) (Cert.KernelIdeal.Sc.run_main m ρ htile)
  exact Cert.KernelIdeal.HostValue.result_OUT _ _

/-! ## The claims -/

theorem frame_KI : Cert.frame_KernelIdeal (hKernelIdeal := Cert.KernelIdeal.Gen.facts) (hPre_input_domain := Cert.Pre_input_domain.Gen.facts) :=
  fun m ρ hpre => (θ_run Cert.KernelIdeal.defs _ _).mono (fun _ h c => ⟨(h c).2.1, (h c).2.2⟩) (run_KI m ρ hpre)

/-- The word-level kernel is the same program read at words: the same launch and the same task body give its frame. -/
theorem frame_K : Cert.frame_Kernel (hKernel := Cert.Kernel.Gen.facts) (hPre_input_domain := Cert.Pre_input_domain.Gen.facts) := by
  intro m ρ hpre
  have hI : Cert.Kernel.Sc.ListsOK (F := Bits) (fun d => Cert.Kernel.HostValue.lists (m (Cert.Kernel.Sc.xLoc d))) :=
    fun d i => Cert.Kernel.HostValue.lists_lt _ (fun j => Cert.Kernel.PreDecode.ok_of_pre m hpre d j) i
  have htile := Cert.Kernel.Sc.tileObl_of_core m (fun d => Cert.Kernel.HostValue.lists (m (Cert.Kernel.Sc.xLoc d)))
    Cert.Kernel.Sc.facts (fun d L => Cert.Kernel.Sc.tile_core m _ d L hI)
  exact (θ_run Cert.Kernel.defs _ _).mono (fun _ h c => ⟨(h c).2.1, (h c).2.2⟩) (Cert.Kernel.Sc.run_main m ρ htile)

theorem frame_R : Cert.frame_ReferenceIdeal (hReferenceIdeal := Cert.ReferenceIdeal.Gen.facts) (hPre_input_domain := Cert.Pre_input_domain.Gen.facts) :=
  fun m ρ _ => (θ_run Cert.ReferenceIdeal.defs _ _).mono (fun _ h c => (h c).2) (Cert.RefSide.run (F := Ideal) m ρ)

/-- Both runs end at the lookup of the same arguments: the kernel's by its run, the reference's because under the
    precondition its wrap-around and its mask do nothing. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => Cert.Spec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), run_KI m ρ hpre, ?_⟩
  refine (θ_run Cert.ReferenceIdeal.defs _ _).mono (fun _ h c => ⟨(h c).1.trans ?_, (h c).2.1, (h c).2.2⟩) (Cert.RefSide.run (F := Ideal) m' ρ')
  rw [(hagree c).1, (hagree c).2]
  exact Cert.RefSide.RG_eq_spec _ _ (Cert.KernelIdeal.PreDecode.ok_of_pre m hpre c)

theorem claim : Cert.Claim :=
  ⟨Cert.Kernel.Gen.facts, Cert.KernelIdeal.Gen.facts, Cert.ReferenceIdeal.Gen.facts, Cert.Pre_input_domain.Gen.facts,
    frame_K, frame_KI, frame_R, trivial, algebraic⟩

end Cert.Proof

end
